-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S6 : Shape := ⟨1, ![6]⟩
abbrev S8x2048x64 : Shape := ⟨3, ![8, 2048, 64]⟩
abbrev S1x512x1024 : Shape := ⟨3, ![1, 512, 1024]⟩
abbrev S1x512x64 : Shape := ⟨3, ![1, 512, 64]⟩
abbrev S512x1024 : Shape := ⟨2, ![512, 1024]⟩
abbrev S512x64 : Shape := ⟨2, ![512, 64]⟩
abbrev S1x1024x64 : Shape := ⟨3, ![1, 1024, 64]⟩
abbrev S1 : Shape := ⟨1, ![1]⟩
abbrev S1024x1 : Shape := ⟨2, ![1024, 1]⟩
abbrev S1024x512 : Shape := ⟨2, ![1024, 512]⟩
abbrev S1024 : Shape := ⟨1, ![1024]⟩

abbrev nBuf : Space → Nat
  | .hbm => 8
  | .vmem => 22
  | .smem => 3
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .bf16⟩
  | .hbm, ⟨5, _⟩ => ⟨S8x2048x64, .bf16⟩
  | .hbm, ⟨6, _⟩ => ⟨S8x2048x64, .bf16⟩
  | .hbm, ⟨7, _⟩ => ⟨S8x2048x64, .f32⟩
  | .local _ .vmem, ⟨0, _⟩ => ⟨S1x512x1024, .f32⟩
  | .local _ .vmem, ⟨1, _⟩ => ⟨S1x512x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1x512x64, .bf16⟩
  | .local _ .vmem, ⟨6, _⟩ => ⟨S1x512x64, .bf16⟩
  | .local _ .vmem, ⟨7, _⟩ => ⟨S1x512x64, .bf16⟩
  | .local _ .vmem, ⟨8, _⟩ => ⟨S1x512x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x512x64, .bf16⟩
  | .local _ .vmem, ⟨17, _⟩ => ⟨S1x1024x64, .f32⟩
  | .local _ .vmem, ⟨18, _⟩ => ⟨S1x1024x64, .f32⟩
  | .local _ .vmem, ⟨19, _⟩ => ⟨S1024x1, .f32⟩
  | .local _ .vmem, ⟨20, _⟩ => ⟨S1024x1, .f32⟩
  | .local _ .vmem, ⟨21, _⟩ => ⟨S1024x64, .f32⟩
  | .local _ .smem, ⟨0, _⟩ => ⟨S6, .i32⟩
  | .local _ .smem, ⟨1, _⟩ => ⟨S6, .i32⟩
  | .local _ .smem, ⟨2, _⟩ => ⟨S6, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 6], ![false, false]⟩

abbrev pre1 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond2 (v5 : BitVec 32) : BitVec 1 :=
  let c0_i32_26 : BitVec 32 := 0#32
  let v58 : BitVec 1 := Scalar.cmpi .ne v5 c0_i32_26
  let v59 : BitVec 32 := Scalar.extui v58
  let c0_i32_27 : BitVec 32 := 0#32
  let v60 : BitVec 1 := Scalar.cmpi .ne v59 c0_i32_27
  v60

def cc1_transform_0 (k1_off1_inb : ∀ i : grid1.Coords, ∀ a, (k1_off1 i) a + S1.size a ≤ S6.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S6.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S6) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S6.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S6) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S6.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  shapeCasts_S1024x64_S1x1024x64 : S1024x64.ShapeCasts S1x1024x64
  dot_S512x1024_S1024x64_S512x64_1_0_0_1_n_n_wf : DotDims.WF S512x1024 S1024x64 S512x64 [1] [0] [0] [1] [] []
  dot_S1024x64_S512x64_S1024x512_1_1_0_0_n_n_wf : DotDims.WF S1024x64 S512x64 S1024x512 [1] [1] [0] [0] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S8x2048x64.size a
  hwx0_4 : ∀ i : grid0.Coords, EltTy.bits .bf16 = 32 ∨ (Rect.block (s := S8x2048x64) S1x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S8x2048x64.size a
  hwx0_5 : ∀ i : grid0.Coords, EltTy.bits .bf16 = 32 ∨ (Rect.block (s := S8x2048x64) S1x512x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x64.size a ≤ S8x2048x64.size a
  hwx0_6 : ∀ i : grid0.Coords, EltTy.bits .bf16 = 32 ∨ (Rect.block (s := S8x2048x64) S1x512x64.size (cc0_transform_6 i) (hinb0_6 i)).WholeWords (EltTy.packing .bf16)
  hrank1 : 0 < grid1.rank
  k1_off1_inb : ∀ i : grid1.Coords, ∀ a, (k1_off1 i) a + S1.size a ≤ S6.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev spec1_0 : Pipeline.WinSpec sig grid1.rank :=
  Pipeline.WinSpec.ofSpec (Memref.whole main_v0_0) S1x1024x64.size reads1_0 false false 2 stage1_0 sem1_0 nbuf1_0 hstage1_0

abbrev spec1_1 : Pipeline.WinSpec sig grid1.rank :=
  Pipeline.WinSpec.ofSpec (Memref.whole main_v0_1) S1x512x64.size reads1_1 false false 2 stage1_1 sem1_1 nbuf1_1 hstage1_1

abbrev spec1_2 : Pipeline.WinSpec sig grid1.rank :=
  Pipeline.WinSpec.ofSpec (Memref.whole main_v0_2) S1x512x64.size reads1_2 false false 2 stage1_2 sem1_2 nbuf1_2 hstage1_2

abbrev spec1_3 : Pipeline.WinSpec sig grid1.rank :=
  Pipeline.WinSpec.ofSpec (Memref.whole main_v1) S1x1024x64.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1024x64.size a ≤ S8x2048x64.size a), EltTy.bits .bf16 = 32 ∨ (Rect.block (s := S8x2048x64) S1x1024x64.size (cc1_transform_0 k1_off1_inb numel1_S1 pf i) h).WholeWords (EltTy.packing .bf16)) ∧
  (∀ i : grid1.Coords, ∃ h : (∀ a, (cc1_transform_1 k1_off1_inb numel1_S1 pf i a + 1) * S1x512x64.size a ≤ S8x2048x64.size a), EltTy.bits .bf16 = 32 ∨ (Rect.block (s := S8x2048x64) S1x512x64.size (cc1_transform_1 k1_off1_inb numel1_S1 pf i) h).WholeWords (EltTy.packing .bf16)) ∧
  (∀ i : grid1.Coords, ∃ h : (∀ a, (cc1_transform_2 k1_off1_inb numel1_S1 pf i a + 1) * S1x512x64.size a ≤ S8x2048x64.size a), EltTy.bits .bf16 = 32 ∨ (Rect.block (s := S8x2048x64) S1x512x64.size (cc1_transform_2 k1_off1_inb numel1_S1 pf i) h).WholeWords (EltTy.packing .bf16)) ∧
  (∀ i : grid1.Coords, ∃ h : (∀ a, (cc1_transform_3 k1_off1_inb numel1_S1 pf i a + 1) * S1x1024x64.size a ≤ S8x2048x64.size a), EltTy.bits .f32 = 32 ∨ (Rect.block (s := S8x2048x64) S1x1024x64.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond2 (pf.atD 2 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Region0FrameBits.lean ====
/- REGION 0: the projection kernel on one core.

   The first TensorCore region multiplies one block of 512 rows of the activations (1024 features each) by the three
   weight matrices (1024 x 64 each) and leaves the three products, rounded to the narrow format, in three staging
   buffers. Nothing here depends on the grid point: at every point the body reads four buffers whole and overwrites
   three buffers whole. This module states that fact as a separation-logic triple for the body, packages it as the
   proof data of the region's software pipeline at arbitrary entry contents `V` of the core's buffers, and derives
   the obligation the pipeline's launch theorem asks of a body. It is generic in the float interpretation. -/
import proofs.«175071_j38998303048530_2_alg».proof.Proof.Gen.Kernel.Launch
import proofs.«175071_j38998303048530_2_alg».proof.Proof.Gen.Kernel.Skeleton
import proofs.«175071_j38998303048530_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region starts; everything below is relative to it
variable (V : (c : Dev nD) → (b : Ref sig .tc) → Buf (Elt F) ((c : Thread nD τ).loc b))

/-! ## Blocks -/

/-- The block of window `w` that point `t` addresses, as a function of the block's own coordinates: the window's
    array, at its entry contents, read through the rectangle the window's index map selects at `t`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The three full-buffer rectangles the body touches -/

/-- all of a 1 x 512 x 1024 buffer (the activations' block) -/
abbrev rAct : Rect S1x512x1024 := Rect.unit (s := S1x512x1024) ![0, 0, 0] S1x512x1024.size inb_S1x512x1024_S1x512x1024_0_0_0
/-- all of a 1024 x 64 buffer (a weight matrix) -/
abbrev rWgt : Rect S1024x64 := Rect.unit (s := S1024x64) ![0, 0] S1024x64.size inb_S1024x64_S1024x64_0_0
/-- all of a 1 x 512 x 64 buffer (a product's block) -/
abbrev rPrd : Rect S1x512x64 := Rect.unit (s := S1x512x64) ![0, 0, 0] S1x512x64.size inb_S1x512x64_S1x512x64_0_0_0

/-! ## The products, as buffer contents

Each output buffer is written once, whole, with the rounded product of the activations' block and one weight matrix;
so its contents afterwards are that one piece, whatever it held before. -/

/-- the first product's buffer after the body: block times the first weight matrix -/
def out0_4 (x0 : Vec F S1x512x1024 .f32) (w : Vec F S1024x64 .f32) : Vec F S1x512x64 .bf16 :=
  View.canon [⟨rPrd, k0_pay2 (View.ld x0 rAct) (View.ld w rWgt)⟩]
/-- the second product's buffer after the body: block times the second weight matrix -/
def out0_5 (x0 : Vec F S1x512x1024 .f32) (w : Vec F S1024x64 .f32) : Vec F S1x512x64 .bf16 :=
  View.canon [⟨rPrd, k0_pay3 (View.ld x0 rAct) (View.ld w rWgt)⟩]
/-- the third product's buffer after the body: block times the third weight matrix -/
def out0_6 (x0 : Vec F S1x512x1024 .f32) (w : Vec F S1024x64 .f32) : Vec F S1x512x64 .bf16 :=
  View.canon [⟨rPrd, k0_pay4 (View.ld x0 rAct) (View.ld w rWgt)⟩]

/-- One write through the full rectangle reaches every cell of a product buffer: the buffer is a single tile of the
    rectangle's size. -/
theorem prd_covered (p : rPrd.shape.Idx → Elt F .bf16) (y : S1x512x64.Idx) :
    ∃ pc ∈ ([⟨rPrd, p⟩] : List (View.Piece (Elt F) S1x512x64 .bf16)), y ∈ pc.1.set :=
  View.cover_of_tiled [⟨rPrd, p⟩] S1x512x64.size (by rfl) y

/-! ## The body as a triple

The body only reads the four input buffers and writes each product buffer once, so its specification is: inputs
unchanged, each product buffer holding the corresponding product of the inputs, the old contents of the product
buffers irrelevant (the body does read them first, but nothing it writes depends on what it found). -/

set_option maxHeartbeats 1000000 in
/-- Started with the activations' buffer holding `x0`, the weight buffers holding `wq`, `wk`, `wv` and the three
    product buffers holding anything, the body ends with the inputs as they were and the products at
    `out0_4 x0 wq`, `out0_5 x0 wk`, `out0_6 x0 wv`. Obtained by running the body's sequence of loads and stores
    symbolically; each product buffer's final contents are identified with the single covering write. -/
theorem sound_kernel0 (c : Dev nD) (E : Set ℕ) (i : grid0.Coords)
    (bx : Memref sig .tc .vmem S1x512x1024 .f32) (hbx : bx.IsWhole)
    (bq : Memref sig .tc .vmem S1024x64 .f32) (hbq : bq.IsWhole)
    (bk : Memref sig .tc .vmem S1024x64 .f32) (hbk : bk.IsWhole)
    (bv : Memref sig .tc .vmem S1024x64 .f32) (hbv : bv.IsWhole)
    (oq : Memref sig .tc .vmem S1x512x64 .bf16) (hoq : oq.IsWhole)
    (ok : Memref sig .tc .vmem S1x512x64 .bf16) (hok : ok.IsWhole)
    (ov : Memref sig .tc .vmem S1x512x64 .bf16) (hov : ov.IsWhole)
    (x0 : Vec F S1x512x1024 .f32) (wq wk wv : Vec F S1024x64 .f32) (K : PUnit → sProp 𝕄) :
    iprop(owns (c : Thread nD τ) bx fullShare x0
        ∗ owns (c : Thread nD τ) bq fullShare wq ∗ owns (c : Thread nD τ) bk fullShare wk ∗ owns (c : Thread nD τ) bv fullShare wv
        ∗ (∃ d, owns (c : Thread nD τ) oq fullShare d) ∗ (∃ d, owns (c : Thread nD τ) ok fullShare d) ∗ (∃ d, owns (c : Thread nD τ) ov fullShare d)
        ∗ (iprop(owns (c : Thread nD τ) bx fullShare x0
            ∗ owns (c : Thread nD τ) bq fullShare wq ∗ owns (c : Thread nD τ) bk fullShare wk ∗ owns (c : Thread nD τ) bv fullShare wv
            ∗ owns (c : Thread nD τ) oq fullShare (out0_4 x0 wq) ∗ owns (c : Thread nD τ) ok fullShare (out0_5 x0 wk)
            ∗ owns (c : Thread nD τ) ov fullShare (out0_6 x0 wv)) -∗ K ⟨⟩))
      ⊢ wp frame (wpE (defs₀ (F := F)) Variants.none c none) E
          (cc0__qkv_kernel i bx hbx bq hbq bk hbk bv hbv oq hoq ok hok ov hov) K := by
  simp only [cc0__qkv_kernel_eq_skeleton]; unfold cc0__qkv_kernel_skel
  unfold owns
  iintro ⟨⟨%fx, %hfx, Hx⟩, ⟨%fq, %hfq, Hq⟩, ⟨%fk, %hfk, Hk⟩, ⟨%fv, %hfv, Hv⟩,
    ⟨%dq, %gq, -, Gq⟩, ⟨%dk, %gk, -, Gk⟩, ⟨%dv, %gv, -, Gv⟩, Hcont⟩
  subst hfx hfq hfk hfv
  sl_exec
  sl_step
  iapply Hcont
  isplitl [Hx]
  · iexists fx; isplitr; · ipureintro; rfl
    iexact Hx
  isplitl [Hq]
  · iexists fq; isplitr; · ipureintro; rfl
    iexact Hq
  isplitl [Hk]
  · iexists fk; isplitr; · ipureintro; rfl
    iexact Hk
  isplitl [Hv]
  · iexists fv; isplitr; · ipureintro; rfl
    iexact Hv
  isplitl [Gq]
  · iexists _; isplitr
    swap; · iexact Gq
    ipureintro
    exact View.read_writes_eq_canon _ _ _ (prd_covered _)
  isplitl [Gk]
  · iexists _; isplitr
    swap; · iexact Gk
    ipureintro
    exact View.read_writes_eq_canon _ _ _ (prd_covered _)
  iexists _; isplitr
  swap; · iexact Gv
  ipureintro
  exact View.read_writes_eq_canon _ _ _ (prd_covered _)

/-! ## What an input window's buffer holds when the body runs

The pipeline copies an input window's block into its staging buffer only at the points where the block index changes
(for the three weight matrices: at the first point only). Since the body never writes an input buffer, the buffer
holds the window's block at every point all the same: where no copy was made, the index is the previous point's, and
so is the block. The four statements below are this fact for windows 0 to 3, for any proof data that reads its arrays
off `V` and declares the input buffers untouched by the body. -/

theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  rw [dat.before_in_eq_fetched 2 rfl (fun _ => rfl) (fun _ _ _ => rfl) hkeep t d]
  unfold Dat.fetched Dat.blockOf iblk0; rw [hA]; try rfl

theorem before0_3_of {c : Dev nD} (dat : Dat τ (Elt F) Unit ℕ (UR sig nD τ) ℕ cfg0 c)
    (hA : dat.A 3 = V c (Pipeline.arrRef spec0 3)) (hafter : ∀ t, dat.after 3 t = iblk0 V c 3 t)
    (t : Fin cfg0.N) (d) : dat.before 3 t d = iblk0 V c 3 t := by
  have hkeep : ∀ t, (cfg0.win 3).cut (cfg0.grid.coords t) (dat.after 3 t) = dat.blockOf 3 t := fun t => by
    rw [hafter]; unfold Dat.blockOf iblk0; rw [hA]; try rfl
  rw [dat.before_in_eq_fetched 3 rfl (fun _ => rfl) (fun _ _ _ => rfl) hkeep t d]
  unfold Dat.fetched Dat.blockOf iblk0; rw [hA]; try rfl

/-! ## The region's proof data -/

/-- The data the pipeline's launch theorem is instantiated with on core `c`. The windows' arrays are at their entry
    contents. After the body at point `t`, an input window's buffer still holds that window's block, and the three
    output windows' buffers hold the products of the activations' block with the first, second and third weight
    matrix. The body needs nothing beyond its buffers, so the invariant is the untouched remainder of the core's
    state, no waits are owed, and every array is held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- the arrays of `dat0` are the entry contents -/
theorem A_eq0 (c : Dev nD) (w : Fin cfg0.W) : (dat0 V c).A w = V c (Pipeline.arrRef spec0 w) := by
  dsimp only [dat0]

/-! `dat0`'s contents after the body, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 2 t) := by dsimp only [dat0]
theorem after0_6 (c : Dev nD) (t : Fin cfg0.N) :
    (dat0 V c).after 6 t = out0_6 (iblk0 V c 0 t) (iblk0 V c 3 t) := by dsimp only [dat0]

/-! For `dat0`, each input buffer holds its window's block whenever the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The obligation at a point

At point `t` the pipeline hands the body the invariant, its record of owed waits and the seven current staging
buffers, the inputs' at their windows' blocks and the outputs' at whatever they hold; it wants them back with the
outputs at the declared products. -/

/-- what the body receives at point `t`, window by window -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- what it gives back -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body called at point `t` takes the one to the other. The input buffers hold the blocks, so the body's
    triple applies with `x0`, `wq`, `wk`, `wv` the four blocks at `t`; the invariant and the owed waits are
    the same before and after (they do not depend on the point) and are carried around the call. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation in the form the launch theorem states it: a conjunction over all windows, which for seven windows
    is the seven-fold conjunction above. -/
theorem body_obligation0 (c : Dev nD) :
    BodyObligation (dat0 (F := F) V c) (defs₀ (F := F)) Variants.none () Set.univ := fun t => by
  rw [bigSep_W0, bigSep_W0]
  exact sound_body0 V c t

end Cert.Kernel.Fr0

end
-- ==== Proof.Region1RunsBits.lean ====
/-
  The attention kernel's body, one grid point at a time: what the three case runs share.
  A grid point is a (batch, pair) with the pair's query tile, key tile and "last key tile of this query tile"
  flag read from three six-entry tables. The body branches twice on table words: on "the key tile is the
  first one" (the running maximum, denominator and numerator are reset to -inf, 0, 0) and on "the key tile is
  the last one" (the quotient numerator / denominator is stored to the output block). Stated here: the tables
  as the body is handed them, the word the body reads at a point, and the two branch conditions as
  propositions about that word.
-/
import proofs.«175071_j38998303048530_2_alg».proof.Proof.Gen.Kernel.Launch
import proofs.«175071_j38998303048530_2_alg».proof.Proof.Gen.Kernel.Skeleton
import proofs.«175071_j38998303048530_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables as the body is handed them -/

/-- Each prefetched table as a memref: the whole scalar-memory buffer. -/
abbrev tbM1_0 : Memref sig .tc .smem S6 .i32 := Memref.whole main_c
abbrev htbM1_0 : tbM1_0.IsWhole := Memref.isWhole_whole _
abbrev tbM1_1 : Memref sig .tc .smem S6 .i32 := Memref.whole main_c_0
abbrev htbM1_1 : tbM1_1.IsWhole := Memref.isWhole_whole _
abbrev tbM1_2 : Memref sig .tc .smem S6 .i32 := Memref.whole main_c_1
abbrev htbM1_2 : tbM1_2.IsWhole := Memref.isWhole_whole _

/-- A table's buffer on core c, and that buffer held (whole share) at contents f. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The word a table holds at the grid point's second coordinate: what the body's scalar load reads. -/
abbrev wordAt (c : Dev nD) (M : Memref sig .tc .smem S6 .i32) (xt : TbBuf1 (F := F) c M) (i : grid1.Coords) : Elt F .i32 :=
  M.view.readAt (Elt F) (Rect.unit (s := S6) (k1_off1 i) S1.size (Gen.k1_off1_inb i)).toLoadRect xt (Shape.Idx.first (Gen.numel1_S1.symm ▸ Nat.one_pos))

/-- The body's first branch: the key tile is the first one of its query tile (the running statistics are reset). -/
abbrev condFirst (v3 : BitVec 32) : Prop := (Scalar.cmpi .ne (Scalar.extui (Scalar.cmpi .eq v3 0#32)) 0#32) = 1#1
/-- The body's last branch: the key tile is the last one of its query tile (the quotient is stored). -/
abbrev condLast (v5 : BitVec 32) : Prop := k1_cond2 v5 = 1#1

end Cert.Kernel.Fr1

end
-- ==== Proof.Region1RunABits.lean ====
/-
  The attention kernel's body run symbolically on whole staging buffers in ONE of its control cases (first key tile of a query tile, not the last):
  the inputs' buffers at given contents, the tables at given contents, the branch conditions as hypotheses about
  the table words at the point. The witness is, per buffer the case stores into, the list of stores (last first).
-/
import proofs.«175071_j38998303048530_2_alg».proof.Proof.Region1RunsBits

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The FIRST key tile of a query tile that is not also its last: the three running buffers, whatever they held, are
    reset and then updated with this tile's scores; the output block's buffer is handed back untouched. The pieces
    each running buffer ends with are found by the run. -/
noncomputable def kernelRun1_A (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : condFirst (wordAt c tbM1_1 xt1 i)) (hc1 : ¬condLast (wordAt c tbM1_2 xt2 i))
    (x0 : Vec F S1x1024x64 .bf16) (x1 : Vec F S1x512x64 .bf16) (x2 : Vec F S1x512x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg5 fullShare x0 ∗ owns (c : Thread nD τ) arg6 fullShare x1 ∗ owns (c : Thread nD τ) arg7 fullShare x2
            ∗ owns (c : Thread nD τ) arg8 fullShare xi3
            ∗ (∃ d, owns (c : Thread nD τ) arg9 fullShare d) ∗ (∃ d, owns (c : Thread nD τ) arg10 fullShare d) ∗ (∃ d, owns (c : Thread nD τ) arg11 fullShare d)
            ∗ tbPt1 c tbM1_0 xt0 ∗ tbPt1 c tbM1_1 xt1 ∗ tbPt1 c tbM1_2 xt2
            ∗ (iprop(owns (c : Thread nD τ) arg5 fullShare x0 ∗ owns (c : Thread nD τ) arg6 fullShare x1 ∗ owns (c : Thread nD τ) arg7 fullShare x2
                ∗ owns (c : Thread nD τ) arg8 fullShare xi3
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ tbPt1 c tbM1_0 xt0 ∗ tbPt1 c tbM1_1 xt1 ∗ tbPt1 c tbM1_2 xt2) -∗ K ⟨⟩))
          ⊢ wp frame (wpE (defs₀ (F := F)) Variants.none c none) E (cc1__flash_kernel i tbM1_0 htbM1_0 tbM1_1 htbM1_1 tbM1_2 htbM1_2 arg5 harg5 arg6 harg6 arg7 harg7 arg8 harg8 arg9 harg9 arg10 harg10 arg11 harg11) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3
    sl_exec (disch := first | sl_exact hc0 | sl_exact hc1 | exact hc0 | exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    iexact HT2

end Cert.Kernel.Fr1

end
-- ==== Proof.Region1RunBBits.lean ====
/-
  The attention kernel's body run symbolically on whole staging buffers in ONE of its control cases (a middle key tile):
  the inputs' buffers at given contents, the tables at given contents, the branch conditions as hypotheses about
  the table words at the point. The witness is, per buffer the case stores into, the list of stores (last first).
-/
import proofs.«175071_j38998303048530_2_alg».proof.Proof.Region1RunABits

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE key tile (neither first nor last of its query tile): the three running buffers are read at what the tile
    before left (xs0 the maximum, xs1 the denominator, xs2 the numerator) and overwritten with the updated values; the
    output block's buffer is handed back untouched. -/
noncomputable def kernelRun1_B (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : ¬condFirst (wordAt c tbM1_1 xt1 i)) (hc1 : ¬condLast (wordAt c tbM1_2 xt2 i))
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg5 fullShare x0 ∗ owns (c : Thread nD τ) arg6 fullShare x1 ∗ owns (c : Thread nD τ) arg7 fullShare x2
            ∗ owns (c : Thread nD τ) arg8 fullShare xi3
            ∗ owns (c : Thread nD τ) arg9 fullShare xs0 ∗ owns (c : Thread nD τ) arg10 fullShare xs1 ∗ owns (c : Thread nD τ) arg11 fullShare xs2
            ∗ tbPt1 c tbM1_0 xt0 ∗ tbPt1 c tbM1_1 xt1 ∗ tbPt1 c tbM1_2 xt2
            ∗ (iprop(owns (c : Thread nD τ) arg5 fullShare x0 ∗ owns (c : Thread nD τ) arg6 fullShare x1 ∗ owns (c : Thread nD τ) arg7 fullShare x2
                ∗ owns (c : Thread nD τ) arg8 fullShare xi3
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ tbPt1 c tbM1_0 xt0 ∗ tbPt1 c tbM1_1 xt1 ∗ tbPt1 c tbM1_2 xt2) -∗ K ⟨⟩))
          ⊢ wp frame (wpE (defs₀ (F := F)) Variants.none c none) E (cc1__flash_kernel i tbM1_0 htbM1_0 tbM1_1 htbM1_1 tbM1_2 htbM1_2 arg5 harg5 arg6 harg6 arg7 harg7 arg8 harg8 arg9 harg9 arg10 harg10 arg11 harg11) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, HT0, HT1, HT2, Hk⟩
    obtain rfl := harg5.eq_unread hf0; obtain rfl := harg6.eq_unread hf1; obtain rfl := harg7.eq_unread hf2; obtain rfl := harg8.eq_unread hf3
    obtain rfl := harg9.eq_unread hfs0; obtain rfl := harg10.eq_unread hfs1; obtain rfl := harg11.eq_unread hfs2
    sl_exec (disch := first | sl_exact hc0 | sl_exact hc1 | exact hc0 | exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    iexact HT2

end Cert.Kernel.Fr1

end
-- ==== Proof.Region1RunCBits.lean ====
/-
  The attention kernel's body run symbolically on whole staging buffers in ONE of its control cases (last key tile of a query tile, not the first):
  the inputs' buffers at given contents, the tables at given contents, the branch conditions as hypotheses about
  the table words at the point. The witness is, per buffer the case stores into, the list of stores (last first).
-/
import proofs.«175071_j38998303048530_2_alg».proof.Proof.Region1RunBBits

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The LAST key tile of a query tile (and not its first): the three running buffers are read at what the tile before
    left and overwritten, and then the output block's buffer, whatever it held, is stored the quotient of the updated
    numerator by the updated denominator. -/
noncomputable def kernelRun1_C (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : ¬condFirst (wordAt c tbM1_1 xt1 i)) (hc1 : condLast (wordAt c tbM1_2 xt2 i))
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg5 fullShare x0 ∗ owns (c : Thread nD τ) arg6 fullShare x1 ∗ owns (c : Thread nD τ) arg7 fullShare x2
            ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ tbPt1 c tbM1_0 xt0 ∗ tbPt1 c tbM1_1 xt1 ∗ tbPt1 c tbM1_2 xt2
            ∗ (iprop(owns (c : Thread nD τ) arg5 fullShare x0 ∗ owns (c : Thread nD τ) arg6 fullShare x1 ∗ owns (c : Thread nD τ) arg7 fullShare x2
                ∗ (∃ f, arg8.view.loc (c : Thread nD τ) ↦[arg8.view.set]{fullShare} arg8.view.writes (Elt F) f L3)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ tbPt1 c tbM1_0 xt0 ∗ tbPt1 c tbM1_1 xt1 ∗ tbPt1 c tbM1_2 xt2) -∗ K ⟨⟩))
          ⊢ wp frame (wpE (defs₀ (F := F)) Variants.none c none) E (cc1__flash_kernel i tbM1_0 htbM1_0 tbM1_1 htbM1_1 tbM1_2 htbM1_2 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, HT0, HT1, HT2, Hk⟩
    obtain rfl := harg5.eq_unread hf0; obtain rfl := harg6.eq_unread hf1; obtain rfl := harg7.eq_unread hf2
    obtain rfl := harg9.eq_unread hfs0; obtain rfl := harg10.eq_unread hfs1; obtain rfl := harg11.eq_unread hfs2
    sl_exec (disch := first | sl_exact hc0 | sl_exact hc1 | exact hc0 | exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    isplitl [HT1]; · iexact HT1
    iexact HT2

end Cert.Kernel.Fr1

end
-- ==== Proof.Region1TablesBits.lean ====
/- REGION 1: the attention kernel's tables and schedule.

   The second TensorCore region runs over a grid of 8 batches times 6 (query tile, key tile) pairs. Which query tile,
   which key tile, and whether the pair is the last one of its query tile are read from three six-entry tables, which
   the program fills with the constants
       query tile   0 0 1 1 1 1
       key tile     0 1 0 1 2 3
       last         0 1 0 0 0 1
   before the region starts. This module fixes the tables at these contents, checks that every block the region then
   addresses lies inside its array, and reads off the schedule: the words the body branches on, and the grid points at
   which each window's block is copied in or written back. It is generic in the float interpretation. -/
import proofs.«175071_j38998303048530_2_alg».proof.Proof.Region1RunsBits

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables at their constants -/

/-- The three tables' contents: entry `i` of each is the corresponding constant's entry at `i`'s row-major position. -/
def tbl : pre1.Contents (Elt F) := fun
  | ⟨0, _⟩ => fun i => lit0 (S6.rowMajor i)
  | ⟨1, _⟩ => fun i => lit1 (S6.rowMajor i)
  | ⟨2, _⟩ => fun i => lit2 (S6.rowMajor i)

/-- every query-tile entry is 0 or 1 -/
theorem lit0_le : ∀ x : Fin 6, (lit0 x).toNat ≤ 1 := by decide
/-- every key-tile entry is at most 3 -/
theorem lit1_le : ∀ x : Fin 6, (lit1 x).toNat ≤ 3 := by decide

/-- a grid point's batch coordinate, as the index maps compute it from a 32-bit word, is below 8 -/
theorem batch_lt (i : grid1.Coords) : (BitVec.ofNat 32 (i 0).val).toNat < 8 := by
  have h : (i 0).val < 8 := (i 0).isLt
  rw [BitVec.toNat_ofNat]
  exact lt_of_le_of_lt (Nat.mod_le _ _) h

/-- With the tables at their constants, every block the four windows address lies inside its array, and its transfers
    move whole words: a query or output block is batch `b < 8`, tile `0` or `1` of two tiles of 1024 rows; a key or
    value block is batch `b`, tile `0..3` of four tiles of 512 rows; rows are 64 wide, an even number of narrow
    elements. -/
theorem ok_tbl : ok1 (F := F) tbl := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inl rfl⟩⟩
  · obtain ⟨w, hw, e⟩ : ∃ w : BitVec 32, w.toNat ≤ 1 ∧
        cc1_transform_0 Gen.k1_off1_inb Gen.numel1_S1 (tbl (F := F)) i = ![(BitVec.ofNat 32 (i 0).val).toNat, w.toNat, 0] :=
      ⟨_, lit0_le _, rfl⟩
    have hb := batch_lt i
    rw [e]
    fin_cases a <;> simp [S1x1024x64, S8x2048x64] <;> omega
  · obtain ⟨w, hw, e⟩ : ∃ w : BitVec 32, w.toNat ≤ 3 ∧
        cc1_transform_1 Gen.k1_off1_inb Gen.numel1_S1 (tbl (F := F)) i = ![(BitVec.ofNat 32 (i 0).val).toNat, w.toNat, 0] :=
      ⟨_, lit1_le _, rfl⟩
    have hb := batch_lt i
    rw [e]
    fin_cases a <;> simp [S1x512x64, S8x2048x64] <;> omega
  · obtain ⟨w, hw, e⟩ : ∃ w : BitVec 32, w.toNat ≤ 3 ∧
        cc1_transform_2 Gen.k1_off1_inb Gen.numel1_S1 (tbl (F := F)) i = ![(BitVec.ofNat 32 (i 0).val).toNat, w.toNat, 0] :=
      ⟨_, lit1_le _, rfl⟩
    have hb := batch_lt i
    rw [e]
    fin_cases a <;> simp [S1x512x64, S8x2048x64] <;> omega
  · obtain ⟨w, hw, e⟩ : ∃ w : BitVec 32, w.toNat ≤ 1 ∧
        cc1_transform_3 Gen.k1_off1_inb Gen.numel1_S1 (tbl (F := F)) i = ![(BitVec.ofNat 32 (i 0).val).toNat, w.toNat, 0] :=
      ⟨_, lit0_le _, rfl⟩
    have hb := batch_lt i
    rw [e]
    fin_cases a <;> simp [S1x1024x64, S8x2048x64] <;> omega

/-- the tables, as contents the region may run at -/
abbrev adm1 : (pcfg1 (F := F)).Adm := ⟨tbl, ok_tbl⟩
/-- the region's pipeline at these tables -/
abbrev cfgL : Pipeline.Cfg sig Λ₀ := cfg1 (adm1 (F := F))

/-! ## The words the body and the index maps read

At a grid point with coordinates (batch, pair) the body's scalar loads, and the windows' index maps, read entry
`pair` of each table. -/

/-- position `k` of a six-entry table, as a one-dimensional index -/
def ik (k : Fin 6) : S6.Idx := fun a => match a with | ⟨0, _⟩ => k

/-- its row-major position is `k` -/
theorem rowMajor_ik (k : Fin 6) : S6.rowMajor (ik k) = k := by
  fin_cases k <;> rfl

/-- the pair coordinate of a grid point, as a table position -/
def pr (i : grid1.Coords) : Fin 6 := ⟨(i 1).val, (i 1).isLt⟩

/-- the pair of the `t`-th grid point -/
def pairOf (t : Fin grid1.N) : Fin 6 := ⟨t.val % 6, Nat.mod_lt _ (by decide)⟩

/-- the grid is traversed batch by batch: the second coordinate of point `t` is `t % 6` -/
theorem coords_pair : ∀ t : Fin grid1.N, (grid1.coords t 1).val = t.val % 6 := by decide +kernel
/-- and the first is `t / 6` -/
theorem coords_batch : ∀ t : Fin grid1.N, (grid1.coords t 0).val = t.val / 6 := by decide +kernel

theorem pr_coords (t : Fin grid1.N) : pr (grid1.coords t) = pairOf t := Fin.ext (coords_pair t)

/-- The one element of the length-one rectangle at offset `k` of a six-entry table is the entry at `k`. -/
theorem idx_eq (k : Fin 6) (off : Fin 1 → Nat) (hoff : off 0 = k.val) (inb : ∀ a, off a + S1.size a ≤ S6.size a)
    (h1 : 0 < S1.numel) : (Rect.unit (s := S6) off S1.size inb).idx (Shape.Idx.first h1) = ik k := by
  funext a
  apply Fin.ext
  fin_cases a
  have hz : (Shape.Idx.first h1 (0 : Fin 1)).val = 0 := by
    have hlt := (Shape.Idx.first h1 (0 : Fin 1)).isLt
    have e : S1.size (0 : Fin 1) = 1 := by decide
    omega
  show off 0 + 1 * (Shape.Idx.first h1 (0 : Fin 1)).val = k.val
  rw [hz, hoff]; omega

/-- the offset of the scalar loads at a grid point is its pair coordinate -/
theorem off_pr (i : grid1.Coords) : k1_off1 i 0 = (pr i).val := by
  rw [Gen.k1_off1_eq]; rfl

/-- the query-tile word at a grid point -/
theorem word0_at (c : Dev nD) (i : grid1.Coords) : wordAt (F := F) c tbM1_0 (tbl 0) i = lit0 (pr i) := by
  have h := idx_eq (pr i) (k1_off1 i) (off_pr i) (Gen.k1_off1_inb i) (Gen.numel1_S1.symm ▸ Nat.one_pos)
  show lit0 (S6.rowMajor ((Rect.unit (s := S6) (k1_off1 i) S1.size (Gen.k1_off1_inb i)).idx (Shape.Idx.first _))) = _
  rw [h, rowMajor_ik]
/-- the key-tile word at a grid point -/
theorem word1_at (c : Dev nD) (i : grid1.Coords) : wordAt (F := F) c tbM1_1 (tbl 1) i = lit1 (pr i) := by
  have h := idx_eq (pr i) (k1_off1 i) (off_pr i) (Gen.k1_off1_inb i) (Gen.numel1_S1.symm ▸ Nat.one_pos)
  show lit1 (S6.rowMajor ((Rect.unit (s := S6) (k1_off1 i) S1.size (Gen.k1_off1_inb i)).idx (Shape.Idx.first _))) = _
  rw [h, rowMajor_ik]
/-- the last-pair word at a grid point -/
theorem word2_at (c : Dev nD) (i : grid1.Coords) : wordAt (F := F) c tbM1_2 (tbl 2) i = lit2 (pr i) := by
  have h := idx_eq (pr i) (k1_off1 i) (off_pr i) (Gen.k1_off1_inb i) (Gen.numel1_S1.symm ▸ Nat.one_pos)
  show lit2 (S6.rowMajor ((Rect.unit (s := S6) (k1_off1 i) S1.size (Gen.k1_off1_inb i)).idx (Shape.Idx.first _))) = _
  rw [h, rowMajor_ik]

/-- the same three words at the `t`-th point of the grid -/
theorem word0_eq (c : Dev nD) (t : Fin grid1.N) :
    wordAt (F := F) c tbM1_0 (tbl 0) (grid1.coords t) = lit0 (pairOf t) := by rw [word0_at, pr_coords]
theorem word1_eq (c : Dev nD) (t : Fin grid1.N) :
    wordAt (F := F) c tbM1_1 (tbl 1) (grid1.coords t) = lit1 (pairOf t) := by rw [word1_at, pr_coords]
theorem word2_eq (c : Dev nD) (t : Fin grid1.N) :
    wordAt (F := F) c tbM1_2 (tbl 2) (grid1.coords t) = lit2 (pairOf t) := by rw [word2_at, pr_coords]

/-- the key tile is the first of its query tile exactly at pairs 0 and 2 -/
theorem first_iff : ∀ k : Fin 6, condFirst (lit1 k) ↔ (k.val = 0 ∨ k.val = 2) := by decide
/-- the pair is the last of its query tile exactly at pairs 1 and 5 -/
theorem last_iff : ∀ k : Fin 6, condLast (lit2 k) ↔ (k.val = 1 ∨ k.val = 5) := by decide

/-- The body resets its running statistics exactly at the points whose pair is 0 or 2. -/
theorem hfirst (c : Dev nD) (t : Fin (cfgL (F := F)).N) :
    condFirst (wordAt (F := F) c tbM1_1 (tbl 1) (grid1.coords t)) ↔ (t.val % 6 = 0 ∨ t.val % 6 = 2) := by
  rw [word1_eq c t]; exact first_iff (pairOf t)

/-- The body stores the quotient exactly at the points whose pair is 1 or 5. -/
theorem hlast (c : Dev nD) (t : Fin (cfgL (F := F)).N) :
    condLast (wordAt (F := F) c tbM1_2 (tbl 2) (grid1.coords t)) ↔ (t.val % 6 = 1 ∨ t.val % 6 = 5) := by
  rw [word2_eq c t]; exact last_iff (pairOf t)

/-! ## The index maps in closed form, and the schedule

With the tables fixed, the windows' index maps are explicit functions of the grid point: the query block and the
output block are (batch, query tile of the pair, 0), the key and value blocks (batch, key tile of the pair, 0). The
pipeline copies an input block in at the first point and wherever its index differs from the previous point's, and
writes an output block back at the last point and wherever the next point's index differs. -/

/-- block index of the query and output windows -/
def ixQ (i : grid1.Coords) : Fin 3 → Nat := ![(i 0).val, (lit0 (pr i)).toNat, 0]
/-- block index of the key and value windows -/
def ixK (i : grid1.Coords) : Fin 3 → Nat := ![(i 0).val, (lit1 (pr i)).toNat, 0]

/-- a batch coordinate survives the passage through a 32-bit word -/
theorem batch_val (i : grid1.Coords) : (BitVec.ofNat 32 (i 0).val).toNat = (i 0).val := by
  have h : (i 0).val < 8 := (i 0).isLt
  rw [BitVec.toNat_ofNat]
  exact Nat.mod_eq_of_lt (by omega)

/-- the entry an index map reads from the query-tile table -/
theorem tblAt0 (i : grid1.Coords) :
    (tbl (F := F)).at 0 (Rect.unit (s := S6) (k1_off1 i) S1.size (Gen.k1_off1_inb i)) Gen.numel1_S1 = lit0 (pr i) := by
  have h := idx_eq (pr i) (k1_off1 i) (off_pr i) (Gen.k1_off1_inb i) (Gen.numel1_S1.symm ▸ Nat.one_pos)
  show lit0 (S6.rowMajor ((Rect.unit (s := S6) (k1_off1 i) S1.size (Gen.k1_off1_inb i)).idx (Shape.Idx.first _))) = _
  rw [h, rowMajor_ik]
/-- the entry an index map reads from the key-tile table -/
theorem tblAt1 (i : grid1.Coords) :
    (tbl (F := F)).at 1 (Rect.unit (s := S6) (k1_off1 i) S1.size (Gen.k1_off1_inb i)) Gen.numel1_S1 = lit1 (pr i) := by
  have h := idx_eq (pr i) (k1_off1 i) (off_pr i) (Gen.k1_off1_inb i) (Gen.numel1_S1.symm ▸ Nat.one_pos)
  show lit1 (S6.rowMajor ((Rect.unit (s := S6) (k1_off1 i) S1.size (Gen.k1_off1_inb i)).idx (Shape.Idx.first _))) = _
  rw [h, rowMajor_ik]

theorem tr0_eq : cc1_transform_0 Gen.k1_off1_inb Gen.numel1_S1 (tbl (F := F)) = ixQ := by
  funext i
  show ![(BitVec.ofNat 32 (i 0).val).toNat, ((tbl (F := F)).at 0 (Rect.unit (s := S6) (k1_off1 i) S1.size (Gen.k1_off1_inb i)) Gen.numel1_S1).toNat, (0#32).toNat] = _
  rw [tblAt0, batch_val]; rfl
theorem tr1_eq : cc1_transform_1 Gen.k1_off1_inb Gen.numel1_S1 (tbl (F := F)) = ixK := by
  funext i
  show ![(BitVec.ofNat 32 (i 0).val).toNat, ((tbl (F := F)).at 1 (Rect.unit (s := S6) (k1_off1 i) S1.size (Gen.k1_off1_inb i)) Gen.numel1_S1).toNat, (0#32).toNat] = _
  rw [tblAt1, batch_val]; rfl
theorem tr2_eq : cc1_transform_2 Gen.k1_off1_inb Gen.numel1_S1 (tbl (F := F)) = ixK := by
  funext i
  show ![(BitVec.ofNat 32 (i 0).val).toNat, ((tbl (F := F)).at 1 (Rect.unit (s := S6) (k1_off1 i) S1.size (Gen.k1_off1_inb i)) Gen.numel1_S1).toNat, (0#32).toNat] = _
  rw [tblAt1, batch_val]; rfl
theorem tr3_eq : cc1_transform_3 Gen.k1_off1_inb Gen.numel1_S1 (tbl (F := F)) = ixQ := by
  funext i
  show ![(BitVec.ofNat 32 (i 0).val).toNat, ((tbl (F := F)).at 0 (Rect.unit (s := S6) (k1_off1 i) S1.size (Gen.k1_off1_inb i)) Gen.numel1_S1).toNat, (0#32).toNat] = _
  rw [tblAt0, batch_val]; rfl

/-- the query tile changes when the pair becomes 0 or 2 -/
theorem fetchQ : ∀ t : Fin grid1.N, Pipeline.Window.fetchOf grid1 false ixQ t = true ↔ (t.val % 6 = 0 ∨ t.val % 6 = 2) := by
  decide +kernel
/-- the key tile changes at every step -/
theorem fetchK : ∀ t : Fin grid1.N, Pipeline.Window.fetchOf grid1 false ixK t = true := by
  decide +kernel
/-- an output block is complete when the pair is 1 or 5 -/
theorem flushQ : ∀ t : Fin grid1.N, Pipeline.Window.flushOf grid1 true ixQ t = true ↔ (t.val % 6 = 1 ∨ t.val % 6 = 5) := by
  decide +kernel

/-- the grid has 48 points -/
theorem N_L : (cfgL (F := F)).N = 48 := Gen.N_1

/-- the query block is copied in at the points whose pair is 0 or 2 -/
theorem fetch1_0 (t : Fin (cfgL (F := F)).N) :
    ((cfgL (F := F)).win 0).fetch t = true ↔ (t.val % 6 = 0 ∨ t.val % 6 = 2) := by
  have e : ((cfgL (F := F)).win 0).fetch t
      = Pipeline.Window.fetchOf grid1 false (cc1_transform_0 Gen.k1_off1_inb Gen.numel1_S1 (tbl (F := F))) t := rfl
  rw [e, tr0_eq]; exact fetchQ t
/-- the key block is copied in at every point -/
theorem fetch1_1 (t : Fin (cfgL (F := F)).N) : ((cfgL (F := F)).win 1).fetch t = true := by
  have e : ((cfgL (F := F)).win 1).fetch t
      = Pipeline.Window.fetchOf grid1 false (cc1_transform_1 Gen.k1_off1_inb Gen.numel1_S1 (tbl (F := F))) t := rfl
  rw [e, tr1_eq]; exact fetchK t
/-- the value block is copied in at every point -/
theorem fetch1_2 (t : Fin (cfgL (F := F)).N) : ((cfgL (F := F)).win 2).fetch t = true := by
  have e : ((cfgL (F := F)).win 2).fetch t
      = Pipeline.Window.fetchOf grid1 false (cc1_transform_2 Gen.k1_off1_inb Gen.numel1_S1 (tbl (F := F))) t := rfl
  rw [e, tr2_eq]; exact fetchK t
/-- the output block is written back at the points whose pair is 1 or 5 -/
theorem flush1_3 (t : Fin (cfgL (F := F)).N) :
    ((cfgL (F := F)).win 3).flush t = true ↔ (t.val % 6 = 1 ∨ t.val % 6 = 5) := by
  have e : ((cfgL (F := F)).win 3).flush t
      = Pipeline.Window.flushOf grid1 true (cc1_transform_3 Gen.k1_off1_inb Gen.numel1_S1 (tbl (F := F))) t := rfl
  rw [e, tr3_eq]; exact flushQ t

/-! The body writes the input windows' buffers nowhere and the output window's buffer only where it stores the
    quotient; so the inputs are never idle and the output is idle away from pairs 1 and 5. -/
theorem idle1_0 (i) : (cfgL (F := F)).idle 0 i = false := rfl
theorem idle1_1 (i) : (cfgL (F := F)).idle 1 i = false := rfl
theorem idle1_2 (i) : (cfgL (F := F)).idle 2 i = false := rfl

/-- the last-pair entry the idleness condition reads -/
theorem tblAtD2 (i : grid1.Coords) : (tbl (F := F)).atD 2 (k1_off1 i) = lit2 (pr i) := by
  have hin : ∀ a, k1_off1 i a + 1 ≤ S6.size a := fun a => by
    have := Gen.k1_off1_inb i a
    have e : S1.size a = 1 := by fin_cases a; decide
    omega
  have hx : (fun a => (⟨k1_off1 i a, hin a⟩ : Fin (S6.size a))) = ik (pr i) := by
    funext a; apply Fin.ext; fin_cases a; exact off_pr i
  show (if h : ∀ a, k1_off1 i a + 1 ≤ S6.size a then lit2 (S6.rowMajor fun a => ⟨k1_off1 i a, h a⟩) else default) = _
  rw [dif_pos hin, hx, rowMajor_ik]

theorem notLast_iff : ∀ k : Fin 6, (!(k1_cond2 (lit2 k) == 1#1)) = true ↔ ¬(k.val = 1 ∨ k.val = 5) := by decide

/-- the output window is idle exactly at the points whose pair is neither 1 nor 5 -/
theorem idle1_3 (t : Fin (cfgL (F := F)).N) :
    (cfgL (F := F)).idle 3 (grid1.coords t) = true ↔ ¬(t.val % 6 = 1 ∨ t.val % 6 = 5) := by
  have e : (cfgL (F := F)).idle 3 (grid1.coords t)
      = !(k1_cond2 ((tbl (F := F)).atD 2 (k1_off1 (grid1.coords t))) == 1#1) := rfl
  rw [e, tblAtD2, pr_coords]; exact notLast_iff (pairOf t)

/-! ## Blocks, and what an input window's buffer holds when the body runs

As in the first region: relative to arbitrary entry contents `V` of the core's buffers, the block of window `w` at
point `t` is the window's array read through the rectangle the index map selects there; and since the body never
writes the query, key or value buffers, each holds its window's block at every point, copied in there or not. -/

variable (V : (c : Dev nD) → (b : Ref sig .tc) → Buf (Elt F) ((c : Thread nD τ).loc b))

/-- the block of window `w` that point `t` addresses -/
def iblk1 (c : Dev nD) (w : Fin (cfgL (F := F)).W) (t : Fin (cfgL (F := F)).N) :
    (((cfgL (F := F)).win w).xblock ((cfgL (F := F)).grid.coords t)).Idx → Elt F ((cfgL (F := F)).win w).elt :=
  (((cfgL (F := F)).win w).blk t).view.read (Elt F) (V c (Pipeline.arrRef spec1 w))

theorem before1_0_of {c : Dev nD} (dat : Dat τ (Elt F) Unit ℕ (UR sig nD τ) ℕ (cfgL (F := F)) c)
    (hA : dat.A 0 = V c (Pipeline.arrRef spec1 0)) (hafter : ∀ t, dat.after 0 t = iblk1 V c 0 t)
    (t : Fin (cfgL (F := F)).N) (d) : dat.before 0 t d = iblk1 V c 0 t := by
  have hkeep : ∀ t, ((cfgL (F := F)).win 0).cut ((cfgL (F := F)).grid.coords t) (dat.after 0 t) = dat.blockOf 0 t :=
    fun t => by rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before1_1_of {c : Dev nD} (dat : Dat τ (Elt F) Unit ℕ (UR sig nD τ) ℕ (cfgL (F := F)) c)
    (hA : dat.A 1 = V c (Pipeline.arrRef spec1 1)) (hafter : ∀ t, dat.after 1 t = iblk1 V c 1 t)
    (t : Fin (cfgL (F := F)).N) (d) : dat.before 1 t d = iblk1 V c 1 t := by
  have hkeep : ∀ t, ((cfgL (F := F)).win 1).cut ((cfgL (F := F)).grid.coords t) (dat.after 1 t) = dat.blockOf 1 t :=
    fun t => by rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before1_2_of {c : Dev nD} (dat : Dat τ (Elt F) Unit ℕ (UR sig nD τ) ℕ (cfgL (F := F)) c)
    (hA : dat.A 2 = V c (Pipeline.arrRef spec1 2)) (hafter : ∀ t, dat.after 2 t = iblk1 V c 2 t)
    (t : Fin (cfgL (F := F)).N) (d) : dat.before 2 t d = iblk1 V c 2 t := by
  have hkeep : ∀ t, ((cfgL (F := F)).win 2).cut ((cfgL (F := F)).grid.coords t) (dat.after 2 t) = dat.blockOf 2 t :=
    fun t => by rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

end Cert.Kernel.Fr1

end
-- ==== Proof.Region1FrameBits.lean ====
/-
  The attention kernel's region, point by point: what its output block and its three running buffers (row maximum,
  denominator, numerator) hold after each grid point, the region's invariant, and the body's obligation at every point.
  The 48 grid points are 8 batches times 6 (query tile, key tile) pairs; within a batch the pairs are, in order,
  (0,0) (0,1) (1,0) (1,1) (1,2) (1,3). A pair's point is of one of three kinds, read off the tables:
    first  — the key tile is the first of its query tile (pairs 0 and 2): the running buffers are reset, then updated;
    middle — pairs 3 and 4: the running buffers are updated from what the point before left;
    last   — pairs 1 and 5: updated likewise, and the output block is stored the quotient numerator / denominator.
  The running buffers are carried from a point to the next inside the region's invariant, beside the three tables
  (which the body only reads) and the scoped buffers the body never touches.
-/
import proofs.«175071_j38998303048530_2_alg».proof.Proof.Region1RunCBits
import proofs.«175071_j38998303048530_2_alg».proof.Proof.Region1TablesBits

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle, in the forms the obligation uses -/

theorem live1_0 (t : Fin (cfgL (F := F)).N) : (cfgL (F := F)).idle 0 (grid1.coords t) = false := idle1_0 _
theorem live1_1 (t : Fin (cfgL (F := F)).N) : (cfgL (F := F)).idle 1 (grid1.coords t) = false := idle1_1 _
theorem live1_2 (t : Fin (cfgL (F := F)).N) : (cfgL (F := F)).idle 2 (grid1.coords t) = false := idle1_2 _
/-- The output window is idle, and not written back, at every point that is not the last of its query tile. -/
theorem idleOut (t : Fin (cfgL (F := F)).N) (hl : ¬(t.val % 6 = 1 ∨ t.val % 6 = 5)) : (cfgL (F := F)).idle 3 (grid1.coords t) = true := (idle1_3 t).mpr hl
theorem noFlushOut (t : Fin (cfgL (F := F)).N) (hl : ¬(t.val % 6 = 1 ∨ t.val % 6 = 5)) : ((cfgL (F := F)).win 3).flush t = false :=
  Bool.eq_false_iff.mpr fun h => hl ((flush1_3 t).mp h)
theorem liveOut (t : Fin (cfgL (F := F)).N) (hl : t.val % 6 = 1 ∨ t.val % 6 = 5) : (cfgL (F := F)).idle 3 (grid1.coords t) = false :=
  Bool.eq_false_iff.mpr fun h => (idle1_3 t).mp h hl

/-! ## The memrefs the pipeline calls the body with -/

abbrev stQ (t : Fin (cfgL (F := F)).N) : Memref sig .tc .vmem S1x1024x64 .bf16 := spec1_0.stage ((cfgL (F := F)).slots t 0)
abbrev hstQ (t : Fin (cfgL (F := F)).N) : (stQ (F := F) t).IsWhole := hstage1_0 (((cfgL (F := F)).slots t 0).cast nbuf1_0)
abbrev stK (t : Fin (cfgL (F := F)).N) : Memref sig .tc .vmem S1x512x64 .bf16 := spec1_1.stage ((cfgL (F := F)).slots t 1)
abbrev hstK (t : Fin (cfgL (F := F)).N) : (stK (F := F) t).IsWhole := hstage1_1 (((cfgL (F := F)).slots t 1).cast nbuf1_1)
abbrev stV (t : Fin (cfgL (F := F)).N) : Memref sig .tc .vmem S1x512x64 .bf16 := spec1_2.stage ((cfgL (F := F)).slots t 2)
abbrev hstV (t : Fin (cfgL (F := F)).N) : (stV (F := F) t).IsWhole := hstage1_2 (((cfgL (F := F)).slots t 2).cast nbuf1_2)
abbrev stO (t : Fin (cfgL (F := F)).N) : Memref sig .tc .vmem S1x1024x64 .f32 := spec1_3.stage ((cfgL (F := F)).slots t 3)
abbrev hstO (t : Fin (cfgL (F := F)).N) : (stO (F := F) t).IsWhole := hstage1_3 (((cfgL (F := F)).slots t 3).cast nbuf1_3)
/-- The three running buffers: the row maximum, the denominator, the numerator. -/
abbrev scMax : Memref sig .tc .vmem S1024x1 .f32 := Memref.whole cc1_scratch0
abbrev scDen : Memref sig .tc .vmem S1024x1 .f32 := Memref.whole cc1_scratch1
abbrev scNum : Memref sig .tc .vmem S1024x64 .f32 := Memref.whole cc1_scratch2
/-- The output block's contents are written as a read through this view: once the stores cover the block, a read through
    any whole view of the block's shape returns the same values. -/
abbrev viewO : View sig .tc .vmem S1x1024x64 .f32 := (Memref.whole cc1_stg3_0 : Memref sig .tc .vmem S1x1024x64 .f32).view

/-- The body as the pipeline calls it at point t. -/
abbrev bodyAt1 (t : Fin (cfgL (F := F)).N) : Prog (TpuEff nD τ sig (Elt F) Λ₀ .tc) PUnit :=
  cc1__flash_kernel (grid1.coords t) tbM1_0 htbM1_0 tbM1_1 htbM1_1 tbM1_2 htbM1_2 (stQ t) (hstQ t) (stK t) (hstK t) (stV t) (hstV t) (stO t) (hstO t)
    scMax (Memref.isWhole_whole _) scDen (Memref.isWhole_whole _) scNum (Memref.isWhole_whole _)

/-! ## The kinds of point -/

/-- A point is of the first kind when its pair is 0 or 2, of the last kind when its pair is 1 or 5. -/
abbrev isFirst (n : ℕ) : Prop := n % 6 = 0 ∨ n % 6 = 2
abbrev isLast (n : ℕ) : Prop := n % 6 = 1 ∨ n % 6 = 5

/-- What a point leaves: the output block's buffer, then the maximum, the denominator and the numerator. -/
abbrev St (F : FTy → Type) : Type := Vec F S1x1024x64 .f32 × Vec F S1024x1 .f32 × Vec F S1024x1 .f32 × Vec F S1024x64 .f32

/-! ## The three runs at a point of the grid -/

abbrev runA (c : Dev nD) (t : Fin (cfgL (F := F)).N) (hf : isFirst t.val) (hl : ¬isLast t.val) :=
  kernelRun1_A (F := F) c (grid1.coords t) (stQ t) (hstQ t) (stK t) (hstK t) (stV t) (hstV t) (stO t) (hstO t) scMax (Memref.isWhole_whole _) scDen (Memref.isWhole_whole _) scNum (Memref.isWhole_whole _)
    (tbl 0) (tbl 1) (tbl 2) ((hfirst c t).mpr hf) (fun h => hl ((hlast c t).mp h)) (iblk1 V c 0 t) (iblk1 V c 1 t) (iblk1 V c 2 t)
abbrev runB (c : Dev nD) (t : Fin (cfgL (F := F)).N) (hf : ¬isFirst t.val) (hl : ¬isLast t.val) (xm : Vec F S1024x1 .f32) (xd : Vec F S1024x1 .f32) (xn : Vec F S1024x64 .f32) :=
  kernelRun1_B (F := F) c (grid1.coords t) (stQ t) (hstQ t) (stK t) (hstK t) (stV t) (hstV t) (stO t) (hstO t) scMax (Memref.isWhole_whole _) scDen (Memref.isWhole_whole _) scNum (Memref.isWhole_whole _)
    (tbl 0) (tbl 1) (tbl 2) (fun h => hf ((hfirst c t).mp h)) (fun h => hl ((hlast c t).mp h)) (iblk1 V c 0 t) (iblk1 V c 1 t) (iblk1 V c 2 t) xm xd xn
abbrev runC (c : Dev nD) (t : Fin (cfgL (F := F)).N) (hf : ¬isFirst t.val) (hl : isLast t.val) (xm : Vec F S1024x1 .f32) (xd : Vec F S1024x1 .f32) (xn : Vec F S1024x64 .f32) :=
  kernelRun1_C (F := F) c (grid1.coords t) (stQ t) (hstQ t) (stK t) (hstK t) (stV t) (hstV t) (stO t) (hstO t) scMax (Memref.isWhole_whole _) scDen (Memref.isWhole_whole _) scNum (Memref.isWhole_whole _)
    (tbl 0) (tbl 1) (tbl 2) (fun h => hf ((hfirst c t).mp h)) ((hlast c t).mpr hl) (iblk1 V c 0 t) (iblk1 V c 1 t) (iblk1 V c 2 t) xm xd xn

/-- A buffer's stores read back over arbitrary earlier contents. -/
abbrev readBack {S : Shape} {e : EltTy} (W : View sig .tc .vmem S e) (L : List (View.Piece (Elt F) S e)) : Vec F S e :=
  W.read (Elt F) (W.writes (Elt F) W.junk L)

/-- What a point of the first kind leaves (its output component is never consulted: the window is idle there). -/
def leftA (c : Dev nD) (t : Fin (cfgL (F := F)).N) (hf : isFirst t.val) (hl : ¬isLast t.val) : St F :=
  (viewO.read (Elt F) viewO.junk, readBack scMax.view (runA V c t hf hl).1, readBack scDen.view (runA V c t hf hl).2.1, readBack scNum.view (runA V c t hf hl).2.2.1)
def leftB (c : Dev nD) (t : Fin (cfgL (F := F)).N) (hf : ¬isFirst t.val) (hl : ¬isLast t.val) (p : St F) : St F :=
  (viewO.read (Elt F) viewO.junk, readBack scMax.view (runB V c t hf hl p.2.1 p.2.2.1 p.2.2.2).1, readBack scDen.view (runB V c t hf hl p.2.1 p.2.2.1 p.2.2.2).2.1, readBack scNum.view (runB V c t hf hl p.2.1 p.2.2.1 p.2.2.2).2.2.1)
def leftC (c : Dev nD) (t : Fin (cfgL (F := F)).N) (hf : ¬isFirst t.val) (hl : isLast t.val) (p : St F) : St F :=
  (readBack viewO (runC V c t hf hl p.2.1 p.2.2.1 p.2.2.2).1, readBack scMax.view (runC V c t hf hl p.2.1 p.2.2.1 p.2.2.2).2.1, readBack scDen.view (runC V c t hf hl p.2.1 p.2.2.1 p.2.2.2).2.2.1, readBack scNum.view (runC V c t hf hl p.2.1 p.2.2.1 p.2.2.2).2.2.2.1)

/-! ## The stores of each run cover the buffer they are made into -/

theorem coverA_max (c : Dev nD) (t : Fin (cfgL (F := F)).N) (hf : isFirst t.val) (hl : ¬isLast t.val) (y : S1024x1.Idx) : ∃ pc ∈ (runA V c t hf hl).1, y ∈ pc.1.set :=
  View.cover_of_wholeMem (runA V c t hf hl).1 (by sl_whole_mem) y
theorem coverA_den (c : Dev nD) (t : Fin (cfgL (F := F)).N) (hf : isFirst t.val) (hl : ¬isLast t.val) (y : S1024x1.Idx) : ∃ pc ∈ (runA V c t hf hl).2.1, y ∈ pc.1.set :=
  View.cover_of_wholeMem (runA V c t hf hl).2.1 (by sl_whole_mem) y
theorem coverA_num (c : Dev nD) (t : Fin (cfgL (F := F)).N) (hf : isFirst t.val) (hl : ¬isLast t.val) (y : S1024x64.Idx) : ∃ pc ∈ (runA V c t hf hl).2.2.1, y ∈ pc.1.set :=
  View.cover_of_wholeMem (runA V c t hf hl).2.2.1 (by sl_whole_mem) y

theorem coverB_max (c : Dev nD) (t : Fin (cfgL (F := F)).N) (hf : ¬isFirst t.val) (hl : ¬isLast t.val) (xm xd : Vec F S1024x1 .f32) (xn : Vec F S1024x64 .f32) (y : S1024x1.Idx) : ∃ pc ∈ (runB V c t hf hl xm xd xn).1, y ∈ pc.1.set :=
  View.cover_of_wholeMem (runB V c t hf hl xm xd xn).1 (by sl_whole_mem) y
theorem coverB_den (c : Dev nD) (t : Fin (cfgL (F := F)).N) (hf : ¬isFirst t.val) (hl : ¬isLast t.val) (xm xd : Vec F S1024x1 .f32) (xn : Vec F S1024x64 .f32) (y : S1024x1.Idx) : ∃ pc ∈ (runB V c t hf hl xm xd xn).2.1, y ∈ pc.1.set :=
  View.cover_of_wholeMem (runB V c t hf hl xm xd xn).2.1 (by sl_whole_mem) y
theorem coverB_num (c : Dev nD) (t : Fin (cfgL (F := F)).N) (hf : ¬isFirst t.val) (hl : ¬isLast t.val) (xm xd : Vec F S1024x1 .f32) (xn : Vec F S1024x64 .f32) (y : S1024x64.Idx) : ∃ pc ∈ (runB V c t hf hl xm xd xn).2.2.1, y ∈ pc.1.set :=
  View.cover_of_wholeMem (runB V c t hf hl xm xd xn).2.2.1 (by sl_whole_mem) y
theorem coverC_out (c : Dev nD) (t : Fin (cfgL (F := F)).N) (hf : ¬isFirst t.val) (hl : isLast t.val) (xm xd : Vec F S1024x1 .f32) (xn : Vec F S1024x64 .f32) (y : S1x1024x64.Idx) : ∃ pc ∈ (runC V c t hf hl xm xd xn).1, y ∈ pc.1.set :=
  View.cover_of_wholeMem (runC V c t hf hl xm xd xn).1 (by sl_whole_mem) y
theorem coverC_max (c : Dev nD) (t : Fin (cfgL (F := F)).N) (hf : ¬isFirst t.val) (hl : isLast t.val) (xm xd : Vec F S1024x1 .f32) (xn : Vec F S1024x64 .f32) (y : S1024x1.Idx) : ∃ pc ∈ (runC V c t hf hl xm xd xn).2.1, y ∈ pc.1.set :=
  View.cover_of_wholeMem (runC V c t hf hl xm xd xn).2.1 (by sl_whole_mem) y
theorem coverC_den (c : Dev nD) (t : Fin (cfgL (F := F)).N) (hf : ¬isFirst t.val) (hl : isLast t.val) (xm xd : Vec F S1024x1 .f32) (xn : Vec F S1024x64 .f32) (y : S1024x1.Idx) : ∃ pc ∈ (runC V c t hf hl xm xd xn).2.2.1, y ∈ pc.1.set :=
  View.cover_of_wholeMem (runC V c t hf hl xm xd xn).2.2.1 (by sl_whole_mem) y
theorem coverC_num (c : Dev nD) (t : Fin (cfgL (F := F)).N) (hf : ¬isFirst t.val) (hl : isLast t.val) (xm xd : Vec F S1024x1 .f32) (xn : Vec F S1024x64 .f32) (y : S1024x64.Idx) : ∃ pc ∈ (runC V c t hf hl xm xd xn).2.2.2.1, y ∈ pc.1.set :=
  View.cover_of_wholeMem (runC V c t hf hl xm xd xn).2.2.2.1 (by sl_whole_mem) y

/-! ## What every point leaves -/

theorem first_not_last {n : ℕ} (h : isFirst n) : ¬isLast n := by unfold isFirst isLast at *; omega

/-- THE ACCUMULATION: what point n leaves — the kind of the point chosen by its pair, a middle or last point run on
    what the point before left in the three running buffers. -/
def stateAt (c : Dev nD) : (n : ℕ) → n < (cfgL (F := F)).N → St F
  | 0, hn => leftA V c ⟨0, hn⟩ (Or.inl (Nat.zero_mod _)) (first_not_last (Or.inl (Nat.zero_mod _)))
  | n + 1, hn =>
    if hf : isFirst (n + 1) then leftA V c ⟨n + 1, hn⟩ hf (first_not_last hf)
    else if hl : isLast (n + 1) then leftC V c ⟨n + 1, hn⟩ hf hl (stateAt c n (Nat.lt_of_succ_lt hn))
    else leftB V c ⟨n + 1, hn⟩ hf hl (stateAt c n (Nat.lt_of_succ_lt hn))

theorem stateAt_first (c : Dev nD) (t : Fin (cfgL (F := F)).N) (hf : isFirst t.val) :
    stateAt V c t.val t.isLt = leftA V c t hf (first_not_last hf) := by
  obtain ⟨n, hn⟩ := t
  cases n with
  | zero => rfl
  | succ n => exact dif_pos hf

theorem stateAt_last (c : Dev nD) (t : Fin (cfgL (F := F)).N) (hf : ¬isFirst t.val) (hl : isLast t.val) :
    stateAt V c t.val t.isLt = leftC V c t hf hl (stateAt V c (t.val - 1) (Nat.lt_of_le_of_lt (Nat.sub_le _ _) t.isLt)) := by
  obtain ⟨n, hn⟩ := t
  cases n with
  | zero => exact absurd (Or.inl (Nat.zero_mod _)) hf
  | succ n => exact (dif_neg hf).trans (dif_pos hl)

theorem stateAt_middle (c : Dev nD) (t : Fin (cfgL (F := F)).N) (hf : ¬isFirst t.val) (hl : ¬isLast t.val) :
    stateAt V c t.val t.isLt = leftB V c t hf hl (stateAt V c (t.val - 1) (Nat.lt_of_le_of_lt (Nat.sub_le _ _) t.isLt)) := by
  obtain ⟨n, hn⟩ := t
  cases n with
  | zero => exact absurd (Or.inl (Nat.zero_mod _)) hf
  | succ n => exact (dif_neg hf).trans (dif_neg hl)

/-! ## The region's invariant -/

/-- The three tables, held whole at their contents: the body reads them and hands them back. -/
abbrev tablesHeld (c : Dev nD) : sProp 𝕄 := iprop(tbPt1 c tbM1_0 (tbl (F := F) 0) ∗ tbPt1 c tbM1_1 (tbl (F := F) 1) ∗ tbPt1 c tbM1_2 (tbl (F := F) 2))
/-- The scoped buffers the body never touches (the other call's staging buffers). -/
abbrev untouched (c : Dev nD) : sProp 𝕄 :=
  Pipeline.scopedRestBut (Ix := Unit) (Name := ℕ) (U := UR sig nD τ) (Lvl := ℕ) (Val := Elt F) spec1 c [cc1_scratch0, cc1_scratch1, cc1_scratch2]

/-- The scoped rest, with the three running buffers as memrefs owned at some contents. -/
theorem scopedRest1_split (c : Dev nD) :
    (Pipeline.scopedRest (Ix := Unit) (Name := ℕ) (U := UR sig nD τ) (Lvl := ℕ) (Val := Elt F) spec1 c : sProp 𝕄)
      = iprop(((∃ d, owns (c : Thread nD τ) scMax fullShare d) ∗ (∃ d, owns (c : Thread nD τ) scDen fullShare d) ∗ (∃ d, owns (c : Thread nD τ) scNum fullShare d)) ∗ untouched (F := F) c) := by
  rw [Pipeline.scopedRest_split_of_list spec1 c [cc1_scratch0, cc1_scratch1, cc1_scratch2] (by decide) (by decide)]
  simp only [bigSepL_cons_cons, bigSepL_singleton, scMax, scDen, scNum, owns_whole]; try rfl

/-- Before point n: before the first point every scoped buffer at anything; afterwards the three running buffers at what
    the point before left. Always beside them: the untouched scoped buffers, the generator register, the tables. -/
def PhiS (c : Dev nD) : (n : ℕ) → n ≤ (cfgL (F := F)).N → sProp 𝕄
  | 0, _ => iprop(((∃ d, owns (c : Thread nD τ) scMax fullShare d) ∗ (∃ d, owns (c : Thread nD τ) scDen fullShare d) ∗ (∃ d, owns (c : Thread nD τ) scNum fullShare d))
      ∗ untouched (F := F) c ∗ (∃ r, prngReg c r) ∗ tablesHeld (F := F) c)
  | n + 1, hn => iprop((owns (c : Thread nD τ) scMax fullShare (stateAt V c n hn).2.1 ∗ owns (c : Thread nD τ) scDen fullShare (stateAt V c n hn).2.2.1 ∗ owns (c : Thread nD τ) scNum fullShare (stateAt V c n hn).2.2.2)
      ∗ untouched (F := F) c ∗ (∃ r, prngReg c r) ∗ tablesHeld (F := F) c)

theorem PhiS_succ (c : Dev nD) (n : ℕ) (hn : n < (cfgL (F := F)).N) :
    PhiS V c (n + 1) hn = iprop((owns (c : Thread nD τ) scMax fullShare (stateAt V c n hn).2.1 ∗ owns (c : Thread nD τ) scDen fullShare (stateAt V c n hn).2.2.1 ∗ owns (c : Thread nD τ) scNum fullShare (stateAt V c n hn).2.2.2)
      ∗ untouched (F := F) c ∗ (∃ r, prngReg c r) ∗ tablesHeld (F := F) c) := rfl

theorem PhiS_pos (c : Dev nD) (n : ℕ) (h : n ≤ (cfgL (F := F)).N) (hz : n ≠ 0) :
    PhiS V c n h = iprop((owns (c : Thread nD τ) scMax fullShare (stateAt V c (n - 1) (by omega)).2.1 ∗ owns (c : Thread nD τ) scDen fullShare (stateAt V c (n - 1) (by omega)).2.2.1 ∗ owns (c : Thread nD τ) scNum fullShare (stateAt V c (n - 1) (by omega)).2.2.2)
      ∗ untouched (F := F) c ∗ (∃ r, prngReg c r) ∗ tablesHeld (F := F) c) := by
  cases n with
  | zero => exact absurd rfl hz
  | succ n => rfl

/-- Whatever the point, the invariant before it yields the running buffers at SOME contents (what a point of the first
    kind needs: it resets them). -/
theorem PhiS_any (c : Dev nD) (n : ℕ) (h : n ≤ (cfgL (F := F)).N) :
    PhiS V c n h ⊢ iprop(((∃ d, owns (c : Thread nD τ) scMax fullShare d) ∗ (∃ d, owns (c : Thread nD τ) scDen fullShare d) ∗ (∃ d, owns (c : Thread nD τ) scNum fullShare d))
      ∗ untouched (F := F) c ∗ (∃ r, prngReg c r) ∗ tablesHeld (F := F) c) := by
  cases n with
  | zero => exact .rfl
  | succ n =>
    rw [PhiS_succ]
    iintro ⟨⟨H0, H1, H2⟩, Hrest⟩
    isplitl [H0 H1 H2]
    · isplitl [H0]; · iexists _; iexact H0
      isplitl [H1]; · iexists _; iexact H1
      iexists _; iexact H2
    iexact Hrest

/-! ## The pipeline's proof data -/

/-- The proof data of the attention pipeline on core c, the region entered at contents V: after the body at point t each
    input window's buffer holds its block, the output window's what the accumulation says. -/
def dat1 (c : Dev nD) : Dat τ (Elt F) Unit ℕ (UR sig nD τ) ℕ (cfgL (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stateAt V c t.val t.isLt).1
  Φ t := PhiS V c t.val (Nat.le_of_lt_succ t.isLt)
  q _ := fullShare
  owed _ := 0

theorem A_eq1 (c : Dev nD) (w : Fin (cfgL (F := F)).W) : (dat1 V c).A w = V c (Pipeline.arrRef spec1 w) := by
  dsimp only [dat1]
theorem after1_0 (c : Dev nD) (t : Fin (cfgL (F := F)).N) : (dat1 V c).after 0 t = iblk1 V c 0 t := by dsimp only [dat1]; try rfl
theorem after1_1 (c : Dev nD) (t : Fin (cfgL (F := F)).N) : (dat1 V c).after 1 t = iblk1 V c 1 t := by dsimp only [dat1]; try rfl
theorem after1_2 (c : Dev nD) (t : Fin (cfgL (F := F)).N) : (dat1 V c).after 2 t = iblk1 V c 2 t := by dsimp only [dat1]; try rfl
theorem after1_3 (c : Dev nD) (t : Fin (cfgL (F := F)).N) : (dat1 V c).after 3 t = (stateAt V c t.val t.isLt).1 := by dsimp only [dat1]; try rfl
theorem Phi_castSucc (c : Dev nD) (t : Fin (cfgL (F := F)).N) : (dat1 V c).Φ t.castSucc = PhiS V c t.val (Nat.le_of_lt t.isLt) := by
  dsimp only [dat1]; simp only [Fin.coe_castSucc]

theorem before1_0 (c : Dev nD) (t : Fin (cfgL (F := F)).N) (d) : (dat1 V c).before 0 t d = iblk1 V c 0 t :=
  before1_0_of V (dat1 V c) (A_eq1 V c 0) (after1_0 V c) t d
theorem before1_1 (c : Dev nD) (t : Fin (cfgL (F := F)).N) (d) : (dat1 V c).before 1 t d = iblk1 V c 1 t :=
  before1_1_of V (dat1 V c) (A_eq1 V c 1) (after1_1 V c) t d
theorem before1_2 (c : Dev nD) (t : Fin (cfgL (F := F)).N) (d) : (dat1 V c).before 2 t d = iblk1 V c 2 t :=
  before1_2_of V (dat1 V c) (A_eq1 V c 2) (after1_2 V c) t d

/-! ## The body obligation -/

/-- Before the body at point t: the invariant, what the core still owes, and each of the four windows' current buffer at
    what it holds on entry. -/
def bodyPre1 (c : Dev nD) (t : Fin (cfgL (F := F)).N) : sProp 𝕄 :=
  iprop((dat1 V c).Φ t.castSucc ∗ (dat1 V c).owesAt () t.castSucc
    ∗ (∃ d, owns (c : Thread nD τ) (stQ t) fullShare ((dat1 V c).before 0 t d))
    ∗ (∃ d, owns (c : Thread nD τ) (stK t) fullShare ((dat1 V c).before 1 t d))
    ∗ (∃ d, owns (c : Thread nD τ) (stV t) fullShare ((dat1 V c).before 2 t d))
    ∗ (∃ d, owns (c : Thread nD τ) (stO t) fullShare ((dat1 V c).before 3 t d)))

/-- After it: the next point's invariant, the same dues, and each buffer at what the point leaves in it (the output
    buffer as it was found wherever the point stores nothing into it). -/
def bodyPost1 (c : Dev nD) (t : Fin (cfgL (F := F)).N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem not_first_pos {n : ℕ} (h : ¬isFirst n) : n ≠ 0 := fun e => h (Or.inl (by rw [e]))

set_option maxHeartbeats 4800000 in
/-- The body at any point. The inputs' buffers hold their blocks; the point's pair says which kind it is; the invariant
    hands the body the three running buffers (at anything for a point of the first kind, at what the point before left
    otherwise) and the tables, and takes the running buffers back at what this point leaves; the output window is idle
    (handed back as found) unless the point is of the last kind, where it is left at the stored quotient. -/
theorem sound_body1 (c : Dev nD) (t : Fin (cfgL (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (stQ t) fullShare ((dat1 V c).after 0 t) from by
    unfold Dat.leavesExact; rw [live1_0 t]; rfl, after1_0]
  rw [show (dat1 V c).leavesExact 1 t = owns (c : Thread nD τ) (stK t) fullShare ((dat1 V c).after 1 t) from by
    unfold Dat.leavesExact; rw [live1_1 t]; rfl, after1_1]
  rw [show (dat1 V c).leavesExact 2 t = owns (c : Thread nD τ) (stV t) fullShare ((dat1 V c).after 2 t) from by
    unfold Dat.leavesExact; rw [live1_2 t]; rfl, after1_2]
  rw [Phi_castSucc]
  by_cases hf : isFirst t.val
  · have hl : ¬isLast t.val := first_not_last hf
    rw [Dat.leavesExact_idle (dat1 V c) 3 t (idleOut t hl) (noFlushOut t hl)]
    rw [stateAt_first V c t hf]
    unfold leftA; dsimp only
    refine (sep_mono (PhiS_any V c t.val _) .rfl).trans ?_
    iintro ⟨⟨⟨HS0, HS1, HS2⟩, Hu, Hg, HT0, HT1, HT2⟩, Ho, ⟨%d0, H0⟩, ⟨%d1, H1⟩, ⟨%d2, H2⟩, ⟨%d3, H3⟩⟩
    iapply ((runA V c t hf hl).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HT0]; · iexact HT0
    isplitl [HT1]; · iexact HT1
    isplitl [HT2]; · iexact HT2
    iintro ⟨H0, H1, H2, H3, ⟨%e0, HS0⟩, ⟨%e1, HS1⟩, ⟨%e2, HS2⟩, HT0, HT1, HT2⟩
    isplitl [HS0 HS1 HS2 Hu Hg HT0 HT1 HT2]
    · isplitl [HS0 HS1 HS2]
      · isplitl [HS0]
        · unfold owns; iexists _; isplitr
          swap; · iexact HS0
          ipureintro; exact View.read_writes_of_cover _ _ _ _ _ (coverA_max V c t hf hl)
        isplitl [HS1]
        · unfold owns; iexists _; isplitr
          swap; · iexact HS1
          ipureintro; exact View.read_writes_of_cover _ _ _ _ _ (coverA_den V c t hf hl)
        · unfold owns; iexists _; isplitr
          swap; · iexact HS2
          ipureintro; exact View.read_writes_of_cover _ _ _ _ _ (coverA_num V c t hf hl)
      isplitl [Hu]; · iexact Hu
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    iexists _; iexact H3
  · have hz : t.val ≠ 0 := not_first_pos hf
    rw [PhiS_pos V c _ _ hz]
    by_cases hl : isLast t.val
    · rw [show (dat1 V c).leavesExact 3 t = owns (c : Thread nD τ) (stO t) fullShare ((dat1 V c).after 3 t) from by
        unfold Dat.leavesExact; rw [liveOut t hl]; rfl, after1_3]
      rw [stateAt_last V c t hf hl]
      unfold leftC; dsimp only
      iintro ⟨⟨⟨HS0, HS1, HS2⟩, Hu, Hg, HT0, HT1, HT2⟩, Ho, ⟨%d0, H0⟩, ⟨%d1, H1⟩, ⟨%d2, H2⟩, ⟨%d3, H3⟩⟩
      iapply ((runC V c t hf hl _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      isplitl [HT2]; · iexact HT2
      iintro ⟨H0, H1, H2, ⟨%e3, H3⟩, ⟨%e0, HS0⟩, ⟨%e1, HS1⟩, ⟨%e2, HS2⟩, HT0, HT1, HT2⟩
      isplitl [HS0 HS1 HS2 Hu Hg HT0 HT1 HT2]
      · isplitl [HS0 HS1 HS2]
        · isplitl [HS0]
          · unfold owns; iexists _; isplitr
            swap; · iexact HS0
            ipureintro; exact View.read_writes_of_cover _ _ _ _ _ (coverC_max V c t hf hl _ _ _)
          isplitl [HS1]
          · unfold owns; iexists _; isplitr
            swap; · iexact HS1
            ipureintro; exact View.read_writes_of_cover _ _ _ _ _ (coverC_den V c t hf hl _ _ _)
          · unfold owns; iexists _; isplitr
            swap; · iexact HS2
            ipureintro; exact View.read_writes_of_cover _ _ _ _ _ (coverC_num V c t hf hl _ _ _)
        isplitl [Hu]; · iexact Hu
        isplitl [Hg]; · iexact Hg
        isplitl [HT0]; · iexact HT0
        isplitl [HT1]; · iexact HT1
        iexact HT2
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_out V c t hf hl _ _ _)
    · rw [Dat.leavesExact_idle (dat1 V c) 3 t (idleOut t hl) (noFlushOut t hl)]
      rw [stateAt_middle V c t hf hl]
      unfold leftB; dsimp only
      iintro ⟨⟨⟨HS0, HS1, HS2⟩, Hu, Hg, HT0, HT1, HT2⟩, Ho, ⟨%d0, H0⟩, ⟨%d1, H1⟩, ⟨%d2, H2⟩, ⟨%d3, H3⟩⟩
      iapply ((runB V c t hf hl _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      isplitl [HT2]; · iexact HT2
      iintro ⟨H0, H1, H2, H3, ⟨%e0, HS0⟩, ⟨%e1, HS1⟩, ⟨%e2, HS2⟩, HT0, HT1, HT2⟩
      isplitl [HS0 HS1 HS2 Hu Hg HT0 HT1 HT2]
      · isplitl [HS0 HS1 HS2]
        · isplitl [HS0]
          · unfold owns; iexists _; isplitr
            swap; · iexact HS0
            ipureintro; exact View.read_writes_of_cover _ _ _ _ _ (coverB_max V c t hf hl _ _ _)
          isplitl [HS1]
          · unfold owns; iexists _; isplitr
            swap; · iexact HS1
            ipureintro; exact View.read_writes_of_cover _ _ _ _ _ (coverB_den V c t hf hl _ _ _)
          · unfold owns; iexists _; isplitr
            swap; · iexact HS2
            ipureintro; exact View.read_writes_of_cover _ _ _ _ _ (coverB_num V c t hf hl _ _ _)
        isplitl [Hu]; · iexact Hu
        isplitl [Hg]; · iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexists _; iexact H3

/-- Hence the obligation holds at each of the 48 points, in the form the launch takes it. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- The tables as the launch holds them are the tables as the invariant carries them. -/
theorem tables_eq (c : Dev nD) :
    (Pipeline.prefHeld (Ix := Unit) (Name := ℕ) (U := UR sig nD τ) (Lvl := ℕ) pre1 c (fun _ => fullShare) (tbl (F := F)) : sProp 𝕄) = tablesHeld (F := F) c := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- What the launch hands the region is the invariant before the first point. -/
theorem hin1 (c : Dev nD) :
    iprop((∃ r, prngReg c r) ∗ Pipeline.prefHeld (Ix := Unit) (Name := ℕ) (U := UR sig nD τ) (Lvl := ℕ) pre1 c (fun _ => fullShare) (tbl (F := F))
        ∗ Pipeline.scopedRest (Ix := Unit) (Name := ℕ) (U := UR sig nD τ) (Lvl := ℕ) (Val := Elt F) spec1 c) ⊢ (dat1 V c).Φ 0 := by
  rw [show (dat1 V c).Φ 0 = PhiS V c 0 (Nat.zero_le _) from rfl, tables_eq, scopedRest1_split]
  show _ ⊢ iprop(((∃ d, owns (c : Thread nD τ) scMax fullShare d) ∗ (∃ d, owns (c : Thread nD τ) scDen fullShare d) ∗ (∃ d, owns (c : Thread nD τ) scNum fullShare d))
      ∗ untouched (F := F) c ∗ (∃ r, prngReg c r) ∗ tablesHeld (F := F) c)
  iintro ⟨Hg, HT, HS, Hu⟩
  isplitl [HS]; · iexact HS
  isplitl [Hu]; · iexact Hu
  isplitl [Hg]; · iexact Hg
  iexact HT

/-- After the last point the invariant gives back the generator register, the tables and the scoped rest. -/
theorem hout1 (c : Dev nD) :
    (dat1 V c).Φ (Fin.last (cfgL (F := F)).N) ⊢ iprop(((∃ r, prngReg c r) ∗ Pipeline.prefHeld (Ix := Unit) (Name := ℕ) (U := UR sig nD τ) (Lvl := ℕ) pre1 c (fun _ => fullShare) (tbl (F := F)))
        ∗ Pipeline.scopedRest (Ix := Unit) (Name := ℕ) (U := UR sig nD τ) (Lvl := ℕ) (Val := Elt F) spec1 c) := by
  rw [show (dat1 V c).Φ (Fin.last (cfgL (F := F)).N) = PhiS V c (cfgL (F := F)).N (Nat.le_refl _) from rfl, tables_eq, scopedRest1_split]
  refine (PhiS_any V c _ _).trans ?_
  iintro ⟨HS, Hu, Hg, HT⟩
  isplitl [Hg HT]
  · isplitl [Hg]; · iexact Hg
    iexact HT
  isplitl [HS]; · iexact HS
  iexact Hu

end Cert.Kernel.Fr1

end
-- ==== Proof.AssembleBits.lean ====
/-
  THE LAUNCH: @main as three segments, and what its result buffer holds at the end.

  @main writes three small constant tables, runs the projection region, then runs the attention region, which reads
  the tables. The contents of every unscoped buffer are followed from the launch through the three segments: after
  the constants, the tables hold them; after the first region, its three product arrays hold what its write-backs
  leave and everything else is as before; after the second region, the result array holds what that region's
  write-backs leave. Each region is entered with its arrays split out of the unscoped buffers and left with them put
  back; the second region also takes the three tables out at entry, keeps them in its invariant while its body reads
  them, and returns them at the exit. The run theorem reads the result buffer and the four arguments off the last
  contents. It is generic in the float interpretation.
-/
import proofs.«175071_j38998303048530_2_alg».proof.Proof.Region0FrameBits
import proofs.«175071_j38998303048530_2_alg».proof.Proof.Region1FrameBits
import proofs.«175071_j38998303048530_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every buffer holds before and after each of the three steps -/

/-- What each buffer of core `c` holds when @main starts: the launch memory. -/
abbrev W0 : Dev nD → Valuation τ sig (Elt F) := fun c b => (s₀ m ρ).mem ((c : Dev nD), b)
/-- The same once the three tables have been filled with their constants; the projection call starts from this. -/
abbrev W1 : Dev nD → Valuation τ sig (Elt F) := fun c => StableHlo.after hostOps0 (W0 m ρ c)
/-- `W1`, with a buffer named by its reference on the core instead of its device-wide name. -/
abbrev V1 : (c : Dev nD) → (b : Ref sig .tc) → Buf (Elt F) ((c : Thread nD τ).loc b) := fun c b => W1 m ρ c b
/-- After the projection call: each of the three product arrays holds the 32 blocks the call stored into it, the
    activations and weights it read are unchanged, and the tables, the result array and all else are as in `W1`. -/
def W2 (c : Dev nD) : Valuation τ sig (Elt F) :=
  Pipeline.withArrays spec0 c (W1 m ρ c) fun w => (Fr0.dat0 (V1 m ρ) c).arrAt w cfg0.N
theorem W2_arr (c : Dev nD) (w : Fin cfg0.W) :
    W2 m ρ c (Proc.devRef .tc (Pipeline.arrRef spec0 w)) = (Fr0.dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- `W2`, with a buffer named by its reference on the core; the attention call starts from this. -/
abbrev V2 : (c : Dev nD) → (b : Ref sig .tc) → Buf (Elt F) ((c : Thread nD τ).loc b) := fun c b => W2 m ρ c b
theorem hF0 (c : Dev nD) (w : Fin cfg0.W) : (Fr0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention call: the result array holds the output tiles the call stored, the three projected arrays
    it read are unchanged, and every other buffer is as in `W2`. -/
def W3 (c : Dev nD) : Valuation τ sig (Elt F) :=
  Pipeline.withArrays spec1 c (W2 m ρ c) fun w => (Fr1.dat1 (V2 m ρ) c).arrAt w (Fr1.cfgL (F := F)).N
theorem W3_arr (c : Dev nD) (w : Fin (Fr1.cfgL (F := F)).W) :
    W3 m ρ c (Proc.devRef .tc (Pipeline.arrRef spec1 w)) = (Fr1.dat1 (V2 m ρ) c).arrAt w (Fr1.cfgL (F := F)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- `W3`, with a buffer named by its reference on the core. -/
abbrev V3 : (c : Dev nD) → (b : Ref sig .tc) → Buf (Elt F) ((c : Thread nD τ).loc b) := fun c b => W3 m ρ c b
theorem hF1 (c : Dev nD) (w : Fin (Fr1.cfgL (F := F)).W) :
    (Fr1.dat1 (V2 m ρ) c).arrAt w (Fr1.cfgL (F := F)).N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What no item writes -/

/-- A buffer the three constants do not write is after them as at launch. -/
theorem W1_of (c : Dev nD) (r : Ref sig .tc) (h : r ∉ hostOps0_W) :
    W1 m ρ c (Proc.devRef .tc r) = m ((c : Thread nD τ).loc r) :=
  StableHlo.after_of_writes_sub hostOps0 _ hostOps0_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((Fr0.dat0 (V1 m ρ) c).arrAt_in 0 rfl _).trans (Fr0.A_eq0 (V1 m ρ) c 0))
    _ = m ((c : Thread nD τ).loc main_arg0) := W1_of m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((Fr0.dat0 (V1 m ρ) c).arrAt_in 1 rfl _).trans (Fr0.A_eq0 (V1 m ρ) c 1))
    _ = m ((c : Thread nD τ).loc main_arg1) := W1_of m ρ c main_arg1 (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((Fr0.dat0 (V1 m ρ) c).arrAt_in 2 rfl _).trans (Fr0.A_eq0 (V1 m ρ) c 2))
    _ = m ((c : Thread nD τ).loc main_arg2) := W1_of m ρ c main_arg2 (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((Fr0.dat0 (V1 m ρ) c).arrAt_in 3 rfl _).trans (Fr0.A_eq0 (V1 m ρ) c 3))
    _ = m ((c : Thread nD τ).loc main_arg3) := W1_of m ρ c main_arg3 (by decide)

/-- The second region finds the three tables at their constants: the first region does not touch them, and the three
    constants before it wrote them. -/
theorem V2_tbl (c : Dev nD) (j : Fin 3) : V2 m ρ c (pre1.ref j) = Fr1.tbl (F := F) j := by
  match j with
  | ⟨0, _⟩ =>
    refine (W2_of_ne m ρ c main_c (by decide)).trans ?_
    show StableHlo.after hostOps0 (W0 m ρ c) (Proc.devRef .tc main_c) = _
    dsimp only [hostOps0]; after_results; rfl
  | ⟨1, _⟩ =>
    refine (W2_of_ne m ρ c main_c_0 (by decide)).trans ?_
    show StableHlo.after hostOps0 (W0 m ρ c) (Proc.devRef .tc main_c_0) = _
    dsimp only [hostOps0]; after_results; rfl
  | ⟨2, _⟩ =>
    refine (W2_of_ne m ρ c main_c_1 (by decide)).trans ?_
    show StableHlo.after hostOps0 (W0 m ρ c) (Proc.devRef .tc main_c_1) = _
    dsimp only [hostOps0]; after_results; rfl

/-! ## Where each call starts from, and what a core carries besides its buffers -/

/-- Which table contents each call is analysed at: the projection call reads no table; the attention call is analysed
    with its three tables holding the constants @main writes. -/
abbrev adm : (p : Fin 2) → (pcfgs (F := F) p).Adm := fun
  | ⟨0, _⟩ => cfg0.toPCfg_adm
  | ⟨1, _⟩ => Fr1.adm1
/-- The projection call is analysed from the contents `V1` (the arguments, and the tables just written); the attention
    call from `V2` (the same with the three projected arrays filled in). -/
def pdats : (p : Fin 2) → (c : Dev nD) → Dat τ (Elt F) Unit ℕ (UR sig nD τ) ℕ (Pipeline.pin (pcfgs (F := F)) adm p) c
  | ⟨0, _⟩ => fun c => Fr0.dat0 (V1 m ρ) c
  | ⟨1, _⟩ => fun c => Fr1.dat1 (V2 m ρ) c
abbrev 𝒱₀ : Variants := Variants.none
/-- Neither call ever waits on another core, so there is no order of waits between cores to keep track of. -/
abbrev L : GSem nD τ sig → Finset Unit := fun _ => ∅
abbrev lv : GSem nD τ sig → Unit → ℕ := fun _ _ => 0
/-- Apart from its buffers a core carries two things from the start of @main to its end: its random-number register,
    on whose value nothing here depends, and the record that it has no outstanding obligation towards any core. -/
abbrev R (c : Dev nD) : sProp 𝕄 := iprop((∃ r, prngReg c r) ∗ ∃ W, owes (c : Thread nD τ) (0 : CellTallies nD τ sig Unit) W)
/-- A list of host operations as one step of @main: started with the unscoped buffers at `W`, it ends with them at the
    operations' results over `W`; the carried state `R` is not touched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A buffer of the core that lives for the whole program (no staging or scratch buffer of a call) is one of the
    buffers whose contents `W0` … `W3` follow. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds when @main returns, the record of having no outstanding obligation aside: the unscoped buffers
    at `W3` (the result array as the attention call filled it, arguments and tables as they were) and the
    random-number register. -/
abbrev Tₙ (c : Dev nD) : sProp 𝕄 := iprop(StableHlo.held (c : Thread nD τ) (Pipeline.ucRefs τ sig) (W3 m ρ c) ∗ ∃ r, prngReg c r)

/-! ## The two calls as steps of @main -/

set_option backward.isDefEq.respectTransparency.types false in
/-- The projection call as a step of @main, from the contents `W1` to `W2`. Of the unscoped buffers it uses seven as
    arrays: the activations and the three weight matrices, which it only reads, and the three product arrays, which
    it fills block by block; the tables and the result array pass by unchanged. It reads no table and waits on
    nothing outside itself; the random-number register is lent to it and handed back. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Fr0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers that are no array of the second region, at the region's entry contents, are the three
    tables at their constants and the rest. -/
theorem rest1_split (c : Dev nD) :
    (Pipeline.unscopedRest (Ix := Unit) (Name := ℕ) (U := UR sig nD τ) (Lvl := ℕ) spec1 c (V2 m ρ c) : sProp 𝕄)
      = iprop(Pipeline.prefHeld (Ix := Unit) (Name := ℕ) (U := UR sig nD τ) (Lvl := ℕ) pre1 c (fun _ => fullShare) (Fr1.tbl (F := F))
          ∗ Pipeline.unscopedRestP (Ix := Unit) (Name := ℕ) (U := UR sig nD τ) (Lvl := ℕ) pre1 spec1 c (V2 m ρ c)) := by
  rw [Pipeline.unscopedRest_split preFacts1 c (V2 m ρ c),
    show (fun k => V2 m ρ c (pre1.ref k)) = Fr1.tbl (F := F) from funext fun k => V2_tbl m ρ c k]

set_option backward.isDefEq.respectTransparency.types false in
/-- The attention call as a step of @main, from the contents `W2` to `W3`. Its arrays are the three projected arrays,
    read tile by tile, and the result array, written one query tile at a time. It also reads the three six-entry
    tables: at entry they are separated from the other unscoped buffers (they hold the constants, by `V2_tbl`), lent
    to the call together with the random-number register, and joined with the four arguments again on return. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (Fr1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (Fr1.tbl (F := F)))
  Z c := Pipeline.unscopedRestP (Ix := Unit) (Name := ℕ) (U := UR sig nD τ) (Lvl := ℕ) pre1 spec1 c (V2 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V2 m ρ c) (Fr1.A_eq1 (V2 m ρ) c)
    rw [Pipeline.unscopedBufs_held] at hsplit
    have hrest := rest1_split m ρ c
    iintro ⟨⟨Hub, Hp, HO⟩, -, -⟩
    ihave H := hsplit $$ Hub
    icases H with ⟨Ha, Hrest⟩
    ihave Hrest' := (Entails.of_eq hrest) $$ Hrest
    icases Hrest' with ⟨HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Fr1.hin1 (V2 m ρ) c
  hout c := by
    rw [Pipeline.ownSems0_none]
    refine (Fr1.hout1 (V2 m ρ) c).trans ?_
    iintro ⟨HY, HS⟩
    isplitl [HY]; · iexact HY
    isplitr; · iempintro
    iexact HS
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V2 m ρ c) (V3 m ρ c) ((pdats m ρ 1 c).arrAt · (Fr1.cfgL (F := F)).N) (hF1 m ρ c) (hrest1 m ρ c)
    rw [Pipeline.unscopedBufs_held] at hjoin
    have hrest := rest1_split m ρ c
    iintro ⟨Ha, HO, ⟨Hp, HT⟩, Hrest⟩
    ihave Hrest' := (Entails.of_eq hrest.symm) $$ [HT Hrest]
    · isplitl [HT]; · iexact HT
      iexact Hrest
    imodintro
    isplitl [Ha Hrest' Hp]
    · isplitl [Ha Hrest']
      · iapply hjoin; isplitl [Ha] <;> iassumption
      iexact Hp
    unfold Pipeline.Dat.owesAt Pipeline.owesWithin
    icases HO with ⟨%W, -, HO⟩; iexists W; iexact HO

/-! ## The three steps in order, and the whole run -/

/-- The program in order: fill the tables, project, attend. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- Unfolded, @main is exactly that: write the three tables, call the projection kernel, call the attention kernel. -/
theorem main_run (c : Dev nD) : main (F := F) c = Pipeline.Seg.run (segs m ρ) := (main_chain c).trans (by chain_rfl)

set_option backward.isDefEq.respectTransparency.types false in
/-- The whole program. Start @main on every core from an arbitrary memory whose semaphore counters are all zero. Under
    a fair schedule it cannot run forever, and when it stops each core's result array holds `W3` at that array (the
    tiles the attention call stored) while the activations and the three weight matrices hold what they held at the
    start. -/
theorem run : θ_run defs (onTc (τ := τ) (main (F := F))) ⟨m, fun _ => 0, ρ⟩ (fun r => ∀ c : Dev nD,
      r.2.mem ((c.tc : Thread nD τ).loc main_v1) = W3 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Kernel.Asm

end
-- ==== Proof.Region0Frame.lean ====
/- REGION 0: the projection kernel on one core.

   The first TensorCore region multiplies one block of 512 rows of the activations (1024 features each) by the three
   weight matrices (1024 x 64 each) and leaves the three products, rounded to the narrow format, in three staging
   buffers. Nothing here depends on the grid point: at every point the body reads four buffers whole and overwrites
   three buffers whole. This module states that fact as a separation-logic triple for the body, packages it as the
   proof data of the region's software pipeline at arbitrary entry contents `V` of the core's buffers, and derives
   the obligation the pipeline's launch theorem asks of a body. It is generic in the float interpretation. -/
import proofs.«175071_j38998303048530_2_alg».proof.Proof.Gen.KernelIdeal.Launch
import proofs.«175071_j38998303048530_2_alg».proof.Proof.Gen.KernelIdeal.Skeleton
import proofs.«175071_j38998303048530_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the core's buffers hold when the region starts; everything below is relative to it
variable (V : (c : Dev nD) → (b : Ref sig .tc) → Buf (Elt F) ((c : Thread nD τ).loc b))

/-! ## Blocks -/

/-- The block of window `w` that point `t` addresses, as a function of the block's own coordinates: the window's
    array, at its entry contents, read through the rectangle the window's index map selects at `t`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The three full-buffer rectangles the body touches -/

/-- all of a 1 x 512 x 1024 buffer (the activations' block) -/
abbrev rAct : Rect S1x512x1024 := Rect.unit (s := S1x512x1024) ![0, 0, 0] S1x512x1024.size inb_S1x512x1024_S1x512x1024_0_0_0
/-- all of a 1024 x 64 buffer (a weight matrix) -/
abbrev rWgt : Rect S1024x64 := Rect.unit (s := S1024x64) ![0, 0] S1024x64.size inb_S1024x64_S1024x64_0_0
/-- all of a 1 x 512 x 64 buffer (a product's block) -/
abbrev rPrd : Rect S1x512x64 := Rect.unit (s := S1x512x64) ![0, 0, 0] S1x512x64.size inb_S1x512x64_S1x512x64_0_0_0

/-! ## The products, as buffer contents

Each output buffer is written once, whole, with the rounded product of the activations' block and one weight matrix;
so its contents afterwards are that one piece, whatever it held before. -/

/-- the first product's buffer after the body: block times the first weight matrix -/
def out0_4 (x0 : Vec F S1x512x1024 .f32) (w : Vec F S1024x64 .f32) : Vec F S1x512x64 .bf16 :=
  View.canon [⟨rPrd, k0_pay2 (View.ld x0 rAct) (View.ld w rWgt)⟩]
/-- the second product's buffer after the body: block times the second weight matrix -/
def out0_5 (x0 : Vec F S1x512x1024 .f32) (w : Vec F S1024x64 .f32) : Vec F S1x512x64 .bf16 :=
  View.canon [⟨rPrd, k0_pay3 (View.ld x0 rAct) (View.ld w rWgt)⟩]
/-- the third product's buffer after the body: block times the third weight matrix -/
def out0_6 (x0 : Vec F S1x512x1024 .f32) (w : Vec F S1024x64 .f32) : Vec F S1x512x64 .bf16 :=
  View.canon [⟨rPrd, k0_pay4 (View.ld x0 rAct) (View.ld w rWgt)⟩]

/-- One write through the full rectangle reaches every cell of a product buffer: the buffer is a single tile of the
    rectangle's size. -/
theorem prd_covered (p : rPrd.shape.Idx → Elt F .bf16) (y : S1x512x64.Idx) :
    ∃ pc ∈ ([⟨rPrd, p⟩] : List (View.Piece (Elt F) S1x512x64 .bf16)), y ∈ pc.1.set :=
  View.cover_of_tiled [⟨rPrd, p⟩] S1x512x64.size (by rfl) y

/-! ## The body as a triple

The body only reads the four input buffers and writes each product buffer once, so its specification is: inputs
unchanged, each product buffer holding the corresponding product of the inputs, the old contents of the product
buffers irrelevant (the body does read them first, but nothing it writes depends on what it found). -/

set_option maxHeartbeats 1000000 in
/-- Started with the activations' buffer holding `x0`, the weight buffers holding `wq`, `wk`, `wv` and the three
    product buffers holding anything, the body ends with the inputs as they were and the products at
    `out0_4 x0 wq`, `out0_5 x0 wk`, `out0_6 x0 wv`. Obtained by running the body's sequence of loads and stores
    symbolically; each product buffer's final contents are identified with the single covering write. -/
theorem sound_kernel0 (c : Dev nD) (E : Set ℕ) (i : grid0.Coords)
    (bx : Memref sig .tc .vmem S1x512x1024 .f32) (hbx : bx.IsWhole)
    (bq : Memref sig .tc .vmem S1024x64 .f32) (hbq : bq.IsWhole)
    (bk : Memref sig .tc .vmem S1024x64 .f32) (hbk : bk.IsWhole)
    (bv : Memref sig .tc .vmem S1024x64 .f32) (hbv : bv.IsWhole)
    (oq : Memref sig .tc .vmem S1x512x64 .bf16) (hoq : oq.IsWhole)
    (ok : Memref sig .tc .vmem S1x512x64 .bf16) (hok : ok.IsWhole)
    (ov : Memref sig .tc .vmem S1x512x64 .bf16) (hov : ov.IsWhole)
    (x0 : Vec F S1x512x1024 .f32) (wq wk wv : Vec F S1024x64 .f32) (K : PUnit → sProp 𝕄) :
    iprop(owns (c : Thread nD τ) bx fullShare x0
        ∗ owns (c : Thread nD τ) bq fullShare wq ∗ owns (c : Thread nD τ) bk fullShare wk ∗ owns (c : Thread nD τ) bv fullShare wv
        ∗ (∃ d, owns (c : Thread nD τ) oq fullShare d) ∗ (∃ d, owns (c : Thread nD τ) ok fullShare d) ∗ (∃ d, owns (c : Thread nD τ) ov fullShare d)
        ∗ (iprop(owns (c : Thread nD τ) bx fullShare x0
            ∗ owns (c : Thread nD τ) bq fullShare wq ∗ owns (c : Thread nD τ) bk fullShare wk ∗ owns (c : Thread nD τ) bv fullShare wv
            ∗ owns (c : Thread nD τ) oq fullShare (out0_4 x0 wq) ∗ owns (c : Thread nD τ) ok fullShare (out0_5 x0 wk)
            ∗ owns (c : Thread nD τ) ov fullShare (out0_6 x0 wv)) -∗ K ⟨⟩))
      ⊢ wp frame (wpE (defs₀ (F := F)) Variants.none c none) E
          (cc0__qkv_kernel i bx hbx bq hbq bk hbk bv hbv oq hoq ok hok ov hov) K := by
  simp only [cc0__qkv_kernel_eq_skeleton]; unfold cc0__qkv_kernel_skel
  unfold owns
  iintro ⟨⟨%fx, %hfx, Hx⟩, ⟨%fq, %hfq, Hq⟩, ⟨%fk, %hfk, Hk⟩, ⟨%fv, %hfv, Hv⟩,
    ⟨%dq, %gq, -, Gq⟩, ⟨%dk, %gk, -, Gk⟩, ⟨%dv, %gv, -, Gv⟩, Hcont⟩
  subst hfx hfq hfk hfv
  sl_exec
  sl_step
  iapply Hcont
  isplitl [Hx]
  · iexists fx; isplitr; · ipureintro; rfl
    iexact Hx
  isplitl [Hq]
  · iexists fq; isplitr; · ipureintro; rfl
    iexact Hq
  isplitl [Hk]
  · iexists fk; isplitr; · ipureintro; rfl
    iexact Hk
  isplitl [Hv]
  · iexists fv; isplitr; · ipureintro; rfl
    iexact Hv
  isplitl [Gq]
  · iexists _; isplitr
    swap; · iexact Gq
    ipureintro
    exact View.read_writes_eq_canon _ _ _ (prd_covered _)
  isplitl [Gk]
  · iexists _; isplitr
    swap; · iexact Gk
    ipureintro
    exact View.read_writes_eq_canon _ _ _ (prd_covered _)
  iexists _; isplitr
  swap; · iexact Gv
  ipureintro
  exact View.read_writes_eq_canon _ _ _ (prd_covered _)

/-! ## What an input window's buffer holds when the body runs

The pipeline copies an input window's block into its staging buffer only at the points where the block index changes
(for the three weight matrices: at the first point only). Since the body never writes an input buffer, the buffer
holds the window's block at every point all the same: where no copy was made, the index is the previous point's, and
so is the block. The four statements below are this fact for windows 0 to 3, for any proof data that reads its arrays
off `V` and declares the input buffers untouched by the body. -/

theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  rw [dat.before_in_eq_fetched 2 rfl (fun _ => rfl) (fun _ _ _ => rfl) hkeep t d]
  unfold Dat.fetched Dat.blockOf iblk0; rw [hA]; try rfl

theorem before0_3_of {c : Dev nD} (dat : Dat τ (Elt F) Unit ℕ (UR sig nD τ) ℕ cfg0 c)
    (hA : dat.A 3 = V c (Pipeline.arrRef spec0 3)) (hafter : ∀ t, dat.after 3 t = iblk0 V c 3 t)
    (t : Fin cfg0.N) (d) : dat.before 3 t d = iblk0 V c 3 t := by
  have hkeep : ∀ t, (cfg0.win 3).cut (cfg0.grid.coords t) (dat.after 3 t) = dat.blockOf 3 t := fun t => by
    rw [hafter]; unfold Dat.blockOf iblk0; rw [hA]; try rfl
  rw [dat.before_in_eq_fetched 3 rfl (fun _ => rfl) (fun _ _ _ => rfl) hkeep t d]
  unfold Dat.fetched Dat.blockOf iblk0; rw [hA]; try rfl

/-! ## The region's proof data -/

/-- The data the pipeline's launch theorem is instantiated with on core `c`. The windows' arrays are at their entry
    contents. After the body at point `t`, an input window's buffer still holds that window's block, and the three
    output windows' buffers hold the products of the activations' block with the first, second and third weight
    matrix. The body needs nothing beyond its buffers, so the invariant is the untouched remainder of the core's
    state, no waits are owed, and every array is held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- the arrays of `dat0` are the entry contents -/
theorem A_eq0 (c : Dev nD) (w : Fin cfg0.W) : (dat0 V c).A w = V c (Pipeline.arrRef spec0 w) := by
  dsimp only [dat0]

/-! `dat0`'s contents after the body, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 2 t) := by dsimp only [dat0]
theorem after0_6 (c : Dev nD) (t : Fin cfg0.N) :
    (dat0 V c).after 6 t = out0_6 (iblk0 V c 0 t) (iblk0 V c 3 t) := by dsimp only [dat0]

/-! For `dat0`, each input buffer holds its window's block whenever the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The obligation at a point

At point `t` the pipeline hands the body the invariant, its record of owed waits and the seven current staging
buffers, the inputs' at their windows' blocks and the outputs' at whatever they hold; it wants them back with the
outputs at the declared products. -/

/-- what the body receives at point `t`, window by window -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- what it gives back -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body called at point `t` takes the one to the other. The input buffers hold the blocks, so the body's
    triple applies with `x0`, `wq`, `wk`, `wv` the four blocks at `t`; the invariant and the owed waits are
    the same before and after (they do not depend on the point) and are carried around the call. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation in the form the launch theorem states it: a conjunction over all windows, which for seven windows
    is the seven-fold conjunction above. -/
theorem body_obligation0 (c : Dev nD) :
    BodyObligation (dat0 (F := F) V c) (defs₀ (F := F)) Variants.none () Set.univ := fun t => by
  rw [bigSep_W0, bigSep_W0]
  exact sound_body0 V c t

end Cert.KernelIdeal.Fr0

end
-- ==== Proof.Region1Runs.lean ====
/-
  The attention kernel's body, one grid point at a time: what the three case runs share.
  A grid point is a (batch, pair) with the pair's query tile, key tile and "last key tile of this query tile"
  flag read from three six-entry tables. The body branches twice on table words: on "the key tile is the
  first one" (the running maximum, denominator and numerator are reset to -inf, 0, 0) and on "the key tile is
  the last one" (the quotient numerator / denominator is stored to the output block). Stated here: the tables
  as the body is handed them, the word the body reads at a point, and the two branch conditions as
  propositions about that word.
-/
import proofs.«175071_j38998303048530_2_alg».proof.Proof.Gen.KernelIdeal.Launch
import proofs.«175071_j38998303048530_2_alg».proof.Proof.Gen.KernelIdeal.Skeleton
import proofs.«175071_j38998303048530_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tables as the body is handed them -/

/-- Each prefetched table as a memref: the whole scalar-memory buffer. -/
abbrev tbM1_0 : Memref sig .tc .smem S6 .i32 := Memref.whole main_c
abbrev htbM1_0 : tbM1_0.IsWhole := Memref.isWhole_whole _
abbrev tbM1_1 : Memref sig .tc .smem S6 .i32 := Memref.whole main_c_0
abbrev htbM1_1 : tbM1_1.IsWhole := Memref.isWhole_whole _
abbrev tbM1_2 : Memref sig .tc .smem S6 .i32 := Memref.whole main_c_1
abbrev htbM1_2 : tbM1_2.IsWhole := Memref.isWhole_whole _

/-- A table's buffer on core c, and that buffer held (whole share) at contents f. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The word a table holds at the grid point's second coordinate: what the body's scalar load reads. -/
abbrev wordAt (c : Dev nD) (M : Memref sig .tc .smem S6 .i32) (xt : TbBuf1 (F := F) c M) (i : grid1.Coords) : Elt F .i32 :=
  M.view.readAt (Elt F) (Rect.unit (s := S6) (k1_off1 i) S1.size (Gen.k1_off1_inb i)).toLoadRect xt (Shape.Idx.first (Gen.numel1_S1.symm ▸ Nat.one_pos))

/-- The body's first branch: the key tile is the first one of its query tile (the running statistics are reset). -/
abbrev condFirst (v3 : BitVec 32) : Prop := (Scalar.cmpi .ne (Scalar.extui (Scalar.cmpi .eq v3 0#32)) 0#32) = 1#1
/-- The body's last branch: the key tile is the last one of its query tile (the quotient is stored). -/
abbrev condLast (v5 : BitVec 32) : Prop := k1_cond2 v5 = 1#1

end Cert.KernelIdeal.Fr1

end
-- ==== Proof.Region1RunA.lean ====
/-
  The attention kernel's body run symbolically on whole staging buffers in ONE of its control cases (first key tile of a query tile, not the last):
  the inputs' buffers at given contents, the tables at given contents, the branch conditions as hypotheses about
  the table words at the point. The witness is, per buffer the case stores into, the list of stores (last first).
-/
import proofs.«175071_j38998303048530_2_alg».proof.Proof.Region1Runs

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The FIRST key tile of a query tile that is not also its last: the three running buffers, whatever they held, are
    reset and then updated with this tile's scores; the output block's buffer is handed back untouched. The pieces
    each running buffer ends with are found by the run. -/
noncomputable def kernelRun1_A (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : condFirst (wordAt c tbM1_1 xt1 i)) (hc1 : ¬condLast (wordAt c tbM1_2 xt2 i))
    (x0 : Vec F S1x1024x64 .bf16) (x1 : Vec F S1x512x64 .bf16) (x2 : Vec F S1x512x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg5 fullShare x0 ∗ owns (c : Thread nD τ) arg6 fullShare x1 ∗ owns (c : Thread nD τ) arg7 fullShare x2
            ∗ owns (c : Thread nD τ) arg8 fullShare xi3
            ∗ (∃ d, owns (c : Thread nD τ) arg9 fullShare d) ∗ (∃ d, owns (c : Thread nD τ) arg10 fullShare d) ∗ (∃ d, owns (c : Thread nD τ) arg11 fullShare d)
            ∗ tbPt1 c tbM1_0 xt0 ∗ tbPt1 c tbM1_1 xt1 ∗ tbPt1 c tbM1_2 xt2
            ∗ (iprop(owns (c : Thread nD τ) arg5 fullShare x0 ∗ owns (c : Thread nD τ) arg6 fullShare x1 ∗ owns (c : Thread nD τ) arg7 fullShare x2
                ∗ owns (c : Thread nD τ) arg8 fullShare xi3
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ tbPt1 c tbM1_0 xt0 ∗ tbPt1 c tbM1_1 xt1 ∗ tbPt1 c tbM1_2 xt2) -∗ K ⟨⟩))
          ⊢ wp frame (wpE (defs₀ (F := F)) Variants.none c none) E (cc1__flash_kernel i tbM1_0 htbM1_0 tbM1_1 htbM1_1 tbM1_2 htbM1_2 arg5 harg5 arg6 harg6 arg7 harg7 arg8 harg8 arg9 harg9 arg10 harg10 arg11 harg11) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3
    sl_exec (disch := first | sl_exact hc0 | sl_exact hc1 | exact hc0 | exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    iexact HT2

end Cert.KernelIdeal.Fr1

end
-- ==== Proof.Region1RunB.lean ====
/-
  The attention kernel's body run symbolically on whole staging buffers in ONE of its control cases (a middle key tile):
  the inputs' buffers at given contents, the tables at given contents, the branch conditions as hypotheses about
  the table words at the point. The witness is, per buffer the case stores into, the list of stores (last first).
-/
import proofs.«175071_j38998303048530_2_alg».proof.Proof.Region1RunA

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A MIDDLE key tile (neither first nor last of its query tile): the three running buffers are read at what the tile
    before left (xs0 the maximum, xs1 the denominator, xs2 the numerator) and overwritten with the updated values; the
    output block's buffer is handed back untouched. -/
noncomputable def kernelRun1_B (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : ¬condFirst (wordAt c tbM1_1 xt1 i)) (hc1 : ¬condLast (wordAt c tbM1_2 xt2 i))
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg5 fullShare x0 ∗ owns (c : Thread nD τ) arg6 fullShare x1 ∗ owns (c : Thread nD τ) arg7 fullShare x2
            ∗ owns (c : Thread nD τ) arg8 fullShare xi3
            ∗ owns (c : Thread nD τ) arg9 fullShare xs0 ∗ owns (c : Thread nD τ) arg10 fullShare xs1 ∗ owns (c : Thread nD τ) arg11 fullShare xs2
            ∗ tbPt1 c tbM1_0 xt0 ∗ tbPt1 c tbM1_1 xt1 ∗ tbPt1 c tbM1_2 xt2
            ∗ (iprop(owns (c : Thread nD τ) arg5 fullShare x0 ∗ owns (c : Thread nD τ) arg6 fullShare x1 ∗ owns (c : Thread nD τ) arg7 fullShare x2
                ∗ owns (c : Thread nD τ) arg8 fullShare xi3
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ tbPt1 c tbM1_0 xt0 ∗ tbPt1 c tbM1_1 xt1 ∗ tbPt1 c tbM1_2 xt2) -∗ K ⟨⟩))
          ⊢ wp frame (wpE (defs₀ (F := F)) Variants.none c none) E (cc1__flash_kernel i tbM1_0 htbM1_0 tbM1_1 htbM1_1 tbM1_2 htbM1_2 arg5 harg5 arg6 harg6 arg7 harg7 arg8 harg8 arg9 harg9 arg10 harg10 arg11 harg11) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, HT0, HT1, HT2, Hk⟩
    obtain rfl := harg5.eq_unread hf0; obtain rfl := harg6.eq_unread hf1; obtain rfl := harg7.eq_unread hf2; obtain rfl := harg8.eq_unread hf3
    obtain rfl := harg9.eq_unread hfs0; obtain rfl := harg10.eq_unread hfs1; obtain rfl := harg11.eq_unread hfs2
    sl_exec (disch := first | sl_exact hc0 | sl_exact hc1 | exact hc0 | exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [HS0]; · iexists _; iexact HS0
    isplitl [HS1]; · iexists _; iexact HS1
    isplitl [HS2]; · iexists _; iexact HS2
    isplitl [HT0]; · iexact HT0
    isplitl [HT1]; · iexact HT1
    iexact HT2

end Cert.KernelIdeal.Fr1

end
-- ==== Proof.Region1RunC.lean ====
/-
  The attention kernel's body run symbolically on whole staging buffers in ONE of its control cases (last key tile of a query tile, not the first):
  the inputs' buffers at given contents, the tables at given contents, the branch conditions as hypotheses about
  the table words at the point. The witness is, per buffer the case stores into, the list of stores (last first).
-/
import proofs.«175071_j38998303048530_2_alg».proof.Proof.Region1RunB

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The LAST key tile of a query tile (and not its first): the three running buffers are read at what the tile before
    left and overwritten, and then the output block's buffer, whatever it held, is stored the quotient of the updated
    numerator by the updated denominator. -/
noncomputable def kernelRun1_C (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : ¬condFirst (wordAt c tbM1_1 xt1 i)) (hc1 : condLast (wordAt c tbM1_2 xt2 i))
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg5 fullShare x0 ∗ owns (c : Thread nD τ) arg6 fullShare x1 ∗ owns (c : Thread nD τ) arg7 fullShare x2
            ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ tbPt1 c tbM1_0 xt0 ∗ tbPt1 c tbM1_1 xt1 ∗ tbPt1 c tbM1_2 xt2
            ∗ (iprop(owns (c : Thread nD τ) arg5 fullShare x0 ∗ owns (c : Thread nD τ) arg6 fullShare x1 ∗ owns (c : Thread nD τ) arg7 fullShare x2
                ∗ (∃ f, arg8.view.loc (c : Thread nD τ) ↦[arg8.view.set]{fullShare} arg8.view.writes (Elt F) f L3)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ tbPt1 c tbM1_0 xt0 ∗ tbPt1 c tbM1_1 xt1 ∗ tbPt1 c tbM1_2 xt2) -∗ K ⟨⟩))
          ⊢ wp frame (wpE (defs₀ (F := F)) Variants.none c none) E (cc1__flash_kernel i tbM1_0 htbM1_0 tbM1_1 htbM1_1 tbM1_2 htbM1_2 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, HT0, HT1, HT2, Hk⟩
    obtain rfl := harg5.eq_unread hf0; obtain rfl := harg6.eq_unread hf1; obtain rfl := harg7.eq_unread hf2
    obtain rfl := harg9.eq_unread hfs0; obtain rfl := harg10.eq_unread hfs1; obtain rfl := harg11.eq_unread hfs2
    sl_exec (disch := first | sl_exact hc0 | sl_exact hc1 | exact hc0 | exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HS0]; · iexists _; iexact HS0
    isplitl [HS1]; · iexists _; iexact HS1
    isplitl [HS2]; · iexists _; iexact HS2
    isplitl [HT0]; · iexact HT0
    isplitl [HT1]; · iexact HT1
    iexact HT2

end Cert.KernelIdeal.Fr1

end
-- ==== Proof.Region1Tables.lean ====
/- REGION 1: the attention kernel's tables and schedule.

   The second TensorCore region runs over a grid of 8 batches times 6 (query tile, key tile) pairs. Which query tile,
   which key tile, and whether the pair is the last one of its query tile are read from three six-entry tables, which
   the program fills with the constants
       query tile   0 0 1 1 1 1
       key tile     0 1 0 1 2 3
       last         0 1 0 0 0 1
   before the region starts. This module fixes the tables at these contents, checks that every block the region then
   addresses lies inside its array, and reads off the schedule: the words the body branches on, and the grid points at
   which each window's block is copied in or written back. It is generic in the float interpretation. -/
import proofs.«175071_j38998303048530_2_alg».proof.Proof.Region1Runs

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tables at their constants -/

/-- The three tables' contents: entry `i` of each is the corresponding constant's entry at `i`'s row-major position. -/
def tbl : pre1.Contents (Elt F) := fun
  | ⟨0, _⟩ => fun i => lit0 (S6.rowMajor i)
  | ⟨1, _⟩ => fun i => lit1 (S6.rowMajor i)
  | ⟨2, _⟩ => fun i => lit2 (S6.rowMajor i)

/-- every query-tile entry is 0 or 1 -/
theorem lit0_le : ∀ x : Fin 6, (lit0 x).toNat ≤ 1 := by decide
/-- every key-tile entry is at most 3 -/
theorem lit1_le : ∀ x : Fin 6, (lit1 x).toNat ≤ 3 := by decide

/-- a grid point's batch coordinate, as the index maps compute it from a 32-bit word, is below 8 -/
theorem batch_lt (i : grid1.Coords) : (BitVec.ofNat 32 (i 0).val).toNat < 8 := by
  have h : (i 0).val < 8 := (i 0).isLt
  rw [BitVec.toNat_ofNat]
  exact lt_of_le_of_lt (Nat.mod_le _ _) h

/-- With the tables at their constants, every block the four windows address lies inside its array, and its transfers
    move whole words: a query or output block is batch `b < 8`, tile `0` or `1` of two tiles of 1024 rows; a key or
    value block is batch `b`, tile `0..3` of four tiles of 512 rows; rows are 64 wide, an even number of narrow
    elements. -/
theorem ok_tbl : ok1 (F := F) tbl := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inl rfl⟩⟩
  · obtain ⟨w, hw, e⟩ : ∃ w : BitVec 32, w.toNat ≤ 1 ∧
        cc1_transform_0 Gen.k1_off1_inb Gen.numel1_S1 (tbl (F := F)) i = ![(BitVec.ofNat 32 (i 0).val).toNat, w.toNat, 0] :=
      ⟨_, lit0_le _, rfl⟩
    have hb := batch_lt i
    rw [e]
    fin_cases a <;> simp [S1x1024x64, S8x2048x64] <;> omega
  · obtain ⟨w, hw, e⟩ : ∃ w : BitVec 32, w.toNat ≤ 3 ∧
        cc1_transform_1 Gen.k1_off1_inb Gen.numel1_S1 (tbl (F := F)) i = ![(BitVec.ofNat 32 (i 0).val).toNat, w.toNat, 0] :=
      ⟨_, lit1_le _, rfl⟩
    have hb := batch_lt i
    rw [e]
    fin_cases a <;> simp [S1x512x64, S8x2048x64] <;> omega
  · obtain ⟨w, hw, e⟩ : ∃ w : BitVec 32, w.toNat ≤ 3 ∧
        cc1_transform_2 Gen.k1_off1_inb Gen.numel1_S1 (tbl (F := F)) i = ![(BitVec.ofNat 32 (i 0).val).toNat, w.toNat, 0] :=
      ⟨_, lit1_le _, rfl⟩
    have hb := batch_lt i
    rw [e]
    fin_cases a <;> simp [S1x512x64, S8x2048x64] <;> omega
  · obtain ⟨w, hw, e⟩ : ∃ w : BitVec 32, w.toNat ≤ 1 ∧
        cc1_transform_3 Gen.k1_off1_inb Gen.numel1_S1 (tbl (F := F)) i = ![(BitVec.ofNat 32 (i 0).val).toNat, w.toNat, 0] :=
      ⟨_, lit0_le _, rfl⟩
    have hb := batch_lt i
    rw [e]
    fin_cases a <;> simp [S1x1024x64, S8x2048x64] <;> omega

/-- the tables, as contents the region may run at -/
abbrev adm1 : (pcfg1 (F := F)).Adm := ⟨tbl, ok_tbl⟩
/-- the region's pipeline at these tables -/
abbrev cfgL : Pipeline.Cfg sig Λ₀ := cfg1 (adm1 (F := F))

/-! ## The words the body and the index maps read

At a grid point with coordinates (batch, pair) the body's scalar loads, and the windows' index maps, read entry
`pair` of each table. -/

/-- position `k` of a six-entry table, as a one-dimensional index -/
def ik (k : Fin 6) : S6.Idx := fun a => match a with | ⟨0, _⟩ => k

/-- its row-major position is `k` -/
theorem rowMajor_ik (k : Fin 6) : S6.rowMajor (ik k) = k := by
  fin_cases k <;> rfl

/-- the pair coordinate of a grid point, as a table position -/
def pr (i : grid1.Coords) : Fin 6 := ⟨(i 1).val, (i 1).isLt⟩

/-- the pair of the `t`-th grid point -/
def pairOf (t : Fin grid1.N) : Fin 6 := ⟨t.val % 6, Nat.mod_lt _ (by decide)⟩

/-- the grid is traversed batch by batch: the second coordinate of point `t` is `t % 6` -/
theorem coords_pair : ∀ t : Fin grid1.N, (grid1.coords t 1).val = t.val % 6 := by decide +kernel
/-- and the first is `t / 6` -/
theorem coords_batch : ∀ t : Fin grid1.N, (grid1.coords t 0).val = t.val / 6 := by decide +kernel

theorem pr_coords (t : Fin grid1.N) : pr (grid1.coords t) = pairOf t := Fin.ext (coords_pair t)

/-- The one element of the length-one rectangle at offset `k` of a six-entry table is the entry at `k`. -/
theorem idx_eq (k : Fin 6) (off : Fin 1 → Nat) (hoff : off 0 = k.val) (inb : ∀ a, off a + S1.size a ≤ S6.size a)
    (h1 : 0 < S1.numel) : (Rect.unit (s := S6) off S1.size inb).idx (Shape.Idx.first h1) = ik k := by
  funext a
  apply Fin.ext
  fin_cases a
  have hz : (Shape.Idx.first h1 (0 : Fin 1)).val = 0 := by
    have hlt := (Shape.Idx.first h1 (0 : Fin 1)).isLt
    have e : S1.size (0 : Fin 1) = 1 := by decide
    omega
  show off 0 + 1 * (Shape.Idx.first h1 (0 : Fin 1)).val = k.val
  rw [hz, hoff]; omega

/-- the offset of the scalar loads at a grid point is its pair coordinate -/
theorem off_pr (i : grid1.Coords) : k1_off1 i 0 = (pr i).val := by
  rw [Gen.k1_off1_eq]; rfl

/-- the query-tile word at a grid point -/
theorem word0_at (c : Dev nD) (i : grid1.Coords) : wordAt (F := F) c tbM1_0 (tbl 0) i = lit0 (pr i) := by
  have h := idx_eq (pr i) (k1_off1 i) (off_pr i) (Gen.k1_off1_inb i) (Gen.numel1_S1.symm ▸ Nat.one_pos)
  show lit0 (S6.rowMajor ((Rect.unit (s := S6) (k1_off1 i) S1.size (Gen.k1_off1_inb i)).idx (Shape.Idx.first _))) = _
  rw [h, rowMajor_ik]
/-- the key-tile word at a grid point -/
theorem word1_at (c : Dev nD) (i : grid1.Coords) : wordAt (F := F) c tbM1_1 (tbl 1) i = lit1 (pr i) := by
  have h := idx_eq (pr i) (k1_off1 i) (off_pr i) (Gen.k1_off1_inb i) (Gen.numel1_S1.symm ▸ Nat.one_pos)
  show lit1 (S6.rowMajor ((Rect.unit (s := S6) (k1_off1 i) S1.size (Gen.k1_off1_inb i)).idx (Shape.Idx.first _))) = _
  rw [h, rowMajor_ik]
/-- the last-pair word at a grid point -/
theorem word2_at (c : Dev nD) (i : grid1.Coords) : wordAt (F := F) c tbM1_2 (tbl 2) i = lit2 (pr i) := by
  have h := idx_eq (pr i) (k1_off1 i) (off_pr i) (Gen.k1_off1_inb i) (Gen.numel1_S1.symm ▸ Nat.one_pos)
  show lit2 (S6.rowMajor ((Rect.unit (s := S6) (k1_off1 i) S1.size (Gen.k1_off1_inb i)).idx (Shape.Idx.first _))) = _
  rw [h, rowMajor_ik]

/-- the same three words at the `t`-th point of the grid -/
theorem word0_eq (c : Dev nD) (t : Fin grid1.N) :
    wordAt (F := F) c tbM1_0 (tbl 0) (grid1.coords t) = lit0 (pairOf t) := by rw [word0_at, pr_coords]
theorem word1_eq (c : Dev nD) (t : Fin grid1.N) :
    wordAt (F := F) c tbM1_1 (tbl 1) (grid1.coords t) = lit1 (pairOf t) := by rw [word1_at, pr_coords]
theorem word2_eq (c : Dev nD) (t : Fin grid1.N) :
    wordAt (F := F) c tbM1_2 (tbl 2) (grid1.coords t) = lit2 (pairOf t) := by rw [word2_at, pr_coords]

/-- the key tile is the first of its query tile exactly at pairs 0 and 2 -/
theorem first_iff : ∀ k : Fin 6, condFirst (lit1 k) ↔ (k.val = 0 ∨ k.val = 2) := by decide
/-- the pair is the last of its query tile exactly at pairs 1 and 5 -/
theorem last_iff : ∀ k : Fin 6, condLast (lit2 k) ↔ (k.val = 1 ∨ k.val = 5) := by decide

/-- The body resets its running statistics exactly at the points whose pair is 0 or 2. -/
theorem hfirst (c : Dev nD) (t : Fin (cfgL (F := F)).N) :
    condFirst (wordAt (F := F) c tbM1_1 (tbl 1) (grid1.coords t)) ↔ (t.val % 6 = 0 ∨ t.val % 6 = 2) := by
  rw [word1_eq c t]; exact first_iff (pairOf t)

/-- The body stores the quotient exactly at the points whose pair is 1 or 5. -/
theorem hlast (c : Dev nD) (t : Fin (cfgL (F := F)).N) :
    condLast (wordAt (F := F) c tbM1_2 (tbl 2) (grid1.coords t)) ↔ (t.val % 6 = 1 ∨ t.val % 6 = 5) := by
  rw [word2_eq c t]; exact last_iff (pairOf t)

/-! ## The index maps in closed form, and the schedule

With the tables fixed, the windows' index maps are explicit functions of the grid point: the query block and the
output block are (batch, query tile of the pair, 0), the key and value blocks (batch, key tile of the pair, 0). The
pipeline copies an input block in at the first point and wherever its index differs from the previous point's, and
writes an output block back at the last point and wherever the next point's index differs. -/

/-- block index of the query and output windows -/
def ixQ (i : grid1.Coords) : Fin 3 → Nat := ![(i 0).val, (lit0 (pr i)).toNat, 0]
/-- block index of the key and value windows -/
def ixK (i : grid1.Coords) : Fin 3 → Nat := ![(i 0).val, (lit1 (pr i)).toNat, 0]

/-- a batch coordinate survives the passage through a 32-bit word -/
theorem batch_val (i : grid1.Coords) : (BitVec.ofNat 32 (i 0).val).toNat = (i 0).val := by
  have h : (i 0).val < 8 := (i 0).isLt
  rw [BitVec.toNat_ofNat]
  exact Nat.mod_eq_of_lt (by omega)

/-- the entry an index map reads from the query-tile table -/
theorem tblAt0 (i : grid1.Coords) :
    (tbl (F := F)).at 0 (Rect.unit (s := S6) (k1_off1 i) S1.size (Gen.k1_off1_inb i)) Gen.numel1_S1 = lit0 (pr i) := by
  have h := idx_eq (pr i) (k1_off1 i) (off_pr i) (Gen.k1_off1_inb i) (Gen.numel1_S1.symm ▸ Nat.one_pos)
  show lit0 (S6.rowMajor ((Rect.unit (s := S6) (k1_off1 i) S1.size (Gen.k1_off1_inb i)).idx (Shape.Idx.first _))) = _
  rw [h, rowMajor_ik]
/-- the entry an index map reads from the key-tile table -/
theorem tblAt1 (i : grid1.Coords) :
    (tbl (F := F)).at 1 (Rect.unit (s := S6) (k1_off1 i) S1.size (Gen.k1_off1_inb i)) Gen.numel1_S1 = lit1 (pr i) := by
  have h := idx_eq (pr i) (k1_off1 i) (off_pr i) (Gen.k1_off1_inb i) (Gen.numel1_S1.symm ▸ Nat.one_pos)
  show lit1 (S6.rowMajor ((Rect.unit (s := S6) (k1_off1 i) S1.size (Gen.k1_off1_inb i)).idx (Shape.Idx.first _))) = _
  rw [h, rowMajor_ik]

theorem tr0_eq : cc1_transform_0 Gen.k1_off1_inb Gen.numel1_S1 (tbl (F := F)) = ixQ := by
  funext i
  show ![(BitVec.ofNat 32 (i 0).val).toNat, ((tbl (F := F)).at 0 (Rect.unit (s := S6) (k1_off1 i) S1.size (Gen.k1_off1_inb i)) Gen.numel1_S1).toNat, (0#32).toNat] = _
  rw [tblAt0, batch_val]; rfl
theorem tr1_eq : cc1_transform_1 Gen.k1_off1_inb Gen.numel1_S1 (tbl (F := F)) = ixK := by
  funext i
  show ![(BitVec.ofNat 32 (i 0).val).toNat, ((tbl (F := F)).at 1 (Rect.unit (s := S6) (k1_off1 i) S1.size (Gen.k1_off1_inb i)) Gen.numel1_S1).toNat, (0#32).toNat] = _
  rw [tblAt1, batch_val]; rfl
theorem tr2_eq : cc1_transform_2 Gen.k1_off1_inb Gen.numel1_S1 (tbl (F := F)) = ixK := by
  funext i
  show ![(BitVec.ofNat 32 (i 0).val).toNat, ((tbl (F := F)).at 1 (Rect.unit (s := S6) (k1_off1 i) S1.size (Gen.k1_off1_inb i)) Gen.numel1_S1).toNat, (0#32).toNat] = _
  rw [tblAt1, batch_val]; rfl
theorem tr3_eq : cc1_transform_3 Gen.k1_off1_inb Gen.numel1_S1 (tbl (F := F)) = ixQ := by
  funext i
  show ![(BitVec.ofNat 32 (i 0).val).toNat, ((tbl (F := F)).at 0 (Rect.unit (s := S6) (k1_off1 i) S1.size (Gen.k1_off1_inb i)) Gen.numel1_S1).toNat, (0#32).toNat] = _
  rw [tblAt0, batch_val]; rfl

/-- the query tile changes when the pair becomes 0 or 2 -/
theorem fetchQ : ∀ t : Fin grid1.N, Pipeline.Window.fetchOf grid1 false ixQ t = true ↔ (t.val % 6 = 0 ∨ t.val % 6 = 2) := by
  decide +kernel
/-- the key tile changes at every step -/
theorem fetchK : ∀ t : Fin grid1.N, Pipeline.Window.fetchOf grid1 false ixK t = true := by
  decide +kernel
/-- an output block is complete when the pair is 1 or 5 -/
theorem flushQ : ∀ t : Fin grid1.N, Pipeline.Window.flushOf grid1 true ixQ t = true ↔ (t.val % 6 = 1 ∨ t.val % 6 = 5) := by
  decide +kernel

/-- the grid has 48 points -/
theorem N_L : (cfgL (F := F)).N = 48 := Gen.N_1

/-- the query block is copied in at the points whose pair is 0 or 2 -/
theorem fetch1_0 (t : Fin (cfgL (F := F)).N) :
    ((cfgL (F := F)).win 0).fetch t = true ↔ (t.val % 6 = 0 ∨ t.val % 6 = 2) := by
  have e : ((cfgL (F := F)).win 0).fetch t
      = Pipeline.Window.fetchOf grid1 false (cc1_transform_0 Gen.k1_off1_inb Gen.numel1_S1 (tbl (F := F))) t := rfl
  rw [e, tr0_eq]; exact fetchQ t
/-- the key block is copied in at every point -/
theorem fetch1_1 (t : Fin (cfgL (F := F)).N) : ((cfgL (F := F)).win 1).fetch t = true := by
  have e : ((cfgL (F := F)).win 1).fetch t
      = Pipeline.Window.fetchOf grid1 false (cc1_transform_1 Gen.k1_off1_inb Gen.numel1_S1 (tbl (F := F))) t := rfl
  rw [e, tr1_eq]; exact fetchK t
/-- the value block is copied in at every point -/
theorem fetch1_2 (t : Fin (cfgL (F := F)).N) : ((cfgL (F := F)).win 2).fetch t = true := by
  have e : ((cfgL (F := F)).win 2).fetch t
      = Pipeline.Window.fetchOf grid1 false (cc1_transform_2 Gen.k1_off1_inb Gen.numel1_S1 (tbl (F := F))) t := rfl
  rw [e, tr2_eq]; exact fetchK t
/-- the output block is written back at the points whose pair is 1 or 5 -/
theorem flush1_3 (t : Fin (cfgL (F := F)).N) :
    ((cfgL (F := F)).win 3).flush t = true ↔ (t.val % 6 = 1 ∨ t.val % 6 = 5) := by
  have e : ((cfgL (F := F)).win 3).flush t
      = Pipeline.Window.flushOf grid1 true (cc1_transform_3 Gen.k1_off1_inb Gen.numel1_S1 (tbl (F := F))) t := rfl
  rw [e, tr3_eq]; exact flushQ t

/-! The body writes the input windows' buffers nowhere and the output window's buffer only where it stores the
    quotient; so the inputs are never idle and the output is idle away from pairs 1 and 5. -/
theorem idle1_0 (i) : (cfgL (F := F)).idle 0 i = false := rfl
theorem idle1_1 (i) : (cfgL (F := F)).idle 1 i = false := rfl
theorem idle1_2 (i) : (cfgL (F := F)).idle 2 i = false := rfl

/-- the last-pair entry the idleness condition reads -/
theorem tblAtD2 (i : grid1.Coords) : (tbl (F := F)).atD 2 (k1_off1 i) = lit2 (pr i) := by
  have hin : ∀ a, k1_off1 i a + 1 ≤ S6.size a := fun a => by
    have := Gen.k1_off1_inb i a
    have e : S1.size a = 1 := by fin_cases a; decide
    omega
  have hx : (fun a => (⟨k1_off1 i a, hin a⟩ : Fin (S6.size a))) = ik (pr i) := by
    funext a; apply Fin.ext; fin_cases a; exact off_pr i
  show (if h : ∀ a, k1_off1 i a + 1 ≤ S6.size a then lit2 (S6.rowMajor fun a => ⟨k1_off1 i a, h a⟩) else default) = _
  rw [dif_pos hin, hx, rowMajor_ik]

theorem notLast_iff : ∀ k : Fin 6, (!(k1_cond2 (lit2 k) == 1#1)) = true ↔ ¬(k.val = 1 ∨ k.val = 5) := by decide

/-- the output window is idle exactly at the points whose pair is neither 1 nor 5 -/
theorem idle1_3 (t : Fin (cfgL (F := F)).N) :
    (cfgL (F := F)).idle 3 (grid1.coords t) = true ↔ ¬(t.val % 6 = 1 ∨ t.val % 6 = 5) := by
  have e : (cfgL (F := F)).idle 3 (grid1.coords t)
      = !(k1_cond2 ((tbl (F := F)).atD 2 (k1_off1 (grid1.coords t))) == 1#1) := rfl
  rw [e, tblAtD2, pr_coords]; exact notLast_iff (pairOf t)

/-! ## Blocks, and what an input window's buffer holds when the body runs

As in the first region: relative to arbitrary entry contents `V` of the core's buffers, the block of window `w` at
point `t` is the window's array read through the rectangle the index map selects there; and since the body never
writes the query, key or value buffers, each holds its window's block at every point, copied in there or not. -/

variable (V : (c : Dev nD) → (b : Ref sig .tc) → Buf (Elt F) ((c : Thread nD τ).loc b))

/-- the block of window `w` that point `t` addresses -/
def iblk1 (c : Dev nD) (w : Fin (cfgL (F := F)).W) (t : Fin (cfgL (F := F)).N) :
    (((cfgL (F := F)).win w).xblock ((cfgL (F := F)).grid.coords t)).Idx → Elt F ((cfgL (F := F)).win w).elt :=
  (((cfgL (F := F)).win w).blk t).view.read (Elt F) (V c (Pipeline.arrRef spec1 w))

theorem before1_0_of {c : Dev nD} (dat : Dat τ (Elt F) Unit ℕ (UR sig nD τ) ℕ (cfgL (F := F)) c)
    (hA : dat.A 0 = V c (Pipeline.arrRef spec1 0)) (hafter : ∀ t, dat.after 0 t = iblk1 V c 0 t)
    (t : Fin (cfgL (F := F)).N) (d) : dat.before 0 t d = iblk1 V c 0 t := by
  have hkeep : ∀ t, ((cfgL (F := F)).win 0).cut ((cfgL (F := F)).grid.coords t) (dat.after 0 t) = dat.blockOf 0 t :=
    fun t => by rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before1_1_of {c : Dev nD} (dat : Dat τ (Elt F) Unit ℕ (UR sig nD τ) ℕ (cfgL (F := F)) c)
    (hA : dat.A 1 = V c (Pipeline.arrRef spec1 1)) (hafter : ∀ t, dat.after 1 t = iblk1 V c 1 t)
    (t : Fin (cfgL (F := F)).N) (d) : dat.before 1 t d = iblk1 V c 1 t := by
  have hkeep : ∀ t, ((cfgL (F := F)).win 1).cut ((cfgL (F := F)).grid.coords t) (dat.after 1 t) = dat.blockOf 1 t :=
    fun t => by rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before1_2_of {c : Dev nD} (dat : Dat τ (Elt F) Unit ℕ (UR sig nD τ) ℕ (cfgL (F := F)) c)
    (hA : dat.A 2 = V c (Pipeline.arrRef spec1 2)) (hafter : ∀ t, dat.after 2 t = iblk1 V c 2 t)
    (t : Fin (cfgL (F := F)).N) (d) : dat.before 2 t d = iblk1 V c 2 t := by
  have hkeep : ∀ t, ((cfgL (F := F)).win 2).cut ((cfgL (F := F)).grid.coords t) (dat.after 2 t) = dat.blockOf 2 t :=
    fun t => by rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

end Cert.KernelIdeal.Fr1

end
-- ==== Proof.Region1Frame.lean ====
/-
  The attention kernel's region, point by point: what its output block and its three running buffers (row maximum,
  denominator, numerator) hold after each grid point, the region's invariant, and the body's obligation at every point.
  The 48 grid points are 8 batches times 6 (query tile, key tile) pairs; within a batch the pairs are, in order,
  (0,0) (0,1) (1,0) (1,1) (1,2) (1,3). A pair's point is of one of three kinds, read off the tables:
    first  — the key tile is the first of its query tile (pairs 0 and 2): the running buffers are reset, then updated;
    middle — pairs 3 and 4: the running buffers are updated from what the point before left;
    last   — pairs 1 and 5: updated likewise, and the output block is stored the quotient numerator / denominator.
  The running buffers are carried from a point to the next inside the region's invariant, beside the three tables
  (which the body only reads) and the scoped buffers the body never touches.
-/
import proofs.«175071_j38998303048530_2_alg».proof.Proof.Region1RunC
import proofs.«175071_j38998303048530_2_alg».proof.Proof.Region1Tables

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Where the windows are idle, in the forms the obligation uses -/

theorem live1_0 (t : Fin (cfgL (F := F)).N) : (cfgL (F := F)).idle 0 (grid1.coords t) = false := idle1_0 _
theorem live1_1 (t : Fin (cfgL (F := F)).N) : (cfgL (F := F)).idle 1 (grid1.coords t) = false := idle1_1 _
theorem live1_2 (t : Fin (cfgL (F := F)).N) : (cfgL (F := F)).idle 2 (grid1.coords t) = false := idle1_2 _
/-- The output window is idle, and not written back, at every point that is not the last of its query tile. -/
theorem idleOut (t : Fin (cfgL (F := F)).N) (hl : ¬(t.val % 6 = 1 ∨ t.val % 6 = 5)) : (cfgL (F := F)).idle 3 (grid1.coords t) = true := (idle1_3 t).mpr hl
theorem noFlushOut (t : Fin (cfgL (F := F)).N) (hl : ¬(t.val % 6 = 1 ∨ t.val % 6 = 5)) : ((cfgL (F := F)).win 3).flush t = false :=
  Bool.eq_false_iff.mpr fun h => hl ((flush1_3 t).mp h)
theorem liveOut (t : Fin (cfgL (F := F)).N) (hl : t.val % 6 = 1 ∨ t.val % 6 = 5) : (cfgL (F := F)).idle 3 (grid1.coords t) = false :=
  Bool.eq_false_iff.mpr fun h => (idle1_3 t).mp h hl

/-! ## The memrefs the pipeline calls the body with -/

abbrev stQ (t : Fin (cfgL (F := F)).N) : Memref sig .tc .vmem S1x1024x64 .bf16 := spec1_0.stage ((cfgL (F := F)).slots t 0)
abbrev hstQ (t : Fin (cfgL (F := F)).N) : (stQ (F := F) t).IsWhole := hstage1_0 (((cfgL (F := F)).slots t 0).cast nbuf1_0)
abbrev stK (t : Fin (cfgL (F := F)).N) : Memref sig .tc .vmem S1x512x64 .bf16 := spec1_1.stage ((cfgL (F := F)).slots t 1)
abbrev hstK (t : Fin (cfgL (F := F)).N) : (stK (F := F) t).IsWhole := hstage1_1 (((cfgL (F := F)).slots t 1).cast nbuf1_1)
abbrev stV (t : Fin (cfgL (F := F)).N) : Memref sig .tc .vmem S1x512x64 .bf16 := spec1_2.stage ((cfgL (F := F)).slots t 2)
abbrev hstV (t : Fin (cfgL (F := F)).N) : (stV (F := F) t).IsWhole := hstage1_2 (((cfgL (F := F)).slots t 2).cast nbuf1_2)
abbrev stO (t : Fin (cfgL (F := F)).N) : Memref sig .tc .vmem S1x1024x64 .f32 := spec1_3.stage ((cfgL (F := F)).slots t 3)
abbrev hstO (t : Fin (cfgL (F := F)).N) : (stO (F := F) t).IsWhole := hstage1_3 (((cfgL (F := F)).slots t 3).cast nbuf1_3)
/-- The three running buffers: the row maximum, the denominator, the numerator. -/
abbrev scMax : Memref sig .tc .vmem S1024x1 .f32 := Memref.whole cc1_scratch0
abbrev scDen : Memref sig .tc .vmem S1024x1 .f32 := Memref.whole cc1_scratch1
abbrev scNum : Memref sig .tc .vmem S1024x64 .f32 := Memref.whole cc1_scratch2
/-- The output block's contents are written as a read through this view: once the stores cover the block, a read through
    any whole view of the block's shape returns the same values. -/
abbrev viewO : View sig .tc .vmem S1x1024x64 .f32 := (Memref.whole cc1_stg3_0 : Memref sig .tc .vmem S1x1024x64 .f32).view

/-- The body as the pipeline calls it at point t. -/
abbrev bodyAt1 (t : Fin (cfgL (F := F)).N) : Prog (TpuEff nD τ sig (Elt F) Λ₀ .tc) PUnit :=
  cc1__flash_kernel (grid1.coords t) tbM1_0 htbM1_0 tbM1_1 htbM1_1 tbM1_2 htbM1_2 (stQ t) (hstQ t) (stK t) (hstK t) (stV t) (hstV t) (stO t) (hstO t)
    scMax (Memref.isWhole_whole _) scDen (Memref.isWhole_whole _) scNum (Memref.isWhole_whole _)

/-! ## The kinds of point -/

/-- A point is of the first kind when its pair is 0 or 2, of the last kind when its pair is 1 or 5. -/
abbrev isFirst (n : ℕ) : Prop := n % 6 = 0 ∨ n % 6 = 2
abbrev isLast (n : ℕ) : Prop := n % 6 = 1 ∨ n % 6 = 5

/-- What a point leaves: the output block's buffer, then the maximum, the denominator and the numerator. -/
abbrev St (F : FTy → Type) : Type := Vec F S1x1024x64 .f32 × Vec F S1024x1 .f32 × Vec F S1024x1 .f32 × Vec F S1024x64 .f32

/-! ## The three runs at a point of the grid -/

abbrev runA (c : Dev nD) (t : Fin (cfgL (F := F)).N) (hf : isFirst t.val) (hl : ¬isLast t.val) :=
  kernelRun1_A (F := F) c (grid1.coords t) (stQ t) (hstQ t) (stK t) (hstK t) (stV t) (hstV t) (stO t) (hstO t) scMax (Memref.isWhole_whole _) scDen (Memref.isWhole_whole _) scNum (Memref.isWhole_whole _)
    (tbl 0) (tbl 1) (tbl 2) ((hfirst c t).mpr hf) (fun h => hl ((hlast c t).mp h)) (iblk1 V c 0 t) (iblk1 V c 1 t) (iblk1 V c 2 t)
abbrev runB (c : Dev nD) (t : Fin (cfgL (F := F)).N) (hf : ¬isFirst t.val) (hl : ¬isLast t.val) (xm : Vec F S1024x1 .f32) (xd : Vec F S1024x1 .f32) (xn : Vec F S1024x64 .f32) :=
  kernelRun1_B (F := F) c (grid1.coords t) (stQ t) (hstQ t) (stK t) (hstK t) (stV t) (hstV t) (stO t) (hstO t) scMax (Memref.isWhole_whole _) scDen (Memref.isWhole_whole _) scNum (Memref.isWhole_whole _)
    (tbl 0) (tbl 1) (tbl 2) (fun h => hf ((hfirst c t).mp h)) (fun h => hl ((hlast c t).mp h)) (iblk1 V c 0 t) (iblk1 V c 1 t) (iblk1 V c 2 t) xm xd xn
abbrev runC (c : Dev nD) (t : Fin (cfgL (F := F)).N) (hf : ¬isFirst t.val) (hl : isLast t.val) (xm : Vec F S1024x1 .f32) (xd : Vec F S1024x1 .f32) (xn : Vec F S1024x64 .f32) :=
  kernelRun1_C (F := F) c (grid1.coords t) (stQ t) (hstQ t) (stK t) (hstK t) (stV t) (hstV t) (stO t) (hstO t) scMax (Memref.isWhole_whole _) scDen (Memref.isWhole_whole _) scNum (Memref.isWhole_whole _)
    (tbl 0) (tbl 1) (tbl 2) (fun h => hf ((hfirst c t).mp h)) ((hlast c t).mpr hl) (iblk1 V c 0 t) (iblk1 V c 1 t) (iblk1 V c 2 t) xm xd xn

/-- A buffer's stores read back over arbitrary earlier contents. -/
abbrev readBack {S : Shape} {e : EltTy} (W : View sig .tc .vmem S e) (L : List (View.Piece (Elt F) S e)) : Vec F S e :=
  W.read (Elt F) (W.writes (Elt F) W.junk L)

/-- What a point of the first kind leaves (its output component is never consulted: the window is idle there). -/
def leftA (c : Dev nD) (t : Fin (cfgL (F := F)).N) (hf : isFirst t.val) (hl : ¬isLast t.val) : St F :=
  (viewO.read (Elt F) viewO.junk, readBack scMax.view (runA V c t hf hl).1, readBack scDen.view (runA V c t hf hl).2.1, readBack scNum.view (runA V c t hf hl).2.2.1)
def leftB (c : Dev nD) (t : Fin (cfgL (F := F)).N) (hf : ¬isFirst t.val) (hl : ¬isLast t.val) (p : St F) : St F :=
  (viewO.read (Elt F) viewO.junk, readBack scMax.view (runB V c t hf hl p.2.1 p.2.2.1 p.2.2.2).1, readBack scDen.view (runB V c t hf hl p.2.1 p.2.2.1 p.2.2.2).2.1, readBack scNum.view (runB V c t hf hl p.2.1 p.2.2.1 p.2.2.2).2.2.1)
def leftC (c : Dev nD) (t : Fin (cfgL (F := F)).N) (hf : ¬isFirst t.val) (hl : isLast t.val) (p : St F) : St F :=
  (readBack viewO (runC V c t hf hl p.2.1 p.2.2.1 p.2.2.2).1, readBack scMax.view (runC V c t hf hl p.2.1 p.2.2.1 p.2.2.2).2.1, readBack scDen.view (runC V c t hf hl p.2.1 p.2.2.1 p.2.2.2).2.2.1, readBack scNum.view (runC V c t hf hl p.2.1 p.2.2.1 p.2.2.2).2.2.2.1)

/-! ## The stores of each run cover the buffer they are made into -/

theorem coverA_max (c : Dev nD) (t : Fin (cfgL (F := F)).N) (hf : isFirst t.val) (hl : ¬isLast t.val) (y : S1024x1.Idx) : ∃ pc ∈ (runA V c t hf hl).1, y ∈ pc.1.set :=
  View.cover_of_wholeMem (runA V c t hf hl).1 (by sl_whole_mem) y
theorem coverA_den (c : Dev nD) (t : Fin (cfgL (F := F)).N) (hf : isFirst t.val) (hl : ¬isLast t.val) (y : S1024x1.Idx) : ∃ pc ∈ (runA V c t hf hl).2.1, y ∈ pc.1.set :=
  View.cover_of_wholeMem (runA V c t hf hl).2.1 (by sl_whole_mem) y
theorem coverA_num (c : Dev nD) (t : Fin (cfgL (F := F)).N) (hf : isFirst t.val) (hl : ¬isLast t.val) (y : S1024x64.Idx) : ∃ pc ∈ (runA V c t hf hl).2.2.1, y ∈ pc.1.set :=
  View.cover_of_wholeMem (runA V c t hf hl).2.2.1 (by sl_whole_mem) y

theorem coverB_max (c : Dev nD) (t : Fin (cfgL (F := F)).N) (hf : ¬isFirst t.val) (hl : ¬isLast t.val) (xm xd : Vec F S1024x1 .f32) (xn : Vec F S1024x64 .f32) (y : S1024x1.Idx) : ∃ pc ∈ (runB V c t hf hl xm xd xn).1, y ∈ pc.1.set :=
  View.cover_of_wholeMem (runB V c t hf hl xm xd xn).1 (by sl_whole_mem) y
theorem coverB_den (c : Dev nD) (t : Fin (cfgL (F := F)).N) (hf : ¬isFirst t.val) (hl : ¬isLast t.val) (xm xd : Vec F S1024x1 .f32) (xn : Vec F S1024x64 .f32) (y : S1024x1.Idx) : ∃ pc ∈ (runB V c t hf hl xm xd xn).2.1, y ∈ pc.1.set :=
  View.cover_of_wholeMem (runB V c t hf hl xm xd xn).2.1 (by sl_whole_mem) y
theorem coverB_num (c : Dev nD) (t : Fin (cfgL (F := F)).N) (hf : ¬isFirst t.val) (hl : ¬isLast t.val) (xm xd : Vec F S1024x1 .f32) (xn : Vec F S1024x64 .f32) (y : S1024x64.Idx) : ∃ pc ∈ (runB V c t hf hl xm xd xn).2.2.1, y ∈ pc.1.set :=
  View.cover_of_wholeMem (runB V c t hf hl xm xd xn).2.2.1 (by sl_whole_mem) y
theorem coverC_out (c : Dev nD) (t : Fin (cfgL (F := F)).N) (hf : ¬isFirst t.val) (hl : isLast t.val) (xm xd : Vec F S1024x1 .f32) (xn : Vec F S1024x64 .f32) (y : S1x1024x64.Idx) : ∃ pc ∈ (runC V c t hf hl xm xd xn).1, y ∈ pc.1.set :=
  View.cover_of_wholeMem (runC V c t hf hl xm xd xn).1 (by sl_whole_mem) y
theorem coverC_max (c : Dev nD) (t : Fin (cfgL (F := F)).N) (hf : ¬isFirst t.val) (hl : isLast t.val) (xm xd : Vec F S1024x1 .f32) (xn : Vec F S1024x64 .f32) (y : S1024x1.Idx) : ∃ pc ∈ (runC V c t hf hl xm xd xn).2.1, y ∈ pc.1.set :=
  View.cover_of_wholeMem (runC V c t hf hl xm xd xn).2.1 (by sl_whole_mem) y
theorem coverC_den (c : Dev nD) (t : Fin (cfgL (F := F)).N) (hf : ¬isFirst t.val) (hl : isLast t.val) (xm xd : Vec F S1024x1 .f32) (xn : Vec F S1024x64 .f32) (y : S1024x1.Idx) : ∃ pc ∈ (runC V c t hf hl xm xd xn).2.2.1, y ∈ pc.1.set :=
  View.cover_of_wholeMem (runC V c t hf hl xm xd xn).2.2.1 (by sl_whole_mem) y
theorem coverC_num (c : Dev nD) (t : Fin (cfgL (F := F)).N) (hf : ¬isFirst t.val) (hl : isLast t.val) (xm xd : Vec F S1024x1 .f32) (xn : Vec F S1024x64 .f32) (y : S1024x64.Idx) : ∃ pc ∈ (runC V c t hf hl xm xd xn).2.2.2.1, y ∈ pc.1.set :=
  View.cover_of_wholeMem (runC V c t hf hl xm xd xn).2.2.2.1 (by sl_whole_mem) y

/-! ## What every point leaves -/

theorem first_not_last {n : ℕ} (h : isFirst n) : ¬isLast n := by unfold isFirst isLast at *; omega

/-- THE ACCUMULATION: what point n leaves — the kind of the point chosen by its pair, a middle or last point run on
    what the point before left in the three running buffers. -/
def stateAt (c : Dev nD) : (n : ℕ) → n < (cfgL (F := F)).N → St F
  | 0, hn => leftA V c ⟨0, hn⟩ (Or.inl (Nat.zero_mod _)) (first_not_last (Or.inl (Nat.zero_mod _)))
  | n + 1, hn =>
    if hf : isFirst (n + 1) then leftA V c ⟨n + 1, hn⟩ hf (first_not_last hf)
    else if hl : isLast (n + 1) then leftC V c ⟨n + 1, hn⟩ hf hl (stateAt c n (Nat.lt_of_succ_lt hn))
    else leftB V c ⟨n + 1, hn⟩ hf hl (stateAt c n (Nat.lt_of_succ_lt hn))

theorem stateAt_first (c : Dev nD) (t : Fin (cfgL (F := F)).N) (hf : isFirst t.val) :
    stateAt V c t.val t.isLt = leftA V c t hf (first_not_last hf) := by
  obtain ⟨n, hn⟩ := t
  cases n with
  | zero => rfl
  | succ n => exact dif_pos hf

theorem stateAt_last (c : Dev nD) (t : Fin (cfgL (F := F)).N) (hf : ¬isFirst t.val) (hl : isLast t.val) :
    stateAt V c t.val t.isLt = leftC V c t hf hl (stateAt V c (t.val - 1) (Nat.lt_of_le_of_lt (Nat.sub_le _ _) t.isLt)) := by
  obtain ⟨n, hn⟩ := t
  cases n with
  | zero => exact absurd (Or.inl (Nat.zero_mod _)) hf
  | succ n => exact (dif_neg hf).trans (dif_pos hl)

theorem stateAt_middle (c : Dev nD) (t : Fin (cfgL (F := F)).N) (hf : ¬isFirst t.val) (hl : ¬isLast t.val) :
    stateAt V c t.val t.isLt = leftB V c t hf hl (stateAt V c (t.val - 1) (Nat.lt_of_le_of_lt (Nat.sub_le _ _) t.isLt)) := by
  obtain ⟨n, hn⟩ := t
  cases n with
  | zero => exact absurd (Or.inl (Nat.zero_mod _)) hf
  | succ n => exact (dif_neg hf).trans (dif_neg hl)

/-! ## The region's invariant -/

/-- The three tables, held whole at their contents: the body reads them and hands them back. -/
abbrev tablesHeld (c : Dev nD) : sProp 𝕄 := iprop(tbPt1 c tbM1_0 (tbl (F := F) 0) ∗ tbPt1 c tbM1_1 (tbl (F := F) 1) ∗ tbPt1 c tbM1_2 (tbl (F := F) 2))
/-- The scoped buffers the body never touches (the other call's staging buffers). -/
abbrev untouched (c : Dev nD) : sProp 𝕄 :=
  Pipeline.scopedRestBut (Ix := Unit) (Name := ℕ) (U := UR sig nD τ) (Lvl := ℕ) (Val := Elt F) spec1 c [cc1_scratch0, cc1_scratch1, cc1_scratch2]

/-- The scoped rest, with the three running buffers as memrefs owned at some contents. -/
theorem scopedRest1_split (c : Dev nD) :
    (Pipeline.scopedRest (Ix := Unit) (Name := ℕ) (U := UR sig nD τ) (Lvl := ℕ) (Val := Elt F) spec1 c : sProp 𝕄)
      = iprop(((∃ d, owns (c : Thread nD τ) scMax fullShare d) ∗ (∃ d, owns (c : Thread nD τ) scDen fullShare d) ∗ (∃ d, owns (c : Thread nD τ) scNum fullShare d)) ∗ untouched (F := F) c) := by
  rw [Pipeline.scopedRest_split_of_list spec1 c [cc1_scratch0, cc1_scratch1, cc1_scratch2] (by decide) (by decide)]
  simp only [bigSepL_cons_cons, bigSepL_singleton, scMax, scDen, scNum, owns_whole]; try rfl

/-- Before point n: before the first point every scoped buffer at anything; afterwards the three running buffers at what
    the point before left. Always beside them: the untouched scoped buffers, the generator register, the tables. -/
def PhiS (c : Dev nD) : (n : ℕ) → n ≤ (cfgL (F := F)).N → sProp 𝕄
  | 0, _ => iprop(((∃ d, owns (c : Thread nD τ) scMax fullShare d) ∗ (∃ d, owns (c : Thread nD τ) scDen fullShare d) ∗ (∃ d, owns (c : Thread nD τ) scNum fullShare d))
      ∗ untouched (F := F) c ∗ (∃ r, prngReg c r) ∗ tablesHeld (F := F) c)
  | n + 1, hn => iprop((owns (c : Thread nD τ) scMax fullShare (stateAt V c n hn).2.1 ∗ owns (c : Thread nD τ) scDen fullShare (stateAt V c n hn).2.2.1 ∗ owns (c : Thread nD τ) scNum fullShare (stateAt V c n hn).2.2.2)
      ∗ untouched (F := F) c ∗ (∃ r, prngReg c r) ∗ tablesHeld (F := F) c)

theorem PhiS_succ (c : Dev nD) (n : ℕ) (hn : n < (cfgL (F := F)).N) :
    PhiS V c (n + 1) hn = iprop((owns (c : Thread nD τ) scMax fullShare (stateAt V c n hn).2.1 ∗ owns (c : Thread nD τ) scDen fullShare (stateAt V c n hn).2.2.1 ∗ owns (c : Thread nD τ) scNum fullShare (stateAt V c n hn).2.2.2)
      ∗ untouched (F := F) c ∗ (∃ r, prngReg c r) ∗ tablesHeld (F := F) c) := rfl

theorem PhiS_pos (c : Dev nD) (n : ℕ) (h : n ≤ (cfgL (F := F)).N) (hz : n ≠ 0) :
    PhiS V c n h = iprop((owns (c : Thread nD τ) scMax fullShare (stateAt V c (n - 1) (by omega)).2.1 ∗ owns (c : Thread nD τ) scDen fullShare (stateAt V c (n - 1) (by omega)).2.2.1 ∗ owns (c : Thread nD τ) scNum fullShare (stateAt V c (n - 1) (by omega)).2.2.2)
      ∗ untouched (F := F) c ∗ (∃ r, prngReg c r) ∗ tablesHeld (F := F) c) := by
  cases n with
  | zero => exact absurd rfl hz
  | succ n => rfl

/-- Whatever the point, the invariant before it yields the running buffers at SOME contents (what a point of the first
    kind needs: it resets them). -/
theorem PhiS_any (c : Dev nD) (n : ℕ) (h : n ≤ (cfgL (F := F)).N) :
    PhiS V c n h ⊢ iprop(((∃ d, owns (c : Thread nD τ) scMax fullShare d) ∗ (∃ d, owns (c : Thread nD τ) scDen fullShare d) ∗ (∃ d, owns (c : Thread nD τ) scNum fullShare d))
      ∗ untouched (F := F) c ∗ (∃ r, prngReg c r) ∗ tablesHeld (F := F) c) := by
  cases n with
  | zero => exact .rfl
  | succ n =>
    rw [PhiS_succ]
    iintro ⟨⟨H0, H1, H2⟩, Hrest⟩
    isplitl [H0 H1 H2]
    · isplitl [H0]; · iexists _; iexact H0
      isplitl [H1]; · iexists _; iexact H1
      iexists _; iexact H2
    iexact Hrest

/-! ## The pipeline's proof data -/

/-- The proof data of the attention pipeline on core c, the region entered at contents V: after the body at point t each
    input window's buffer holds its block, the output window's what the accumulation says. -/
def dat1 (c : Dev nD) : Dat τ (Elt F) Unit ℕ (UR sig nD τ) ℕ (cfgL (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stateAt V c t.val t.isLt).1
  Φ t := PhiS V c t.val (Nat.le_of_lt_succ t.isLt)
  q _ := fullShare
  owed _ := 0

theorem A_eq1 (c : Dev nD) (w : Fin (cfgL (F := F)).W) : (dat1 V c).A w = V c (Pipeline.arrRef spec1 w) := by
  dsimp only [dat1]
theorem after1_0 (c : Dev nD) (t : Fin (cfgL (F := F)).N) : (dat1 V c).after 0 t = iblk1 V c 0 t := by dsimp only [dat1]; try rfl
theorem after1_1 (c : Dev nD) (t : Fin (cfgL (F := F)).N) : (dat1 V c).after 1 t = iblk1 V c 1 t := by dsimp only [dat1]; try rfl
theorem after1_2 (c : Dev nD) (t : Fin (cfgL (F := F)).N) : (dat1 V c).after 2 t = iblk1 V c 2 t := by dsimp only [dat1]; try rfl
theorem after1_3 (c : Dev nD) (t : Fin (cfgL (F := F)).N) : (dat1 V c).after 3 t = (stateAt V c t.val t.isLt).1 := by dsimp only [dat1]; try rfl
theorem Phi_castSucc (c : Dev nD) (t : Fin (cfgL (F := F)).N) : (dat1 V c).Φ t.castSucc = PhiS V c t.val (Nat.le_of_lt t.isLt) := by
  dsimp only [dat1]; simp only [Fin.coe_castSucc]

theorem before1_0 (c : Dev nD) (t : Fin (cfgL (F := F)).N) (d) : (dat1 V c).before 0 t d = iblk1 V c 0 t :=
  before1_0_of V (dat1 V c) (A_eq1 V c 0) (after1_0 V c) t d
theorem before1_1 (c : Dev nD) (t : Fin (cfgL (F := F)).N) (d) : (dat1 V c).before 1 t d = iblk1 V c 1 t :=
  before1_1_of V (dat1 V c) (A_eq1 V c 1) (after1_1 V c) t d
theorem before1_2 (c : Dev nD) (t : Fin (cfgL (F := F)).N) (d) : (dat1 V c).before 2 t d = iblk1 V c 2 t :=
  before1_2_of V (dat1 V c) (A_eq1 V c 2) (after1_2 V c) t d

/-! ## The body obligation -/

/-- Before the body at point t: the invariant, what the core still owes, and each of the four windows' current buffer at
    what it holds on entry. -/
def bodyPre1 (c : Dev nD) (t : Fin (cfgL (F := F)).N) : sProp 𝕄 :=
  iprop((dat1 V c).Φ t.castSucc ∗ (dat1 V c).owesAt () t.castSucc
    ∗ (∃ d, owns (c : Thread nD τ) (stQ t) fullShare ((dat1 V c).before 0 t d))
    ∗ (∃ d, owns (c : Thread nD τ) (stK t) fullShare ((dat1 V c).before 1 t d))
    ∗ (∃ d, owns (c : Thread nD τ) (stV t) fullShare ((dat1 V c).before 2 t d))
    ∗ (∃ d, owns (c : Thread nD τ) (stO t) fullShare ((dat1 V c).before 3 t d)))

/-- After it: the next point's invariant, the same dues, and each buffer at what the point leaves in it (the output
    buffer as it was found wherever the point stores nothing into it). -/
def bodyPost1 (c : Dev nD) (t : Fin (cfgL (F := F)).N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem not_first_pos {n : ℕ} (h : ¬isFirst n) : n ≠ 0 := fun e => h (Or.inl (by rw [e]))

set_option maxHeartbeats 4800000 in
/-- The body at any point. The inputs' buffers hold their blocks; the point's pair says which kind it is; the invariant
    hands the body the three running buffers (at anything for a point of the first kind, at what the point before left
    otherwise) and the tables, and takes the running buffers back at what this point leaves; the output window is idle
    (handed back as found) unless the point is of the last kind, where it is left at the stored quotient. -/
theorem sound_body1 (c : Dev nD) (t : Fin (cfgL (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (stQ t) fullShare ((dat1 V c).after 0 t) from by
    unfold Dat.leavesExact; rw [live1_0 t]; rfl, after1_0]
  rw [show (dat1 V c).leavesExact 1 t = owns (c : Thread nD τ) (stK t) fullShare ((dat1 V c).after 1 t) from by
    unfold Dat.leavesExact; rw [live1_1 t]; rfl, after1_1]
  rw [show (dat1 V c).leavesExact 2 t = owns (c : Thread nD τ) (stV t) fullShare ((dat1 V c).after 2 t) from by
    unfold Dat.leavesExact; rw [live1_2 t]; rfl, after1_2]
  rw [Phi_castSucc]
  by_cases hf : isFirst t.val
  · have hl : ¬isLast t.val := first_not_last hf
    rw [Dat.leavesExact_idle (dat1 V c) 3 t (idleOut t hl) (noFlushOut t hl)]
    rw [stateAt_first V c t hf]
    unfold leftA; dsimp only
    refine (sep_mono (PhiS_any V c t.val _) .rfl).trans ?_
    iintro ⟨⟨⟨HS0, HS1, HS2⟩, Hu, Hg, HT0, HT1, HT2⟩, Ho, ⟨%d0, H0⟩, ⟨%d1, H1⟩, ⟨%d2, H2⟩, ⟨%d3, H3⟩⟩
    iapply ((runA V c t hf hl).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HT0]; · iexact HT0
    isplitl [HT1]; · iexact HT1
    isplitl [HT2]; · iexact HT2
    iintro ⟨H0, H1, H2, H3, ⟨%e0, HS0⟩, ⟨%e1, HS1⟩, ⟨%e2, HS2⟩, HT0, HT1, HT2⟩
    isplitl [HS0 HS1 HS2 Hu Hg HT0 HT1 HT2]
    · isplitl [HS0 HS1 HS2]
      · isplitl [HS0]
        · unfold owns; iexists _; isplitr
          swap; · iexact HS0
          ipureintro; exact View.read_writes_of_cover _ _ _ _ _ (coverA_max V c t hf hl)
        isplitl [HS1]
        · unfold owns; iexists _; isplitr
          swap; · iexact HS1
          ipureintro; exact View.read_writes_of_cover _ _ _ _ _ (coverA_den V c t hf hl)
        · unfold owns; iexists _; isplitr
          swap; · iexact HS2
          ipureintro; exact View.read_writes_of_cover _ _ _ _ _ (coverA_num V c t hf hl)
      isplitl [Hu]; · iexact Hu
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    iexists _; iexact H3
  · have hz : t.val ≠ 0 := not_first_pos hf
    rw [PhiS_pos V c _ _ hz]
    by_cases hl : isLast t.val
    · rw [show (dat1 V c).leavesExact 3 t = owns (c : Thread nD τ) (stO t) fullShare ((dat1 V c).after 3 t) from by
        unfold Dat.leavesExact; rw [liveOut t hl]; rfl, after1_3]
      rw [stateAt_last V c t hf hl]
      unfold leftC; dsimp only
      iintro ⟨⟨⟨HS0, HS1, HS2⟩, Hu, Hg, HT0, HT1, HT2⟩, Ho, ⟨%d0, H0⟩, ⟨%d1, H1⟩, ⟨%d2, H2⟩, ⟨%d3, H3⟩⟩
      iapply ((runC V c t hf hl _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      isplitl [HT2]; · iexact HT2
      iintro ⟨H0, H1, H2, ⟨%e3, H3⟩, ⟨%e0, HS0⟩, ⟨%e1, HS1⟩, ⟨%e2, HS2⟩, HT0, HT1, HT2⟩
      isplitl [HS0 HS1 HS2 Hu Hg HT0 HT1 HT2]
      · isplitl [HS0 HS1 HS2]
        · isplitl [HS0]
          · unfold owns; iexists _; isplitr
            swap; · iexact HS0
            ipureintro; exact View.read_writes_of_cover _ _ _ _ _ (coverC_max V c t hf hl _ _ _)
          isplitl [HS1]
          · unfold owns; iexists _; isplitr
            swap; · iexact HS1
            ipureintro; exact View.read_writes_of_cover _ _ _ _ _ (coverC_den V c t hf hl _ _ _)
          · unfold owns; iexists _; isplitr
            swap; · iexact HS2
            ipureintro; exact View.read_writes_of_cover _ _ _ _ _ (coverC_num V c t hf hl _ _ _)
        isplitl [Hu]; · iexact Hu
        isplitl [Hg]; · iexact Hg
        isplitl [HT0]; · iexact HT0
        isplitl [HT1]; · iexact HT1
        iexact HT2
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_out V c t hf hl _ _ _)
    · rw [Dat.leavesExact_idle (dat1 V c) 3 t (idleOut t hl) (noFlushOut t hl)]
      rw [stateAt_middle V c t hf hl]
      unfold leftB; dsimp only
      iintro ⟨⟨⟨HS0, HS1, HS2⟩, Hu, Hg, HT0, HT1, HT2⟩, Ho, ⟨%d0, H0⟩, ⟨%d1, H1⟩, ⟨%d2, H2⟩, ⟨%d3, H3⟩⟩
      iapply ((runB V c t hf hl _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      isplitl [HT2]; · iexact HT2
      iintro ⟨H0, H1, H2, H3, ⟨%e0, HS0⟩, ⟨%e1, HS1⟩, ⟨%e2, HS2⟩, HT0, HT1, HT2⟩
      isplitl [HS0 HS1 HS2 Hu Hg HT0 HT1 HT2]
      · isplitl [HS0 HS1 HS2]
        · isplitl [HS0]
          · unfold owns; iexists _; isplitr
            swap; · iexact HS0
            ipureintro; exact View.read_writes_of_cover _ _ _ _ _ (coverB_max V c t hf hl _ _ _)
          isplitl [HS1]
          · unfold owns; iexists _; isplitr
            swap; · iexact HS1
            ipureintro; exact View.read_writes_of_cover _ _ _ _ _ (coverB_den V c t hf hl _ _ _)
          · unfold owns; iexists _; isplitr
            swap; · iexact HS2
            ipureintro; exact View.read_writes_of_cover _ _ _ _ _ (coverB_num V c t hf hl _ _ _)
        isplitl [Hu]; · iexact Hu
        isplitl [Hg]; · iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexists _; iexact H3

/-- Hence the obligation holds at each of the 48 points, in the form the launch takes it. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- The tables as the launch holds them are the tables as the invariant carries them. -/
theorem tables_eq (c : Dev nD) :
    (Pipeline.prefHeld (Ix := Unit) (Name := ℕ) (U := UR sig nD τ) (Lvl := ℕ) pre1 c (fun _ => fullShare) (tbl (F := F)) : sProp 𝕄) = tablesHeld (F := F) c := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- What the launch hands the region is the invariant before the first point. -/
theorem hin1 (c : Dev nD) :
    iprop((∃ r, prngReg c r) ∗ Pipeline.prefHeld (Ix := Unit) (Name := ℕ) (U := UR sig nD τ) (Lvl := ℕ) pre1 c (fun _ => fullShare) (tbl (F := F))
        ∗ Pipeline.scopedRest (Ix := Unit) (Name := ℕ) (U := UR sig nD τ) (Lvl := ℕ) (Val := Elt F) spec1 c) ⊢ (dat1 V c).Φ 0 := by
  rw [show (dat1 V c).Φ 0 = PhiS V c 0 (Nat.zero_le _) from rfl, tables_eq, scopedRest1_split]
  show _ ⊢ iprop(((∃ d, owns (c : Thread nD τ) scMax fullShare d) ∗ (∃ d, owns (c : Thread nD τ) scDen fullShare d) ∗ (∃ d, owns (c : Thread nD τ) scNum fullShare d))
      ∗ untouched (F := F) c ∗ (∃ r, prngReg c r) ∗ tablesHeld (F := F) c)
  iintro ⟨Hg, HT, HS, Hu⟩
  isplitl [HS]; · iexact HS
  isplitl [Hu]; · iexact Hu
  isplitl [Hg]; · iexact Hg
  iexact HT

/-- After the last point the invariant gives back the generator register, the tables and the scoped rest. -/
theorem hout1 (c : Dev nD) :
    (dat1 V c).Φ (Fin.last (cfgL (F := F)).N) ⊢ iprop(((∃ r, prngReg c r) ∗ Pipeline.prefHeld (Ix := Unit) (Name := ℕ) (U := UR sig nD τ) (Lvl := ℕ) pre1 c (fun _ => fullShare) (tbl (F := F)))
        ∗ Pipeline.scopedRest (Ix := Unit) (Name := ℕ) (U := UR sig nD τ) (Lvl := ℕ) (Val := Elt F) spec1 c) := by
  rw [show (dat1 V c).Φ (Fin.last (cfgL (F := F)).N) = PhiS V c (cfgL (F := F)).N (Nat.le_refl _) from rfl, tables_eq, scopedRest1_split]
  refine (PhiS_any V c _ _).trans ?_
  iintro ⟨HS, Hu, Hg, HT⟩
  isplitl [Hg HT]
  · isplitl [Hg]; · iexact Hg
    iexact HT
  isplitl [HS]; · iexact HS
  iexact Hu

end Cert.KernelIdeal.Fr1

end
-- ==== Proof.Assemble.lean ====
/-
  THE LAUNCH: @main as three segments, and what its result buffer holds at the end.

  @main writes three small constant tables, runs the projection region, then runs the attention region, which reads
  the tables. The contents of every unscoped buffer are followed from the launch through the three segments: after
  the constants, the tables hold them; after the first region, its three product arrays hold what its write-backs
  leave and everything else is as before; after the second region, the result array holds what that region's
  write-backs leave. Each region is entered with its arrays split out of the unscoped buffers and left with them put
  back; the second region also takes the three tables out at entry, keeps them in its invariant while its body reads
  them, and returns them at the exit. The run theorem reads the result buffer and the four arguments off the last
  contents. It is generic in the float interpretation.
-/
import proofs.«175071_j38998303048530_2_alg».proof.Proof.Region0Frame
import proofs.«175071_j38998303048530_2_alg».proof.Proof.Region1Frame
import proofs.«175071_j38998303048530_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What every buffer holds before and after each of the three steps -/

/-- What each buffer of core `c` holds when @main starts: the launch memory. -/
abbrev W0 : Dev nD → Valuation τ sig (Elt F) := fun c b => (s₀ m ρ).mem ((c : Dev nD), b)
/-- The same once the three tables have been filled with their constants; the projection call starts from this. -/
abbrev W1 : Dev nD → Valuation τ sig (Elt F) := fun c => StableHlo.after hostOps0 (W0 m ρ c)
/-- `W1`, with a buffer named by its reference on the core instead of its device-wide name. -/
abbrev V1 : (c : Dev nD) → (b : Ref sig .tc) → Buf (Elt F) ((c : Thread nD τ).loc b) := fun c b => W1 m ρ c b
/-- After the projection call: each of the three product arrays holds the 32 blocks the call stored into it, the
    activations and weights it read are unchanged, and the tables, the result array and all else are as in `W1`. -/
def W2 (c : Dev nD) : Valuation τ sig (Elt F) :=
  Pipeline.withArrays spec0 c (W1 m ρ c) fun w => (Fr0.dat0 (V1 m ρ) c).arrAt w cfg0.N
theorem W2_arr (c : Dev nD) (w : Fin cfg0.W) :
    W2 m ρ c (Proc.devRef .tc (Pipeline.arrRef spec0 w)) = (Fr0.dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- `W2`, with a buffer named by its reference on the core; the attention call starts from this. -/
abbrev V2 : (c : Dev nD) → (b : Ref sig .tc) → Buf (Elt F) ((c : Thread nD τ).loc b) := fun c b => W2 m ρ c b
theorem hF0 (c : Dev nD) (w : Fin cfg0.W) : (Fr0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention call: the result array holds the output tiles the call stored, the three projected arrays
    it read are unchanged, and every other buffer is as in `W2`. -/
def W3 (c : Dev nD) : Valuation τ sig (Elt F) :=
  Pipeline.withArrays spec1 c (W2 m ρ c) fun w => (Fr1.dat1 (V2 m ρ) c).arrAt w (Fr1.cfgL (F := F)).N
theorem W3_arr (c : Dev nD) (w : Fin (Fr1.cfgL (F := F)).W) :
    W3 m ρ c (Proc.devRef .tc (Pipeline.arrRef spec1 w)) = (Fr1.dat1 (V2 m ρ) c).arrAt w (Fr1.cfgL (F := F)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- `W3`, with a buffer named by its reference on the core. -/
abbrev V3 : (c : Dev nD) → (b : Ref sig .tc) → Buf (Elt F) ((c : Thread nD τ).loc b) := fun c b => W3 m ρ c b
theorem hF1 (c : Dev nD) (w : Fin (Fr1.cfgL (F := F)).W) :
    (Fr1.dat1 (V2 m ρ) c).arrAt w (Fr1.cfgL (F := F)).N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What no item writes -/

/-- A buffer the three constants do not write is after them as at launch. -/
theorem W1_of (c : Dev nD) (r : Ref sig .tc) (h : r ∉ hostOps0_W) :
    W1 m ρ c (Proc.devRef .tc r) = m ((c : Thread nD τ).loc r) :=
  StableHlo.after_of_writes_sub hostOps0 _ hostOps0_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((Fr0.dat0 (V1 m ρ) c).arrAt_in 0 rfl _).trans (Fr0.A_eq0 (V1 m ρ) c 0))
    _ = m ((c : Thread nD τ).loc main_arg0) := W1_of m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((Fr0.dat0 (V1 m ρ) c).arrAt_in 1 rfl _).trans (Fr0.A_eq0 (V1 m ρ) c 1))
    _ = m ((c : Thread nD τ).loc main_arg1) := W1_of m ρ c main_arg1 (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((Fr0.dat0 (V1 m ρ) c).arrAt_in 2 rfl _).trans (Fr0.A_eq0 (V1 m ρ) c 2))
    _ = m ((c : Thread nD τ).loc main_arg2) := W1_of m ρ c main_arg2 (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((Fr0.dat0 (V1 m ρ) c).arrAt_in 3 rfl _).trans (Fr0.A_eq0 (V1 m ρ) c 3))
    _ = m ((c : Thread nD τ).loc main_arg3) := W1_of m ρ c main_arg3 (by decide)

/-- The second region finds the three tables at their constants: the first region does not touch them, and the three
    constants before it wrote them. -/
theorem V2_tbl (c : Dev nD) (j : Fin 3) : V2 m ρ c (pre1.ref j) = Fr1.tbl (F := F) j := by
  match j with
  | ⟨0, _⟩ =>
    refine (W2_of_ne m ρ c main_c (by decide)).trans ?_
    show StableHlo.after hostOps0 (W0 m ρ c) (Proc.devRef .tc main_c) = _
    dsimp only [hostOps0]; after_results; rfl
  | ⟨1, _⟩ =>
    refine (W2_of_ne m ρ c main_c_0 (by decide)).trans ?_
    show StableHlo.after hostOps0 (W0 m ρ c) (Proc.devRef .tc main_c_0) = _
    dsimp only [hostOps0]; after_results; rfl
  | ⟨2, _⟩ =>
    refine (W2_of_ne m ρ c main_c_1 (by decide)).trans ?_
    show StableHlo.after hostOps0 (W0 m ρ c) (Proc.devRef .tc main_c_1) = _
    dsimp only [hostOps0]; after_results; rfl

/-! ## Where each call starts from, and what a core carries besides its buffers -/

/-- Which table contents each call is analysed at: the projection call reads no table; the attention call is analysed
    with its three tables holding the constants @main writes. -/
abbrev adm : (p : Fin 2) → (pcfgs (F := F) p).Adm := fun
  | ⟨0, _⟩ => cfg0.toPCfg_adm
  | ⟨1, _⟩ => Fr1.adm1
/-- The projection call is analysed from the contents `V1` (the arguments, and the tables just written); the attention
    call from `V2` (the same with the three projected arrays filled in). -/
def pdats : (p : Fin 2) → (c : Dev nD) → Dat τ (Elt F) Unit ℕ (UR sig nD τ) ℕ (Pipeline.pin (pcfgs (F := F)) adm p) c
  | ⟨0, _⟩ => fun c => Fr0.dat0 (V1 m ρ) c
  | ⟨1, _⟩ => fun c => Fr1.dat1 (V2 m ρ) c
abbrev 𝒱₀ : Variants := Variants.none
/-- Neither call ever waits on another core, so there is no order of waits between cores to keep track of. -/
abbrev L : GSem nD τ sig → Finset Unit := fun _ => ∅
abbrev lv : GSem nD τ sig → Unit → ℕ := fun _ _ => 0
/-- Apart from its buffers a core carries two things from the start of @main to its end: its random-number register,
    on whose value nothing here depends, and the record that it has no outstanding obligation towards any core. -/
abbrev R (c : Dev nD) : sProp 𝕄 := iprop((∃ r, prngReg c r) ∗ ∃ W, owes (c : Thread nD τ) (0 : CellTallies nD τ sig Unit) W)
/-- A list of host operations as one step of @main: started with the unscoped buffers at `W`, it ends with them at the
    operations' results over `W`; the carried state `R` is not touched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A buffer of the core that lives for the whole program (no staging or scratch buffer of a call) is one of the
    buffers whose contents `W0` … `W3` follow. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds when @main returns, the record of having no outstanding obligation aside: the unscoped buffers
    at `W3` (the result array as the attention call filled it, arguments and tables as they were) and the
    random-number register. -/
abbrev Tₙ (c : Dev nD) : sProp 𝕄 := iprop(StableHlo.held (c : Thread nD τ) (Pipeline.ucRefs τ sig) (W3 m ρ c) ∗ ∃ r, prngReg c r)

/-! ## The two calls as steps of @main -/

set_option backward.isDefEq.respectTransparency.types false in
/-- The projection call as a step of @main, from the contents `W1` to `W2`. Of the unscoped buffers it uses seven as
    arrays: the activations and the three weight matrices, which it only reads, and the three product arrays, which
    it fills block by block; the tables and the result array pass by unchanged. It reads no table and waits on
    nothing outside itself; the random-number register is lent to it and handed back. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Fr0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers that are no array of the second region, at the region's entry contents, are the three
    tables at their constants and the rest. -/
theorem rest1_split (c : Dev nD) :
    (Pipeline.unscopedRest (Ix := Unit) (Name := ℕ) (U := UR sig nD τ) (Lvl := ℕ) spec1 c (V2 m ρ c) : sProp 𝕄)
      = iprop(Pipeline.prefHeld (Ix := Unit) (Name := ℕ) (U := UR sig nD τ) (Lvl := ℕ) pre1 c (fun _ => fullShare) (Fr1.tbl (F := F))
          ∗ Pipeline.unscopedRestP (Ix := Unit) (Name := ℕ) (U := UR sig nD τ) (Lvl := ℕ) pre1 spec1 c (V2 m ρ c)) := by
  rw [Pipeline.unscopedRest_split preFacts1 c (V2 m ρ c),
    show (fun k => V2 m ρ c (pre1.ref k)) = Fr1.tbl (F := F) from funext fun k => V2_tbl m ρ c k]

set_option backward.isDefEq.respectTransparency.types false in
/-- The attention call as a step of @main, from the contents `W2` to `W3`. Its arrays are the three projected arrays,
    read tile by tile, and the result array, written one query tile at a time. It also reads the three six-entry
    tables: at entry they are separated from the other unscoped buffers (they hold the constants, by `V2_tbl`), lent
    to the call together with the random-number register, and joined with the four arguments again on return. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (Fr1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (Fr1.tbl (F := F)))
  Z c := Pipeline.unscopedRestP (Ix := Unit) (Name := ℕ) (U := UR sig nD τ) (Lvl := ℕ) pre1 spec1 c (V2 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V2 m ρ c) (Fr1.A_eq1 (V2 m ρ) c)
    rw [Pipeline.unscopedBufs_held] at hsplit
    have hrest := rest1_split m ρ c
    iintro ⟨⟨Hub, Hp, HO⟩, -, -⟩
    ihave H := hsplit $$ Hub
    icases H with ⟨Ha, Hrest⟩
    ihave Hrest' := (Entails.of_eq hrest) $$ Hrest
    icases Hrest' with ⟨HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Fr1.hin1 (V2 m ρ) c
  hout c := by
    rw [Pipeline.ownSems0_none]
    refine (Fr1.hout1 (V2 m ρ) c).trans ?_
    iintro ⟨HY, HS⟩
    isplitl [HY]; · iexact HY
    isplitr; · iempintro
    iexact HS
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V2 m ρ c) (V3 m ρ c) ((pdats m ρ 1 c).arrAt · (Fr1.cfgL (F := F)).N) (hF1 m ρ c) (hrest1 m ρ c)
    rw [Pipeline.unscopedBufs_held] at hjoin
    have hrest := rest1_split m ρ c
    iintro ⟨Ha, HO, ⟨Hp, HT⟩, Hrest⟩
    ihave Hrest' := (Entails.of_eq hrest.symm) $$ [HT Hrest]
    · isplitl [HT]; · iexact HT
      iexact Hrest
    imodintro
    isplitl [Ha Hrest' Hp]
    · isplitl [Ha Hrest']
      · iapply hjoin; isplitl [Ha] <;> iassumption
      iexact Hp
    unfold Pipeline.Dat.owesAt Pipeline.owesWithin
    icases HO with ⟨%W, -, HO⟩; iexists W; iexact HO

/-! ## The three steps in order, and the whole run -/

/-- The program in order: fill the tables, project, attend. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- Unfolded, @main is exactly that: write the three tables, call the projection kernel, call the attention kernel. -/
theorem main_run (c : Dev nD) : main (F := F) c = Pipeline.Seg.run (segs m ρ) := (main_chain c).trans (by chain_rfl)

set_option backward.isDefEq.respectTransparency.types false in
/-- The whole program. Start @main on every core from an arbitrary memory whose semaphore counters are all zero. Under
    a fair schedule it cannot run forever, and when it stops each core's result array holds `W3` at that array (the
    tiles the attention call stored) while the activations and the three weight matrices hold what they held at the
    start. -/
theorem run : θ_run defs (onTc (τ := τ) (main (F := F))) ⟨m, fun _ => 0, ρ⟩ (fun r => ∀ c : Dev nD,
      r.2.mem ((c.tc : Thread nD τ).loc main_v1) = W3 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Asm

end
-- ==== Proof.Spec.lean ====
/-
  The mathematical specification of causal single-head attention with learned projections, stated over the
  extended reals, index by index. No program is imported: both the reference and the kernel are proved
  equal to the one function `G` defined here.

  For an input `x : [8, 2048, 1024]` and weights `wq, wk, wv : [1024, 64]`:
    q = x · wq,  k = x · wk,  v = x · wv                       (contraction over the 1024 features)
    score b r j = (∑ h, q[b,r,h] · k[b,j,h]) · (1/32)           (the scale is kept as its float word)
    sm b r j    = score b r j  if j ≤ r,  else ⊥                (the causal mask: −∞ above the diagonal)
    rowMax b r  = max ⊥ (the maximum over j of sm b r j, taken from ⊥)
    denom b r   = 0 + ∑ j, exp (sm b r j − rowMax b r)
    out[b,r,h]  = ∑ j, (exp (sm b r j − rowMax b r) / denom b r) · v[b,j,h].
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The input's shape, [8, 2048, 1024]. -/
abbrev SX : Shape := ⟨3, ![8, 2048, 1024]⟩
/-- A projection weight's shape, [1024, 64]. -/
abbrev SW : Shape := ⟨2, ![1024, 64]⟩
/-- The shape of a projected array and of the result, [8, 2048, 64]. -/
abbrev SO : Shape := ⟨3, ![8, 2048, 64]⟩

/-- The word of negative infinity denotes the bottom of the extended reals. -/
theorem ofBits_neg_inf : Ideal.ofBits .f32 0xFF800000#32 = (⊥ : EReal) := by
  simp [Ideal.ofBits, Ideal.ieee]

/-- A projection: entry (b, t, h) is the inner product of row (b, t) of `x` with column `h` of `w`. -/
def proj (x : SX.Idx → EReal) (w : SW.Idx → EReal) : SO.Idx → EReal :=
  fun i => ∑ c : Fin 1024, x (ix3 (i 0 : Fin 8) (i 1 : Fin 2048) c) * w (ix2 c (i 2 : Fin 64))

theorem proj_apply (x : SX.Idx → EReal) (w : SW.Idx → EReal) (b : Fin 8) (t : Fin 2048) (h : Fin 64) :
    proj x w (ix3 b t h) = ∑ c : Fin 1024, x (ix3 b t c) * w (ix2 c h) := rfl

/-- The scaled score of query row `r` against key row `j` in batch `b`. -/
def score (q k : SO.Idx → EReal) (b : Fin 8) (r j : Fin 2048) : EReal :=
  (∑ h : Fin 64, q (ix3 b r h) * k (ix3 b j h)) * Ideal.ofBits .f32 0x3D000000#32

/-- The causally masked score: the score on and below the diagonal, −∞ above it. -/
def sm (q k : SO.Idx → EReal) (b : Fin 8) (r j : Fin 2048) : EReal :=
  if j.val ≤ r.val then score q k b r j else ⊥

/-- The maximum of a row of masked scores (taken from −∞, then once more against −∞). -/
def rowMax (q k : SO.Idx → EReal) (b : Fin 8) (r : Fin 2048) : EReal :=
  max ⊥ (Finset.univ.fold max ⊥ (fun j : Fin 2048 => sm q k b r j))

/-- The softmax denominator of a row. -/
def denom (q k : SO.Idx → EReal) (b : Fin 8) (r : Fin 2048) : EReal :=
  0 + ∑ j : Fin 2048, Ideal.exp (sm q k b r j - rowMax q k b r)

/-- Attention: entry (b, r, h) is the softmax-weighted sum over all keys `j` of `v[b, j, h]`. -/
def attn (q k v : SO.Idx → EReal) : SO.Idx → EReal :=
  fun i => ∑ j : Fin 2048,
    Ideal.div (Ideal.exp (sm q k (i 0 : Fin 8) (i 1 : Fin 2048) j - rowMax q k (i 0 : Fin 8) (i 1 : Fin 2048)))
        (denom q k (i 0 : Fin 8) (i 1 : Fin 2048))
      * v (ix3 (i 0 : Fin 8) j (i 2 : Fin 64))

theorem attn_apply (q k v : SO.Idx → EReal) (b : Fin 8) (r : Fin 2048) (h : Fin 64) :
    attn q k v (ix3 b r h)
      = ∑ j : Fin 2048, Ideal.div (Ideal.exp (sm q k b r j - rowMax q k b r)) (denom q k b r) * v (ix3 b j h) := rfl

/-- The whole computation as one function of the four arguments. -/
def G (x : SX.Idx → EReal) (wq wk wv : SW.Idx → EReal) : SO.Idx → EReal :=
  attn (proj x wq) (proj x wk) (proj x wv)

end Cert.Spec

end
-- ==== Proof.RefRead.lean ====
/-
  The reference's run read one operation at a time (the generated run and read-at-an-index modules), re-exported
  for the modules that state what the reference computes.
-/
import proofs.«175071_j38998303048530_2_alg».proof.Proof.Gen.ReferenceIdeal.Run
import proofs.«175071_j38998303048530_2_alg».proof.Proof.Gen.ReferenceIdeal.Read
-- ==== Proof.RefIsSpec.lean ====
/-
  The reference program computes the specification `Cert.Spec.G`.

  The reference's operations are read one stage at a time, each at a symbolic index: the three projections,
  the scores and their scale, the lower-triangular mask, the masked scores, each row's maximum, the
  exponentials, each row's sum, the quotient, and the final contraction with the values. Every stage is
  identified with the corresponding layer of the specification; no array is ever evaluated.
-/
import proofs.«175071_j38998303048530_2_alg».proof.Proof.Spec
import proofs.«175071_j38998303048530_2_alg».proof.Proof.RefRead

noncomputable section

namespace Cert.ReferenceIdeal.RefValue

open Cert.ReferenceIdeal Cert.ReferenceIdeal.Gen Cert.ReferenceIdeal.Read Idealize.ShloMosaic Idealize.ShloMosaic.ValueIdx
open Cert.Spec

/-! ### The composed index functions of the reference, as coordinates -/

theorem lidx_v0 (b : Fin 8) (t : Fin 2048) (h : Fin 64) (c : Fin 1024) : lidx_main_v0 (ix3 b t h) c = ix3 b t c :=
  funext fun a => Fin.ext (by match a with | ⟨0, _⟩ => rfl | ⟨1, _⟩ => rfl | ⟨2, _⟩ => rfl)
theorem ridx_v0 (b : Fin 8) (t : Fin 2048) (h : Fin 64) (c : Fin 1024) : ridx_main_v0 (ix3 b t h) c = ix2 c h :=
  funext fun a => Fin.ext (by match a with | ⟨0, _⟩ => rfl | ⟨1, _⟩ => rfl)
theorem lidx_v1 (b : Fin 8) (t : Fin 2048) (h : Fin 64) (c : Fin 1024) : lidx_main_v1 (ix3 b t h) c = ix3 b t c :=
  funext fun a => Fin.ext (by match a with | ⟨0, _⟩ => rfl | ⟨1, _⟩ => rfl | ⟨2, _⟩ => rfl)
theorem ridx_v1 (b : Fin 8) (t : Fin 2048) (h : Fin 64) (c : Fin 1024) : ridx_main_v1 (ix3 b t h) c = ix2 c h :=
  funext fun a => Fin.ext (by match a with | ⟨0, _⟩ => rfl | ⟨1, _⟩ => rfl)
theorem lidx_v2 (b : Fin 8) (t : Fin 2048) (h : Fin 64) (c : Fin 1024) : lidx_main_v2 (ix3 b t h) c = ix3 b t c :=
  funext fun a => Fin.ext (by match a with | ⟨0, _⟩ => rfl | ⟨1, _⟩ => rfl | ⟨2, _⟩ => rfl)
theorem ridx_v2 (b : Fin 8) (t : Fin 2048) (h : Fin 64) (c : Fin 1024) : ridx_main_v2 (ix3 b t h) c = ix2 c h :=
  funext fun a => Fin.ext (by match a with | ⟨0, _⟩ => rfl | ⟨1, _⟩ => rfl)
theorem lidx_v3 (b : Fin 8) (r j : Fin 2048) (h : Fin 64) : lidx_main_v3 (ix3 b r j) h = ix3 b r h :=
  funext fun a => Fin.ext (by match a with | ⟨0, _⟩ => rfl | ⟨1, _⟩ => rfl | ⟨2, _⟩ => rfl)
theorem ridx_v3 (b : Fin 8) (r j : Fin 2048) (h : Fin 64) : ridx_main_v3 (ix3 b r j) h = ix3 b j h :=
  funext fun a => Fin.ext (by match a with | ⟨0, _⟩ => rfl | ⟨1, _⟩ => rfl | ⟨2, _⟩ => rfl)
theorem idx_call1_v1 (b : Fin 8) (r j : Fin 2048) : idx_main_call1_v1 (ix3 b r j) = ix2 r j :=
  funext fun a => Fin.ext (by match a with | ⟨0, _⟩ => rfl | ⟨1, _⟩ => rfl)
theorem idx_v12_v13 (b : Fin 8) (r j : Fin 2048) : idx_main_v12 (idx_main_v13 (ix3 b r j)) = ix2 b r :=
  funext fun a => Fin.ext (by match a with | ⟨0, _⟩ => rfl | ⟨1, _⟩ => rfl)
theorem idx_v17_v18 (b : Fin 8) (r j : Fin 2048) : idx_main_v17 (idx_main_v18 (ix3 b r j)) = ix2 b r :=
  funext fun a => Fin.ext (by match a with | ⟨0, _⟩ => rfl | ⟨1, _⟩ => rfl)
theorem idx_v16 (b : Fin 8) (r j : Fin 2048) : idx_main_v16 (ix2 b r) j = ix3 b r j :=
  funext fun a => Fin.ext (by match a with | ⟨0, _⟩ => rfl | ⟨1, _⟩ => rfl | ⟨2, _⟩ => rfl)
theorem lidx_v20 (b : Fin 8) (r : Fin 2048) (h : Fin 64) (j : Fin 2048) : lidx_main_v20 (ix3 b r h) j = ix3 b r j :=
  funext fun a => Fin.ext (by match a with | ⟨0, _⟩ => rfl | ⟨1, _⟩ => rfl | ⟨2, _⟩ => rfl)
theorem ridx_v20 (b : Fin 8) (r : Fin 2048) (h : Fin 64) (j : Fin 2048) : ridx_main_v20 (ix3 b r h) j = ix3 b j h :=
  funext fun a => Fin.ext (by match a with | ⟨0, _⟩ => rfl | ⟨1, _⟩ => rfl | ⟨2, _⟩ => rfl)

/-- Every index of a rank-3 array is `ix3` of three coordinates of literal extents. -/
theorem exists_ix3 {n0 n1 n2 : Nat} (i : (⟨3, ![n0, n1, n2]⟩ : Shape).Idx) :
    ∃ (a : Fin n0) (b : Fin n1) (c : Fin n2), i = ix3 a b c := ⟨i 0, i 1, i 2, eq_ix3 i⟩

/-! ### The projections -/

/-- The query projection is `proj x wq`. -/
theorem v0_eq (x : FVec Ideal S8x2048x1024 .f32) (w : FVec Ideal S1024x64 .f32) :
    val_main_v0 (F := Ideal) x w = proj x w := by
  funext i
  obtain ⟨b, t, h, rfl⟩ := exists_ix3 i
  rw [val_main_v0_apply, proj_apply]
  exact Finset.sum_congr rfl fun c _ => by rw [lidx_v0, ridx_v0]

/-- The key projection is `proj x wk`. -/
theorem v1_eq (x : FVec Ideal S8x2048x1024 .f32) (w : FVec Ideal S1024x64 .f32) :
    val_main_v1 (F := Ideal) x w = proj x w := by
  funext i
  obtain ⟨b, t, h, rfl⟩ := exists_ix3 i
  rw [val_main_v1_apply, proj_apply]
  exact Finset.sum_congr rfl fun c _ => by rw [lidx_v1, ridx_v1]

/-- The value projection is `proj x wv`. -/
theorem v2_eq (x : FVec Ideal S8x2048x1024 .f32) (w : FVec Ideal S1024x64 .f32) :
    val_main_v2 (F := Ideal) x w = proj x w := by
  funext i
  obtain ⟨b, t, h, rfl⟩ := exists_ix3 i
  rw [val_main_v2_apply, proj_apply]
  exact Finset.sum_congr rfl fun c _ => by rw [lidx_v2, ridx_v2]

/-! ### The scaled scores -/

/-- The unscaled score of row `r` against key `j`: the inner product of the two projected rows. -/
theorem v3_at (x : FVec Ideal S8x2048x1024 .f32) (wq wk : FVec Ideal S1024x64 .f32) (b : Fin 8) (r j : Fin 2048) :
    val_main_v3 (F := Ideal) x wq wk (ix3 b r j) = ∑ h : Fin 64, proj x wq (ix3 b r h) * proj x wk (ix3 b j h) := by
  rw [val_main_v3_apply, v0_eq, v1_eq]
  exact Finset.sum_congr rfl fun h _ => by rw [lidx_v3, ridx_v3]

/-- The scaled score is the specification's `score`. -/
theorem v5_at (x : FVec Ideal S8x2048x1024 .f32) (wq wk : FVec Ideal S1024x64 .f32) (b : Fin 8) (r j : Fin 2048) :
    val_main_v5 (F := Ideal) x wq wk (ix3 b r j) = score (proj x wq) (proj x wk) b r j := by
  rw [val_main_v5_apply, v3_at, val_main_v4_apply, val_main_cst_apply]
  rfl

/-! ### The lower-triangular mask -/

/-- A row or column number below 2048, as a 32-bit word, reads signed as itself. -/
theorem toInt_iota (n : Fin 2048) : (BitVec.ofNat 32 n.val).toInt = (n.val : Int) := by
  have hn := n.isLt
  have h : (BitVec.ofNat 32 n.val).toNat = n.val := by rw [BitVec.toNat_ofNat]; omega
  rw [BitVec.toInt_eq_toNat_of_lt (by rw [h]; omega), h]

/-- The signed comparison `row + 0 ≥ column` of the two counters is the comparison of the numbers. -/
theorem iota_sge (r j : Fin 2048) :
    IntOp.cmpi .sge (IntOp.addi (BitVec.ofNat 32 r.val) 0#32) (BitVec.ofNat 32 j.val)
      = if j.val ≤ r.val then 1#1 else 0#1 := by
  have h0 : IntOp.addi (BitVec.ofNat 32 r.val) 0#32 = BitVec.ofNat 32 r.val := by
    show BitVec.ofNat 32 r.val + 0#32 = _
    exact BitVec.add_zero _
  rw [h0]
  by_cases h : j.val ≤ r.val
  · rw [if_pos h, IntOp.cmpi_sge, toInt_iota, toInt_iota]
    exact_mod_cast h
  · rw [if_neg h]
    refine eq_zero_of_ne_one fun h1 => h ?_
    rw [IntOp.cmpi_sge, toInt_iota, toInt_iota] at h1
    exact_mod_cast h1

/-- The mask at (r, j): set exactly on and below the diagonal. -/
theorem v7_at (r j : Fin 2048) :
    val_main_v7 (F := Ideal) (ix2 r j) = if j.val ≤ r.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  show Scalar.select (IntOp.cmpi .sge (IntOp.addi (BitVec.ofNat 32 r.val) 0#32) (BitVec.ofNat 32 j.val)) 1#1 0#1 = _
  rw [iota_sge]
  by_cases h : j.val ≤ r.val
  · rw [if_pos h]; rfl
  · rw [if_neg h]; rfl

/-! ### The masked scores -/

/-- The masked score is the specification's `sm`. -/
theorem v8_at (x : FVec Ideal S8x2048x1024 .f32) (wq wk : FVec Ideal S1024x64 .f32) (b : Fin 8) (r j : Fin 2048) :
    val_main_v8 (F := Ideal) x wq wk (ix3 b r j) = sm (proj x wq) (proj x wk) b r j := by
  rw [val_main_v8_apply, val_main_call1_v1_apply, idx_call1_v1, v7_at, v5_at, val_main_call1_v2_apply,
    val_main_call1_v0_apply, val_main_cst_0_apply, Ideal.ofBits_def, ofBits_neg_inf]
  unfold sm
  by_cases h : j.val ≤ r.val
  · rw [if_pos h, if_pos h]; rfl
  · rw [if_neg h, if_neg h]; rfl

/-! ### Each row's maximum -/

/-- Dropping the key axis of the score array leaves the (batch, row) array. -/
theorem red : S8x2048x2048.Reduces [2] S8x2048 := by decide

/-- The (batch, row) index with key `k` put back is (b, r, k). -/
theorem lift_at (b : Fin 8) (r : Fin 2048) (k : Fin (S8x2048x2048.size 2)) :
    red.lift (ix2 b r) k = ix3 b r (⟨k.val, k.isLt⟩ : Fin 2048) := by
  funext c; apply Fin.ext
  fin_cases c <;> rfl

/-- A reduce with a maximum body over the key axis, at (b, r): the fold of `max` from the initial value over the keys. -/
theorem reduce_max_at (y : FVec Ideal S8x2048x2048 .f32) (init : FVec Ideal S_ .f32) (b : Fin 8) (r : Fin 2048) :
    Host.reduce FloatOps.maximumf y init reducesTo_S8x2048x2048_S8x2048_d2 h_S_ (ix2 b r)
      = Finset.univ.fold max (init (Shape.Idx.first h_S_)) (fun j : Fin 2048 => y (ix3 b r j)) := by
  rw [Host.reduce_eq_fold_single FloatOps.maximumf y init reducesTo_S8x2048x2048_S8x2048_d2 red h_S_]
  exact congrArg (fun f => Finset.fold max (init (Shape.Idx.first h_S_)) f (Finset.univ : Finset (Fin 2048)))
    (funext fun k => congrArg y (lift_at b r k))

/-- The reduce with a maximum body, from −∞, at (b, r): the maximum over all keys of the masked scores. -/
theorem v9_at (x : FVec Ideal S8x2048x1024 .f32) (wq wk : FVec Ideal S1024x64 .f32) (b : Fin 8) (r : Fin 2048) :
    val_main_v9 (F := Ideal) x wq wk (ix2 b r)
      = Finset.univ.fold max ⊥ (fun j : Fin 2048 => sm (proj x wq) (proj x wk) b r j) := by
  unfold val_main_v9
  refine (reduce_max_at (val_main_v8 (F := Ideal) x wq wk) (val_main_cst_1 (F := Ideal)) b r).trans ?_
  have hi : val_main_cst_1 (F := Ideal) (Shape.Idx.first h_S_) = (⊥ : EReal) := ofBits_neg_inf
  rw [hi]
  exact congrArg (fun f => Finset.fold max (⊥ : EReal) f (Finset.univ : Finset (Fin 2048)))
    (funext fun j => v8_at x wq wk b r j)

/-- The row maximum, taken once more against −∞, is the specification's `rowMax`. -/
theorem v11_at (x : FVec Ideal S8x2048x1024 .f32) (wq wk : FVec Ideal S1024x64 .f32) (b : Fin 8) (r : Fin 2048) :
    val_main_v11 (F := Ideal) x wq wk (ix2 b r) = rowMax (proj x wq) (proj x wk) b r := by
  rw [val_main_v11_apply, val_main_v10_apply, val_main_cst_2_apply, v9_at, Ideal.ofBits_def, ofBits_neg_inf]
  rfl

/-- The row maximum broadcast along the keys. -/
theorem v13_at (x : FVec Ideal S8x2048x1024 .f32) (wq wk : FVec Ideal S1024x64 .f32) (b : Fin 8) (r j : Fin 2048) :
    val_main_v13 (F := Ideal) x wq wk (ix3 b r j) = rowMax (proj x wq) (proj x wk) b r := by
  rw [val_main_v13_apply, val_main_v12_apply, idx_v12_v13, v11_at]

/-! ### The exponentials, their row sums, and the quotient -/

/-- The exponential of a masked score less its row's maximum. -/
theorem v15_at (x : FVec Ideal S8x2048x1024 .f32) (wq wk : FVec Ideal S1024x64 .f32) (b : Fin 8) (r j : Fin 2048) :
    val_main_v15 (F := Ideal) x wq wk (ix3 b r j)
      = Ideal.exp (sm (proj x wq) (proj x wk) b r j - rowMax (proj x wq) (proj x wk) b r) := by
  rw [val_main_v15_apply, val_main_v14_apply, v8_at, v13_at]
  rfl

/-- The row sum of the exponentials, from zero, is the specification's `denom`. -/
theorem v16_at (x : FVec Ideal S8x2048x1024 .f32) (wq wk : FVec Ideal S1024x64 .f32) (b : Fin 8) (r : Fin 2048) :
    val_main_v16 (F := Ideal) x wq wk (ix2 b r) = denom (proj x wq) (proj x wk) b r := by
  rw [val_main_v16_apply, val_main_cst_3_apply, Ideal.ofBits_def, Ideal.ofBits_zero_f32]
  unfold denom
  exact congrArg (0 + ·) (Finset.sum_congr rfl fun j _ => by rw [idx_v16, v15_at])

/-- The row sum broadcast along the keys. -/
theorem v18_at (x : FVec Ideal S8x2048x1024 .f32) (wq wk : FVec Ideal S1024x64 .f32) (b : Fin 8) (r j : Fin 2048) :
    val_main_v18 (F := Ideal) x wq wk (ix3 b r j) = denom (proj x wq) (proj x wk) b r := by
  rw [val_main_v18_apply, val_main_v17_apply, idx_v17_v18, v16_at]

/-- The softmax weight of key `j` in row `r`. -/
theorem v19_at (x : FVec Ideal S8x2048x1024 .f32) (wq wk : FVec Ideal S1024x64 .f32) (b : Fin 8) (r j : Fin 2048) :
    val_main_v19 (F := Ideal) x wq wk (ix3 b r j)
      = Ideal.div (Ideal.exp (sm (proj x wq) (proj x wk) b r j - rowMax (proj x wq) (proj x wk) b r))
          (denom (proj x wq) (proj x wk) b r) := by
  rw [val_main_v19_apply, v15_at, v18_at]
  rfl

/-! ### The result -/

/-- The reference's result is the specification, at every index. -/
theorem ref_eq_spec (x : FVec Ideal S8x2048x1024 .f32) (wq wk wv : FVec Ideal S1024x64 .f32) :
    val_main_v20 (F := Ideal) x wq wk wv = Cert.Spec.G x wq wk wv := by
  funext i
  obtain ⟨b, r, h, rfl⟩ := exists_ix3 i
  unfold Cert.Spec.G
  rw [val_main_v20_apply, attn_apply, v2_eq]
  exact Finset.sum_congr rfl fun j _ => by rw [lidx_v20, ridx_v20, v19_at]

end Cert.ReferenceIdeal.RefValue

end
-- ==== Proof.PayloadsProj.lean ====
/-
  The projection body read at an index.

  Each of the three stored blocks of the projection body is a [1,512,64] block whose entry (0, p, c) is the
  inner product of row p of the loaded [1,512,1024] block of x with column c of the loaded [1024,64] weight:
  the format changes are the identity on extended reals, the matrix product into the zero accumulator is the
  plain sum over the contracted axis, and the two shape casts only add or drop the leading unit axis.
-/
import proofs.«175071_j38998303048530_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx Idealize.SL.Sem

/-- In the contraction [512,1024] × [1024,64] → [512,64] the left operand's row coordinate is the result's. -/
theorem proj_lhs_0 (i : S512x64.Idx) (q : dot_S512x1024_S1024x64_S512x64_1_0_0_1_n_n.contr.Idx) : (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide),
    dif_pos (show (0 : Fin S512x1024.rank) ∈ dot_S512x1024_S1024x64_S512x64_1_0_0_1_n_n.lhsNonContracting by decide)]
  rfl
/-- … and the right operand's column coordinate is the result's. -/
theorem proj_rhs_1 (i : S512x64.Idx) (q : dot_S512x1024_S1024x64_S512x64_1_0_0_1_n_n.contr.Idx) : (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide),
    dif_pos (show (1 : Fin S1024x64.rank) ∈ dot_S512x1024_S1024x64_S512x64_1_0_0_1_n_n.rhsNonContracting by decide)]
  rfl

/-- The contraction [512,1024] × [1024,64] → [512,64] into the zero accumulator, at (p, c): the sum over the
    shared axis of the left operand's row p times the right operand's column c. -/
theorem matmul_rows_cols (a : FVec Ideal S512x1024 .bf16) (w : FVec Ideal S1024x64 .bf16) (p : Fin 512) (c : Fin 64) :
    matmul dot_S512x1024_S1024x64_S512x64_1_0_0_1_n_n none a w (constant (F := Ideal) S512x64 .f32 0x00000000#32) (ix2 p c)
      = ∑ k : Fin 1024, a (ix2 p k) * w (ix2 k c) := by
  refine (Ideal.matmul_constant_zero_apply dot_S512x1024_S1024x64_S512x64_1_0_0_1_n_n none a w (ix2 p c)).trans ?_
  rw [← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 p c) ((contrEquiv1 dot_S512x1024_S1024x64_S512x64_1_0_0_1_n_n 1024 rfl rfl).symm k) = ix2 p k :=
    funext fun ax => Fin.ext (by
      match ax with
      | ⟨0, _⟩ => exact proj_lhs_0 _ _
      | ⟨1, _⟩ => exact (dot_S512x1024_S1024x64_S512x64_1_0_0_1_n_n.lhsIdx_val_of_single rfl _ _).trans hk)
  have er : dot_S512x1024_S1024x64_S512x64_1_0_0_1_n_n.rhsIdx (ix2 p c) ((contrEquiv1 dot_S512x1024_S1024x64_S512x64_1_0_0_1_n_n 1024 rfl rfl).symm k) = ix2 k c :=
    funext fun ax => Fin.ext (by
      match ax with
      | ⟨0, _⟩ => exact (dot_S512x1024_S1024x64_S512x64_1_0_0_1_n_n.rhsIdx_val_of_single rfl _ _).trans hk
      | ⟨1, _⟩ => exact proj_rhs_1 _ _)
  rw [el, er]

/-- The loaded block of x with its unit axis dropped (and its format changed, which is the identity): entry
    (p, k) is the block's entry (0, p, k). -/
theorem k0_pay1_apply (v0 : Vec Ideal S1x512x1024 .f32) (p : Fin 512) (k : Fin 1024) :
    k0_pay1 (F := Ideal) v0 (ix2 p k) = v0 (ix3 0 p k) := by
  unfold k0_pay1
  exact shapeCast_1ab_ab_apply (a := 512) (b := 1024) v0 shapeCasts_S1x512x1024_S512x1024 p k

/-- The first stored block: entry (0, p, c) is ∑ₖ x(0, p, k) · w(k, c). -/
theorem k0_pay2_apply (v0 : Vec Ideal S1x512x1024 .f32) (w : Vec Ideal S1024x64 .f32) (p : Fin 512) (c : Fin 64) :
    k0_pay2 (F := Ideal) v0 w (ix3 0 p c) = ∑ k : Fin 1024, v0 (ix3 0 p k) * w (ix2 k c) := by
  unfold k0_pay2
  refine (shapeCast_ab_1ab_apply (a := 512) (b := 64) _ shapeCasts_S512x64_S1x512x64 0 p c).trans ?_
  refine (matmul_rows_cols (k0_pay1 (F := Ideal) v0) _ p c).trans ?_
  exact Finset.sum_congr rfl fun k _ => congrArg (· * w (ix2 k c)) (k0_pay1_apply v0 p k)

/-- The second stored block: the same inner products with the second weight. -/
theorem k0_pay3_apply (v0 : Vec Ideal S1x512x1024 .f32) (w : Vec Ideal S1024x64 .f32) (p : Fin 512) (c : Fin 64) :
    k0_pay3 (F := Ideal) v0 w (ix3 0 p c) = ∑ k : Fin 1024, v0 (ix3 0 p k) * w (ix2 k c) := by
  unfold k0_pay3
  refine (shapeCast_ab_1ab_apply (a := 512) (b := 64) _ shapeCasts_S512x64_S1x512x64 0 p c).trans ?_
  refine (matmul_rows_cols (k0_pay1 (F := Ideal) v0) _ p c).trans ?_
  exact Finset.sum_congr rfl fun k _ => congrArg (· * w (ix2 k c)) (k0_pay1_apply v0 p k)

/-- The third stored block: the same inner products with the third weight. -/
theorem k0_pay4_apply (v0 : Vec Ideal S1x512x1024 .f32) (w : Vec Ideal S1024x64 .f32) (p : Fin 512) (c : Fin 64) :
    k0_pay4 (F := Ideal) v0 w (ix3 0 p c) = ∑ k : Fin 1024, v0 (ix3 0 p k) * w (ix2 k c) := by
  unfold k0_pay4
  refine (shapeCast_ab_1ab_apply (a := 512) (b := 64) _ shapeCasts_S512x64_S1x512x64 0 p c).trans ?_
  refine (matmul_rows_cols (k0_pay1 (F := Ideal) v0) _ p c).trans ?_
  exact Finset.sum_congr rfl fun k _ => congrArg (· * w (ix2 k c)) (k0_pay1_apply v0 p k)

end Cert.KernelIdeal.Pay

end
-- ==== Proof.Region0Value.lean ====
/-
  REGION 0, the value: after the projection region the three product arrays hold the projections of the
  activations by the three weight matrices.

  Each grid point (b, q) of the 8 x 4 grid multiplies rows 512 q ... 512 q + 511 of batch b of the activations by
  a whole weight matrix and writes the 512 x 64 product back as block (b, q) of a product array. Read at an
  index, one entry of the product is the inner product of one row of the activations with one column of the
  weight, which is the specification's projection at the array index the block's entry sits at. The 32 blocks
  tile each product array, so each array ends holding the projection everywhere.
-/
import proofs.«175071_j38998303048530_2_alg».proof.Proof.Region0Frame
import proofs.«175071_j38998303048530_2_alg».proof.Proof.Spec
import proofs.«175071_j38998303048530_2_alg».proof.Proof.PayloadsProj
import Idealize.ShloMosaic.Lib.Pipeline.Value

set_option maxRecDepth 16384

noncomputable section

namespace Cert.KernelIdeal.Val0

open Cert.KernelIdeal Cert.KernelIdeal.Gen Cert.KernelIdeal.Fr0 Cert.KernelIdeal.Pay
open Idealize.ShloMosaic Idealize.ShloMosaic.TcCoe Idealize.ShloMosaic.ValueIdx Idealize.SL.Sem
open Idealize.ShloMosaic.Pipeline (Dat)
open Cert.Spec

-- what the core's buffers hold when the region starts
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps -/

/-- Where each grid point reads and writes, checked point by point over the 8 × 4 grid: the block of activations it
    loads and the three blocks of products it stores all sit at one (batch, row tile) position and span the whole
    last axis; each weight matrix is loaded whole; batches run over 0 … 7 and row tiles over 0 … 3. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 3) = win0_4.index t (0 : Fin 3) ∧ win0_5.index t (1 : Fin 3) = win0_4.index t (1 : Fin 3)
    ∧ win0_5.index t (2 : Fin 3) = 0
    ∧ win0_6.index t (0 : Fin 3) = win0_4.index t (0 : Fin 3) ∧ win0_6.index t (1 : Fin 3) = win0_4.index t (1 : Fin 3)
    ∧ win0_6.index t (2 : Fin 3) = 0
    ∧ win0_4.index t (0 : Fin 3) ≤ 7 ∧ win0_4.index t (1 : Fin 3) ≤ 3 :=
  (by decide +kernel : ∀ t : Fin grid0.N, _)

/-- Conversely, each of the 8 × 4 (batch, row tile) positions is visited by some grid point. -/
theorem idx_onto : ∀ (q0 : Fin 8) (q1 : Fin 4), ∃ t : Fin cfg0.N,
    win0_4.index t (0 : Fin 3) = q0.val ∧ win0_4.index t (1 : Fin 3) = q1.val :=
  (by decide +kernel : ∀ (q0 : Fin 8) (q1 : Fin 4), ∃ t : Fin grid0.N,
    win0_4.index t (0 : Fin 3) = q0.val ∧ win0_4.index t (1 : Fin 3) = q1.val)

/-! ## One entry of a product block

If row `p` of the loaded block of activations is row (b, r) of the array `X`, and the loaded weight is `W`, then
entry (0, p, c) of the body's product is the projection of `X` by `W` at (b, r, c). -/

theorem pay2_block (X : SX.Idx → EReal) (W : SW.Idx → EReal) (x0 : Vec Ideal S1x512x1024 .f32) (w : Vec Ideal S1024x64 .f32)
    (b : Fin 8) (r : Fin 2048) (p : Fin 512) (c : Fin 64)
    (hx : ∀ k : Fin 1024, x0 (ix3 0 p k) = X (ix3 b r k)) (hw : ∀ k : Fin 1024, w (ix2 k c) = W (ix2 k c)) :
    k0_pay2 (F := Ideal) x0 w (ix3 0 p c) = proj X W (ix3 b r c) := by
  rw [k0_pay2_apply, proj_apply]
  exact Finset.sum_congr rfl fun k _ => by rw [hx, hw]

theorem pay3_block (X : SX.Idx → EReal) (W : SW.Idx → EReal) (x0 : Vec Ideal S1x512x1024 .f32) (w : Vec Ideal S1024x64 .f32)
    (b : Fin 8) (r : Fin 2048) (p : Fin 512) (c : Fin 64)
    (hx : ∀ k : Fin 1024, x0 (ix3 0 p k) = X (ix3 b r k)) (hw : ∀ k : Fin 1024, w (ix2 k c) = W (ix2 k c)) :
    k0_pay3 (F := Ideal) x0 w (ix3 0 p c) = proj X W (ix3 b r c) := by
  rw [k0_pay3_apply, proj_apply]
  exact Finset.sum_congr rfl fun k _ => by rw [hx, hw]

theorem pay4_block (X : SX.Idx → EReal) (W : SW.Idx → EReal) (x0 : Vec Ideal S1x512x1024 .f32) (w : Vec Ideal S1024x64 .f32)
    (b : Fin 8) (r : Fin 2048) (p : Fin 512) (c : Fin 64)
    (hx : ∀ k : Fin 1024, x0 (ix3 0 p k) = X (ix3 b r k)) (hw : ∀ k : Fin 1024, w (ix2 k c) = W (ix2 k c)) :
    k0_pay4 (F := Ideal) x0 w (ix3 0 p c) = proj X W (ix3 b r c) := by
  rw [k0_pay4_apply, proj_apply]
  exact Finset.sum_congr rfl fun k _ => by rw [hx, hw]

/-! ## The first product (window 4) -/

/-- The 512 × 64 block that grid point `t` = (batch, row tile) leaves in the first product array is the matching block
    of the product of the activations with the first weight matrix. -/
theorem flushed0_4_eq (c : Dev nD) (t : Fin cfg0.N) :
    (dat0 V c).flushed 4 t = ((cfg0.win 4).blk t).view.read (Elt Ideal) (proj (V c main_arg0) (V c main_arg1)) := by
  show (cfg0.win 4).cut (grid0.coords t) ((dat0 V c).after 4 t) = _
  rw [after0_4]
  unfold out0_4
  rw [View.canon_unit_zero hz3]
  simp only [View.ld_unit_zero (S := S1x512x1024) hz3, View.ld_unit_zero (S := S1024x64) hz2]
  obtain ⟨e00, e01, e02, e42, e10, e11, e20, e21, e30, e31, e50, e51, e52, e60, e61, e62, b0, b1⟩ := idx_facts t
  funext j
  show k0_pay2 (F := Ideal) (iblk0 V c 0 t) (iblk0 V c 1 t) j
    = proj (V c main_arg0) (V c main_arg1) (((cfg0.win 4).blk t).view.emb j)
  revert j
  show ∀ j : S1x512x64.Idx, k0_pay2 (F := Ideal) (iblk0 V c 0 t) (iblk0 V c 1 t) j
    = proj (V c main_arg0) (V c main_arg1) (((cfg0.win 4).blk t).view.emb j)
  intro j
  obtain ⟨z, p, cc, rfl⟩ : ∃ (z : Fin 1) (p : Fin 512) (cc : Fin 64), j = ix3 z p cc := ⟨j 0, j 1, j 2, eq_ix3 j⟩
  obtain rfl : z = 0 := Subsingleton.elim _ _
  have hemb : ((cfg0.win 4).blk t).view.emb (ix3 (0 : Fin 1) p cc)
      = ix3 (⟨win0_4.index t (0 : Fin 3), by omega⟩ : Fin 8)
          (⟨win0_4.index t (1 : Fin 3) * 512 + p.val, by have := p.isLt; omega⟩ : Fin 2048) cc := by
    funext a; apply Fin.ext
    match a with
    | ⟨0, _⟩ => show win0_4.index t (0 : Fin 3) * 1 + 1 * 0 = win0_4.index t (0 : Fin 3); omega
    | ⟨1, _⟩ => show win0_4.index t (1 : Fin 3) * 512 + 1 * p.val = win0_4.index t (1 : Fin 3) * 512 + p.val; omega
    | ⟨2, _⟩ => show win0_4.index t (2 : Fin 3) * 64 + 1 * cc.val = cc.val; omega
  rw [hemb]
  refine pay2_block (V c main_arg0) (V c main_arg1) (iblk0 V c 0 t) (iblk0 V c 1 t) _ _ p cc (fun k => ?_) (fun k => ?_)
  · show V c main_arg0 (((cfg0.win 0).blk t).view.emb (ix3 (0 : Fin 1) p k)) = _
    refine congrArg (V c main_arg0) (funext fun a => Fin.ext ?_)
    match a with
    | ⟨0, _⟩ => show win0_0.index t (0 : Fin 3) * 1 + 1 * 0 = win0_4.index t (0 : Fin 3); omega
    | ⟨1, _⟩ => show win0_0.index t (1 : Fin 3) * 512 + 1 * p.val = win0_4.index t (1 : Fin 3) * 512 + p.val; omega
    | ⟨2, _⟩ => show win0_0.index t (2 : Fin 3) * 1024 + 1 * k.val = k.val; omega
  · show V c main_arg1 (((cfg0.win 1).blk t).view.emb (ix2 k cc)) = _
    refine congrArg (V c main_arg1) (funext fun a => Fin.ext ?_)
    match a with
    | ⟨0, _⟩ => show win0_1.index t (0 : Fin 2) * 1024 + 1 * k.val = k.val; omega
    | ⟨1, _⟩ => show win0_1.index t (1 : Fin 2) * 64 + 1 * cc.val = cc.val; omega

/-- Membership in a block of the first product array, spelled out: (b, r, h) lies in the block stored at grid point `t`
    exactly when b is the point's batch, r is one of its 512 rows and h any of the 64 columns, each as a pair of bounds. -/
theorem mem_blk4 (t : Fin cfg0.N) (i : S8x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v0_0).slice (win0_4.rect t)).set ↔ _
  rw [View.set_slice_whole, Rect.mem_set_unit]
  exact Iff.rfl

/-- The blocks tile the array: row `r` of batch `b` lies in the block of the point with block index (b, r / 512). -/
theorem cover4 (i : S8x2048x64.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 64 := (i 2).isLt
  obtain ⟨t, q0, q1⟩ := idx_onto ⟨(i 0).val, hi0⟩ ⟨(i 1).val / 512, by omega⟩
  obtain ⟨e00, e01, e02, e42, e10, e11, e20, e21, e30, e31, e50, e51, e52, e60, e61, e62, b0, b1⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1
              simp only at q0; omega
  | ⟨1, _⟩ => show win0_4.index t (1 : Fin 3) * 512 ≤ (i 1).val ∧ (i 1).val < win0_4.index t (1 : Fin 3) * 512 + 512
              simp only at q1; omega
  | ⟨2, _⟩ => show win0_4.index t (2 : Fin 3) * 64 ≤ (i 2).val ∧ (i 2).val < win0_4.index t (2 : Fin 3) * 64 + 64
              omega

/-- After the region the first product array is the projection of the activations by the first weight matrix. -/
theorem final0_4 (c : Dev nD) :
    (dat0 V c).arrAt 4 cfg0.N = proj (V c main_arg0) (V c main_arg1) :=
  (dat0 V c).arrAt_eq_of_cover 4 (proj (V c main_arg0) (V c main_arg1)) (fun t _ => flushed0_4_eq V c t) cover4

/-! ## The second product (window 5) -/

/-- The 512 × 64 block that grid point `t` = (batch, row tile) leaves in the second product array is the matching block
    of the product of the activations with the second weight matrix. -/
theorem flushed0_5_eq (c : Dev nD) (t : Fin cfg0.N) :
    (dat0 V c).flushed 5 t = ((cfg0.win 5).blk t).view.read (Elt Ideal) (proj (V c main_arg0) (V c main_arg2)) := by
  show (cfg0.win 5).cut (grid0.coords t) ((dat0 V c).after 5 t) = _
  rw [after0_5]
  unfold out0_5
  rw [View.canon_unit_zero hz3]
  simp only [View.ld_unit_zero (S := S1x512x1024) hz3, View.ld_unit_zero (S := S1024x64) hz2]
  obtain ⟨e00, e01, e02, e42, e10, e11, e20, e21, e30, e31, e50, e51, e52, e60, e61, e62, b0, b1⟩ := idx_facts t
  funext j
  show k0_pay3 (F := Ideal) (iblk0 V c 0 t) (iblk0 V c 2 t) j
    = proj (V c main_arg0) (V c main_arg2) (((cfg0.win 5).blk t).view.emb j)
  revert j
  show ∀ j : S1x512x64.Idx, k0_pay3 (F := Ideal) (iblk0 V c 0 t) (iblk0 V c 2 t) j
    = proj (V c main_arg0) (V c main_arg2) (((cfg0.win 5).blk t).view.emb j)
  intro j
  obtain ⟨z, p, cc, rfl⟩ : ∃ (z : Fin 1) (p : Fin 512) (cc : Fin 64), j = ix3 z p cc := ⟨j 0, j 1, j 2, eq_ix3 j⟩
  obtain rfl : z = 0 := Subsingleton.elim _ _
  have hemb : ((cfg0.win 5).blk t).view.emb (ix3 (0 : Fin 1) p cc)
      = ix3 (⟨win0_4.index t (0 : Fin 3), by omega⟩ : Fin 8)
          (⟨win0_4.index t (1 : Fin 3) * 512 + p.val, by have := p.isLt; omega⟩ : Fin 2048) cc := by
    funext a; apply Fin.ext
    match a with
    | ⟨0, _⟩ => show win0_5.index t (0 : Fin 3) * 1 + 1 * 0 = win0_4.index t (0 : Fin 3); omega
    | ⟨1, _⟩ => show win0_5.index t (1 : Fin 3) * 512 + 1 * p.val = win0_4.index t (1 : Fin 3) * 512 + p.val; omega
    | ⟨2, _⟩ => show win0_5.index t (2 : Fin 3) * 64 + 1 * cc.val = cc.val; omega
  rw [hemb]
  refine pay3_block (V c main_arg0) (V c main_arg2) (iblk0 V c 0 t) (iblk0 V c 2 t) _ _ p cc (fun k => ?_) (fun k => ?_)
  · show V c main_arg0 (((cfg0.win 0).blk t).view.emb (ix3 (0 : Fin 1) p k)) = _
    refine congrArg (V c main_arg0) (funext fun a => Fin.ext ?_)
    match a with
    | ⟨0, _⟩ => show win0_0.index t (0 : Fin 3) * 1 + 1 * 0 = win0_4.index t (0 : Fin 3); omega
    | ⟨1, _⟩ => show win0_0.index t (1 : Fin 3) * 512 + 1 * p.val = win0_4.index t (1 : Fin 3) * 512 + p.val; omega
    | ⟨2, _⟩ => show win0_0.index t (2 : Fin 3) * 1024 + 1 * k.val = k.val; omega
  · show V c main_arg2 (((cfg0.win 2).blk t).view.emb (ix2 k cc)) = _
    refine congrArg (V c main_arg2) (funext fun a => Fin.ext ?_)
    match a with
    | ⟨0, _⟩ => show win0_2.index t (0 : Fin 2) * 1024 + 1 * k.val = k.val; omega
    | ⟨1, _⟩ => show win0_2.index t (1 : Fin 2) * 64 + 1 * cc.val = cc.val; omega

/-- Membership in a block of the second product array, spelled out: (b, r, h) lies in the block stored at grid point `t`
    exactly when b is the point's batch, r is one of its 512 rows and h any of the 64 columns, each as a pair of bounds. -/
theorem mem_blk5 (t : Fin cfg0.N) (i : S8x2048x64.Idx) :
    i ∈ ((cfg0.win 5).blk t).view.set ↔ ∀ a : Fin 3, win0_5.index t a * S1x512x64.size a ≤ (i a).val
      ∧ (i a).val < win0_5.index t a * S1x512x64.size a + S1x512x64.size a := by
  show i ∈ ((View.whole main_v0_1).slice (win0_5.rect t)).set ↔ _
  rw [View.set_slice_whole, Rect.mem_set_unit]
  exact Iff.rfl

/-- The blocks tile the array: row `r` of batch `b` lies in the block of the point with block index (b, r / 512). -/
theorem cover5 (i : S8x2048x64.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 64 := (i 2).isLt
  obtain ⟨t, q0, q1⟩ := idx_onto ⟨(i 0).val, hi0⟩ ⟨(i 1).val / 512, by omega⟩
  obtain ⟨e00, e01, e02, e42, e10, e11, e20, e21, e30, e31, e50, e51, e52, e60, e61, e62, b0, b1⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1
              simp only at q0; omega
  | ⟨1, _⟩ => show win0_5.index t (1 : Fin 3) * 512 ≤ (i 1).val ∧ (i 1).val < win0_5.index t (1 : Fin 3) * 512 + 512
              simp only at q1; omega
  | ⟨2, _⟩ => show win0_5.index t (2 : Fin 3) * 64 ≤ (i 2).val ∧ (i 2).val < win0_5.index t (2 : Fin 3) * 64 + 64
              omega

/-- After the region the second product array is the projection of the activations by the second weight matrix. -/
theorem final0_5 (c : Dev nD) :
    (dat0 V c).arrAt 5 cfg0.N = proj (V c main_arg0) (V c main_arg2) :=
  (dat0 V c).arrAt_eq_of_cover 5 (proj (V c main_arg0) (V c main_arg2)) (fun t _ => flushed0_5_eq V c t) cover5

/-! ## The third product (window 6) -/

/-- The 512 × 64 block that grid point `t` = (batch, row tile) leaves in the third product array is the matching block
    of the product of the activations with the third weight matrix. -/
theorem flushed0_6_eq (c : Dev nD) (t : Fin cfg0.N) :
    (dat0 V c).flushed 6 t = ((cfg0.win 6).blk t).view.read (Elt Ideal) (proj (V c main_arg0) (V c main_arg3)) := by
  show (cfg0.win 6).cut (grid0.coords t) ((dat0 V c).after 6 t) = _
  rw [after0_6]
  unfold out0_6
  rw [View.canon_unit_zero hz3]
  simp only [View.ld_unit_zero (S := S1x512x1024) hz3, View.ld_unit_zero (S := S1024x64) hz2]
  obtain ⟨e00, e01, e02, e42, e10, e11, e20, e21, e30, e31, e50, e51, e52, e60, e61, e62, b0, b1⟩ := idx_facts t
  funext j
  show k0_pay4 (F := Ideal) (iblk0 V c 0 t) (iblk0 V c 3 t) j
    = proj (V c main_arg0) (V c main_arg3) (((cfg0.win 6).blk t).view.emb j)
  revert j
  show ∀ j : S1x512x64.Idx, k0_pay4 (F := Ideal) (iblk0 V c 0 t) (iblk0 V c 3 t) j
    = proj (V c main_arg0) (V c main_arg3) (((cfg0.win 6).blk t).view.emb j)
  intro j
  obtain ⟨z, p, cc, rfl⟩ : ∃ (z : Fin 1) (p : Fin 512) (cc : Fin 64), j = ix3 z p cc := ⟨j 0, j 1, j 2, eq_ix3 j⟩
  obtain rfl : z = 0 := Subsingleton.elim _ _
  have hemb : ((cfg0.win 6).blk t).view.emb (ix3 (0 : Fin 1) p cc)
      = ix3 (⟨win0_4.index t (0 : Fin 3), by omega⟩ : Fin 8)
          (⟨win0_4.index t (1 : Fin 3) * 512 + p.val, by have := p.isLt; omega⟩ : Fin 2048) cc := by
    funext a; apply Fin.ext
    match a with
    | ⟨0, _⟩ => show win0_6.index t (0 : Fin 3) * 1 + 1 * 0 = win0_4.index t (0 : Fin 3); omega
    | ⟨1, _⟩ => show win0_6.index t (1 : Fin 3) * 512 + 1 * p.val = win0_4.index t (1 : Fin 3) * 512 + p.val; omega
    | ⟨2, _⟩ => show win0_6.index t (2 : Fin 3) * 64 + 1 * cc.val = cc.val; omega
  rw [hemb]
  refine pay4_block (V c main_arg0) (V c main_arg3) (iblk0 V c 0 t) (iblk0 V c 3 t) _ _ p cc (fun k => ?_) (fun k => ?_)
  · show V c main_arg0 (((cfg0.win 0).blk t).view.emb (ix3 (0 : Fin 1) p k)) = _
    refine congrArg (V c main_arg0) (funext fun a => Fin.ext ?_)
    match a with
    | ⟨0, _⟩ => show win0_0.index t (0 : Fin 3) * 1 + 1 * 0 = win0_4.index t (0 : Fin 3); omega
    | ⟨1, _⟩ => show win0_0.index t (1 : Fin 3) * 512 + 1 * p.val = win0_4.index t (1 : Fin 3) * 512 + p.val; omega
    | ⟨2, _⟩ => show win0_0.index t (2 : Fin 3) * 1024 + 1 * k.val = k.val; omega
  · show V c main_arg3 (((cfg0.win 3).blk t).view.emb (ix2 k cc)) = _
    refine congrArg (V c main_arg3) (funext fun a => Fin.ext ?_)
    match a with
    | ⟨0, _⟩ => show win0_3.index t (0 : Fin 2) * 1024 + 1 * k.val = k.val; omega
    | ⟨1, _⟩ => show win0_3.index t (1 : Fin 2) * 64 + 1 * cc.val = cc.val; omega

/-- Membership in a block of the third product array, spelled out: (b, r, h) lies in the block stored at grid point `t`
    exactly when b is the point's batch, r is one of its 512 rows and h any of the 64 columns, each as a pair of bounds. -/
theorem mem_blk6 (t : Fin cfg0.N) (i : S8x2048x64.Idx) :
    i ∈ ((cfg0.win 6).blk t).view.set ↔ ∀ a : Fin 3, win0_6.index t a * S1x512x64.size a ≤ (i a).val
      ∧ (i a).val < win0_6.index t a * S1x512x64.size a + S1x512x64.size a := by
  show i ∈ ((View.whole main_v0_2).slice (win0_6.rect t)).set ↔ _
  rw [View.set_slice_whole, Rect.mem_set_unit]
  exact Iff.rfl

/-- The blocks tile the array: row `r` of batch `b` lies in the block of the point with block index (b, r / 512). -/
theorem cover6 (i : S8x2048x64.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 64 := (i 2).isLt
  obtain ⟨t, q0, q1⟩ := idx_onto ⟨(i 0).val, hi0⟩ ⟨(i 1).val / 512, by omega⟩
  obtain ⟨e00, e01, e02, e42, e10, e11, e20, e21, e30, e31, e50, e51, e52, e60, e61, e62, b0, b1⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1
              simp only at q0; omega
  | ⟨1, _⟩ => show win0_6.index t (1 : Fin 3) * 512 ≤ (i 1).val ∧ (i 1).val < win0_6.index t (1 : Fin 3) * 512 + 512
              simp only at q1; omega
  | ⟨2, _⟩ => show win0_6.index t (2 : Fin 3) * 64 ≤ (i 2).val ∧ (i 2).val < win0_6.index t (2 : Fin 3) * 64 + 64
              omega

/-- After the region the third product array is the projection of the activations by the third weight matrix. -/
theorem final0_6 (c : Dev nD) :
    (dat0 V c).arrAt 6 cfg0.N = proj (V c main_arg0) (V c main_arg3) :=
  (dat0 V c).arrAt_eq_of_cover 6 (proj (V c main_arg0) (V c main_arg3)) (fun t _ => flushed0_6_eq V c t) cover6

end Cert.KernelIdeal.Val0

end
-- ==== Proof.LibOnlineSoftmax.lean ====
import Idealize.ShloMosaic.PureOps.Ideal

/-!
# Online softmax over prefixes of the keys

Scores `s : Fin N → EReal` (each one a real number or `⊥`, a masked key), values
`v : Fin N → EReal` (real numbers). For a prefix length `n` write

* `Mx s n`   — the maximum of the scores of the keys `k < n` (`⊥` for the empty prefix),
* `Ln s n`   — `∑_{k < n} exp (s k - Mx s n)`, the softmax denominator of the prefix,
* `An s v n` — `∑_{k < n} exp (s k - Mx s n) · v k`, the softmax numerator of the prefix.

The module proves the three facts that make the streaming ("online") evaluation of a
softmax-weighted sum correct.

1. INIT. `Mx s 0 = ⊥`, `Ln s 0 = 0`, `An s v 0 = 0`.
2. STEP. For `n ≤ n'` and `0 < n'`, with `mt` the maximum over the keys `n ≤ k < n'`:
   `max (Mx s n) mt = Mx s n'`, and with `a = exp (Mx s n - Mx s n')`
   `a · Ln s n + ∑_{n ≤ k < n'} exp (s k - Mx s n') = Ln s n'`, and the same with every
   summand multiplied by `v k` for `An`. The law inside is
   `exp (m - m') · exp (x - m) = exp (x - m')` for real `m, m', x`; a masked key weighs `0` on
   both sides, and for `n = 0` the factor `a` is `exp ⊥ = 0`.
3. FINAL. If every key `k ≥ n` is masked and `0 < n`, then `An s v n / Ln s n` is the
   softmax-weighted sum over ALL keys, `∑ k, (exp (s k - M) / L) · v k` with `M` the maximum and
   `L` the denominator over all keys: masked keys weigh `exp ⊥ = 0`, and `L` is a positive
   real, so dividing by it is multiplying by its reciprocal, which distributes over the sum.

Key `0` is assumed unmasked, so the maximum of every nonempty prefix is a real number and every
exponent `s k - Mx s n` is a real number or `⊥`. All proofs move to `ℝ`: each extended real
that occurs is shown to be the coercion of a real number, and the identity is proved there.
-/

namespace Cert.OnlineSoftmax

open Idealize.ShloMosaic
open scoped BigOperators

variable {N : ℕ}

/-! ### Prefixes and segments of the keys -/

/-- The keys before `n`. -/
abbrev pre (N n : ℕ) : Finset (Fin N) := Finset.univ.filter fun k : Fin N => k.val < n

/-- The keys from `n` up to, not including, `n'`. -/
abbrev seg (N n n' : ℕ) : Finset (Fin N) := Finset.univ.filter fun k : Fin N => n ≤ k.val ∧ k.val < n'

theorem mem_pre {n : ℕ} {k : Fin N} : k ∈ pre N n ↔ k.val < n := by
  simp only [Finset.mem_filter, Finset.mem_univ, true_and]

theorem mem_seg {n n' : ℕ} {k : Fin N} : k ∈ seg N n n' ↔ n ≤ k.val ∧ k.val < n' := by
  simp only [Finset.mem_filter, Finset.mem_univ, true_and]

theorem pre_zero : pre N 0 = ∅ := by
  ext k; simp only [mem_pre, Nat.not_lt_zero, Finset.notMem_empty]

theorem pre_full : pre N N = Finset.univ := by
  ext k; simp only [mem_pre, k.isLt, Finset.mem_univ]

theorem seg_zero (n' : ℕ) : seg N 0 n' = pre N n' := by
  ext k; simp only [mem_seg, mem_pre, Nat.zero_le, true_and]

theorem pre_union_seg {n n' : ℕ} (h : n ≤ n') : pre N n ∪ seg N n n' = pre N n' := by
  ext k; simp only [Finset.mem_union, mem_pre, mem_seg]; omega

theorem disjoint_pre_seg (n n' : ℕ) : Disjoint (pre N n) (seg N n n') := by
  rw [Finset.disjoint_left]; intro k hk hk'
  rw [mem_pre] at hk; rw [mem_seg] at hk'; omega

/-! ### The three running quantities -/

/-- The maximum of the scores over the keys before `n`; `⊥` for the empty prefix. -/
noncomputable def Mx (s : Fin N → EReal) (n : ℕ) : EReal := (pre N n).sup s

/-- The softmax denominator of the prefix: `∑_{k < n} exp (s k - Mx s n)`. -/
noncomputable def Ln (s : Fin N → EReal) (n : ℕ) : EReal :=
  ∑ k ∈ pre N n, Ideal.exp (s k - Mx s n)

/-- The softmax numerator of the prefix: `∑_{k < n} exp (s k - Mx s n) · v k`. -/
noncomputable def An (s v : Fin N → EReal) (n : ℕ) : EReal :=
  ∑ k ∈ pre N n, Ideal.exp (s k - Mx s n) * v k

theorem Mx_def (s : Fin N → EReal) (n : ℕ) : Mx s n = (pre N n).sup s := rfl
theorem Ln_def (s : Fin N → EReal) (n : ℕ) :
    Ln s n = ∑ k ∈ pre N n, Ideal.exp (s k - Mx s n) := rfl
theorem An_def (s v : Fin N → EReal) (n : ℕ) :
    An s v n = ∑ k ∈ pre N n, Ideal.exp (s k - Mx s n) * v k := rfl

/-! ### Spellings of a maximum and of a sum over consecutive keys -/

/-- A fold of `max` from `⊥` is the finite supremum. -/
theorem fold_max_eq_sup {ι : Type*} (S : Finset ι) (f : ι → EReal) : S.fold max ⊥ f = S.sup f := rfl

/-- The prefix maximum as a fold of `max` from `⊥`. -/
theorem Mx_eq_fold (s : Fin N → EReal) (n : ℕ) : Mx s n = (pre N n).fold max ⊥ s := rfl

/-- The maximum of a tile of `T` consecutive keys starting at `n`, folded over the tile's own
    coordinate, is the maximum over the segment `n ≤ k < n + T`. -/
theorem tile_fold_max (s : Fin N → EReal) (n T : ℕ) (h : n + T ≤ N) (g : Fin T → EReal)
    (hg : ∀ c : Fin T, g c = s ⟨n + c.val, lt_of_lt_of_le (Nat.add_lt_add_left c.isLt n) h⟩) :
    Finset.univ.fold max ⊥ g = (seg N n (n + T)).sup s := by
  rw [fold_max_eq_sup]
  apply le_antisymm
  · rw [Finset.sup_le_iff]; intro c _
    rw [hg c]
    exact Finset.le_sup (f := s) (mem_seg.mpr ⟨Nat.le_add_right _ _, Nat.add_lt_add_left c.isLt n⟩)
  · rw [Finset.sup_le_iff]; intro k hk
    rw [mem_seg] at hk
    have hc : k.val - n < T := by omega
    have : s k = g ⟨k.val - n, hc⟩ := by
      rw [hg]; congr 1; apply Fin.ext; simp only; omega
    rw [this]
    exact Finset.le_sup (f := g) (Finset.mem_univ _)

/-- A sum over a tile of `T` consecutive keys starting at `n`, indexed by the tile's own
    coordinate, is the sum over the segment `n ≤ k < n + T`. -/
theorem tile_sum (f : Fin N → EReal) (n T : ℕ) (h : n + T ≤ N) (g : Fin T → EReal)
    (hg : ∀ c : Fin T, g c = f ⟨n + c.val, lt_of_lt_of_le (Nat.add_lt_add_left c.isLt n) h⟩) :
    ∑ c : Fin T, g c = ∑ k ∈ seg N n (n + T), f k := by
  refine Finset.sum_bij (fun c _ => ⟨n + c.val, lt_of_lt_of_le (Nat.add_lt_add_left c.isLt n) h⟩)
    ?_ ?_ ?_ ?_
  · intro c _; exact mem_seg.mpr ⟨Nat.le_add_right _ _, Nat.add_lt_add_left c.isLt n⟩
  · intro c _ c' _ hcc
    have := congrArg Fin.val hcc
    simp only at this
    exact Fin.ext (by omega)
  · intro k hk
    rw [mem_seg] at hk
    refine ⟨⟨k.val - n, by omega⟩, Finset.mem_univ _, ?_⟩
    apply Fin.ext; simp only; omega
  · intro c _; exact hg c

/-! ### INIT -/

theorem Mx_zero (s : Fin N → EReal) : Mx s 0 = ⊥ := by
  rw [Mx, pre_zero, Finset.sup_empty]

theorem Ln_zero (s : Fin N → EReal) : Ln s 0 = 0 := by
  rw [Ln, pre_zero, Finset.sum_empty]

theorem An_zero (s v : Fin N → EReal) : An s v 0 = 0 := by
  rw [An, pre_zero, Finset.sum_empty]

/-! ### Moving to the real numbers -/

/-- The coercion of a finite sum of reals is the sum of the coercions. -/
theorem coe_sum {ι : Type*} (S : Finset ι) (f : ι → ℝ) :
    ((∑ k ∈ S, f k : ℝ) : EReal) = ∑ k ∈ S, (f k : EReal) := by
  classical
  induction S using Finset.induction_on with
  | empty => simp only [Finset.sum_empty, EReal.coe_zero]
  | insert a S ha ih => rw [Finset.sum_insert ha, Finset.sum_insert ha, EReal.coe_add, ih]

/-- The real weight `exp (x - m)` of a key with score `x` against a real maximum `m`; a masked
    key (`x = ⊥`) weighs `0`. -/
noncomputable def wt (x : EReal) (m : ℝ) : ℝ := if x = ⊥ then 0 else Real.exp (x.toReal - m)

theorem wt_nonneg (x : EReal) (m : ℝ) : 0 ≤ wt x m := by
  unfold wt; split_ifs
  · exact le_refl 0
  · exact (Real.exp_pos _).le

theorem wt_bot (m : ℝ) : wt ⊥ m = 0 := by rw [wt, if_pos rfl]

theorem wt_coe (x m : ℝ) : wt (x : EReal) m = Real.exp (x - m) := by
  rw [wt, if_neg (EReal.coe_ne_bot x), EReal.toReal_coe]

/-- The rescaling law: `exp (m - m') · exp (x - m) = exp (x - m')`, and `0 = 0` for a masked key. -/
theorem wt_rescale (x : EReal) (m m' : ℝ) : Real.exp (m - m') * wt x m = wt x m' := by
  unfold wt; split_ifs
  · exact mul_zero _
  · rw [← Real.exp_add]; congr 1; ring

/-- `exp (x - m)` in the extended reals is the coercion of the real weight. -/
theorem exp_sub_coe {x : EReal} (hx : x = ⊥ ∨ ∃ r : ℝ, x = (r : EReal)) (m : ℝ) :
    Ideal.exp (x - (m : EReal)) = ((wt x m : ℝ) : EReal) := by
  rcases hx with rfl | ⟨r, rfl⟩
  · rw [EReal.bot_sub, Ideal.exp_bot, wt_bot, EReal.coe_zero]
  · rw [← EReal.coe_sub, Ideal.exp_coe, wt_coe]

theorem sum_exp_eq_coe (s : Fin N → EReal) (hs : ∀ k, s k = ⊥ ∨ ∃ x : ℝ, s k = (x : EReal))
    (S : Finset (Fin N)) (m : ℝ) :
    ∑ k ∈ S, Ideal.exp (s k - (m : EReal)) = ((∑ k ∈ S, wt (s k) m : ℝ) : EReal) := by
  rw [coe_sum]; exact Finset.sum_congr rfl fun k _ => exp_sub_coe (hs k) m

theorem sum_exp_mul_eq_coe (s v : Fin N → EReal)
    (hs : ∀ k, s k = ⊥ ∨ ∃ x : ℝ, s k = (x : EReal)) (hv : ∀ k, ∃ y : ℝ, v k = (y : EReal))
    (S : Finset (Fin N)) (m : ℝ) :
    ∑ k ∈ S, Ideal.exp (s k - (m : EReal)) * v k
      = ((∑ k ∈ S, wt (s k) m * (v k).toReal : ℝ) : EReal) := by
  rw [coe_sum]
  refine Finset.sum_congr rfl fun k _ => ?_
  obtain ⟨y, hy⟩ := hv k
  rw [exp_sub_coe (hs k) m, hy, EReal.toReal_coe, EReal.coe_mul]

/-- The maximum of a nonempty prefix is a real number: key `0` is not masked and no score is `⊤`. -/
theorem Mx_real (s : Fin N → EReal) (hs : ∀ k, s k = ⊥ ∨ ∃ x : ℝ, s k = (x : EReal))
    (h0 : ∃ (k0 : Fin N) (x : ℝ), k0.val = 0 ∧ s k0 = (x : EReal)) (n : ℕ) (hn : 0 < n) :
    ∃ r : ℝ, Mx s n = (r : EReal) := by
  obtain ⟨k0, x, hk0, hx⟩ := h0
  have hmem : k0 ∈ pre N n := mem_pre.mpr (by omega)
  have hbot : Mx s n ≠ ⊥ := by
    intro hb
    have hle : s k0 ≤ Mx s n := Finset.le_sup (f := s) hmem
    rw [hb, hx] at hle
    exact EReal.coe_ne_bot x (le_bot_iff.mp hle)
  have htop : Mx s n ≠ ⊤ := by
    apply ne_of_lt
    rw [Mx, Finset.sup_lt_iff bot_lt_top]
    intro k _
    rcases hs k with h | ⟨r, h⟩ <;> rw [h]
    · exact bot_lt_top
    · exact EReal.coe_lt_top r
  exact ⟨(Mx s n).toReal, (EReal.coe_toReal htop hbot).symm⟩

theorem Ln_eq_coe (s : Fin N → EReal) (hs : ∀ k, s k = ⊥ ∨ ∃ x : ℝ, s k = (x : EReal))
    (n : ℕ) (m : ℝ) (hm : Mx s n = (m : EReal)) :
    Ln s n = ((∑ k ∈ pre N n, wt (s k) m : ℝ) : EReal) := by
  rw [Ln, hm]; exact sum_exp_eq_coe s hs _ m

theorem An_eq_coe (s v : Fin N → EReal) (hs : ∀ k, s k = ⊥ ∨ ∃ x : ℝ, s k = (x : EReal))
    (hv : ∀ k, ∃ y : ℝ, v k = (y : EReal)) (n : ℕ) (m : ℝ) (hm : Mx s n = (m : EReal)) :
    An s v n = ((∑ k ∈ pre N n, wt (s k) m * (v k).toReal : ℝ) : EReal) := by
  rw [An, hm]; exact sum_exp_mul_eq_coe s v hs hv _ m

/-- The denominator of a nonempty prefix is a positive real number. -/
theorem Ln_pos (s : Fin N → EReal) (hs : ∀ k, s k = ⊥ ∨ ∃ x : ℝ, s k = (x : EReal))
    (h0 : ∃ (k0 : Fin N) (x : ℝ), k0.val = 0 ∧ s k0 = (x : EReal)) (n : ℕ) (hn : 0 < n) :
    ∃ l : ℝ, Ln s n = (l : EReal) ∧ 0 < l := by
  obtain ⟨m, hm⟩ := Mx_real s hs h0 n hn
  refine ⟨_, Ln_eq_coe s hs n m hm, ?_⟩
  obtain ⟨k0, x, hk0, hx⟩ := h0
  refine Finset.sum_pos' (fun k _ => wt_nonneg _ _) ⟨k0, mem_pre.mpr (by omega), ?_⟩
  rw [hx, wt_coe]; exact Real.exp_pos _

/-- The numerator of a nonempty prefix is a real number. -/
theorem An_real (s v : Fin N → EReal) (hs : ∀ k, s k = ⊥ ∨ ∃ x : ℝ, s k = (x : EReal))
    (hv : ∀ k, ∃ y : ℝ, v k = (y : EReal))
    (h0 : ∃ (k0 : Fin N) (x : ℝ), k0.val = 0 ∧ s k0 = (x : EReal)) (n : ℕ) (hn : 0 < n) :
    ∃ r : ℝ, An s v n = (r : EReal) := by
  obtain ⟨m, hm⟩ := Mx_real s hs h0 n hn
  exact ⟨_, An_eq_coe s v hs hv n m hm⟩

/-! ### STEP -/

/-- The running maximum: the maximum of a longer prefix is the larger of the shorter prefix's maximum
    and the maximum of the keys in between. -/
theorem Mx_step (s : Fin N → EReal) (n n' : ℕ) (h : n ≤ n') :
    max (Mx s n) ((seg N n n').sup s) = Mx s n' := by
  rw [Mx, Mx, ← pre_union_seg h, Finset.sup_union]

/-- The running denominator: rescale the shorter prefix's denominator to the new maximum and add the
    new keys' weights. -/
theorem Ln_step (s : Fin N → EReal) (hs : ∀ k, s k = ⊥ ∨ ∃ x : ℝ, s k = (x : EReal))
    (h0 : ∃ (k0 : Fin N) (x : ℝ), k0.val = 0 ∧ s k0 = (x : EReal)) (n n' : ℕ) (h : n ≤ n')
    (hn' : 0 < n') :
    Ideal.exp (Mx s n - Mx s n') * Ln s n + ∑ k ∈ seg N n n', Ideal.exp (s k - Mx s n')
      = Ln s n' := by
  obtain ⟨m', hm'⟩ := Mx_real s hs h0 n' hn'
  rcases Nat.eq_zero_or_pos n with rfl | hn
  · rw [Mx_zero, EReal.bot_sub, Ideal.exp_bot, Ln_zero, mul_zero, zero_add, seg_zero, Ln]
  · obtain ⟨m, hm⟩ := Mx_real s hs h0 n hn
    rw [Ln_eq_coe s hs n m hm, Ln_eq_coe s hs n' m' hm', hm, hm', sum_exp_eq_coe s hs,
      ← EReal.coe_sub, Ideal.exp_coe, ← EReal.coe_mul, ← EReal.coe_add]
    congr 1
    rw [← pre_union_seg h, Finset.sum_union (disjoint_pre_seg n n'), Finset.mul_sum]
    congr 1
    exact Finset.sum_congr rfl fun k _ => wt_rescale (s k) m m'

/-- The running numerator: rescale the shorter prefix's numerator to the new maximum and add the new
    keys' weighted values. -/
theorem An_step (s v : Fin N → EReal) (hs : ∀ k, s k = ⊥ ∨ ∃ x : ℝ, s k = (x : EReal))
    (hv : ∀ k, ∃ y : ℝ, v k = (y : EReal))
    (h0 : ∃ (k0 : Fin N) (x : ℝ), k0.val = 0 ∧ s k0 = (x : EReal)) (n n' : ℕ) (h : n ≤ n')
    (hn' : 0 < n') :
    Ideal.exp (Mx s n - Mx s n') * An s v n + ∑ k ∈ seg N n n', Ideal.exp (s k - Mx s n') * v k
      = An s v n' := by
  obtain ⟨m', hm'⟩ := Mx_real s hs h0 n' hn'
  rcases Nat.eq_zero_or_pos n with rfl | hn
  · rw [Mx_zero, EReal.bot_sub, Ideal.exp_bot, An_zero, mul_zero, zero_add, seg_zero, An]
  · obtain ⟨m, hm⟩ := Mx_real s hs h0 n hn
    rw [An_eq_coe s v hs hv n m hm, An_eq_coe s v hs hv n' m' hm', hm, hm',
      sum_exp_mul_eq_coe s v hs hv, ← EReal.coe_sub, Ideal.exp_coe, ← EReal.coe_mul,
      ← EReal.coe_add]
    congr 1
    rw [← pre_union_seg h, Finset.sum_union (disjoint_pre_seg n n'), Finset.mul_sum]
    congr 1
    refine Finset.sum_congr rfl fun k _ => ?_
    rw [← mul_assoc, wt_rescale]

/-! ### STEP, in the shape of a tile of `T` consecutive keys

The same three identities with the new keys `n ≤ k < n + T` indexed by the tile's own coordinate
`c : Fin T`, key `n + c`: `g c` is the score and `gv c` the value of that key. -/

theorem Mx_step_tile (s : Fin N → EReal) (n T : ℕ) (h : n + T ≤ N) (g : Fin T → EReal)
    (hg : ∀ c : Fin T, g c = s ⟨n + c.val, lt_of_lt_of_le (Nat.add_lt_add_left c.isLt n) h⟩) :
    max (Mx s n) (Finset.univ.fold max ⊥ g) = Mx s (n + T) := by
  rw [tile_fold_max s n T h g hg]; exact Mx_step s n (n + T) (Nat.le_add_right _ _)

theorem Ln_step_tile (s : Fin N → EReal) (hs : ∀ k, s k = ⊥ ∨ ∃ x : ℝ, s k = (x : EReal))
    (h0 : ∃ (k0 : Fin N) (x : ℝ), k0.val = 0 ∧ s k0 = (x : EReal)) (n T : ℕ) (h : n + T ≤ N)
    (hT : 0 < n + T) (g : Fin T → EReal)
    (hg : ∀ c : Fin T, g c = s ⟨n + c.val, lt_of_lt_of_le (Nat.add_lt_add_left c.isLt n) h⟩) :
    Ideal.exp (Mx s n - Mx s (n + T)) * Ln s n + ∑ c : Fin T, Ideal.exp (g c - Mx s (n + T))
      = Ln s (n + T) := by
  rw [tile_sum (fun k => Ideal.exp (s k - Mx s (n + T))) n T h
    (fun c => Ideal.exp (g c - Mx s (n + T)))
    (fun c => congrArg (fun x => Ideal.exp (x - Mx s (n + T))) (hg c))]
  exact Ln_step s hs h0 n (n + T) (Nat.le_add_right _ _) hT

theorem An_step_tile (s v : Fin N → EReal) (hs : ∀ k, s k = ⊥ ∨ ∃ x : ℝ, s k = (x : EReal))
    (hv : ∀ k, ∃ y : ℝ, v k = (y : EReal))
    (h0 : ∃ (k0 : Fin N) (x : ℝ), k0.val = 0 ∧ s k0 = (x : EReal)) (n T : ℕ) (h : n + T ≤ N)
    (hT : 0 < n + T) (g gv : Fin T → EReal)
    (hg : ∀ c : Fin T, g c = s ⟨n + c.val, lt_of_lt_of_le (Nat.add_lt_add_left c.isLt n) h⟩)
    (hgv : ∀ c : Fin T, gv c = v ⟨n + c.val, lt_of_lt_of_le (Nat.add_lt_add_left c.isLt n) h⟩) :
    Ideal.exp (Mx s n - Mx s (n + T)) * An s v n
        + ∑ c : Fin T, Ideal.exp (g c - Mx s (n + T)) * gv c
      = An s v (n + T) := by
  rw [tile_sum (fun k => Ideal.exp (s k - Mx s (n + T)) * v k) n T h
    (fun c => Ideal.exp (g c - Mx s (n + T)) * gv c)
    (fun c => by rw [hg c, hgv c])]
  exact An_step s v hs hv h0 n (n + T) (Nat.le_add_right _ _) hT

/-! ### One step of the streaming recurrence, as an invariant

The streaming evaluation carries a triple (running maximum, running denominator, running numerator).
Fed the scores `g` and the values `gv` of tile `j` (keys `j * T + c`, `c < T`), one step maps the triple
of the prefix of length `j * T` to the triple of the prefix of length `(j + 1) * T`; the start
`(⊥, 0, 0)` is the triple of the empty prefix. -/

/-- One step, componentwise: from `m = Mx s (j * T)`, `l = Ln s (j * T)`, `acc = An s v (j * T)` the
    new maximum `m' = max m mt` (`mt` the tile's maximum), the rescaled denominator plus the tile's
    weights, and the rescaled numerator plus the tile's weighted values are the three quantities of
    the prefix of length `(j + 1) * T`. -/
theorem step_components (s v : Fin N → EReal) (hs : ∀ k, s k = ⊥ ∨ ∃ x : ℝ, s k = (x : EReal))
    (hv : ∀ k, ∃ y : ℝ, v k = (y : EReal))
    (h0 : ∃ (k0 : Fin N) (x : ℝ), k0.val = 0 ∧ s k0 = (x : EReal)) (T : ℕ) (hT : 0 < T) (j : ℕ)
    (h : (j + 1) * T ≤ N) (g gv : Fin T → EReal) (hb : ∀ c : Fin T, j * T + c.val < N)
    (hg : ∀ c : Fin T, g c = s ⟨j * T + c.val, hb c⟩)
    (hgv : ∀ c : Fin T, gv c = v ⟨j * T + c.val, hb c⟩)
    (m l acc : EReal) (hm : m = Mx s (j * T)) (hl : l = Ln s (j * T))
    (hacc : acc = An s v (j * T)) :
    max m (Finset.univ.fold max ⊥ g) = Mx s ((j + 1) * T)
    ∧ Ideal.exp (m - max m (Finset.univ.fold max ⊥ g)) * l
          + ∑ c : Fin T, Ideal.exp (g c - max m (Finset.univ.fold max ⊥ g))
        = Ln s ((j + 1) * T)
    ∧ Ideal.exp (m - max m (Finset.univ.fold max ⊥ g)) * acc
          + ∑ c : Fin T, Ideal.exp (g c - max m (Finset.univ.fold max ⊥ g)) * gv c
        = An s v ((j + 1) * T) := by
  have e : (j + 1) * T = j * T + T := Nat.succ_mul j T
  have hN : j * T + T ≤ N := e ▸ h
  have hpos : 0 < j * T + T := Nat.add_pos_right _ hT
  subst hm hl hacc
  rw [e]
  have hM : max (Mx s (j * T)) (Finset.univ.fold max ⊥ g) = Mx s (j * T + T) :=
    Mx_step_tile s (j * T) T hN g hg
  refine ⟨hM, ?_, ?_⟩
  · rw [hM]; exact Ln_step_tile s hs h0 (j * T) T hN hpos g hg
  · rw [hM]; exact An_step_tile s v hs hv h0 (j * T) T hN hpos g gv hg hgv

/-- The triple (maximum, denominator, numerator) of the prefix of length `n`. -/
noncomputable def state (s v : Fin N → EReal) (n : ℕ) : EReal × EReal × EReal :=
  (Mx s n, Ln s n, An s v n)

/-- One step of the streaming recurrence on a triple, fed a tile's scores `g` and values `gv`. -/
noncomputable def step {T : ℕ} (g gv : Fin T → EReal) (p : EReal × EReal × EReal) :
    EReal × EReal × EReal :=
  (max p.1 (Finset.univ.fold max ⊥ g),
   Ideal.exp (p.1 - max p.1 (Finset.univ.fold max ⊥ g)) * p.2.1
     + ∑ c : Fin T, Ideal.exp (g c - max p.1 (Finset.univ.fold max ⊥ g)),
   Ideal.exp (p.1 - max p.1 (Finset.univ.fold max ⊥ g)) * p.2.2
     + ∑ c : Fin T, Ideal.exp (g c - max p.1 (Finset.univ.fold max ⊥ g)) * gv c)

/-- The start of the recurrence is the triple of the empty prefix. -/
theorem state_zero (s v : Fin N → EReal) : state s v 0 = (⊥, 0, 0) := by
  rw [state, Mx_zero, Ln_zero, An_zero]

/-- The invariant: a step fed tile `j` maps the triple of the prefix of length `j * T` to the triple
    of the prefix of length `(j + 1) * T`. -/
theorem step_state (s v : Fin N → EReal) (hs : ∀ k, s k = ⊥ ∨ ∃ x : ℝ, s k = (x : EReal))
    (hv : ∀ k, ∃ y : ℝ, v k = (y : EReal))
    (h0 : ∃ (k0 : Fin N) (x : ℝ), k0.val = 0 ∧ s k0 = (x : EReal)) (T : ℕ) (hT : 0 < T) (j : ℕ)
    (h : (j + 1) * T ≤ N) (g gv : Fin T → EReal) (hb : ∀ c : Fin T, j * T + c.val < N)
    (hg : ∀ c : Fin T, g c = s ⟨j * T + c.val, hb c⟩)
    (hgv : ∀ c : Fin T, gv c = v ⟨j * T + c.val, hb c⟩) :
    step g gv (state s v (j * T)) = state s v ((j + 1) * T) := by
  obtain ⟨h1, h2, h3⟩ := step_components s v hs hv h0 T hT j h g gv hb hg hgv _ _ _ rfl rfl rfl
  exact Prod.ext h1 (Prod.ext h2 h3)

/-! ### FINAL -/

/-- When every key from `n` on is masked, the maximum over all keys is the prefix maximum. -/
theorem sup_univ_eq_Mx (s : Fin N → EReal) (n : ℕ) (hmask : ∀ k : Fin N, n ≤ k.val → s k = ⊥) :
    Finset.univ.sup s = Mx s n := by
  apply le_antisymm
  · rw [Finset.sup_le_iff]; intro k _
    rcases Nat.lt_or_ge k.val n with hk | hk
    · exact Finset.le_sup (f := s) (mem_pre.mpr hk)
    · rw [hmask k hk]; exact bot_le
  · exact Finset.sup_mono (Finset.subset_univ _)

/-- The reference's spelling of the maximum over all keys. -/
theorem refMax_eq_Mx (s : Fin N → EReal) (n : ℕ) (hmask : ∀ k : Fin N, n ≤ k.val → s k = ⊥) :
    max ⊥ (Finset.univ.fold max ⊥ s) = Mx s n := by
  rw [fold_max_eq_sup, sup_univ_eq_Mx s n hmask]; exact max_eq_right bot_le

/-- The reference's spelling of the denominator over all keys: masked keys weigh `exp ⊥ = 0`. -/
theorem refSum_eq_Ln (s : Fin N → EReal) (n : ℕ) (hmask : ∀ k : Fin N, n ≤ k.val → s k = ⊥) :
    0 + ∑ k : Fin N, Ideal.exp (s k - Mx s n) = Ln s n := by
  rw [zero_add, Ln]
  symm
  refine Finset.sum_subset (Finset.subset_univ _) fun k _ hk => ?_
  rw [mem_pre, Nat.not_lt] at hk
  rw [hmask k hk, EReal.bot_sub, Ideal.exp_bot]

/-- FINAL, with the maximum `M` and the denominator `L` over all keys given by name. -/
theorem final_of_eq (s v : Fin N → EReal) (hs : ∀ k, s k = ⊥ ∨ ∃ x : ℝ, s k = (x : EReal))
    (hv : ∀ k, ∃ y : ℝ, v k = (y : EReal))
    (h0 : ∃ (k0 : Fin N) (x : ℝ), k0.val = 0 ∧ s k0 = (x : EReal)) (n : ℕ) (hn : 0 < n)
    (hmask : ∀ k : Fin N, n ≤ k.val → s k = ⊥) (M L : EReal) (hM : M = Mx s n) (hL : L = Ln s n) :
    Ideal.div (An s v n) (Ln s n) = ∑ k : Fin N, Ideal.div (Ideal.exp (s k - M)) L * v k := by
  subst hM hL
  obtain ⟨m, hm⟩ := Mx_real s hs h0 n hn
  obtain ⟨l, hl, hlpos⟩ := Ln_pos s hs h0 n hn
  have hterm : ∀ k : Fin N, Ideal.div (Ideal.exp (s k - Mx s n)) (Ln s n) * v k
      = ((wt (s k) m * (1 / l) * (v k).toReal : ℝ) : EReal) := by
    intro k
    obtain ⟨y, hy⟩ := hv k
    rw [hl, Ideal.div_coe hlpos.ne', hm, exp_sub_coe (hs k) m, hy, EReal.toReal_coe,
      EReal.coe_mul, EReal.coe_mul]
  rw [Finset.sum_congr rfl fun k _ => hterm k, ← coe_sum, hl, Ideal.div_coe hlpos.ne',
    An_eq_coe s v hs hv n m hm, ← EReal.coe_mul]
  congr 1
  rw [Finset.sum_mul]
  have hsub : ∑ k ∈ pre N n, wt (s k) m * (1 / l) * (v k).toReal
      = ∑ k : Fin N, wt (s k) m * (1 / l) * (v k).toReal := by
    refine Finset.sum_subset (Finset.subset_univ _) fun k _ hk => ?_
    rw [mem_pre, Nat.not_lt] at hk
    rw [hmask k hk, wt_bot, zero_mul, zero_mul]
  rw [← hsub]
  exact Finset.sum_congr rfl fun k _ => mul_right_comm _ _ _

/-- FINAL: with every key from `n` on masked, the streamed quotient `An s v n / Ln s n` is the
    softmax-weighted sum of the values over all keys, in the reference's spelling. -/
theorem final (s v : Fin N → EReal) (hs : ∀ k, s k = ⊥ ∨ ∃ x : ℝ, s k = (x : EReal))
    (hv : ∀ k, ∃ y : ℝ, v k = (y : EReal))
    (h0 : ∃ (k0 : Fin N) (x : ℝ), k0.val = 0 ∧ s k0 = (x : EReal)) (n : ℕ) (hn : 0 < n)
    (hmask : ∀ k : Fin N, n ≤ k.val → s k = ⊥) :
    Ideal.div (An s v n) (Ln s n)
      = ∑ k : Fin N,
          Ideal.div (Ideal.exp (s k - max ⊥ (Finset.univ.fold max ⊥ s)))
            (0 + ∑ j : Fin N, Ideal.exp (s j - max ⊥ (Finset.univ.fold max ⊥ s))) * v k := by
  refine final_of_eq s v hs hv h0 n hn hmask _ _ (refMax_eq_Mx s n hmask) ?_
  rw [refMax_eq_Mx s n hmask]; exact refSum_eq_Ln s n hmask

end Cert.OnlineSoftmax
-- ==== Proof.Bridge.lean ====
/-
  From the specification's row of masked scores to the streaming softmax.

  For one batch `b`, one query row `r` and one output column `h`, the specification's entry is a
  softmax-weighted sum over all 2048 keys of the row's masked scores. This module shows that the row
  satisfies what the streaming lemmas ask of a score function — every masked score is a real number or
  `⊥`, key 0 is never masked, the values are real — and concludes that the streamed quotient
  (numerator over denominator of any prefix that contains every unmasked key) is the specification's entry.

  Realness: a projection of real arrays is real (a finite sum of products of reals); the scale's float
  word denotes the real number 1/32; so every score is real, and a masked score is a score or `⊥`.
-/
import proofs.«175071_j38998303048530_2_alg».proof.Proof.Spec
import proofs.«175071_j38998303048530_2_alg».proof.Proof.LibOnlineSoftmax

noncomputable section

namespace Cert.Bridge

open Idealize.ShloMosaic Idealize.ShloMosaic.ValueIdx Cert.Spec Cert.OnlineSoftmax

/-- Every entry of the array is (the coercion of) a real number. -/
def IsReal {ι : Type*} (f : ι → EReal) : Prop := ∀ i, ∃ r : ℝ, f i = (r : EReal)

/-- A product of two reals is a real. -/
theorem mul_real {x y : EReal} (hx : ∃ a : ℝ, x = (a : EReal)) (hy : ∃ b : ℝ, y = (b : EReal)) :
    ∃ c : ℝ, x * y = (c : EReal) := by
  obtain ⟨a, rfl⟩ := hx
  obtain ⟨b, rfl⟩ := hy
  exact ⟨a * b, (EReal.coe_mul a b).symm⟩

/-- A finite sum of reals is a real. -/
theorem sum_real {ι : Type*} (S : Finset ι) (f : ι → EReal)
    (hf : ∀ i ∈ S, ∃ r : ℝ, f i = (r : EReal)) : ∃ r : ℝ, ∑ i ∈ S, f i = (r : EReal) := by
  refine ⟨∑ i ∈ S, (f i).toReal, ?_⟩
  rw [coe_sum]
  refine Finset.sum_congr rfl fun i hi => ?_
  obtain ⟨r, hr⟩ := hf i hi
  rw [hr, EReal.toReal_coe]

/-- (a) A projection of a real array by a real weight is a real array. -/
theorem proj_real (x : SX.Idx → EReal) (w : SW.Idx → EReal) (hx : IsReal x) (hw : IsReal w) :
    IsReal (proj x w) := by
  intro i
  exact sum_real _ _ fun c _ => mul_real (hx _) (hw _)

/-- The scale's float word, sign 0, exponent 122, significand 0, denotes `2⁻⁵ = 1/32`. -/
theorem ofBits_scale : Ideal.ofBits .f32 0x3D000000#32 = ((1 / 32 : ℝ) : EReal) := by
  simp [Ideal.ofBits, Ideal.ieee, -EReal.coe_mul]; norm_num

/-- Every score of real queries against real keys is a real number. -/
theorem score_real (q k : SO.Idx → EReal) (hq : IsReal q) (hk : IsReal k) (b : Fin 8)
    (r j : Fin 2048) : ∃ x : ℝ, score q k b r j = (x : EReal) := by
  unfold score
  rw [ofBits_scale]
  exact mul_real (sum_real _ _ fun h _ => mul_real (hq _) (hk _)) ⟨_, rfl⟩

/-- (b) A masked score is `⊥` or a real number. -/
theorem sm_cases (q k : SO.Idx → EReal) (hq : IsReal q) (hk : IsReal k) (b : Fin 8)
    (r j : Fin 2048) : sm q k b r j = ⊥ ∨ ∃ x : ℝ, sm q k b r j = (x : EReal) := by
  unfold sm
  split_ifs
  · exact Or.inr (score_real q k hq hk b r j)
  · exact Or.inl rfl

/-- (b) Key 0 is on or below the diagonal of every row, so its masked score is a real number. -/
theorem sm_key_zero (q k : SO.Idx → EReal) (hq : IsReal q) (hk : IsReal k) (b : Fin 8)
    (r : Fin 2048) : ∃ (k0 : Fin 2048) (x : ℝ), k0.val = 0 ∧ sm q k b r k0 = (x : EReal) := by
  obtain ⟨x, hx⟩ := score_real q k hq hk b r ⟨0, by norm_num⟩
  refine ⟨⟨0, by norm_num⟩, x, rfl, ?_⟩
  unfold sm
  rw [if_pos (Nat.zero_le _)]
  exact hx

/-- Above the diagonal every key is masked. -/
theorem sm_masked (q k : SO.Idx → EReal) (b : Fin 8) (r j : Fin 2048) (h : r.val < j.val) :
    sm q k b r j = ⊥ := by
  unfold sm
  rw [if_neg (by omega)]

/-- (c) THE BRIDGE. For a prefix of the keys that reaches past row `r`'s diagonal, the streamed quotient
    of the row — prefix numerator over prefix denominator — is the specification's attention entry. -/
theorem attn_eq_stream (q k v : SO.Idx → EReal) (hq : IsReal q) (hk : IsReal k) (hv : IsReal v)
    (b : Fin 8) (r : Fin 2048) (h : Fin 64) (n : ℕ) (hn : 0 < n) (hr : r.val < n) :
    Ideal.div (An (fun j : Fin 2048 => sm q k b r j) (fun j : Fin 2048 => v (ix3 b j h)) n)
        (Ln (fun j : Fin 2048 => sm q k b r j) n)
      = attn q k v (ix3 b r h) := by
  rw [attn_apply]
  exact final (fun j : Fin 2048 => sm q k b r j) (fun j : Fin 2048 => v (ix3 b j h))
    (fun j => sm_cases q k hq hk b r j) (fun j => hv _) (sm_key_zero q k hq hk b r) n hn
    (fun j hj => sm_masked q k b r j (by omega))

end Cert.Bridge

end
-- ==== Proof.Finite.lean ====
/-
  From the precondition to "every input entry is a real number".

  The precondition is the conjunction, over the four argument arrays, of "every entry `x` has `|x| < +∞`",
  each written as a reduction by `and` over all axes of the entrywise comparison, and the claim assumes that the
  conjunction is 1. Reading it back: a conjunction that is 1 has both conjuncts 1; a reduction by `and` over all
  axes that is 1 met a 1 at every entry; and an extended real `x` whose absolute value `max x (-x)` lies
  strictly below `⊤` (which the word of `+∞` denotes) is neither `⊤` nor `⊥` — for both of those the absolute
  value is `⊤` — so it is a real number.
-/
import proofs.«175071_j38998303048530_2_alg».proof.Defs
import proofs.«175071_j38998303048530_2_alg».proof.Proof.Bridge
import Idealize.ShloMosaic.Lib.ReduceAll
import Idealize.ShloMosaic.Lib.ValueIdx

noncomputable section

namespace Cert.Finite

open Idealize.ShloMosaic Idealize.SL.Sem Cert.Pre_finite_inputs Cert.Bridge

/-- The shape with no axes has exactly one index. -/
instance : Subsingleton S_.Idx := ⟨fun a b => funext fun d => d.elim0⟩

/-- The word of positive infinity denotes the top of the extended reals. -/
theorem ofBits_pos_inf : Ideal.ofBits .f32 0x7F800000#32 = (⊤ : EReal) := by
  simp [Ideal.ofBits, Ideal.ieee]

/-- An extended real whose absolute value is strictly below `+∞` is a real number: the absolute value of
    either infinity is `⊤`. -/
theorem real_of_abs_lt_inf (x : EReal)
    (h : Ideal.cmp .olt (max x (-x)) (Ideal.ofBits .f32 0x7F800000#32) = 1#1) :
    ∃ r : ℝ, x = (r : EReal) := by
  rw [ofBits_pos_inf] at h
  induction x using EReal.rec with
  | bot => simp [Ideal.cmp] at h
  | coe r => exact ⟨r, rfl⟩
  | top => simp [Ideal.cmp] at h

/-- The printed predicate, read back: if it is 1 then every entry of each of its four arguments is a real
    number. -/
theorem real_of_fn_eq_one [Facts] (a0 : FVec Ideal S8x2048x1024 .f32) (a1 a2 a3 : FVec Ideal S1024x64 .f32)
    (h : fn (F := Ideal) a0 a1 a2 a3 = fun _ => 1#1) :
    IsReal a0 ∧ IsReal a1 ∧ IsReal a2 ∧ IsReal a3 := by
  have h' := congrFun h ValueIdx.ix0
  dsimp only [fn, fn_part1] at h'
  obtain ⟨h123, e3⟩ := IntOp.andi_eq_one.1 h'
  obtain ⟨h12, e2⟩ := IntOp.andi_eq_one.1 h123
  obtain ⟨e0, e1⟩ := IntOp.andi_eq_one.1 h12
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i),
    fun i => real_of_abs_lt_inf _ (Host.reduce_andi_all _ _ _ _ _ e3 i)⟩

/-- Under the precondition, on every device each of the four argument arrays holds real numbers only. -/
theorem inputs_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2))
    ∧ IsReal (m ((c.tc : Thread Cert.KernelIdeal.nD Cert.KernelIdeal.τ).loc Cert.KernelIdeal.main_arg3)) :=
  real_of_fn_eq_one _ _ _ _ (h c)

end Cert.Finite

end
-- ==== Proof.Region1Pieces.lean ====
/-
  What each control case of the attention body leaves in each buffer it stores into, as the body's own arithmetic.

  The symbolic runs of the body return, per buffer, the list of stores the case makes. Every store of the body
  overwrites its whole buffer, so what a buffer holds afterwards is the payload of the last store into it, and
  every load reads either the contents the buffer had on entry or, after a store, that store's payload. Read
  this way, with w0 and w1 the query-tile and key-tile words of the grid point, x0, x1, x2 the loaded query, key
  and value blocks and m, l, acc the carried maximum, denominator and numerator:
    a middle tile leaves   m' = pay3 (pay10 w0 w1 x0 x1 m),   l' = pay1 (pay11 …) (pay12 …) l,
                           acc' = pay2 (pay8 x2) (pay11 …) (pay12 …) acc;
    a first tile leaves the same with m, l, acc replaced by the reset values pay5, pay6, pay7 (−∞, 0, 0);
    a last tile leaves the same as a middle tile, and in the output block pay4 acc' l' (the quotient).
  The statements are generic in the float interpretation, in the memrefs the body is called with, and in the view W
  through which the stores are read back (the stores cover the buffer, so what was there before does not matter).
-/
import proofs.«175071_j38998303048530_2_alg».proof.Proof.Region1RunC
import Idealize.ShloMosaic.Lib.Pipeline.Value

set_option maxRecDepth 16384

noncomputable section

namespace Cert.KernelIdeal.Val1

open Cert.KernelIdeal Cert.KernelIdeal.Gen Cert.KernelIdeal.Fr1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Loads of a whole buffer -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole buffer of a whole memref reads the buffer's contents (one lemma per buffer shape). -/
theorem rd_S1x1024x64 {e : EltTy} (M : Memref sig .tc .vmem S1x1024x64 e) (h : M.IsWhole) (x : Vec F S1x1024x64 e) :
    View.readAt (Elt F) M.view (Rect.unit (s := S1x1024x64) ![0, 0, 0] S1x1024x64.size inb_S1x1024x64_S1x1024x64_0_0_0).toLoadRect (h.unread x) = x := by
  simp only [View.readAt_eq_ld, h.read_unread, View.ld_unit_zero (S := S1x1024x64) hz3]
theorem rd_S1x512x64 {e : EltTy} (M : Memref sig .tc .vmem S1x512x64 e) (h : M.IsWhole) (x : Vec F S1x512x64 e) :
    View.readAt (Elt F) M.view (Rect.unit (s := S1x512x64) ![0, 0, 0] S1x512x64.size inb_S1x512x64_S1x512x64_0_0_0).toLoadRect (h.unread x) = x := by
  simp only [View.readAt_eq_ld, h.read_unread, View.ld_unit_zero (S := S1x512x64) hz3]
theorem rd_S1024x1 {e : EltTy} (M : Memref sig .tc .vmem S1024x1 e) (h : M.IsWhole) (x : Vec F S1024x1 e) :
    View.readAt (Elt F) M.view (Rect.unit (s := S1024x1) ![0, 0] S1024x1.size inb_S1024x1_S1024x1_0_0).toLoadRect (h.unread x) = x := by
  simp only [View.readAt_eq_ld, h.read_unread, View.ld_unit_zero (S := S1024x1) hz2]
theorem rd_S1024x64 {e : EltTy} (M : Memref sig .tc .vmem S1024x64 e) (h : M.IsWhole) (x : Vec F S1024x64 e) :
    View.readAt (Elt F) M.view (Rect.unit (s := S1024x64) ![0, 0] S1024x64.size inb_S1024x64_S1024x64_0_0).toLoadRect (h.unread x) = x := by
  simp only [View.readAt_eq_ld, h.read_unread, View.ld_unit_zero (S := S1024x64) hz2]

/-! ## A middle key tile -/

set_option maxHeartbeats 4000000 in
/-- A middle tile leaves the updated maximum in the maximum's buffer. -/
theorem pieceB_max (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : ¬condFirst (wordAt c tbM1_1 xt1 i)) (hc1 : ¬condLast (wordAt c tbM1_2 xt2 i))
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32)
    (W : View sig .tc .vmem S1024x1 .f32) :
    W.read (Elt F) (W.writes (Elt F) W.junk (kernelRun1_B (F := F) c i arg5 harg5 arg6 harg6 arg7 harg7 arg8 harg8 arg9 harg9 arg10 harg10 arg11 harg11 xt0 xt1 xt2 hc0 hc1 x0 x1 x2 xs0 xs1 xs2).1)
      = k1_pay3 (k1_pay10 (wordAt c tbM1_0 xt0 i) (wordAt c tbM1_1 xt1 i) x0 x1 xs0) := by
  have hcov : ∀ y : S1024x1.Idx, ∃ pc ∈ (kernelRun1_B (F := F) c i arg5 harg5 arg6 harg6 arg7 harg7 arg8 harg8 arg9 harg9 arg10 harg10 arg11 harg11 xt0 xt1 xt2 hc0 hc1 x0 x1 x2 xs0 xs1 xs2).1, y ∈ pc.1.set :=
    fun y => View.cover_of_wholeMem _ (by sl_whole_mem) y
  rw [View.read_writes_eq_canon _ _ _ hcov]
  unfold kernelRun1_B
  dsimp only
  sl_unfold_words
  rw [View.canon_unit_zero hz2]
  simp only [rd_S1x1024x64 arg5 harg5 x0, rd_S1x512x64 arg6 harg6 x1, rd_S1x512x64 arg7 harg7 x2, rd_S1024x1 arg9 harg9 xs0, rd_S1024x1 arg10 harg10 xs1, rd_S1024x64 arg11 harg11 xs2]
  rfl

set_option maxHeartbeats 4000000 in
/-- A middle tile leaves the updated denominator in the denominator's buffer. -/
theorem pieceB_den (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : ¬condFirst (wordAt c tbM1_1 xt1 i)) (hc1 : ¬condLast (wordAt c tbM1_2 xt2 i))
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32)
    (W : View sig .tc .vmem S1024x1 .f32) :
    W.read (Elt F) (W.writes (Elt F) W.junk (kernelRun1_B (F := F) c i arg5 harg5 arg6 harg6 arg7 harg7 arg8 harg8 arg9 harg9 arg10 harg10 arg11 harg11 xt0 xt1 xt2 hc0 hc1 x0 x1 x2 xs0 xs1 xs2).2.1)
      = k1_pay1 (k1_pay11 (wordAt c tbM1_0 xt0 i) (wordAt c tbM1_1 xt1 i) x0 x1 xs0) (k1_pay12 (wordAt c tbM1_0 xt0 i) (wordAt c tbM1_1 xt1 i) x0 x1 xs0) xs1 := by
  have hcov : ∀ y : S1024x1.Idx, ∃ pc ∈ (kernelRun1_B (F := F) c i arg5 harg5 arg6 harg6 arg7 harg7 arg8 harg8 arg9 harg9 arg10 harg10 arg11 harg11 xt0 xt1 xt2 hc0 hc1 x0 x1 x2 xs0 xs1 xs2).2.1, y ∈ pc.1.set :=
    fun y => View.cover_of_wholeMem _ (by sl_whole_mem) y
  rw [View.read_writes_eq_canon _ _ _ hcov]
  unfold kernelRun1_B
  dsimp only
  sl_unfold_words
  rw [View.canon_unit_zero hz2]
  simp only [rd_S1x1024x64 arg5 harg5 x0, rd_S1x512x64 arg6 harg6 x1, rd_S1x512x64 arg7 harg7 x2, rd_S1024x1 arg9 harg9 xs0, rd_S1024x1 arg10 harg10 xs1, rd_S1024x64 arg11 harg11 xs2]
  rfl

set_option maxHeartbeats 4000000 in
/-- A middle tile leaves the updated numerator in the numerator's buffer. -/
theorem pieceB_num (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : ¬condFirst (wordAt c tbM1_1 xt1 i)) (hc1 : ¬condLast (wordAt c tbM1_2 xt2 i))
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32)
    (W : View sig .tc .vmem S1024x64 .f32) :
    W.read (Elt F) (W.writes (Elt F) W.junk (kernelRun1_B (F := F) c i arg5 harg5 arg6 harg6 arg7 harg7 arg8 harg8 arg9 harg9 arg10 harg10 arg11 harg11 xt0 xt1 xt2 hc0 hc1 x0 x1 x2 xs0 xs1 xs2).2.2.1)
      = k1_pay2 (k1_pay8 x2) (k1_pay11 (wordAt c tbM1_0 xt0 i) (wordAt c tbM1_1 xt1 i) x0 x1 xs0) (k1_pay12 (wordAt c tbM1_0 xt0 i) (wordAt c tbM1_1 xt1 i) x0 x1 xs0) xs2 := by
  have hcov : ∀ y : S1024x64.Idx, ∃ pc ∈ (kernelRun1_B (F := F) c i arg5 harg5 arg6 harg6 arg7 harg7 arg8 harg8 arg9 harg9 arg10 harg10 arg11 harg11 xt0 xt1 xt2 hc0 hc1 x0 x1 x2 xs0 xs1 xs2).2.2.1, y ∈ pc.1.set :=
    fun y => View.cover_of_wholeMem _ (by sl_whole_mem) y
  rw [View.read_writes_eq_canon _ _ _ hcov]
  unfold kernelRun1_B
  dsimp only
  sl_unfold_words
  rw [View.canon_unit_zero hz2]
  simp only [rd_S1x1024x64 arg5 harg5 x0, rd_S1x512x64 arg6 harg6 x1, rd_S1x512x64 arg7 harg7 x2, rd_S1024x1 arg9 harg9 xs0, rd_S1024x1 arg10 harg10 xs1, rd_S1024x64 arg11 harg11 xs2]
  rfl

/-! ## A first key tile -/

set_option maxHeartbeats 4000000 in
/-- A first tile leaves the maximum updated from its reset value. -/
theorem pieceA_max (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : condFirst (wordAt c tbM1_1 xt1 i)) (hc1 : ¬condLast (wordAt c tbM1_2 xt2 i))
    (x0 : Vec F S1x1024x64 .bf16) (x1 : Vec F S1x512x64 .bf16) (x2 : Vec F S1x512x64 .bf16)
    (W : View sig .tc .vmem S1024x1 .f32) :
    W.read (Elt F) (W.writes (Elt F) W.junk (kernelRun1_A (F := F) c i arg5 harg5 arg6 harg6 arg7 harg7 arg8 harg8 arg9 harg9 arg10 harg10 arg11 harg11 xt0 xt1 xt2 hc0 hc1 x0 x1 x2).1)
      = k1_pay3 (k1_pay10 (wordAt c tbM1_0 xt0 i) (wordAt c tbM1_1 xt1 i) x0 x1 k1_pay5) := by
  have hcov : ∀ y : S1024x1.Idx, ∃ pc ∈ (kernelRun1_A (F := F) c i arg5 harg5 arg6 harg6 arg7 harg7 arg8 harg8 arg9 harg9 arg10 harg10 arg11 harg11 xt0 xt1 xt2 hc0 hc1 x0 x1 x2).1, y ∈ pc.1.set :=
    fun y => View.cover_of_wholeMem _ (by sl_whole_mem) y
  rw [View.read_writes_eq_canon _ _ _ hcov]
  unfold kernelRun1_A
  dsimp only
  sl_unfold_words
  rw [View.canon_cons_unit_zero (S := S1024x1) hz2, View.readCov_unit_zero (S := S1024x1) arg9.view hz2]
  simp only [rd_S1x1024x64 arg5 harg5 x0, rd_S1x512x64 arg6 harg6 x1, rd_S1x512x64 arg7 harg7 x2]
  rfl

set_option maxHeartbeats 4000000 in
/-- A first tile leaves the denominator updated from its reset value. -/
theorem pieceA_den (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : condFirst (wordAt c tbM1_1 xt1 i)) (hc1 : ¬condLast (wordAt c tbM1_2 xt2 i))
    (x0 : Vec F S1x1024x64 .bf16) (x1 : Vec F S1x512x64 .bf16) (x2 : Vec F S1x512x64 .bf16)
    (W : View sig .tc .vmem S1024x1 .f32) :
    W.read (Elt F) (W.writes (Elt F) W.junk (kernelRun1_A (F := F) c i arg5 harg5 arg6 harg6 arg7 harg7 arg8 harg8 arg9 harg9 arg10 harg10 arg11 harg11 xt0 xt1 xt2 hc0 hc1 x0 x1 x2).2.1)
      = k1_pay1 (k1_pay11 (wordAt c tbM1_0 xt0 i) (wordAt c tbM1_1 xt1 i) x0 x1 k1_pay5) (k1_pay12 (wordAt c tbM1_0 xt0 i) (wordAt c tbM1_1 xt1 i) x0 x1 k1_pay5) k1_pay6 := by
  have hcov : ∀ y : S1024x1.Idx, ∃ pc ∈ (kernelRun1_A (F := F) c i arg5 harg5 arg6 harg6 arg7 harg7 arg8 harg8 arg9 harg9 arg10 harg10 arg11 harg11 xt0 xt1 xt2 hc0 hc1 x0 x1 x2).2.1, y ∈ pc.1.set :=
    fun y => View.cover_of_wholeMem _ (by sl_whole_mem) y
  rw [View.read_writes_eq_canon _ _ _ hcov]
  unfold kernelRun1_A
  dsimp only
  sl_unfold_words
  rw [View.canon_cons_unit_zero (S := S1024x1) hz2, View.readCov_unit_zero (S := S1024x1) arg9.view hz2, View.readCov_unit_zero (S := S1024x1) arg10.view hz2]
  simp only [rd_S1x1024x64 arg5 harg5 x0, rd_S1x512x64 arg6 harg6 x1, rd_S1x512x64 arg7 harg7 x2]
  rfl

set_option maxHeartbeats 4000000 in
/-- A first tile leaves the numerator updated from its reset value. -/
theorem pieceA_num (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : condFirst (wordAt c tbM1_1 xt1 i)) (hc1 : ¬condLast (wordAt c tbM1_2 xt2 i))
    (x0 : Vec F S1x1024x64 .bf16) (x1 : Vec F S1x512x64 .bf16) (x2 : Vec F S1x512x64 .bf16)
    (W : View sig .tc .vmem S1024x64 .f32) :
    W.read (Elt F) (W.writes (Elt F) W.junk (kernelRun1_A (F := F) c i arg5 harg5 arg6 harg6 arg7 harg7 arg8 harg8 arg9 harg9 arg10 harg10 arg11 harg11 xt0 xt1 xt2 hc0 hc1 x0 x1 x2).2.2.1)
      = k1_pay2 (k1_pay8 x2) (k1_pay11 (wordAt c tbM1_0 xt0 i) (wordAt c tbM1_1 xt1 i) x0 x1 k1_pay5) (k1_pay12 (wordAt c tbM1_0 xt0 i) (wordAt c tbM1_1 xt1 i) x0 x1 k1_pay5) k1_pay7 := by
  have hcov : ∀ y : S1024x64.Idx, ∃ pc ∈ (kernelRun1_A (F := F) c i arg5 harg5 arg6 harg6 arg7 harg7 arg8 harg8 arg9 harg9 arg10 harg10 arg11 harg11 xt0 xt1 xt2 hc0 hc1 x0 x1 x2).2.2.1, y ∈ pc.1.set :=
    fun y => View.cover_of_wholeMem _ (by sl_whole_mem) y
  rw [View.read_writes_eq_canon _ _ _ hcov]
  unfold kernelRun1_A
  dsimp only
  sl_unfold_words
  rw [View.canon_cons_unit_zero (S := S1024x64) hz2, View.readCov_unit_zero (S := S1024x1) arg9.view hz2, View.readCov_unit_zero (S := S1024x64) arg11.view hz2]
  simp only [rd_S1x1024x64 arg5 harg5 x0, rd_S1x512x64 arg6 harg6 x1, rd_S1x512x64 arg7 harg7 x2]
  rfl

/-! ## A last key tile -/

set_option maxHeartbeats 4000000 in
/-- A last tile leaves in the output block the quotient of the updated numerator by the updated denominator. -/
theorem pieceC_out (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : ¬condFirst (wordAt c tbM1_1 xt1 i)) (hc1 : condLast (wordAt c tbM1_2 xt2 i))
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32)
    (W : View sig .tc .vmem S1x1024x64 .f32) :
    W.read (Elt F) (W.writes (Elt F) W.junk (kernelRun1_C (F := F) c i arg5 harg5 arg6 harg6 arg7 harg7 arg8 harg8 arg9 harg9 arg10 harg10 arg11 harg11 xt0 xt1 xt2 hc0 hc1 x0 x1 x2 xs0 xs1 xs2).1)
      = k1_pay4 (k1_pay2 (k1_pay8 x2) (k1_pay11 (wordAt c tbM1_0 xt0 i) (wordAt c tbM1_1 xt1 i) x0 x1 xs0) (k1_pay12 (wordAt c tbM1_0 xt0 i) (wordAt c tbM1_1 xt1 i) x0 x1 xs0) xs2) (k1_pay1 (k1_pay11 (wordAt c tbM1_0 xt0 i) (wordAt c tbM1_1 xt1 i) x0 x1 xs0) (k1_pay12 (wordAt c tbM1_0 xt0 i) (wordAt c tbM1_1 xt1 i) x0 x1 xs0) xs1) := by
  have hcov : ∀ y : S1x1024x64.Idx, ∃ pc ∈ (kernelRun1_C (F := F) c i arg5 harg5 arg6 harg6 arg7 harg7 arg8 harg8 arg9 harg9 arg10 harg10 arg11 harg11 xt0 xt1 xt2 hc0 hc1 x0 x1 x2 xs0 xs1 xs2).1, y ∈ pc.1.set :=
    fun y => View.cover_of_wholeMem _ (by sl_whole_mem) y
  rw [View.read_writes_eq_canon _ _ _ hcov]
  unfold kernelRun1_C
  dsimp only
  sl_unfold_words
  rw [View.canon_unit_zero hz3, View.readCov_unit_zero (S := S1024x64) arg11.view hz2, View.readCov_unit_zero (S := S1024x1) arg10.view hz2]
  simp only [rd_S1x1024x64 arg5 harg5 x0, rd_S1x512x64 arg6 harg6 x1, rd_S1x512x64 arg7 harg7 x2, rd_S1024x1 arg9 harg9 xs0, rd_S1024x1 arg10 harg10 xs1, rd_S1024x64 arg11 harg11 xs2]
  rfl

set_option maxHeartbeats 4000000 in
/-- A last tile leaves the updated maximum in the maximum's buffer. -/
theorem pieceC_max (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : ¬condFirst (wordAt c tbM1_1 xt1 i)) (hc1 : condLast (wordAt c tbM1_2 xt2 i))
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32)
    (W : View sig .tc .vmem S1024x1 .f32) :
    W.read (Elt F) (W.writes (Elt F) W.junk (kernelRun1_C (F := F) c i arg5 harg5 arg6 harg6 arg7 harg7 arg8 harg8 arg9 harg9 arg10 harg10 arg11 harg11 xt0 xt1 xt2 hc0 hc1 x0 x1 x2 xs0 xs1 xs2).2.1)
      = k1_pay3 (k1_pay10 (wordAt c tbM1_0 xt0 i) (wordAt c tbM1_1 xt1 i) x0 x1 xs0) := by
  have hcov : ∀ y : S1024x1.Idx, ∃ pc ∈ (kernelRun1_C (F := F) c i arg5 harg5 arg6 harg6 arg7 harg7 arg8 harg8 arg9 harg9 arg10 harg10 arg11 harg11 xt0 xt1 xt2 hc0 hc1 x0 x1 x2 xs0 xs1 xs2).2.1, y ∈ pc.1.set :=
    fun y => View.cover_of_wholeMem _ (by sl_whole_mem) y
  rw [View.read_writes_eq_canon _ _ _ hcov]
  unfold kernelRun1_C
  dsimp only
  sl_unfold_words
  rw [View.canon_unit_zero hz2]
  simp only [rd_S1x1024x64 arg5 harg5 x0, rd_S1x512x64 arg6 harg6 x1, rd_S1x512x64 arg7 harg7 x2, rd_S1024x1 arg9 harg9 xs0, rd_S1024x1 arg10 harg10 xs1, rd_S1024x64 arg11 harg11 xs2]
  rfl

set_option maxHeartbeats 4000000 in
/-- A last tile leaves the updated denominator in the denominator's buffer. -/
theorem pieceC_den (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : ¬condFirst (wordAt c tbM1_1 xt1 i)) (hc1 : condLast (wordAt c tbM1_2 xt2 i))
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32)
    (W : View sig .tc .vmem S1024x1 .f32) :
    W.read (Elt F) (W.writes (Elt F) W.junk (kernelRun1_C (F := F) c i arg5 harg5 arg6 harg6 arg7 harg7 arg8 harg8 arg9 harg9 arg10 harg10 arg11 harg11 xt0 xt1 xt2 hc0 hc1 x0 x1 x2 xs0 xs1 xs2).2.2.1)
      = k1_pay1 (k1_pay11 (wordAt c tbM1_0 xt0 i) (wordAt c tbM1_1 xt1 i) x0 x1 xs0) (k1_pay12 (wordAt c tbM1_0 xt0 i) (wordAt c tbM1_1 xt1 i) x0 x1 xs0) xs1 := by
  have hcov : ∀ y : S1024x1.Idx, ∃ pc ∈ (kernelRun1_C (F := F) c i arg5 harg5 arg6 harg6 arg7 harg7 arg8 harg8 arg9 harg9 arg10 harg10 arg11 harg11 xt0 xt1 xt2 hc0 hc1 x0 x1 x2 xs0 xs1 xs2).2.2.1, y ∈ pc.1.set :=
    fun y => View.cover_of_wholeMem _ (by sl_whole_mem) y
  rw [View.read_writes_eq_canon _ _ _ hcov]
  unfold kernelRun1_C
  dsimp only
  sl_unfold_words
  rw [View.canon_unit_zero hz2]
  simp only [rd_S1x1024x64 arg5 harg5 x0, rd_S1x512x64 arg6 harg6 x1, rd_S1x512x64 arg7 harg7 x2, rd_S1024x1 arg9 harg9 xs0, rd_S1024x1 arg10 harg10 xs1, rd_S1024x64 arg11 harg11 xs2]
  rfl

set_option maxHeartbeats 4000000 in
/-- A last tile leaves the updated numerator in the numerator's buffer. -/
theorem pieceC_num (c : Dev nD) (i : grid1.Coords)
    (arg5 : Memref sig .tc .vmem S1x1024x64 .bf16) (harg5 : arg5.IsWhole) (arg6 : Memref sig .tc .vmem S1x512x64 .bf16) (harg6 : arg6.IsWhole)
    (arg7 : Memref sig .tc .vmem S1x512x64 .bf16) (harg7 : arg7.IsWhole) (arg8 : Memref sig .tc .vmem S1x1024x64 .f32) (harg8 : arg8.IsWhole)
    (arg9 : Memref sig .tc .vmem S1024x1 .f32) (harg9 : arg9.IsWhole) (arg10 : Memref sig .tc .vmem S1024x1 .f32) (harg10 : arg10.IsWhole)
    (arg11 : Memref sig .tc .vmem S1024x64 .f32) (harg11 : arg11.IsWhole)
    (xt0 : TbBuf1 (F := F) c tbM1_0) (xt1 : TbBuf1 (F := F) c tbM1_1) (xt2 : TbBuf1 (F := F) c tbM1_2)
    (hc0 : ¬condFirst (wordAt c tbM1_1 xt1 i)) (hc1 : condLast (wordAt c tbM1_2 xt2 i))
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32)
    (W : View sig .tc .vmem S1024x64 .f32) :
    W.read (Elt F) (W.writes (Elt F) W.junk (kernelRun1_C (F := F) c i arg5 harg5 arg6 harg6 arg7 harg7 arg8 harg8 arg9 harg9 arg10 harg10 arg11 harg11 xt0 xt1 xt2 hc0 hc1 x0 x1 x2 xs0 xs1 xs2).2.2.2.1)
      = k1_pay2 (k1_pay8 x2) (k1_pay11 (wordAt c tbM1_0 xt0 i) (wordAt c tbM1_1 xt1 i) x0 x1 xs0) (k1_pay12 (wordAt c tbM1_0 xt0 i) (wordAt c tbM1_1 xt1 i) x0 x1 xs0) xs2 := by
  have hcov : ∀ y : S1024x64.Idx, ∃ pc ∈ (kernelRun1_C (F := F) c i arg5 harg5 arg6 harg6 arg7 harg7 arg8 harg8 arg9 harg9 arg10 harg10 arg11 harg11 xt0 xt1 xt2 hc0 hc1 x0 x1 x2 xs0 xs1 xs2).2.2.2.1, y ∈ pc.1.set :=
    fun y => View.cover_of_wholeMem _ (by sl_whole_mem) y
  rw [View.read_writes_eq_canon _ _ _ hcov]
  unfold kernelRun1_C
  dsimp only
  sl_unfold_words
  rw [View.canon_unit_zero hz2]
  simp only [rd_S1x1024x64 arg5 harg5 x0, rd_S1x512x64 arg6 harg6 x1, rd_S1x512x64 arg7 harg7 x2, rd_S1024x1 arg9 harg9 xs0, rd_S1024x1 arg10 harg10 xs1, rd_S1024x64 arg11 harg11 xs2]
  rfl

end Cert.KernelIdeal.Val1

end
-- ==== Proof.PayloadsLayout.lean ====
/-
  Two index renamings that the attention body uses and the library does not state at coordinates, and the
  value of the word the running maximum starts from.

  A length-a vector cast to an [a, 1] column has, at (r, 0), the vector's entry r; an [a, 1] column broadcast
  over b lanes has, at (r, c), the column's entry (r, 0).  The word 0xFF800000 is the pattern of −∞.
-/
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx

/-! ## Layout: a vector as a column, a column broadcast over the lanes -/

/-- A length-a vector cast to an [a, 1] column reads, at (r, 0), the vector at r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ValueIdx.ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An [a, 1] column broadcast to [a, b] reads, at (r, c), the column at (r, 0). -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The word 0xFF800000 denotes −∞. -/
theorem ofBits_neg_inf : Ideal.ofBits .f32 0xFF800000#32 = ⊥ := by simp [Ideal.ofBits, Ideal.ieee]

end Cert.KernelIdeal.Pay

end
-- ==== Proof.PayloadsFlash.lean ====
/-
  The attention body's carried quantities read at an index (the update of the running denominator and
  numerator, the final quotient, the initial values and the loaded value block).

  With m the running maximum before a key tile and m' after it, a = exp(m − m') and p(r, c) = exp(s(r, c) − m')
  for the tile's masked scores s, the body stores
      l'(r)      = a(r) · l(r) + ∑_c p(r, c),
      acc'(r, h) = a(r) · acc(r, h) + ∑_c p(r, c) · v(c, h),
  and after the last tile out(r, h) = acc(r, h) / l(r).  The lemmas below read each stored value at explicit
  coordinates; the shape casts and the column broadcasts only rename an index, a lane sum is a finite sum over
  the 512 columns, and the matrix product into the zero accumulator is the sum over the contracted axis.
-/
import proofs.«175071_j38998303048530_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«175071_j38998303048530_2_alg».proof.Proof.PayloadsLayout

noncomputable section

namespace Cert.KernelIdeal.Pay

open Cert.KernelIdeal Cert.KernelIdeal.Gen Idealize.ShloMosaic Idealize.ShloMosaic.ValueIdx Idealize.SL.Sem

/-! ## The lane sum and the second matrix product -/

/-- The sum over the 512 lanes of a [1024, 512] array, at row r. -/
theorem lane_sum (src : FVec Ideal S1024x512 .f32) (hφ : FKind.Formats .f32)
    (hacc : (0x00000000#32 : BitVec 32) = FKind.add.neutral .f32 hφ) (r : Fin 1024) :
    multiReduction (F := Ideal) .add [1] S1024 src 0x00000000#32 reduces_S1024x512_S1024 hφ hacc (ValueIdx.ix1 r)
      = ∑ c : Fin 512, src (ix2 r c) := by
  refine (Ideal.multiReduction_add_single src 0x00000000#32 reduces_S1024x512_S1024 hφ hacc (ValueIdx.ix1 r)).trans ?_
  refine Finset.sum_congr rfl fun c _ => congrArg src ?_
  exact funext fun ax => Fin.ext (by
    match ax with
    | ⟨0, _⟩ => rfl
    | ⟨1, _⟩ => rfl)

/-- In the contraction [1024,512] × [512,64] → [1024,64] the left operand's row coordinate is the result's. -/
theorem pv_lhs_0 (i : S1024x64.Idx) (q : dot_S1024x512_S512x64_S1024x64_1_0_0_1_n_n.contr.Idx) : (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide),
    dif_pos (show (0 : Fin S1024x512.rank) ∈ dot_S1024x512_S512x64_S1024x64_1_0_0_1_n_n.lhsNonContracting by decide)]
  rfl
/-- … and the right operand's column coordinate is the result's. -/
theorem pv_rhs_1 (i : S1024x64.Idx) (q : dot_S1024x512_S512x64_S1024x64_1_0_0_1_n_n.contr.Idx) : (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide),
    dif_pos (show (1 : Fin S512x64.rank) ∈ dot_S1024x512_S512x64_S1024x64_1_0_0_1_n_n.rhsNonContracting by decide)]
  rfl

/-- The contraction [1024,512] × [512,64] → [1024,64] into the zero accumulator, at (r, h): the sum over the
    512 keys of the weight at (r, c) times the value at (c, h). -/
theorem matmul_weights_values (a : FVec Ideal S1024x512 .bf16) (w : FVec Ideal S512x64 .bf16) (r : Fin 1024) (h : Fin 64) :
    matmul dot_S1024x512_S512x64_S1024x64_1_0_0_1_n_n none a w (constant (F := Ideal) S1024x64 .f32 0x00000000#32) (ix2 r h)
      = ∑ c : Fin 512, a (ix2 r c) * w (ix2 c h) := by
  refine (Ideal.matmul_constant_zero_apply dot_S1024x512_S512x64_S1024x64_1_0_0_1_n_n none a w (ix2 r h)).trans ?_
  rw [← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 r h) ((contrEquiv1 dot_S1024x512_S512x64_S1024x64_1_0_0_1_n_n 512 rfl rfl).symm k) = ix2 r k :=
    funext fun ax => Fin.ext (by
      match ax with
      | ⟨0, _⟩ => exact pv_lhs_0 _ _
      | ⟨1, _⟩ => exact (dot_S1024x512_S512x64_S1024x64_1_0_0_1_n_n.lhsIdx_val_of_single rfl _ _).trans hk)
  have er : dot_S1024x512_S512x64_S1024x64_1_0_0_1_n_n.rhsIdx (ix2 r h) ((contrEquiv1 dot_S1024x512_S512x64_S1024x64_1_0_0_1_n_n 512 rfl rfl).symm k) = ix2 k h :=
    funext fun ax => Fin.ext (by
      match ax with
      | ⟨0, _⟩ => exact (dot_S1024x512_S512x64_S1024x64_1_0_0_1_n_n.rhsIdx_val_of_single rfl _ _).trans hk
      | ⟨1, _⟩ => exact pv_rhs_1 _ _)
  rw [el, er]

/-! ## The stored values -/

/-- The new running denominator: l'(r) = a(r) · l(r) + ∑_c p(r, c). -/
theorem k1_pay1_apply (v34 : FVec Ideal S1024x1 .f32) (v37 : FVec Ideal S1024x512 .f32) (v38 : Vec Ideal S1024x1 .f32)
    (r : Fin 1024) :
    k1_pay1 (F := Ideal) v34 v37 v38 (ix2 r 0) = v34 (ix2 r 0) * v38 (ix2 r 0) + ∑ c : Fin 512, v37 (ix2 r c) := by
  unfold k1_pay1
  refine (congrFun (shapeCast_self _ shapeCasts_S1024x1_S1024x1) (ix2 r 0)).trans ?_
  refine congrArg (v34 (ix2 r 0) * v38 (ix2 r 0) + ·) ?_
  refine (shapeCast_a_a1_apply (a := 1024) _ shapeCasts_S1024_S1024x1 r 0).trans ?_
  exact lane_sum v37 _ _ r

/-- The new running numerator: acc'(r, h) = a(r) · acc(r, h) + ∑_c p(r, c) · v(c, h). -/
theorem k1_pay2_apply (v14 : FVec Ideal S512x64 .bf16) (v34 : FVec Ideal S1024x1 .f32) (v37 : FVec Ideal S1024x512 .f32)
    (v46 : Vec Ideal S1024x64 .f32) (r : Fin 1024) (h : Fin 64) :
    k1_pay2 (F := Ideal) v14 v34 v37 v46 (ix2 r h)
      = v34 (ix2 r 0) * v46 (ix2 r h) + ∑ c : Fin 512, v37 (ix2 r c) * v14 (ix2 c h) := by
  unfold k1_pay2
  refine (congrFun (shapeCast_self _ shapeCasts_S1024x64_S1024x64) (ix2 r h)).trans ?_
  have e1 : broadcastTo S1024x64 v34 broadcasts_S1024x1_S1024x64 (ix2 r h) = v34 (ix2 r 0) :=
    broadcastTo_a1_ab_apply (a := 1024) (b := 64) v34 broadcasts_S1024x1_S1024x64 r h
  have e2 := matmul_weights_values (truncf .bf16 v37 bitsLt_bf16_f32) v14 r h
  show broadcastTo S1024x64 v34 broadcasts_S1024x1_S1024x64 (ix2 r h) * v46 (ix2 r h)
      + matmul dot_S1024x512_S512x64_S1024x64_1_0_0_1_n_n none (truncf .bf16 v37 bitsLt_bf16_f32) v14 (constant (F := Ideal) S1024x64 .f32 0x00000000#32) (ix2 r h) = _
  rw [e1, e2]
  rfl

/-- The running maximum is stored as it is. -/
theorem k1_pay3_eq (v32 : FVec Ideal S1024x1 .f32) : k1_pay3 (F := Ideal) v32 = v32 := by
  unfold k1_pay3
  exact shapeCast_self _ shapeCasts_S1024x1_S1024x1

/-- The result block: out(0, r, h) = acc(r, h) / l(r). -/
theorem k1_pay4_apply (v61 : Vec Ideal S1024x64 .f32) (v62 : Vec Ideal S1024x1 .f32) (r : Fin 1024) (h : Fin 64) :
    k1_pay4 (F := Ideal) v61 v62 (ix3 0 r h) = Ideal.div (v61 (ix2 r h)) (v62 (ix2 r 0)) := by
  unfold k1_pay4
  refine (shapeCast_ab_1ab_apply (a := 1024) (b := 64) _ shapeCasts_S1024x64_S1x1024x64 0 r h).trans ?_
  exact congrArg (Ideal.div (v61 (ix2 r h)))
    (broadcastTo_a1_ab_apply (a := 1024) (b := 64) v62 broadcasts_S1024x1_S1024x64 r h)

/-- The running maximum starts at −∞. -/
theorem k1_pay5_eq : k1_pay5 (F := Ideal) = fun _ => (⊥ : EReal) := by
  unfold k1_pay5
  refine (shapeCast_self _ shapeCasts_S1024x1_S1024x1).trans ?_
  exact funext fun _ => ofBits_neg_inf

/-- The running denominator starts at 0. -/
theorem k1_pay6_eq : k1_pay6 (F := Ideal) = fun _ => (0 : EReal) := by
  unfold k1_pay6
  refine (shapeCast_self _ shapeCasts_S1024x1_S1024x1).trans ?_
  exact funext fun _ => Ideal.ofBits_zero_f32

/-- The running numerator starts at 0. -/
theorem k1_pay7_eq : k1_pay7 (F := Ideal) = fun _ => (0 : EReal) := by
  unfold k1_pay7
  refine (shapeCast_self _ shapeCasts_S1024x64_S1024x64).trans ?_
  exact funext fun _ => Ideal.ofBits_zero_f32

/-- The loaded value block with its unit axis dropped. -/
theorem k1_pay8_apply (v13 : Vec Ideal S1x512x64 .bf16) (c : Fin 512) (h : Fin 64) :
    k1_pay8 (F := Ideal) v13 (ix2 c h) = v13 (ix3 0 c h) := by
  unfold k1_pay8
  exact shapeCast_1ab_ab_apply (a := 512) (b := 64) v13 shapeCasts_S1x512x64_S512x64 c h

end Cert.KernelIdeal.Pay

end
-- ==== Proof.PayloadsScores.lean ====
/-
  The attention body's scores read at an index: the masked, scaled inner products of a query tile with a key
  tile, the new running maximum, and the two exponentials taken against it.

  For query tile qi (rows 1024·qi + r) and key tile ki (keys 512·ki + c) the masked score is
      s(r, c) = (∑_h q(r, h) · k(c, h)) · 2⁻⁵   if 512·ki + c ≤ 1024·qi + r,   −∞ otherwise;
  the comparison is made on 32-bit words, which for these small positions is the comparison of the numbers.
  Then m'(r) = max (m(r)) (max_c s(r, c)), a(r) = exp(m(r) − m'(r)) and p(r, c) = exp(s(r, c) − m'(r)).
-/
import proofs.«175071_j38998303048530_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«175071_j38998303048530_2_alg».proof.Proof.PayloadsLayout

noncomputable section

namespace Cert.KernelIdeal.Pay

open Cert.KernelIdeal Cert.KernelIdeal.Gen Idealize.ShloMosaic Idealize.ShloMosaic.ValueIdx Idealize.SL.Sem

/-! ## The scores' matrix product -/

/-- In the contraction [1024,64] × [512,64] → [1024,512] (both operands contracted along their last axis) the
    left operand's row coordinate is the result's row. -/
theorem qk_lhs_0 (i : S1024x512.Idx) (q : dot_S1024x64_S512x64_S1024x512_1_1_0_0_n_n.contr.Idx) : (dot_S1024x64_S512x64_S1024x512_1_1_0_0_n_n.lhsIdx i q 0).val = (i 0).val := by
  unfold DotDims.lhsIdx
  rw [dif_neg (show ¬(0 : Fin S1024x64.rank) ∈ dot_S1024x64_S512x64_S1024x512_1_1_0_0_n_n.lhsBatch by decide),
    dif_pos (show (0 : Fin S1024x64.rank) ∈ dot_S1024x64_S512x64_S1024x512_1_1_0_0_n_n.lhsNonContracting by decide)]
  rfl
/-- … and the right operand's row coordinate is the result's column. -/
theorem qk_rhs_0 (i : S1024x512.Idx) (q : dot_S1024x64_S512x64_S1024x512_1_1_0_0_n_n.contr.Idx) : (dot_S1024x64_S512x64_S1024x512_1_1_0_0_n_n.rhsIdx i q 0).val = (i 1).val := by
  unfold DotDims.rhsIdx
  rw [dif_neg (show ¬(0 : Fin S512x64.rank) ∈ dot_S1024x64_S512x64_S1024x512_1_1_0_0_n_n.rhsBatch by decide),
    dif_pos (show (0 : Fin S512x64.rank) ∈ dot_S1024x64_S512x64_S1024x512_1_1_0_0_n_n.rhsNonContracting by decide)]
  rfl

/-- The contraction [1024,64] × [512,64] → [1024,512] into the zero accumulator, at (r, c): the inner product
    of query row r and key row c over the 64 features. -/
theorem matmul_queries_keys (a : FVec Ideal S1024x64 .bf16) (b : FVec Ideal S512x64 .bf16) (r : Fin 1024) (c : Fin 512) :
    matmul dot_S1024x64_S512x64_S1024x512_1_1_0_0_n_n none a b (constant (F := Ideal) S1024x512 .f32 0x00000000#32) (ix2 r c)
      = ∑ h : Fin 64, a (ix2 r h) * b (ix2 c h) := by
  refine (Ideal.matmul_constant_zero_apply dot_S1024x64_S512x64_S1024x512_1_1_0_0_n_n none a b (ix2 r c)).trans ?_
  rw [← Equiv.sum_comp (contrEquiv1 dot_S1024x64_S512x64_S1024x512_1_1_0_0_n_n 64 rfl rfl).symm]
  refine Finset.sum_congr rfl fun k _ => ?_
  have hk := contrEquiv1_symm_val dot_S1024x64_S512x64_S1024x512_1_1_0_0_n_n 64 rfl rfl k
  have el : dot_S1024x64_S512x64_S1024x512_1_1_0_0_n_n.lhsIdx (ix2 r c) ((contrEquiv1 dot_S1024x64_S512x64_S1024x512_1_1_0_0_n_n 64 rfl rfl).symm k) = ix2 r k :=
    funext fun ax => Fin.ext (by
      match ax with
      | ⟨0, _⟩ => exact qk_lhs_0 _ _
      | ⟨1, _⟩ => exact (dot_S1024x64_S512x64_S1024x512_1_1_0_0_n_n.lhsIdx_val_of_single rfl _ _).trans hk)
  have er : dot_S1024x64_S512x64_S1024x512_1_1_0_0_n_n.rhsIdx (ix2 r c) ((contrEquiv1 dot_S1024x64_S512x64_S1024x512_1_1_0_0_n_n 64 rfl rfl).symm k) = ix2 c k :=
    funext fun ax => Fin.ext (by
      match ax with
      | ⟨0, _⟩ => exact qk_rhs_0 _ _
      | ⟨1, _⟩ => exact (dot_S1024x64_S512x64_S1024x512_1_1_0_0_n_n.rhsIdx_val_of_single rfl _ _).trans hk)
  rw [el, er]

/-! ## The causal mask -/

/-- A select on a signed "greater or equal" of two word arrays, read at an index whose four ingredients are
    known: the first value where the second word is at most the first, the other value elsewhere. -/
theorem select_sge_apply {s : Shape} (x y : IVec s 32) (A B : FVec Ideal s .f32) (i : s.Idx) (X Y : BitVec 32) (a b : EReal)
    (hx : x i = X) (hy : y i = Y) (ha : A i = a) (hb : B i = b) :
    select (cmpi .sge x y) A B i = if Y.sle X = true then a else b := by
  subst hx hy ha hb
  show Scalar.select (BitVec.ofBool ((y i).sle (x i))) (A i) (B i) = _
  unfold Scalar.select
  cases (y i).sle (x i) <;> rfl

/-- A small natural number as a 32-bit word is that number as a signed integer. -/
theorem toInt_ofNat_small (n : ℕ) (h : n < 2 ^ 31) : (BitVec.ofNat 32 n).toInt = (n : ℤ) := by
  rw [BitVec.toInt_eq_toNat_cond, BitVec.toNat_ofNat, Nat.mod_eq_of_lt (by omega), if_pos (by omega)]

/-- The signed comparison of two affine words with small entries is the comparison of the numbers. -/
theorem sle_affine (b m y a n x : ℕ) (h1 : b * m + y < 2 ^ 31) (h2 : a * n + x < 2 ^ 31) :
    ((BitVec.ofNat 32 b * BitVec.ofNat 32 m + BitVec.ofNat 32 y).sle
        (BitVec.ofNat 32 a * BitVec.ofNat 32 n + BitVec.ofNat 32 x) = true) ↔ b * m + y ≤ a * n + x := by
  rw [← BitVec.ofNat_mul, ← BitVec.ofNat_add, ← BitVec.ofNat_mul, ← BitVec.ofNat_add, BitVec.sle_eq_decide,
    decide_eq_true_iff, toInt_ofNat_small _ h1, toInt_ofNat_small _ h2]
  exact Int.ofNat_le

/-- The fill value of the mask is −∞ at the extended reals: the table names it so. -/
theorem neg_big_eq : Named.named (F := Ideal) κ "neg_big" (φ := .f32) 0xFF333332#32 = (⊥ : EReal) :=
  IdealRules.named_const.ideal_named_scalar _ _ _ _ rfl

/-! ## The masked scores, the running maximum and the two exponentials -/

/-- The masked scores of a tile: at (r, c) the scaled inner product of query row r and key row c where the
    key's global position (512·v3 + c, as words) is at most the query's (1024·v1 + r), the fill value elsewhere. -/
theorem k1_pay9_apply (v1 v3 : Elt Ideal .i32) (v9 : Vec Ideal S1x1024x64 .bf16) (v11 : Vec Ideal S1x512x64 .bf16)
    (r : Fin 1024) (c : Fin 512) :
    k1_pay9 (F := Ideal) v1 v3 v9 v11 (ix2 r c)
      = if (v3 * 512#32 + BitVec.ofNat 32 c.val).sle (v1 * 1024#32 + BitVec.ofNat 32 r.val) = true then
          (∑ h : Fin 64, v9 (ix3 0 r h) * v11 (ix3 0 c h)) * Ideal.ofBits .f32 0x3D000000#32
        else Named.named (F := Ideal) κ "neg_big" (φ := .f32) 0xFF333332#32 := by
  have h0 : iota .tc S1024x512 32 [0] iota_S1024x512_d0_w32 (ix2 r c) = BitVec.ofNat 32 r.val :=
    iota_single_apply .tc S1024x512 32 0 iota_S1024x512_d0_w32 (ix2 r c)
  have h1 : iota .tc S1024x512 32 [1] iota_S1024x512_d1_w32 (ix2 r c) = BitVec.ofNat 32 c.val :=
    iota_single_apply .tc S1024x512 32 1 iota_S1024x512_d1_w32 (ix2 r c)
  have hm := matmul_queries_keys (shapeCast S1024x64 v9 shapeCasts_S1x1024x64_S1024x64)
    (shapeCast S512x64 v11 shapeCasts_S1x512x64_S512x64) r c
  have hm' : matmul dot_S1024x64_S512x64_S1024x512_1_1_0_0_n_n none (shapeCast S1024x64 v9 shapeCasts_S1x1024x64_S1024x64)
      (shapeCast S512x64 v11 shapeCasts_S1x512x64_S512x64) (constant (F := Ideal) S1024x512 .f32 0x00000000#32) (ix2 r c)
      = ∑ h : Fin 64, v9 (ix3 0 r h) * v11 (ix3 0 c h) :=
    hm.trans (Finset.sum_congr rfl fun h _ => by
      rw [shapeCast_1ab_ab_apply (a := 1024) (b := 64) v9 shapeCasts_S1x1024x64_S1024x64 r h,
        shapeCast_1ab_ab_apply (a := 512) (b := 64) v11 shapeCasts_S1x512x64_S512x64 c h])
  unfold k1_pay9
  exact select_sge_apply _ _ _ _ (ix2 r c) _ _ _ _
    (congrArg (v1 * 1024#32 + ·) h0) (congrArg (v3 * 512#32 + ·) h1)
    (congrArg (· * Ideal.ofBits .f32 0x3D000000#32) hm') rfl

/-- The same at query tile qi and key tile ki (as natural numbers): the condition is that the key's position
    512·ki + c is at most the query's position 1024·qi + r, and the fill value is −∞. -/
theorem k1_pay9_tile (qi ki : ℕ) (hq : qi < 2) (hk : ki < 4) (v9 : Vec Ideal S1x1024x64 .bf16) (v11 : Vec Ideal S1x512x64 .bf16)
    (r : Fin 1024) (c : Fin 512) :
    k1_pay9 (F := Ideal) (BitVec.ofNat 32 qi) (BitVec.ofNat 32 ki) v9 v11 (ix2 r c)
      = if 512 * ki + c.val ≤ 1024 * qi + r.val then
          (∑ h : Fin 64, v9 (ix3 0 r h) * v11 (ix3 0 c h)) * Ideal.ofBits .f32 0x3D000000#32
        else (⊥ : EReal) := by
  refine (k1_pay9_apply (BitVec.ofNat 32 qi) (BitVec.ofNat 32 ki) v9 v11 r c).trans ?_
  have hr := r.isLt
  have hc := c.isLt
  have hiff := sle_affine ki 512 c.val qi 1024 r.val (by omega) (by omega)
  rw [neg_big_eq]
  refine if_congr (hiff.trans ?_) rfl rfl
  omega

/-- The lane maximum of a [1024, 512] array from −∞, at row r. -/
theorem lane_max (src : FVec Ideal S1024x512 .f32) (hφ : FKind.Formats .f32)
    (hacc : (0xFF800000#32 : BitVec 32) = FKind.maximumf.neutral .f32 hφ) (r : Fin 1024) :
    multiReduction (F := Ideal) .maximumf [1] S1024 src 0xFF800000#32 reduces_S1024x512_S1024 hφ hacc (ValueIdx.ix1 r)
      = (Finset.univ : Finset (Fin 512)).fold max (⊥ : EReal) (fun c => src (ix2 r c)) := by
  refine (Ideal.multiReduction_maximumf_single src 0xFF800000#32 reduces_S1024x512_S1024 hφ hacc (ValueIdx.ix1 r)).trans ?_
  have e : (src ∘ reduces_S1024x512_S1024.lift (ValueIdx.ix1 r)) = fun c : Fin 512 => src (ix2 r c) :=
    funext fun c => congrArg src (funext fun ax => Fin.ext (by
      match ax with
      | ⟨0, _⟩ => rfl
      | ⟨1, _⟩ => rfl))
  show (Finset.univ : Finset (Fin 512)).fold max (Ideal.ofBits .f32 0xFF800000#32)
    (src ∘ reduces_S1024x512_S1024.lift (ValueIdx.ix1 r)) = _
  rw [ofBits_neg_inf, e]
  rfl

/-- The new running maximum: m'(r) = max (m(r)) (max over the tile's columns of the masked scores, from −∞). -/
theorem k1_pay10_apply (v1 v3 : Elt Ideal .i32) (v9 : Vec Ideal S1x1024x64 .bf16) (v11 : Vec Ideal S1x512x64 .bf16)
    (v29 : Vec Ideal S1024x1 .f32) (r : Fin 1024) :
    k1_pay10 (F := Ideal) v1 v3 v9 v11 v29 (ix2 r 0)
      = max (v29 (ix2 r 0))
          ((Finset.univ : Finset (Fin 512)).fold max (⊥ : EReal) (fun c => k1_pay9 (F := Ideal) v1 v3 v9 v11 (ix2 r c))) := by
  unfold k1_pay10
  refine congrArg (max (v29 (ix2 r 0))) ?_
  refine (shapeCast_a_a1_apply (a := 1024) _ shapeCasts_S1024_S1024x1 r 0).trans ?_
  exact lane_max (k1_pay9 (F := Ideal) v1 v3 v9 v11) _ _ r

/-- The rescaling factor of the carried sums: a(r) = exp(m(r) − m'(r)). -/
theorem k1_pay11_apply (v1 v3 : Elt Ideal .i32) (v9 : Vec Ideal S1x1024x64 .bf16) (v11 : Vec Ideal S1x512x64 .bf16)
    (v29 : Vec Ideal S1024x1 .f32) (r : Fin 1024) :
    k1_pay11 (F := Ideal) v1 v3 v9 v11 v29 (ix2 r 0)
      = Ideal.exp (v29 (ix2 r 0) - k1_pay10 (F := Ideal) v1 v3 v9 v11 v29 (ix2 r 0)) := by
  unfold k1_pay11
  rfl

/-- The tile's weights: p(r, c) = exp(s(r, c) − m'(r)). -/
theorem k1_pay12_apply (v1 v3 : Elt Ideal .i32) (v9 : Vec Ideal S1x1024x64 .bf16) (v11 : Vec Ideal S1x512x64 .bf16)
    (v29 : Vec Ideal S1024x1 .f32) (r : Fin 1024) (c : Fin 512) :
    k1_pay12 (F := Ideal) v1 v3 v9 v11 v29 (ix2 r c)
      = Ideal.exp (k1_pay9 (F := Ideal) v1 v3 v9 v11 (ix2 r c) - k1_pay10 (F := Ideal) v1 v3 v9 v11 v29 (ix2 r 0)) := by
  unfold k1_pay12
  exact congrArg (fun z => Ideal.exp (k1_pay9 (F := Ideal) v1 v3 v9 v11 (ix2 r c) - z))
    (broadcastTo_a1_ab_apply (a := 1024) (b := 512) (k1_pay10 (F := Ideal) v1 v3 v9 v11 v29) broadcasts_S1024x1_S1024x512 r c)

end Cert.KernelIdeal.Pay

end
-- ==== Proof.FlashStep.lean ====
/-
  One key tile of the attention kernel at a row, read as a step of the streaming softmax.

  Fix a batch b, a query tile qi (rows R = 1024·qi + r) and a key tile ki (keys 512·ki + c).  Write
  s(j) for the row's masked score against key j and v_h(j) for the value of key j in column h.  The
  streaming softmax carries, for the prefix of the first n keys, the maximum M(n) of the scores, the
  denominator L(n) = ∑_{j<n} exp(s(j) − M(n)) and the numerators A_h(n) = ∑_{j<n} exp(s(j) − M(n)) · v_h(j).

  * The tile's masked scores, as the body computes them from the loaded query and key blocks, are s at the
    tile's keys: the body's mask "512·ki + c ≤ 1024·qi + r" is "key ≤ row".
  * If the carried buffers hold M, L, A_h of the prefix of length 512·ki at row r, the body's three stored
    values hold them for the prefix of length 512·(ki+1): this is the streaming step, whose inner law is
    exp(m − m') · exp(x − m) = exp(x − m').
  * The values the body stores at the first key tile, −∞, 0 and 0, are M, L, A_h of the empty prefix.
  * Once the prefix reaches past the row's diagonal every later key is masked, so the quotient A_h / L the
    body stores at the last tile is the attention entry of the specification.
-/
import proofs.«175071_j38998303048530_2_alg».proof.Proof.PayloadsFlash
import proofs.«175071_j38998303048530_2_alg».proof.Proof.PayloadsScores
import proofs.«175071_j38998303048530_2_alg».proof.Proof.Bridge

noncomputable section

namespace Cert.KernelIdeal.Flash

open Cert.KernelIdeal Cert.KernelIdeal.Gen Cert.KernelIdeal.Pay Idealize.ShloMosaic Idealize.ShloMosaic.ValueIdx
open Cert.OnlineSoftmax Cert.Bridge

/-- The position among the 2048 rows of row r of query tile qi. -/
abbrev qrow (qi : ℕ) (hq : qi < 2) (r : Fin 1024) : Fin 2048 := ⟨1024 * qi + r.val, by have := r.isLt; omega⟩

/-- The position among the 2048 keys of key c of key tile ki. -/
abbrev kcol (ki : ℕ) (hk : ki < 4) (c : Fin 512) : Fin 2048 := ⟨512 * ki + c.val, by have := c.isLt; omega⟩

/-- The masked scores of row R of batch b against every key. -/
abbrev rowS (Q K : Spec.SO.Idx → EReal) (b : Fin 8) (R : Fin 2048) : Fin 2048 → EReal :=
  fun j : Fin 2048 => Spec.sm Q K b R j

/-- Column h of the values of batch b, key by key. -/
abbrev colV (Vv : Spec.SO.Idx → EReal) (b : Fin 8) (h : Fin 64) : Fin 2048 → EReal :=
  fun j : Fin 2048 => Vv (ix3 b j h)

/-- Key c of tile ki, counted as the streaming step counts it, is the same key. -/
theorem kcol_eq (ki : ℕ) (hk : ki < 4) (c : Fin 512) (hb : ki * 512 + c.val < 2048) :
    kcol ki hk c = ⟨ki * 512 + c.val, hb⟩ :=
  Fin.ext (by show 512 * ki + c.val = ki * 512 + c.val; omega)

/-! ## The tile's scores -/

/-- The body's masked scores of the tile are the specification's masked scores of the row at the tile's keys. -/
theorem scores_eq (Q K : Spec.SO.Idx → EReal) (b : Fin 8) (qi ki : ℕ) (hq : qi < 2) (hk : ki < 4)
    (x0 : Vec Ideal S1x1024x64 .bf16) (x1 : Vec Ideal S1x512x64 .bf16)
    (hx0 : ∀ (r : Fin 1024) (h : Fin 64), x0 (ix3 0 r h) = Q (ix3 b (qrow qi hq r) h))
    (hx1 : ∀ (c : Fin 512) (h : Fin 64), x1 (ix3 0 c h) = K (ix3 b (kcol ki hk c) h))
    (r : Fin 1024) (c : Fin 512) :
    k1_pay9 (F := Ideal) (BitVec.ofNat 32 qi) (BitVec.ofNat 32 ki) x0 x1 (ix2 r c)
      = Spec.sm Q K b (qrow qi hq r) (kcol ki hk c) := by
  refine (k1_pay9_tile qi ki hq hk x0 x1 r c).trans ?_
  unfold Spec.sm Spec.score
  refine if_congr Iff.rfl ?_ rfl
  exact congrArg (· * Ideal.ofBits .f32 0x3D000000#32)
    (Finset.sum_congr rfl fun h _ => by rw [hx0 r h, hx1 c h])

/-! ## The step -/

/-- The streaming step at row r, all three components: from the prefix of length 512·ki to the prefix of
    length 512·(ki+1). -/
theorem step_row (Q K Vv : Spec.SO.Idx → EReal) (hQ : IsReal Q) (hK : IsReal K) (hV : IsReal Vv)
    (b : Fin 8) (qi ki : ℕ) (hq : qi < 2) (hk : ki < 4)
    (x0 : Vec Ideal S1x1024x64 .bf16) (x1 x2 : Vec Ideal S1x512x64 .bf16)
    (hx0 : ∀ (r : Fin 1024) (h : Fin 64), x0 (ix3 0 r h) = Q (ix3 b (qrow qi hq r) h))
    (hx1 : ∀ (c : Fin 512) (h : Fin 64), x1 (ix3 0 c h) = K (ix3 b (kcol ki hk c) h))
    (hx2 : ∀ (c : Fin 512) (h : Fin 64), x2 (ix3 0 c h) = Vv (ix3 b (kcol ki hk c) h))
    (mprev lprev : Vec Ideal S1024x1 .f32) (accprev : Vec Ideal S1024x64 .f32) (r : Fin 1024)
    (hm : mprev (ix2 r 0) = Mx (rowS Q K b (qrow qi hq r)) (ki * 512))
    (hl : lprev (ix2 r 0) = Ln (rowS Q K b (qrow qi hq r)) (ki * 512))
    (hacc : ∀ h : Fin 64, accprev (ix2 r h) = An (rowS Q K b (qrow qi hq r)) (colV Vv b h) (ki * 512)) :
    k1_pay3 (F := Ideal) (k1_pay10 (F := Ideal) (BitVec.ofNat 32 qi) (BitVec.ofNat 32 ki) x0 x1 mprev) (ix2 r 0)
        = Mx (rowS Q K b (qrow qi hq r)) ((ki + 1) * 512)
    ∧ k1_pay1 (F := Ideal) (k1_pay11 (F := Ideal) (BitVec.ofNat 32 qi) (BitVec.ofNat 32 ki) x0 x1 mprev)
          (k1_pay12 (F := Ideal) (BitVec.ofNat 32 qi) (BitVec.ofNat 32 ki) x0 x1 mprev) lprev (ix2 r 0)
        = Ln (rowS Q K b (qrow qi hq r)) ((ki + 1) * 512)
    ∧ ∀ h : Fin 64,
        k1_pay2 (F := Ideal) (k1_pay8 (F := Ideal) x2)
          (k1_pay11 (F := Ideal) (BitVec.ofNat 32 qi) (BitVec.ofNat 32 ki) x0 x1 mprev)
          (k1_pay12 (F := Ideal) (BitVec.ofNat 32 qi) (BitVec.ofNat 32 ki) x0 x1 mprev) accprev (ix2 r h)
        = An (rowS Q K b (qrow qi hq r)) (colV Vv b h) ((ki + 1) * 512) := by
  have HS : ∀ j, rowS Q K b (qrow qi hq r) j = ⊥ ∨ ∃ x : ℝ, rowS Q K b (qrow qi hq r) j = (x : EReal) :=
    fun j => sm_cases Q K hQ hK b (qrow qi hq r) j
  have H0 : ∃ (k0 : Fin 2048) (x : ℝ), k0.val = 0 ∧ rowS Q K b (qrow qi hq r) k0 = (x : EReal) :=
    sm_key_zero Q K hQ hK b (qrow qi hq r)
  have hb : ∀ c : Fin 512, ki * 512 + c.val < 2048 := fun c => by have := c.isLt; omega
  have hg : ∀ c : Fin 512,
      k1_pay9 (F := Ideal) (BitVec.ofNat 32 qi) (BitVec.ofNat 32 ki) x0 x1 (ix2 r c)
        = rowS Q K b (qrow qi hq r) ⟨ki * 512 + c.val, hb c⟩ := fun c =>
    (scores_eq Q K b qi ki hq hk x0 x1 hx0 hx1 r c).trans
      (congrArg (rowS Q K b (qrow qi hq r)) (kcol_eq ki hk c (hb c)))
  have hgv : ∀ (h : Fin 64) (c : Fin 512),
      k1_pay8 (F := Ideal) x2 (ix2 c h) = colV Vv b h ⟨ki * 512 + c.val, hb c⟩ := fun h c =>
    (k1_pay8_apply x2 c h).trans ((hx2 c h).trans (congrArg (colV Vv b h) (kcol_eq ki hk c (hb c))))
  have key := fun h : Fin 64 =>
    step_components (rowS Q K b (qrow qi hq r)) (colV Vv b h) HS (fun j => hV _) H0 512 (by norm_num) ki
      (by omega)
      (fun c : Fin 512 => k1_pay9 (F := Ideal) (BitVec.ofNat 32 qi) (BitVec.ofNat 32 ki) x0 x1 (ix2 r c))
      (fun c : Fin 512 => k1_pay8 (F := Ideal) x2 (ix2 c h)) hb hg (hgv h)
      (mprev (ix2 r 0)) (lprev (ix2 r 0)) (accprev (ix2 r h)) hm hl (hacc h)
  refine ⟨?_, ?_, fun h => ?_⟩
  · rw [k1_pay3_eq, k1_pay10_apply]
    exact (key 0).1
  · rw [k1_pay1_apply, k1_pay11_apply]
    simp only [k1_pay12_apply]
    rw [k1_pay10_apply]
    exact (key 0).2.1
  · rw [k1_pay2_apply, k1_pay11_apply]
    simp only [k1_pay12_apply]
    rw [k1_pay10_apply]
    exact (key h).2.2

/-! ## The reset -/

/-- The running maximum's initial value is the maximum of the empty prefix. -/
theorem reset_max (s : Fin 2048 → EReal) (r : Fin 1024) : k1_pay5 (F := Ideal) (ix2 r 0) = Mx s 0 := by
  rw [k1_pay5_eq, Mx_zero]

/-- The running denominator's initial value is the denominator of the empty prefix. -/
theorem reset_denom (s : Fin 2048 → EReal) (r : Fin 1024) : k1_pay6 (F := Ideal) (ix2 r 0) = Ln s 0 := by
  rw [k1_pay6_eq, Ln_zero]

/-- The running numerator's initial value is the numerator of the empty prefix. -/
theorem reset_numer (s v : Fin 2048 → EReal) (r : Fin 1024) (h : Fin 64) :
    k1_pay7 (F := Ideal) (ix2 r h) = An s v 0 := by
  rw [k1_pay7_eq, An_zero]

/-! ## The quotient -/

/-- At a key tile whose end reaches the end of the query tile, the stored quotient of the carried numerator
    by the carried denominator is the specification's attention entry. -/
theorem quotient_row (Q K Vv : Spec.SO.Idx → EReal) (hQ : IsReal Q) (hK : IsReal K) (hV : IsReal Vv)
    (b : Fin 8) (qi ki : ℕ) (hq : qi < 2) (hk : ki < 4) (hlast : 1024 * (qi + 1) ≤ 512 * (ki + 1))
    (accfin : Vec Ideal S1024x64 .f32) (lfin : Vec Ideal S1024x1 .f32) (r : Fin 1024) (h : Fin 64)
    (hl : lfin (ix2 r 0) = Ln (rowS Q K b (qrow qi hq r)) ((ki + 1) * 512))
    (hacc : accfin (ix2 r h) = An (rowS Q K b (qrow qi hq r)) (colV Vv b h) ((ki + 1) * 512)) :
    k1_pay4 (F := Ideal) accfin lfin (ix3 0 r h) = Spec.attn Q K Vv (ix3 b (qrow qi hq r) h) := by
  rw [k1_pay4_apply, hacc, hl]
  have hr := r.isLt
  exact attn_eq_stream Q K Vv hQ hK hV b (qrow qi hq r) h ((ki + 1) * 512) (by omega)
    (by show 1024 * qi + r.val < (ki + 1) * 512; omega)

end Cert.KernelIdeal.Flash

end
-- ==== Proof.Region1Blocks.lean ====
/-
  The attention region at its literal tables: which query tile and key tile a grid point works on, and which
  entries of the three projected arrays its loaded blocks hold.

  The region's grid has 48 points, 8 batches times 6 (query tile, key tile) pairs, traversed batch by batch:
  point t is batch t / 6 and pair p = t % 6.  The pairs are
      p          0 1 2 3 4 5
      query tile 0 0 1 1 1 1
      key tile   0 1 0 1 2 3
  so every pair's key tile ends no later than its query tile does (the tile is causally needed), and pairs 1
  and 5 are the last key tiles of their query tiles.  The words the body reads at point t are these two
  numbers, and the three input blocks at point t are: rows 1024·(query tile) + r of batch t / 6 of the first
  array, and keys 512·(key tile) + c of batch t / 6 of the second and third.
-/
import proofs.«175071_j38998303048530_2_alg».proof.Proof.Region1Tables
import proofs.«175071_j38998303048530_2_alg».proof.Proof.FlashStep
import Idealize.ShloMosaic.Lib.Pipeline.Value

set_option maxRecDepth 16384

noncomputable section

namespace Cert.KernelIdeal.Val1

open Cert.KernelIdeal Cert.KernelIdeal.Gen Cert.KernelIdeal.Fr1
open Idealize.ShloMosaic Idealize.ShloMosaic.ValueIdx Idealize.ShloMosaic.TcCoe Idealize.SL.Sem
open Idealize.ShloMosaic.Pipeline (Dat Cfg Window)

/-! ## The pairs -/

/-- The query tile of pair p. -/
def qiOf : ℕ → ℕ
  | 0 => 0 | 1 => 0 | _ => 1

/-- The key tile of pair p. -/
def kiOf : ℕ → ℕ
  | 0 => 0 | 1 => 1 | 2 => 0 | 3 => 1 | 4 => 2 | 5 => 3 | _ => 0

theorem qiOf_lt (p : ℕ) : qiOf p < 2 := by
  unfold qiOf; split <;> omega

theorem kiOf_lt (p : ℕ) : kiOf p < 4 := by
  unfold kiOf; split <;> omega

/-- Every pair's key tile ends no later than its query tile: the tile is causally needed. -/
theorem causal : ∀ p : Fin 6, 512 * (kiOf p.val + 1) ≤ 1024 * (qiOf p.val + 1) := by decide

/-- Pairs 1 and 5 end exactly where their query tile ends: they are the last key tiles. -/
theorem causal_last : ∀ p : Fin 6, (p.val = 1 ∨ p.val = 5) → 512 * (kiOf p.val + 1) = 1024 * (qiOf p.val + 1) := by
  decide

/-- Pairs 0 and 2 are the first key tiles of their query tiles. -/
theorem kiOf_first : ∀ p : Fin 6, (p.val = 0 ∨ p.val = 2) ↔ kiOf p.val = 0 := by decide

/-- Away from a last pair the next pair is the next key tile of the same query tile. -/
theorem pair_succ : ∀ p : Fin 6, ¬(p.val = 1 ∨ p.val = 5) →
    kiOf (p.val + 1) = kiOf p.val + 1 ∧ qiOf (p.val + 1) = qiOf p.val := by decide

/-- The tables' entries are these numbers, as 32-bit words … -/
theorem lit0_eq : ∀ k : Fin 6, lit0 k = BitVec.ofNat 32 (qiOf k.val) := by decide
theorem lit1_eq : ∀ k : Fin 6, lit1 k = BitVec.ofNat 32 (kiOf k.val) := by decide
/-- … and as block indices. -/
theorem lit0_toNat : ∀ k : Fin 6, (lit0 k).toNat = qiOf k.val := by decide
theorem lit1_toNat : ∀ k : Fin 6, (lit1 k).toNat = kiOf k.val := by decide

variable {F : FTy → Type} [FloatOps F] [Named F]

/-! ## The words the body reads -/

/-- The query-tile word at point t is the query tile of pair t % 6. -/
theorem word_q (c : Dev nD) (t : Fin (cfgL (F := F)).N) :
    wordAt (F := F) c tbM1_0 (tbl 0) (grid1.coords t) = BitVec.ofNat 32 (qiOf (t.val % 6)) :=
  (word0_eq c t).trans (lit0_eq (pairOf t))

/-- The key-tile word at point t is the key tile of pair t % 6. -/
theorem word_k (c : Dev nD) (t : Fin (cfgL (F := F)).N) :
    wordAt (F := F) c tbM1_1 (tbl 1) (grid1.coords t) = BitVec.ofNat 32 (kiOf (t.val % 6)) :=
  (word1_eq c t).trans (lit1_eq (pairOf t))

/-! ## The block indices -/

/-- The batch of point t. -/
theorem batch_lt8 (t : Fin (cfgL (F := F)).N) : t.val / 6 < 8 := by
  have h : t.val < 48 := lt_of_lt_of_eq t.isLt (N_L (F := F))
  omega

/-- The query and output windows' block index at point t: (batch, query tile, 0). -/
theorem ixQ_at (t : Fin (cfgL (F := F)).N) : ixQ (grid1.coords t) = ![t.val / 6, qiOf (t.val % 6), 0] := by
  show ![(grid1.coords t 0).val, (lit0 (pr (grid1.coords t))).toNat, 0] = _
  rw [coords_batch t, pr_coords t, lit0_toNat]
  rfl

/-- The key and value windows' block index at point t: (batch, key tile, 0). -/
theorem ixK_at (t : Fin (cfgL (F := F)).N) : ixK (grid1.coords t) = ![t.val / 6, kiOf (t.val % 6), 0] := by
  show ![(grid1.coords t 0).val, (lit1 (pr (grid1.coords t))).toNat, 0] = _
  rw [coords_batch t, pr_coords t, lit1_toNat]
  rfl

theorem index0 (t : Fin (cfgL (F := F)).N) :
    ((cfgL (F := F)).win 0).index t = ![t.val / 6, qiOf (t.val % 6), 0] := by
  have e : ((cfgL (F := F)).win 0).index t
      = cc1_transform_0 Gen.k1_off1_inb Gen.numel1_S1 (tbl (F := F)) (grid1.coords t) := rfl
  rw [e, tr0_eq]; exact ixQ_at t

theorem index1 (t : Fin (cfgL (F := F)).N) :
    ((cfgL (F := F)).win 1).index t = ![t.val / 6, kiOf (t.val % 6), 0] := by
  have e : ((cfgL (F := F)).win 1).index t
      = cc1_transform_1 Gen.k1_off1_inb Gen.numel1_S1 (tbl (F := F)) (grid1.coords t) := rfl
  rw [e, tr1_eq]; exact ixK_at t

theorem index2 (t : Fin (cfgL (F := F)).N) :
    ((cfgL (F := F)).win 2).index t = ![t.val / 6, kiOf (t.val % 6), 0] := by
  have e : ((cfgL (F := F)).win 2).index t
      = cc1_transform_2 Gen.k1_off1_inb Gen.numel1_S1 (tbl (F := F)) (grid1.coords t) := rfl
  rw [e, tr2_eq]; exact ixK_at t

theorem index3 (t : Fin (cfgL (F := F)).N) :
    ((cfgL (F := F)).win 3).index t = ![t.val / 6, qiOf (t.val % 6), 0] := by
  have e : ((cfgL (F := F)).win 3).index t
      = cc1_transform_3 Gen.k1_off1_inb Gen.numel1_S1 (tbl (F := F)) (grid1.coords t) := rfl
  rw [e, tr3_eq]; exact ixQ_at t

/-! ## The blocks -/

/-- The query block at point t, read off an array A of shape [8, 2048, 64]: entry (0, r, h) is A at batch t / 6,
    row 1024·(query tile) + r, column h. -/
theorem blk0_read (A : S8x2048x64.Idx → Elt F .bf16) (t : Fin (cfgL (F := F)).N) (r : Fin 1024) (h : Fin 64) :
    (((cfgL (F := F)).win 0).blk t).view.read (Elt F) A (ix3 0 r h)
      = A (ix3 (⟨t.val / 6, batch_lt8 t⟩ : Fin 8) (Flash.qrow (qiOf (t.val % 6)) (qiOf_lt _) r) h) := by
  have e0 : ((cfgL (F := F)).win 0).index t (0 : Fin 3) = t.val / 6 := congrFun (index0 t) (0 : Fin 3)
  have e1 : ((cfgL (F := F)).win 0).index t (1 : Fin 3) = qiOf (t.val % 6) := congrFun (index0 t) (1 : Fin 3)
  have e2 : ((cfgL (F := F)).win 0).index t (2 : Fin 3) = 0 := congrFun (index0 t) (2 : Fin 3)
  show A ((((cfgL (F := F)).win 0).blk t).view.emb (ix3 0 r h)) = _
  refine congrArg A (funext fun a => Fin.ext ?_)
  match a with
  | ⟨0, _⟩ => show ((cfgL (F := F)).win 0).index t (0 : Fin 3) * 1 + 1 * 0 = t.val / 6; omega
  | ⟨1, _⟩ => show ((cfgL (F := F)).win 0).index t (1 : Fin 3) * 1024 + 1 * r.val = 1024 * qiOf (t.val % 6) + r.val; omega
  | ⟨2, _⟩ => show ((cfgL (F := F)).win 0).index t (2 : Fin 3) * 64 + 1 * h.val = h.val; omega

/-- The key block at point t: entry (0, c, h) is A at batch t / 6, key 512·(key tile) + c, column h. -/
theorem blk1_read (A : S8x2048x64.Idx → Elt F .bf16) (t : Fin (cfgL (F := F)).N) (c : Fin 512) (h : Fin 64) :
    (((cfgL (F := F)).win 1).blk t).view.read (Elt F) A (ix3 0 c h)
      = A (ix3 (⟨t.val / 6, batch_lt8 t⟩ : Fin 8) (Flash.kcol (kiOf (t.val % 6)) (kiOf_lt _) c) h) := by
  have e0 : ((cfgL (F := F)).win 1).index t (0 : Fin 3) = t.val / 6 := congrFun (index1 t) (0 : Fin 3)
  have e1 : ((cfgL (F := F)).win 1).index t (1 : Fin 3) = kiOf (t.val % 6) := congrFun (index1 t) (1 : Fin 3)
  have e2 : ((cfgL (F := F)).win 1).index t (2 : Fin 3) = 0 := congrFun (index1 t) (2 : Fin 3)
  show A ((((cfgL (F := F)).win 1).blk t).view.emb (ix3 0 c h)) = _
  refine congrArg A (funext fun a => Fin.ext ?_)
  match a with
  | ⟨0, _⟩ => show ((cfgL (F := F)).win 1).index t (0 : Fin 3) * 1 + 1 * 0 = t.val / 6; omega
  | ⟨1, _⟩ => show ((cfgL (F := F)).win 1).index t (1 : Fin 3) * 512 + 1 * c.val = 512 * kiOf (t.val % 6) + c.val; omega
  | ⟨2, _⟩ => show ((cfgL (F := F)).win 1).index t (2 : Fin 3) * 64 + 1 * h.val = h.val; omega

/-- The value block at point t: the same keys of the third array. -/
theorem blk2_read (A : S8x2048x64.Idx → Elt F .bf16) (t : Fin (cfgL (F := F)).N) (c : Fin 512) (h : Fin 64) :
    (((cfgL (F := F)).win 2).blk t).view.read (Elt F) A (ix3 0 c h)
      = A (ix3 (⟨t.val / 6, batch_lt8 t⟩ : Fin 8) (Flash.kcol (kiOf (t.val % 6)) (kiOf_lt _) c) h) := by
  have e0 : ((cfgL (F := F)).win 2).index t (0 : Fin 3) = t.val / 6 := congrFun (index2 t) (0 : Fin 3)
  have e1 : ((cfgL (F := F)).win 2).index t (1 : Fin 3) = kiOf (t.val % 6) := congrFun (index2 t) (1 : Fin 3)
  have e2 : ((cfgL (F := F)).win 2).index t (2 : Fin 3) = 0 := congrFun (index2 t) (2 : Fin 3)
  show A ((((cfgL (F := F)).win 2).blk t).view.emb (ix3 0 c h)) = _
  refine congrArg A (funext fun a => Fin.ext ?_)
  match a with
  | ⟨0, _⟩ => show ((cfgL (F := F)).win 2).index t (0 : Fin 3) * 1 + 1 * 0 = t.val / 6; omega
  | ⟨1, _⟩ => show ((cfgL (F := F)).win 2).index t (1 : Fin 3) * 512 + 1 * c.val = 512 * kiOf (t.val % 6) + c.val; omega
  | ⟨2, _⟩ => show ((cfgL (F := F)).win 2).index t (2 : Fin 3) * 64 + 1 * h.val = h.val; omega

/-- Where the output block of point t sits in the result array: entry (0, r, h) of the block is the array's
    entry at batch t / 6, row 1024·(query tile) + r, column h. -/
theorem blk3_emb (t : Fin (cfgL (F := F)).N) (r : Fin 1024) (h : Fin 64) :
    (((cfgL (F := F)).win 3).blk t).view.emb (ix3 0 r h)
      = ix3 (⟨t.val / 6, batch_lt8 t⟩ : Fin 8) (Flash.qrow (qiOf (t.val % 6)) (qiOf_lt _) r) h := by
  have e0 : ((cfgL (F := F)).win 3).index t (0 : Fin 3) = t.val / 6 := congrFun (index3 t) (0 : Fin 3)
  have e1 : ((cfgL (F := F)).win 3).index t (1 : Fin 3) = qiOf (t.val % 6) := congrFun (index3 t) (1 : Fin 3)
  have e2 : ((cfgL (F := F)).win 3).index t (2 : Fin 3) = 0 := congrFun (index3 t) (2 : Fin 3)
  refine funext fun a => Fin.ext ?_
  match a with
  | ⟨0, _⟩ => show ((cfgL (F := F)).win 3).index t (0 : Fin 3) * 1 + 1 * 0 = t.val / 6; omega
  | ⟨1, _⟩ => show ((cfgL (F := F)).win 3).index t (1 : Fin 3) * 1024 + 1 * r.val = 1024 * qiOf (t.val % 6) + r.val; omega
  | ⟨2, _⟩ => show ((cfgL (F := F)).win 3).index t (2 : Fin 3) * 64 + 1 * h.val = h.val; omega

/-! ## The same, for the blocks of the region's entry contents -/

section Entry

variable (V : (c : Dev nD) → (b : Ref sig .tc) → Buf (Elt F) ((c : Thread nD τ).loc b))

/-- The query block at point t of the entry contents: rows 1024·(query tile) + r of batch t / 6 of the first
    projected array. -/
theorem iblk1_0_apply (c : Dev nD) (t : Fin (cfgL (F := F)).N) (r : Fin 1024) (h : Fin 64) :
    iblk1 V c 0 t (ix3 0 r h)
      = V c main_v0_0 (ix3 (⟨t.val / 6, batch_lt8 t⟩ : Fin 8) (Flash.qrow (qiOf (t.val % 6)) (qiOf_lt _) r) h) :=
  blk0_read (V c main_v0_0) t r h

/-- The key block at point t of the entry contents: keys 512·(key tile) + c of batch t / 6 of the second
    projected array. -/
theorem iblk1_1_apply (c : Dev nD) (t : Fin (cfgL (F := F)).N) (cc : Fin 512) (h : Fin 64) :
    iblk1 V c 1 t (ix3 0 cc h)
      = V c main_v0_1 (ix3 (⟨t.val / 6, batch_lt8 t⟩ : Fin 8) (Flash.kcol (kiOf (t.val % 6)) (kiOf_lt _) cc) h) :=
  blk1_read (V c main_v0_1) t cc h

/-- The value block at point t of the entry contents: the same keys of the third projected array. -/
theorem iblk1_2_apply (c : Dev nD) (t : Fin (cfgL (F := F)).N) (cc : Fin 512) (h : Fin 64) :
    iblk1 V c 2 t (ix3 0 cc h)
      = V c main_v0_2 (ix3 (⟨t.val / 6, batch_lt8 t⟩ : Fin 8) (Flash.kcol (kiOf (t.val % 6)) (kiOf_lt _) cc) h) :=
  blk2_read (V c main_v0_2) t cc h

end Entry

/-- The four windows' arrays are the three projected arrays and the result array. -/
theorem arrRef_0 : Pipeline.arrRef spec1 0 = main_v0_0 := rfl
theorem arrRef_1 : Pipeline.arrRef spec1 1 = main_v0_1 := rfl
theorem arrRef_2 : Pipeline.arrRef spec1 2 = main_v0_2 := rfl
theorem arrRef_3 : Pipeline.arrRef spec1 3 = main_v1 := rfl

end Cert.KernelIdeal.Val1

end
-- ==== Proof.Region1Value.lean ====
/-
  The attention region, its value: what the three running buffers hold after every grid point, and what the
  output block holds after the last key tile of a query tile.

  Fix the three arrays Q, K, V the region reads (real numbers throughout). Grid point t works on batch t / 6,
  query tile qi and key tile ki of the pair t % 6. For row r of the query tile write s for the row's masked
  scores against all 2048 keys and v_h for column h of the values. The INVARIANT, proved by induction on the
  point: after point t the maximum's, the denominator's and the numerator's buffers hold at row r
      M((ki + 1) · 512),   L((ki + 1) · 512),   A_h((ki + 1) · 512),
  the streaming softmax's three quantities of the prefix of the first (ki + 1) · 512 keys. At a first key tile
  (ki = 0) the buffers are reset to the quantities of the empty prefix and one streaming step is taken; at any
  other tile the point before is the previous key tile of the same query tile of the same batch, and one
  streaming step is taken from what it left. At a last key tile the prefix reaches the end of the query tile, so
  every later key is masked for every row of the tile, and the stored quotient A_h / L is the specification's
  attention entry.
-/
import proofs.«175071_j38998303048530_2_alg».proof.Proof.Region1Frame
import proofs.«175071_j38998303048530_2_alg».proof.Proof.Region1Pieces
import proofs.«175071_j38998303048530_2_alg».proof.Proof.Region1Blocks

set_option maxRecDepth 16384

noncomputable section

namespace Cert.KernelIdeal.Val1

open Cert.KernelIdeal Cert.KernelIdeal.Gen Cert.KernelIdeal.Fr1 Cert.KernelIdeal.Pay Cert.KernelIdeal.Flash
open Idealize.ShloMosaic Idealize.ShloMosaic.TcCoe Idealize.ShloMosaic.ValueIdx Idealize.SL.Sem
open Idealize.ShloMosaic.Pipeline (Dat)
open Cert.OnlineSoftmax Cert.Bridge

-- what the core's buffers hold when the region starts
variable (V : (c : Dev nD) → (b : Ref sig .tc) → Buf (Elt Ideal) ((c : Thread nD τ).loc b))

/-- The three arrays the region reads: queries, keys, values. -/
abbrev Qa (c : Dev nD) : Spec.SO.Idx → EReal := V c main_v0_0
abbrev Ka (c : Dev nD) : Spec.SO.Idx → EReal := V c main_v0_1
abbrev Va (c : Dev nD) : Spec.SO.Idx → EReal := V c main_v0_2

/-! ## What each kind of point leaves, as the body's arithmetic on the point's blocks and words -/

/-- A first point's maximum. -/
theorem leftA_max (c : Dev nD) (t : Fin (cfgL (F := Ideal)).N) (hf : isFirst t.val) (hl : ¬isLast t.val) :
    (leftA V c t hf hl).2.1 = k1_pay3 (k1_pay10 (BitVec.ofNat 32 (qiOf (t.val % 6))) (BitVec.ofNat 32 (kiOf (t.val % 6))) (iblk1 V c 0 t) (iblk1 V c 1 t) (k1_pay5 (F := Ideal))) := by
  unfold leftA
  dsimp only
  refine (pieceA_max (F := Ideal) c (grid1.coords t) (stQ t) (hstQ t) (stK t) (hstK t) (stV t) (hstV t) (stO t) (hstO t) scMax (Memref.isWhole_whole _) scDen (Memref.isWhole_whole _) scNum (Memref.isWhole_whole _) (tbl 0) (tbl 1) (tbl 2) ((hfirst c t).mpr hf) (fun h => hl ((hlast c t).mp h)) (iblk1 V c 0 t) (iblk1 V c 1 t) (iblk1 V c 2 t) scMax.view).trans ?_
  rw [word_q c t, word_k c t]

/-- A first point's denominator. -/
theorem leftA_den (c : Dev nD) (t : Fin (cfgL (F := Ideal)).N) (hf : isFirst t.val) (hl : ¬isLast t.val) :
    (leftA V c t hf hl).2.2.1 = k1_pay1 (k1_pay11 (BitVec.ofNat 32 (qiOf (t.val % 6))) (BitVec.ofNat 32 (kiOf (t.val % 6))) (iblk1 V c 0 t) (iblk1 V c 1 t) (k1_pay5 (F := Ideal))) (k1_pay12 (BitVec.ofNat 32 (qiOf (t.val % 6))) (BitVec.ofNat 32 (kiOf (t.val % 6))) (iblk1 V c 0 t) (iblk1 V c 1 t) (k1_pay5 (F := Ideal))) (k1_pay6 (F := Ideal)) := by
  unfold leftA
  dsimp only
  refine (pieceA_den (F := Ideal) c (grid1.coords t) (stQ t) (hstQ t) (stK t) (hstK t) (stV t) (hstV t) (stO t) (hstO t) scMax (Memref.isWhole_whole _) scDen (Memref.isWhole_whole _) scNum (Memref.isWhole_whole _) (tbl 0) (tbl 1) (tbl 2) ((hfirst c t).mpr hf) (fun h => hl ((hlast c t).mp h)) (iblk1 V c 0 t) (iblk1 V c 1 t) (iblk1 V c 2 t) scDen.view).trans ?_
  rw [word_q c t, word_k c t]

/-- A first point's numerator. -/
theorem leftA_num (c : Dev nD) (t : Fin (cfgL (F := Ideal)).N) (hf : isFirst t.val) (hl : ¬isLast t.val) :
    (leftA V c t hf hl).2.2.2 = k1_pay2 (k1_pay8 (iblk1 V c 2 t)) (k1_pay11 (BitVec.ofNat 32 (qiOf (t.val % 6))) (BitVec.ofNat 32 (kiOf (t.val % 6))) (iblk1 V c 0 t) (iblk1 V c 1 t) (k1_pay5 (F := Ideal))) (k1_pay12 (BitVec.ofNat 32 (qiOf (t.val % 6))) (BitVec.ofNat 32 (kiOf (t.val % 6))) (iblk1 V c 0 t) (iblk1 V c 1 t) (k1_pay5 (F := Ideal))) (k1_pay7 (F := Ideal)) := by
  unfold leftA
  dsimp only
  refine (pieceA_num (F := Ideal) c (grid1.coords t) (stQ t) (hstQ t) (stK t) (hstK t) (stV t) (hstV t) (stO t) (hstO t) scMax (Memref.isWhole_whole _) scDen (Memref.isWhole_whole _) scNum (Memref.isWhole_whole _) (tbl 0) (tbl 1) (tbl 2) ((hfirst c t).mpr hf) (fun h => hl ((hlast c t).mp h)) (iblk1 V c 0 t) (iblk1 V c 1 t) (iblk1 V c 2 t) scNum.view).trans ?_
  rw [word_q c t, word_k c t]

/-- A middle point's maximum. -/
theorem leftB_max (c : Dev nD) (t : Fin (cfgL (F := Ideal)).N) (hf : ¬isFirst t.val) (hl : ¬isLast t.val) (p : St Ideal) :
    (leftB V c t hf hl p).2.1 = k1_pay3 (k1_pay10 (BitVec.ofNat 32 (qiOf (t.val % 6))) (BitVec.ofNat 32 (kiOf (t.val % 6))) (iblk1 V c 0 t) (iblk1 V c 1 t) p.2.1) := by
  unfold leftB
  dsimp only
  refine (pieceB_max (F := Ideal) c (grid1.coords t) (stQ t) (hstQ t) (stK t) (hstK t) (stV t) (hstV t) (stO t) (hstO t) scMax (Memref.isWhole_whole _) scDen (Memref.isWhole_whole _) scNum (Memref.isWhole_whole _) (tbl 0) (tbl 1) (tbl 2) (fun h => hf ((hfirst c t).mp h)) (fun h => hl ((hlast c t).mp h)) (iblk1 V c 0 t) (iblk1 V c 1 t) (iblk1 V c 2 t) p.2.1 p.2.2.1 p.2.2.2 scMax.view).trans ?_
  rw [word_q c t, word_k c t]

/-- A middle point's denominator. -/
theorem leftB_den (c : Dev nD) (t : Fin (cfgL (F := Ideal)).N) (hf : ¬isFirst t.val) (hl : ¬isLast t.val) (p : St Ideal) :
    (leftB V c t hf hl p).2.2.1 = k1_pay1 (k1_pay11 (BitVec.ofNat 32 (qiOf (t.val % 6))) (BitVec.ofNat 32 (kiOf (t.val % 6))) (iblk1 V c 0 t) (iblk1 V c 1 t) p.2.1) (k1_pay12 (BitVec.ofNat 32 (qiOf (t.val % 6))) (BitVec.ofNat 32 (kiOf (t.val % 6))) (iblk1 V c 0 t) (iblk1 V c 1 t) p.2.1) p.2.2.1 := by
  unfold leftB
  dsimp only
  refine (pieceB_den (F := Ideal) c (grid1.coords t) (stQ t) (hstQ t) (stK t) (hstK t) (stV t) (hstV t) (stO t) (hstO t) scMax (Memref.isWhole_whole _) scDen (Memref.isWhole_whole _) scNum (Memref.isWhole_whole _) (tbl 0) (tbl 1) (tbl 2) (fun h => hf ((hfirst c t).mp h)) (fun h => hl ((hlast c t).mp h)) (iblk1 V c 0 t) (iblk1 V c 1 t) (iblk1 V c 2 t) p.2.1 p.2.2.1 p.2.2.2 scDen.view).trans ?_
  rw [word_q c t, word_k c t]

/-- A middle point's numerator. -/
theorem leftB_num (c : Dev nD) (t : Fin (cfgL (F := Ideal)).N) (hf : ¬isFirst t.val) (hl : ¬isLast t.val) (p : St Ideal) :
    (leftB V c t hf hl p).2.2.2 = k1_pay2 (k1_pay8 (iblk1 V c 2 t)) (k1_pay11 (BitVec.ofNat 32 (qiOf (t.val % 6))) (BitVec.ofNat 32 (kiOf (t.val % 6))) (iblk1 V c 0 t) (iblk1 V c 1 t) p.2.1) (k1_pay12 (BitVec.ofNat 32 (qiOf (t.val % 6))) (BitVec.ofNat 32 (kiOf (t.val % 6))) (iblk1 V c 0 t) (iblk1 V c 1 t) p.2.1) p.2.2.2 := by
  unfold leftB
  dsimp only
  refine (pieceB_num (F := Ideal) c (grid1.coords t) (stQ t) (hstQ t) (stK t) (hstK t) (stV t) (hstV t) (stO t) (hstO t) scMax (Memref.isWhole_whole _) scDen (Memref.isWhole_whole _) scNum (Memref.isWhole_whole _) (tbl 0) (tbl 1) (tbl 2) (fun h => hf ((hfirst c t).mp h)) (fun h => hl ((hlast c t).mp h)) (iblk1 V c 0 t) (iblk1 V c 1 t) (iblk1 V c 2 t) p.2.1 p.2.2.1 p.2.2.2 scNum.view).trans ?_
  rw [word_q c t, word_k c t]

/-- A last point's output block. -/
theorem leftC_out (c : Dev nD) (t : Fin (cfgL (F := Ideal)).N) (hf : ¬isFirst t.val) (hl : isLast t.val) (p : St Ideal) :
    (leftC V c t hf hl p).1 = k1_pay4 (k1_pay2 (k1_pay8 (iblk1 V c 2 t)) (k1_pay11 (BitVec.ofNat 32 (qiOf (t.val % 6))) (BitVec.ofNat 32 (kiOf (t.val % 6))) (iblk1 V c 0 t) (iblk1 V c 1 t) p.2.1) (k1_pay12 (BitVec.ofNat 32 (qiOf (t.val % 6))) (BitVec.ofNat 32 (kiOf (t.val % 6))) (iblk1 V c 0 t) (iblk1 V c 1 t) p.2.1) p.2.2.2) (k1_pay1 (k1_pay11 (BitVec.ofNat 32 (qiOf (t.val % 6))) (BitVec.ofNat 32 (kiOf (t.val % 6))) (iblk1 V c 0 t) (iblk1 V c 1 t) p.2.1) (k1_pay12 (BitVec.ofNat 32 (qiOf (t.val % 6))) (BitVec.ofNat 32 (kiOf (t.val % 6))) (iblk1 V c 0 t) (iblk1 V c 1 t) p.2.1) p.2.2.1) := by
  unfold leftC
  dsimp only
  refine (pieceC_out (F := Ideal) c (grid1.coords t) (stQ t) (hstQ t) (stK t) (hstK t) (stV t) (hstV t) (stO t) (hstO t) scMax (Memref.isWhole_whole _) scDen (Memref.isWhole_whole _) scNum (Memref.isWhole_whole _) (tbl 0) (tbl 1) (tbl 2) (fun h => hf ((hfirst c t).mp h)) ((hlast c t).mpr hl) (iblk1 V c 0 t) (iblk1 V c 1 t) (iblk1 V c 2 t) p.2.1 p.2.2.1 p.2.2.2 viewO).trans ?_
  rw [word_q c t, word_k c t]

/-- A last point's maximum. -/
theorem leftC_max (c : Dev nD) (t : Fin (cfgL (F := Ideal)).N) (hf : ¬isFirst t.val) (hl : isLast t.val) (p : St Ideal) :
    (leftC V c t hf hl p).2.1 = k1_pay3 (k1_pay10 (BitVec.ofNat 32 (qiOf (t.val % 6))) (BitVec.ofNat 32 (kiOf (t.val % 6))) (iblk1 V c 0 t) (iblk1 V c 1 t) p.2.1) := by
  unfold leftC
  dsimp only
  refine (pieceC_max (F := Ideal) c (grid1.coords t) (stQ t) (hstQ t) (stK t) (hstK t) (stV t) (hstV t) (stO t) (hstO t) scMax (Memref.isWhole_whole _) scDen (Memref.isWhole_whole _) scNum (Memref.isWhole_whole _) (tbl 0) (tbl 1) (tbl 2) (fun h => hf ((hfirst c t).mp h)) ((hlast c t).mpr hl) (iblk1 V c 0 t) (iblk1 V c 1 t) (iblk1 V c 2 t) p.2.1 p.2.2.1 p.2.2.2 scMax.view).trans ?_
  rw [word_q c t, word_k c t]

/-- A last point's denominator. -/
theorem leftC_den (c : Dev nD) (t : Fin (cfgL (F := Ideal)).N) (hf : ¬isFirst t.val) (hl : isLast t.val) (p : St Ideal) :
    (leftC V c t hf hl p).2.2.1 = k1_pay1 (k1_pay11 (BitVec.ofNat 32 (qiOf (t.val % 6))) (BitVec.ofNat 32 (kiOf (t.val % 6))) (iblk1 V c 0 t) (iblk1 V c 1 t) p.2.1) (k1_pay12 (BitVec.ofNat 32 (qiOf (t.val % 6))) (BitVec.ofNat 32 (kiOf (t.val % 6))) (iblk1 V c 0 t) (iblk1 V c 1 t) p.2.1) p.2.2.1 := by
  unfold leftC
  dsimp only
  refine (pieceC_den (F := Ideal) c (grid1.coords t) (stQ t) (hstQ t) (stK t) (hstK t) (stV t) (hstV t) (stO t) (hstO t) scMax (Memref.isWhole_whole _) scDen (Memref.isWhole_whole _) scNum (Memref.isWhole_whole _) (tbl 0) (tbl 1) (tbl 2) (fun h => hf ((hfirst c t).mp h)) ((hlast c t).mpr hl) (iblk1 V c 0 t) (iblk1 V c 1 t) (iblk1 V c 2 t) p.2.1 p.2.2.1 p.2.2.2 scDen.view).trans ?_
  rw [word_q c t, word_k c t]

/-- A last point's numerator. -/
theorem leftC_num (c : Dev nD) (t : Fin (cfgL (F := Ideal)).N) (hf : ¬isFirst t.val) (hl : isLast t.val) (p : St Ideal) :
    (leftC V c t hf hl p).2.2.2 = k1_pay2 (k1_pay8 (iblk1 V c 2 t)) (k1_pay11 (BitVec.ofNat 32 (qiOf (t.val % 6))) (BitVec.ofNat 32 (kiOf (t.val % 6))) (iblk1 V c 0 t) (iblk1 V c 1 t) p.2.1) (k1_pay12 (BitVec.ofNat 32 (qiOf (t.val % 6))) (BitVec.ofNat 32 (kiOf (t.val % 6))) (iblk1 V c 0 t) (iblk1 V c 1 t) p.2.1) p.2.2.2 := by
  unfold leftC
  dsimp only
  refine (pieceC_num (F := Ideal) c (grid1.coords t) (stQ t) (hstQ t) (stK t) (hstK t) (stV t) (hstV t) (stO t) (hstO t) scMax (Memref.isWhole_whole _) scDen (Memref.isWhole_whole _) scNum (Memref.isWhole_whole _) (tbl 0) (tbl 1) (tbl 2) (fun h => hf ((hfirst c t).mp h)) ((hlast c t).mpr hl) (iblk1 V c 0 t) (iblk1 V c 1 t) (iblk1 V c 2 t) p.2.1 p.2.2.1 p.2.2.2 scNum.view).trans ?_
  rw [word_q c t, word_k c t]

/-! ## The invariant of a row -/

/-- The three running buffers hold, at every row r of query tile qi of batch b, the streaming softmax's maximum,
    denominator and numerators of the prefix of the first len keys. -/
def RowInv (c : Dev nD) (b : Fin 8) (qi : ℕ) (hq : qi < 2) (len : ℕ) (p : St Ideal) : Prop :=
  ∀ r : Fin 1024,
    p.2.1 (ix2 r 0) = Mx (rowS (Qa V c) (Ka V c) b (qrow qi hq r)) len
    ∧ p.2.2.1 (ix2 r 0) = Ln (rowS (Qa V c) (Ka V c) b (qrow qi hq r)) len
    ∧ ∀ h : Fin 64, p.2.2.2 (ix2 r h) = An (rowS (Qa V c) (Ka V c) b (qrow qi hq r)) (colV (Va V c) b h) len

/-- The invariant only depends on the batch, the query tile and the prefix length as numbers. -/
theorem RowInv.congr {c : Dev nD} {b b' : Fin 8} {qi qi' : ℕ} {hq : qi < 2} {hq' : qi' < 2} {len len' : ℕ}
    {p : St Ideal} (hb : b.val = b'.val) (hqi : qi = qi') (hlen : len = len')
    (h : RowInv V c b qi hq len p) : RowInv V c b' qi' hq' len' p := by
  obtain rfl : b = b' := Fin.ext hb
  subst hqi hlen
  exact h

/-- A FIRST point: the buffers are reset to the empty prefix's quantities and one streaming step over key tile 0
    is taken. -/
theorem rowA (c : Dev nD) (t : Fin (cfgL (F := Ideal)).N) (hf : isFirst t.val) (hl : ¬isLast t.val) (hQ : IsReal (Qa V c)) (hK : IsReal (Ka V c)) (hV : IsReal (Va V c)) :
    RowInv V c (⟨t.val / 6, batch_lt8 t⟩ : Fin 8) (qiOf (t.val % 6)) (qiOf_lt _) ((kiOf (t.val % 6) + 1) * 512) (leftA V c t hf hl) := by
  intro r
  have hk0 : kiOf (t.val % 6) = 0 := (kiOf_first ⟨t.val % 6, Nat.mod_lt _ (by norm_num)⟩).mp hf
  rw [leftA_max V c t hf hl, leftA_den V c t hf hl, leftA_num V c t hf hl]
  exact step_row (Qa V c) (Ka V c) (Va V c) hQ hK hV (⟨t.val / 6, batch_lt8 t⟩ : Fin 8) (qiOf (t.val % 6)) (kiOf (t.val % 6)) (qiOf_lt _) (kiOf_lt _)
    (iblk1 V c 0 t) (iblk1 V c 1 t) (iblk1 V c 2 t) (iblk1_0_apply V c t) (iblk1_1_apply V c t) (iblk1_2_apply V c t)
    (k1_pay5 (F := Ideal)) (k1_pay6 (F := Ideal)) (k1_pay7 (F := Ideal)) r
    (by rw [hk0, Nat.zero_mul]; exact reset_max _ r)
    (by rw [hk0, Nat.zero_mul]; exact reset_denom _ r)
    (fun h => by rw [hk0, Nat.zero_mul]; exact reset_numer _ _ r h)

/-- A MIDDLE point: one streaming step over the point's key tile, from what the buffers held. -/
theorem rowB (c : Dev nD) (t : Fin (cfgL (F := Ideal)).N) (hf : ¬isFirst t.val) (hl : ¬isLast t.val) (p : St Ideal) (hQ : IsReal (Qa V c)) (hK : IsReal (Ka V c)) (hV : IsReal (Va V c))
    (hp : RowInv V c (⟨t.val / 6, batch_lt8 t⟩ : Fin 8) (qiOf (t.val % 6)) (qiOf_lt _) (kiOf (t.val % 6) * 512) p) :
    RowInv V c (⟨t.val / 6, batch_lt8 t⟩ : Fin 8) (qiOf (t.val % 6)) (qiOf_lt _) ((kiOf (t.val % 6) + 1) * 512) (leftB V c t hf hl p) := by
  intro r
  rw [leftB_max V c t hf hl p, leftB_den V c t hf hl p, leftB_num V c t hf hl p]
  exact step_row (Qa V c) (Ka V c) (Va V c) hQ hK hV (⟨t.val / 6, batch_lt8 t⟩ : Fin 8) (qiOf (t.val % 6)) (kiOf (t.val % 6)) (qiOf_lt _) (kiOf_lt _)
    (iblk1 V c 0 t) (iblk1 V c 1 t) (iblk1 V c 2 t) (iblk1_0_apply V c t) (iblk1_1_apply V c t) (iblk1_2_apply V c t)
    p.2.1 p.2.2.1 p.2.2.2 r (hp r).1 (hp r).2.1 (hp r).2.2

/-- A LAST point, the running buffers: the same streaming step. -/
theorem rowC (c : Dev nD) (t : Fin (cfgL (F := Ideal)).N) (hf : ¬isFirst t.val) (hl : isLast t.val) (p : St Ideal) (hQ : IsReal (Qa V c)) (hK : IsReal (Ka V c)) (hV : IsReal (Va V c))
    (hp : RowInv V c (⟨t.val / 6, batch_lt8 t⟩ : Fin 8) (qiOf (t.val % 6)) (qiOf_lt _) (kiOf (t.val % 6) * 512) p) :
    RowInv V c (⟨t.val / 6, batch_lt8 t⟩ : Fin 8) (qiOf (t.val % 6)) (qiOf_lt _) ((kiOf (t.val % 6) + 1) * 512) (leftC V c t hf hl p) := by
  intro r
  rw [leftC_max V c t hf hl p, leftC_den V c t hf hl p, leftC_num V c t hf hl p]
  exact step_row (Qa V c) (Ka V c) (Va V c) hQ hK hV (⟨t.val / 6, batch_lt8 t⟩ : Fin 8) (qiOf (t.val % 6)) (kiOf (t.val % 6)) (qiOf_lt _) (kiOf_lt _)
    (iblk1 V c 0 t) (iblk1 V c 1 t) (iblk1 V c 2 t) (iblk1_0_apply V c t) (iblk1_1_apply V c t) (iblk1_2_apply V c t)
    p.2.1 p.2.2.1 p.2.2.2 r (hp r).1 (hp r).2.1 (hp r).2.2

/-- A LAST point, the output block: the key tile ends where the query tile ends, so the stored quotient of the
    updated numerator by the updated denominator is the specification's attention entry. -/
theorem outC (c : Dev nD) (t : Fin (cfgL (F := Ideal)).N) (hf : ¬isFirst t.val) (hl : isLast t.val) (p : St Ideal) (hQ : IsReal (Qa V c)) (hK : IsReal (Ka V c)) (hV : IsReal (Va V c))
    (hp : RowInv V c (⟨t.val / 6, batch_lt8 t⟩ : Fin 8) (qiOf (t.val % 6)) (qiOf_lt _) (kiOf (t.val % 6) * 512) p)
    (r : Fin 1024) (h : Fin 64) :
    (leftC V c t hf hl p).1 (ix3 (0 : Fin 1) r h)
      = Spec.attn (Qa V c) (Ka V c) (Va V c) (ix3 (⟨t.val / 6, batch_lt8 t⟩ : Fin 8) (qrow (qiOf (t.val % 6)) (qiOf_lt _) r) h) := by
  have hs := step_row (Qa V c) (Ka V c) (Va V c) hQ hK hV (⟨t.val / 6, batch_lt8 t⟩ : Fin 8) (qiOf (t.val % 6)) (kiOf (t.val % 6)) (qiOf_lt _) (kiOf_lt _)
    (iblk1 V c 0 t) (iblk1 V c 1 t) (iblk1 V c 2 t) (iblk1_0_apply V c t) (iblk1_1_apply V c t) (iblk1_2_apply V c t)
    p.2.1 p.2.2.1 p.2.2.2 r (hp r).1 (hp r).2.1 (hp r).2.2
  have hend : 1024 * (qiOf (t.val % 6) + 1) ≤ 512 * (kiOf (t.val % 6) + 1) :=
    le_of_eq (causal_last ⟨t.val % 6, Nat.mod_lt _ (by norm_num)⟩ hl).symm
  rw [leftC_out V c t hf hl p]
  exact quotient_row (Qa V c) (Ka V c) (Va V c) hQ hK hV (⟨t.val / 6, batch_lt8 t⟩ : Fin 8) (qiOf (t.val % 6)) (kiOf (t.val % 6)) (qiOf_lt _) (kiOf_lt _) hend
    (k1_pay2 (k1_pay8 (iblk1 V c 2 t)) (k1_pay11 (BitVec.ofNat 32 (qiOf (t.val % 6))) (BitVec.ofNat 32 (kiOf (t.val % 6))) (iblk1 V c 0 t) (iblk1 V c 1 t) p.2.1) (k1_pay12 (BitVec.ofNat 32 (qiOf (t.val % 6))) (BitVec.ofNat 32 (kiOf (t.val % 6))) (iblk1 V c 0 t) (iblk1 V c 1 t) p.2.1) p.2.2.2)
    (k1_pay1 (k1_pay11 (BitVec.ofNat 32 (qiOf (t.val % 6))) (BitVec.ofNat 32 (kiOf (t.val % 6))) (iblk1 V c 0 t) (iblk1 V c 1 t) p.2.1) (k1_pay12 (BitVec.ofNat 32 (qiOf (t.val % 6))) (BitVec.ofNat 32 (kiOf (t.val % 6))) (iblk1 V c 0 t) (iblk1 V c 1 t) p.2.1) p.2.2.1) r h hs.2.1 (hs.2.2 h)

/-! ## From a point to the next -/

/-- A pair that is not the first of its query tile continues the pair before it: the same query tile, the next
    key tile. -/
theorem pair_step : ∀ p : Fin 6, ¬((p.val + 1) % 6 = 0 ∨ (p.val + 1) % 6 = 2) →
    qiOf ((p.val + 1) % 6) = qiOf p.val ∧ kiOf ((p.val + 1) % 6) = kiOf p.val + 1 := by decide

/-- What the point before a point that is not first left is what the point needs: same batch, same query tile,
    and the prefix ends where the point's key tile begins. -/
theorem RowInv.next {c : Dev nD} {n : ℕ} (hn1 : n + 1 < (cfgL (F := Ideal)).N) (hf : ¬isFirst (n + 1)) {p : St Ideal}
    (h : RowInv V c (⟨n / 6, batch_lt8 ⟨n, Nat.lt_of_succ_lt hn1⟩⟩ : Fin 8) (qiOf (n % 6)) (qiOf_lt _) ((kiOf (n % 6) + 1) * 512) p) :
    RowInv V c (⟨(n + 1) / 6, batch_lt8 ⟨n + 1, hn1⟩⟩ : Fin 8) (qiOf ((n + 1) % 6)) (qiOf_lt _) (kiOf ((n + 1) % 6) * 512) p := by
  have e : (n + 1) % 6 = (n % 6 + 1) % 6 := by omega
  have hf' : ¬((n % 6 + 1) % 6 = 0 ∨ (n % 6 + 1) % 6 = 2) := by rw [← e]; exact hf
  obtain ⟨h1, h2⟩ := pair_step ⟨n % 6, Nat.mod_lt _ (by norm_num)⟩ hf'
  have hb : n / 6 = (n + 1) / 6 := by unfold isFirst at hf; omega
  exact RowInv.congr V hb (by rw [e]; exact h1.symm) (by rw [e, h2]) h

/-! ## The invariant at every point -/

/-- THE INVARIANT: after point n the running buffers hold the streaming softmax's quantities of the prefix that
    ends with the point's key tile — by induction on the point. -/
theorem inv_all (c : Dev nD) (hQ : IsReal (Qa V c)) (hK : IsReal (Ka V c)) (hV : IsReal (Va V c)) :
    ∀ (n : ℕ) (hn : n < (cfgL (F := Ideal)).N),
      RowInv V c (⟨n / 6, batch_lt8 ⟨n, hn⟩⟩ : Fin 8) (qiOf (n % 6)) (qiOf_lt _) ((kiOf (n % 6) + 1) * 512) (stateAt V c n hn)
  | 0, hn => by
    have hf : isFirst (⟨0, hn⟩ : Fin (cfgL (F := Ideal)).N).val := Or.inl (Nat.zero_mod _)
    rw [show stateAt V c 0 hn = leftA V c ⟨0, hn⟩ hf (first_not_last hf) from stateAt_first V c ⟨0, hn⟩ hf]
    exact rowA V c ⟨0, hn⟩ hf (first_not_last hf) hQ hK hV
  | n + 1, hn => by
    by_cases hf : isFirst (n + 1)
    · rw [show stateAt V c (n + 1) hn = leftA V c ⟨n + 1, hn⟩ hf (first_not_last hf) from stateAt_first V c ⟨n + 1, hn⟩ hf]
      exact rowA V c ⟨n + 1, hn⟩ hf (first_not_last hf) hQ hK hV
    · have IH := RowInv.next V hn hf (inv_all c hQ hK hV n (Nat.lt_of_succ_lt hn))
      by_cases hl : isLast (n + 1)
      · rw [show stateAt V c (n + 1) hn = leftC V c ⟨n + 1, hn⟩ hf hl (stateAt V c n (Nat.lt_of_succ_lt hn)) from stateAt_last V c ⟨n + 1, hn⟩ hf hl]
        exact rowC V c ⟨n + 1, hn⟩ hf hl (stateAt V c n (Nat.lt_of_succ_lt hn)) hQ hK hV IH
      · rw [show stateAt V c (n + 1) hn = leftB V c ⟨n + 1, hn⟩ hf hl (stateAt V c n (Nat.lt_of_succ_lt hn)) from stateAt_middle V c ⟨n + 1, hn⟩ hf hl]
        exact rowB V c ⟨n + 1, hn⟩ hf hl (stateAt V c n (Nat.lt_of_succ_lt hn)) hQ hK hV IH

/-! ## The output block at a last point -/

/-- After the last key tile of a query tile the output block holds the specification's attention entries of the
    tile's rows: entry (0, r, h) is the entry at batch t / 6, row 1024·q + r, column h, where q is the query tile
    (0 at pair 1, 1 at pair 5). -/
theorem out_last (c : Dev nD) (hQ : IsReal (Qa V c)) (hK : IsReal (Ka V c)) (hV : IsReal (Va V c)) (t : Fin (cfgL (F := Ideal)).N) (q : ℕ)
    (hq : (t.val % 6 = 1 ∧ q = 0) ∨ (t.val % 6 = 5 ∧ q = 1))
    (b : Fin 8) (R : Fin 2048) (r : Fin 1024) (h : Fin 64) (hb : b.val = t.val / 6) (hR : R.val = 1024 * q + r.val) :
    (stateAt V c t.val t.isLt).1 (ix3 (0 : Fin 1) r h) = Spec.attn (Qa V c) (Ka V c) (Va V c) (ix3 b R h) := by
  obtain ⟨n, hn⟩ := t
  have hl : isLast n := by rcases hq with ⟨h1, _⟩ | ⟨h1, _⟩ <;> [exact Or.inl h1; exact Or.inr h1]
  have hf : ¬isFirst n := fun hf => first_not_last hf hl
  have hqi : qiOf (n % 6) = q := by
    rcases hq with ⟨h1, h2⟩ | ⟨h1, h2⟩
    · show qiOf (n % 6) = q; rw [h1, h2]; rfl
    · show qiOf (n % 6) = q; rw [h1, h2]; rfl
  cases n with
  | zero => exact absurd (Or.inl (Nat.zero_mod _)) hf
  | succ n =>
    have IH := RowInv.next V hn hf (inv_all V c hQ hK hV n (Nat.lt_of_succ_lt hn))
    have e := outC V c ⟨n + 1, hn⟩ hf hl (stateAt V c n (Nat.lt_of_succ_lt hn)) hQ hK hV IH r h
    rw [show stateAt V c (n + 1) hn = leftC V c ⟨n + 1, hn⟩ hf hl (stateAt V c n (Nat.lt_of_succ_lt hn)) from stateAt_last V c ⟨n + 1, hn⟩ hf hl]
    refine e.trans (congrArg (Spec.attn (Qa V c) (Ka V c) (Va V c)) ?_)
    have eb : (⟨(n + 1) / 6, batch_lt8 ⟨n + 1, hn⟩⟩ : Fin 8) = b := Fin.ext hb.symm
    have eR : qrow (qiOf ((n + 1) % 6)) (qiOf_lt _) r = R := Fin.ext (by show 1024 * qiOf ((n + 1) % 6) + r.val = R.val; rw [hqi, hR])
    rw [eb, eR]

end Cert.KernelIdeal.Val1

end
-- ==== Proof.Region1Cover.lean ====
/- REGION 1, from blocks to the array.

   The attention region writes its output array one block at a time: the block of batch b and query tile q (1024 rows)
   is complete, and is written back, at the last pair of that query tile — grid point 6 b + 1 for q = 0 and 6 b + 5
   for q = 1. These sixteen blocks are disjoint and tile the 8 x 2048 x 64 array. So if at each such point the
   output buffer agrees, entry by entry, with a function G of the array's indices at the block's place, the array
   ends equal to G. Nothing here looks inside the body; only the schedule and the blocks' geometry are used. -/
import proofs.«175071_j38998303048530_2_alg».proof.Proof.Region1Frame
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Fr1
open Idealize.ShloMosaic Idealize.ShloMosaic.TcCoe Idealize.ShloMosaic.ValueIdx Idealize.SL.Sem
open Idealize.ShloMosaic.Pipeline (Dat)

variable {F : FTy → Type} [FloatOps F] [Named F]

/-! ## The output window's block index along the grid -/

/-- At every grid point the output block's index is (batch, query tile of the pair, 0); the batch is `t / 6 < 8`, the
    query tile is 0 at pair 1 and 1 at pair 5. -/
theorem ixQ_facts : ∀ t : Fin grid1.N,
    ixQ (grid1.coords t) 0 = t.val / 6 ∧ ixQ (grid1.coords t) 2 = 0 ∧ t.val / 6 ≤ 7
      ∧ (t.val % 6 = 1 → ixQ (grid1.coords t) 1 = 0) ∧ (t.val % 6 = 5 → ixQ (grid1.coords t) 1 = 1) := by
  decide +kernel

/-- Every (batch, query tile) is the block index at the last pair of that query tile. -/
theorem ixQ_onto : ∀ (b : Fin 8) (q : Fin 2), ∃ t : Fin grid1.N,
    (t.val % 6 = 1 ∨ t.val % 6 = 5) ∧ ixQ (grid1.coords t) 0 = b.val ∧ ixQ (grid1.coords t) 1 = q.val := by
  decide +kernel

/-- the output window's block index at point `t`, in closed form -/
theorem index3_eq (t : Fin (cfgL (F := F)).N) : ((cfgL (F := F)).win 3).index t = ixQ (grid1.coords t) := by
  show cc1_transform_3 Gen.k1_off1_inb Gen.numel1_S1 (tbl (F := F)) (grid1.coords t) = _
  rw [tr3_eq]

/-- An index of the output array lies in point `t`'s block iff on each axis its coordinate lies in the block's range. -/
theorem mem_blk3 (t : Fin (cfgL (F := F)).N) (i : S8x2048x64.Idx) :
    i ∈ (((cfgL (F := F)).win 3).blk t).view.set ↔ ∀ a : Fin 3,
      ixQ (grid1.coords t) a * S1x1024x64.size a ≤ (i a).val
        ∧ (i a).val < ixQ (grid1.coords t) a * S1x1024x64.size a + S1x1024x64.size a := by
  have hs : (((cfgL (F := F)).win 3).blk t).view.set = (((cfgL (F := F)).win 3).rect t).set :=
    View.set_slice_whole main_v1 (((cfgL (F := F)).win 3).rect t)
  have hm : i ∈ (((cfgL (F := F)).win 3).rect t).set ↔ ∀ a : Fin 3,
      ((cfgL (F := F)).win 3).index t a * S1x1024x64.size a ≤ (i a).val
        ∧ (i a).val < ((cfgL (F := F)).win 3).index t a * S1x1024x64.size a + S1x1024x64.size a :=
    Rect.mem_set_unit
  rw [index3_eq] at hm
  exact (Iff.of_eq (congrArg (fun s : Finset S8x2048x64.Idx => i ∈ s) hs)).trans hm

/-- The blocks written back tile the array: rows 0..1023 of batch `b` lie in the block written back at point
    `6 b + 1`, rows 1024..2047 in the one written back at `6 b + 5`. -/
theorem cover3 (i : S8x2048x64.Idx) :
    ∃ t : Fin (cfgL (F := F)).N, ((cfgL (F := F)).win 3).flush t = true ∧ i ∈ (((cfgL (F := F)).win 3).blk t).view.set := by
  have hi0 : (i 0).val < 8 := (i 0).isLt
  have hi1 : (i 1).val < 2048 := (i 1).isLt
  have hi2 : (i 2).val < 64 := (i 2).isLt
  obtain ⟨t, hl, q0, q1⟩ := ixQ_onto ⟨(i 0).val, hi0⟩ ⟨(i 1).val / 1024, by omega⟩
  obtain ⟨e0, e2, hb, -, -⟩ := ixQ_facts t
  refine ⟨t, (flush1_3 (F := F) t).mpr hl, ?_⟩
  rw [mem_blk3]
  intro a
  match a with
  | ⟨0, _⟩ => show ixQ (grid1.coords t) 0 * 1 ≤ (i 0).val ∧ (i 0).val < ixQ (grid1.coords t) 0 * 1 + 1
              simp only at q0; omega
  | ⟨1, _⟩ => show ixQ (grid1.coords t) 1 * 1024 ≤ (i 1).val ∧ (i 1).val < ixQ (grid1.coords t) 1 * 1024 + 1024
              simp only at q1; omega
  | ⟨2, _⟩ => show ixQ (grid1.coords t) 2 * 64 ≤ (i 2).val ∧ (i 2).val < ixQ (grid1.coords t) 2 * 64 + 64
              omega

/-! ## What a write-back writes, and the array at the end -/

/-- Entry (0, r, h) of the output block at point `t` sits at (t / 6, 1024 q + r, h) of the array, `q` the query tile. -/
theorem emb3 (t : Fin (cfgL (F := F)).N) (q : ℕ) (hq : ixQ (grid1.coords t) 1 = q) (b : Fin 8) (R : Fin 2048)
    (r : Fin 1024) (h : Fin 64) (hb : b.val = t.val / 6) (hR : R.val = 1024 * q + r.val) :
    (((cfgL (F := F)).win 3).blk t).view.emb (ix3 (0 : Fin 1) r h) = ix3 b R h := by
  obtain ⟨e0, e2, -, -, -⟩ := ixQ_facts t
  have hix := index3_eq (F := F) t
  funext a; apply Fin.ext
  match a with
  | ⟨0, _⟩ => show ((cfgL (F := F)).win 3).index t (0 : Fin 3) * 1 + 1 * 0 = b.val
              rw [hix]; omega
  | ⟨1, _⟩ => show ((cfgL (F := F)).win 3).index t (1 : Fin 3) * 1024 + 1 * r.val = R.val
              rw [hix]; omega
  | ⟨2, _⟩ => show ((cfgL (F := F)).win 3).index t (2 : Fin 3) * 64 + 1 * h.val = h.val
              rw [hix]; omega

/-- THE ARRAY AT THE END, for any proof data of the region whose output buffer after point `t` is `S t`: if at the
    last pair of each query tile `S t` agrees with `G` at the block's place, the output array ends equal to `G`. -/
theorem final3_of_after {c : Dev nD} (dat : Dat τ (Elt F) Unit ℕ (UR sig nD τ) ℕ (cfgL (F := F)) c)
    (S : Fin (cfgL (F := F)).N → Vec F S1x1024x64 .f32) (hafter : ∀ t, dat.after 3 t = S t)
    (G : S8x2048x64.Idx → Elt F .f32)
    (hpt : ∀ (t : Fin (cfgL (F := F)).N) (q : ℕ), (t.val % 6 = 1 ∧ q = 0) ∨ (t.val % 6 = 5 ∧ q = 1) →
        ∀ (b : Fin 8) (R : Fin 2048) (r : Fin 1024) (h : Fin 64), b.val = t.val / 6 → R.val = 1024 * q + r.val →
          S t (ix3 (0 : Fin 1) r h) = G (ix3 b R h)) :
    dat.arrAt 3 (cfgL (F := F)).N = G := by
  refine dat.arrAt_eq_of_cover 3 G (fun t hf => ?_) (cover3 (F := F))
  have hl := (flush1_3 (F := F) t).mp hf
  obtain ⟨e0, e2, hb7, h1, h5⟩ := ixQ_facts t
  -- the query tile of the point, with its two characterisations
  obtain ⟨q, hq, hcase⟩ : ∃ q : ℕ, ixQ (grid1.coords t) 1 = q ∧ ((t.val % 6 = 1 ∧ q = 0) ∨ (t.val % 6 = 5 ∧ q = 1)) := by
    rcases hl with h | h
    · exact ⟨0, h1 h, Or.inl ⟨h, rfl⟩⟩
    · exact ⟨1, h5 h, Or.inr ⟨h, rfl⟩⟩
  have hq1 : q ≤ 1 := by rcases hcase with ⟨-, rfl⟩ | ⟨-, rfl⟩ <;> omega
  show ((cfgL (F := F)).win 3).cut (grid1.coords t) (dat.after 3 t) = _
  rw [hafter]
  funext j
  show S t j = G ((((cfgL (F := F)).win 3).blk t).view.emb j)
  revert j
  show ∀ j : S1x1024x64.Idx, S t j = G ((((cfgL (F := F)).win 3).blk t).view.emb j)
  intro j
  obtain ⟨z, r, h, rfl⟩ : ∃ (z : Fin 1) (r : Fin 1024) (h : Fin 64), j = ix3 z r h := ⟨j 0, j 1, j 2, eq_ix3 j⟩
  obtain rfl : z = 0 := Subsingleton.elim _ _
  have hr := r.isLt
  rw [emb3 (F := F) t q hq ⟨t.val / 6, by omega⟩ ⟨1024 * q + r.val, by omega⟩ r h rfl rfl]
  exact hpt t q hcase _ _ r h rfl rfl

/-! ## The region's own proof data -/

variable (V : (c : Dev nD) → (b : Ref sig .tc) → Buf (Elt F) ((c : Thread nD τ).loc b))

/-- For the region's proof data, whose output buffer after point `t` is the first component of the accumulated state:
    if at the last pair of each query tile that component agrees with `G` at the block's place, the output array after
    the region is `G`. -/
theorem final1_3_of (c : Dev nD) (G : S8x2048x64.Idx → Elt F .f32)
    (hpt : ∀ (t : Fin (cfgL (F := F)).N) (q : ℕ), (t.val % 6 = 1 ∧ q = 0) ∨ (t.val % 6 = 5 ∧ q = 1) →
        ∀ (b : Fin 8) (R : Fin 2048) (r : Fin 1024) (h : Fin 64), b.val = t.val / 6 → R.val = 1024 * q + r.val →
          (stateAt V c t.val t.isLt).1 (ix3 (0 : Fin 1) r h) = G (ix3 b R h)) :
    (dat1 V c).arrAt 3 (cfgL (F := F)).N = G :=
  final3_of_after (dat1 V c) (fun t => (stateAt V c t.val t.isLt).1) (after1_3 V c) G hpt

end Cert.KernelIdeal.Val1

end
-- ==== Proof.Region1Final.lean ====
/-
  The attention region, its result: after the region the output array holds the specification's attention of the
  three arrays the region reads.

  Two facts meet here. Point by point: after the last key tile of query tile q of batch b the output block holds, at
  row r and column h, the attention entry of batch b, row 1024·q + r, column h — the streaming softmax has by then
  run over every key that is not masked for the tile's rows, and its quotient is the softmax-weighted sum of the
  values. Block by block: the sixteen blocks written back at those points are disjoint and tile the 8 × 2048 × 64
  array. So the array ends equal to the attention function everywhere. The only hypothesis is that the three arrays
  hold real numbers.
-/
import proofs.«175071_j38998303048530_2_alg».proof.Proof.Region1Value
import proofs.«175071_j38998303048530_2_alg».proof.Proof.Region1Cover

set_option maxRecDepth 16384

noncomputable section

namespace Cert.KernelIdeal.Val1

open Cert.KernelIdeal Cert.KernelIdeal.Gen Cert.KernelIdeal.Fr1
open Idealize.ShloMosaic Idealize.ShloMosaic.TcCoe Idealize.ShloMosaic.ValueIdx Idealize.SL.Sem
open Idealize.ShloMosaic.Pipeline (Dat)
open Cert.Bridge

-- what the core's buffers hold when the region starts
variable (V : (c : Dev nD) → (b : Ref sig .tc) → Buf (Elt Ideal) ((c : Thread nD τ).loc b))

/-- After the attention region the output array is the specification's attention of the queries, keys and values
    the region was entered with, provided these hold real numbers only. -/
theorem final1_3 (c : Dev nD) (hQ : IsReal (Qa V c)) (hK : IsReal (Ka V c)) (hV : IsReal (Va V c)) :
    (dat1 (F := Ideal) V c).arrAt 3 (cfgL (F := Ideal)).N = Cert.Spec.attn (Qa V c) (Ka V c) (Va V c) :=
  final1_3_of (F := Ideal) V c (Cert.Spec.attn (Qa V c) (Ka V c) (Va V c))
    (fun t q hq b R r h hb hR => out_last V c hQ hK hV t q hq b R r h hb hR)

end Cert.KernelIdeal.Val1

end
-- ==== Proof.KernelValue.lean ====
/-
  What the kernel's program leaves in its result array, as one function of its four arguments.

  The program writes three small tables, runs the projection region and then the attention region.  Followed through
  these three stretches, the result array ends at what the attention region's write-backs leave; that region finds,
  in the three arrays it reads, what the projection region's write-backs left, which are the projections of the
  first argument by the three weight arguments (nothing before that region writes an argument); and on arrays of
  real numbers the attention region leaves their causal attention.  The inputs are real numbers by the precondition,
  a projection of real arrays is real, and the specification G is by definition the attention of the three
  projections: so the result array is G of the four arguments.
-/
import proofs.«175071_j38998303048530_2_alg».proof.Proof.Assemble
import proofs.«175071_j38998303048530_2_alg».proof.Proof.Region0Value
import proofs.«175071_j38998303048530_2_alg».proof.Proof.Finite
import proofs.«175071_j38998303048530_2_alg».proof.Proof.Bridge
import proofs.«175071_j38998303048530_2_alg».proof.Proof.Region1Final

set_option maxRecDepth 16384

noncomputable section

namespace Cert.KernelIdeal.KVal

open Cert.KernelIdeal Cert.KernelIdeal.Gen
open Idealize.ShloMosaic Idealize.ShloMosaic.TcCoe Idealize.SL.Sem
open Cert.Spec Cert.Bridge

/-- The chain without the program: if the first region leaves the three projections and the second, run on real
    arrays, leaves their attention, the result is the specification's function of the four arguments. -/
theorem value_chain (X : SX.Idx → EReal) (Wq Wk Wv : SW.Idx → EReal)
    (hX : IsReal X) (hq : IsReal Wq) (hk : IsReal Wk) (hv : IsReal Wv)
    (Qa Ka Va out : SO.Idx → EReal)
    (eQ : Qa = proj X Wq) (eK : Ka = proj X Wk) (eV : Va = proj X Wv)
    (eO : IsReal Qa → IsReal Ka → IsReal Va → out = attn Qa Ka Va) :
    out = G X Wq Wk Wv := by
  subst eQ eK eV
  exact eO (proj_real X Wq hX hq) (proj_real X Wk hX hk) (proj_real X Wv hX hv)

variable [Cert.Pre_finite_inputs.Facts]
variable (m : (ℓ : Loc nD τ sig) → Buf (Elt Ideal) ℓ) (ρ : Dev nD → PrngReg)

/-! ## What the second region finds in its three input arrays -/

/-- The first region finds each argument as launched: the three table constants write none of them. -/
theorem V1_arg0 (c : Dev nD) : Asm.V1 m ρ c main_arg0 = m ((c : Thread nD τ).loc main_arg0) := Asm.W1_of m ρ c main_arg0 (by decide)
theorem V1_arg1 (c : Dev nD) : Asm.V1 m ρ c main_arg1 = m ((c : Thread nD τ).loc main_arg1) := Asm.W1_of m ρ c main_arg1 (by decide)
theorem V1_arg2 (c : Dev nD) : Asm.V1 m ρ c main_arg2 = m ((c : Thread nD τ).loc main_arg2) := Asm.W1_of m ρ c main_arg2 (by decide)
theorem V1_arg3 (c : Dev nD) : Asm.V1 m ρ c main_arg3 = m ((c : Thread nD τ).loc main_arg3) := Asm.W1_of m ρ c main_arg3 (by decide)

/-- The first array the second region reads is the projection by the first weight argument. -/
theorem V2_q (c : Dev nD) :
    Asm.V2 m ρ c main_v0_0 = proj (m ((c : Thread nD τ).loc main_arg0)) (m ((c : Thread nD τ).loc main_arg1)) := by
  refine (Asm.W2_arr m ρ c 4).trans ((Val0.final0_4 (Asm.V1 m ρ) c).trans ?_)
  rw [V1_arg0, V1_arg1]

/-- The second is the projection by the second weight argument. -/
theorem V2_k (c : Dev nD) :
    Asm.V2 m ρ c main_v0_1 = proj (m ((c : Thread nD τ).loc main_arg0)) (m ((c : Thread nD τ).loc main_arg2)) := by
  refine (Asm.W2_arr m ρ c 5).trans ((Val0.final0_5 (Asm.V1 m ρ) c).trans ?_)
  rw [V1_arg0, V1_arg2]

/-- The third is the projection by the third weight argument. -/
theorem V2_v (c : Dev nD) :
    Asm.V2 m ρ c main_v0_2 = proj (m ((c : Thread nD τ).loc main_arg0)) (m ((c : Thread nD τ).loc main_arg3)) := by
  refine (Asm.W2_arr m ρ c 6).trans ((Val0.final0_6 (Asm.V1 m ρ) c).trans ?_)
  rw [V1_arg0, V1_arg3]

/-! ## The result array -/

/-- The result array at the end of the program is the specification's function of the four arguments. -/
theorem kernel_value
    (hpre : Cert.Pre_KernelIdeal m) (c : Dev nD) :
    Asm.W3 m ρ c (Proc.devRef .tc main_v1)
      = G (m ((c : Thread nD τ).loc main_arg0)) (m ((c : Thread nD τ).loc main_arg1))
          (m ((c : Thread nD τ).loc main_arg2)) (m ((c : Thread nD τ).loc main_arg3)) := by
  obtain ⟨hX, hq, hk, hv⟩ := Cert.Finite.inputs_real m hpre c
  exact value_chain _ _ _ _ hX hq hk hv
    (Asm.V2 m ρ c main_v0_0) (Asm.V2 m ρ c main_v0_1) (Asm.V2 m ρ c main_v0_2) _
    (V2_q m ρ c) (V2_k m ρ c) (V2_v m ρ c)
    (fun hQ hK hV => (Asm.W3_arr m ρ c 3).trans (Val1.final1_3 (Asm.V2 m ρ) c hQ hK hV))

/-- The kernel's half of the equivalence: the program runs, its result array ends at the specification's function of
    the four arguments, and the arguments end unchanged. -/
theorem kernel_run
    (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v1)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun r h c => ⟨(h c).1.trans (kernel_value m ρ hpre c), (h c).2⟩) (Asm.run m ρ)

end Cert.KernelIdeal.KVal

end
-- ==== Proof.lean ====
/-
  Single-head causal self-attention: a Pallas kernel in two calls against its plain reference, at the extended reals.

  The kernel first projects x : [8, 2048, 1024] through Wq, Wk, Wv : [1024, 64] (one call, a 512-row block of one batch
  per grid point, three matrix products into zero accumulators), then runs flash attention (a second call): for each
  batch and each 1024-row query tile it visits the 512-row key tiles that can hold an allowed key, in order, carrying
  per row a running maximum m, a running denominator l and a running numerator acc,
      m' = max m (max_c s_c),   l' = e^(m - m') l + sum_c e^(s_c - m'),   acc' = e^(m - m') acc + sum_c e^(s_c - m') v_c,
  and after the last key tile stores acc / l. A score is (q . k) / 32 where the key is allowed (key <= row) and the fill
  of the mask elsewhere; the fill is a finite constant the certificate names -inf, the value the reference fills with.
  The reference computes q, k, v the same way, all 2048 x 2048 scores, the row softmax (subtract the row maximum,
  exponentiate, divide by the row sum) and the product with v.

  Why the two agree on finite inputs: q, k, v are then real; key 0 is allowed for every row, so after the first key tile
  the running maximum of every row is real, and then e^(m - m') e^(s - m) = e^(s - m') for a real score and both sides
  are 0 for a masked one: by induction over the key tiles the carried triple is (max, sum of e^(s - max), sum of
  e^(s - max) v) over the keys seen so far; the keys never visited are all masked and add nothing; and dividing the
  numerator by the denominator is the sum of the quotients because the denominator is a positive real.

  The frames of the two kernel programs (they run to the end, fault nowhere, leave the arguments unchanged) are one
  statement, proved once for any float instance and read at the word-level instance and at the extended reals.
-/
import proofs.«175071_j38998303048530_2_alg».proof.Defs
import proofs.«175071_j38998303048530_2_alg».proof.Proof.Gen.Kernel
import proofs.«175071_j38998303048530_2_alg».proof.Proof.Gen.KernelIdeal
import proofs.«175071_j38998303048530_2_alg».proof.Proof.Gen.ReferenceIdeal
import proofs.«175071_j38998303048530_2_alg».proof.Proof.Gen.Pre_finite_inputs
import proofs.«175071_j38998303048530_2_alg».proof.Proof.AssembleBits
import proofs.«175071_j38998303048530_2_alg».proof.Proof.Assemble
import proofs.«175071_j38998303048530_2_alg».proof.Proof.RefIsSpec
import proofs.«175071_j38998303048530_2_alg».proof.Proof.KernelValue
import Idealize.ShloMosaic.Adequacy
import Idealize.ShloMosaic.Init

noncomputable section

namespace Cert.Proof

open Idealize.ShloMosaic Idealize.SL.Sem

/-- The word-level kernel runs to the end and leaves its four arguments as launched. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Asm.run (F := Bits) m ρ)

/-- So does the idealized kernel. -/
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Asm.run (F := Ideal) m ρ)

/-- The reference is a host program: its run, with the result dropped. -/
theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

/-- The one rewrite of the idealization: the mask's finite fill is named, and denotes, -inf. -/
theorem preserves : Cert.preserves_Kernel_KernelIdeal :=
  IdealRules.named_const.statement Cert.KernelIdeal.κ "neg_big" .f32 0xFF333332#32 ⊥ rfl

/-- At the extended reals the kernel's result buffer ends at the attention function of its four arguments (the two calls'
    values, the second read through the online-softmax induction), the reference's at the same function (its run read
    stage by stage), and the two memories agree on the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, Cert.KernelIdeal.KVal.kernel_run m ρ hpre, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.ref_eq_spec, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
